-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v211)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v211) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v331) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S128x64 .f32) (main_arg13 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S128x64 .f32 := Host.absf main_arg12
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg8 : FVec F S128x128 .f32) (main_arg9 : FVec F S128 .f32) (main_arg10 : FVec F S128x64 .f32) (main_arg11 : FVec F S64 .f32) (main_arg12 : FVec F S128x64 .f32) (main_arg13 : FVec F S64 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x64 .f32) (main_arg11 : FVec F S64 .f32) (main_arg12 : FVec F S128x64 .f32) (main_arg13 : FVec F S64 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x256 .f32) (main_arg1 : IVec S2x800000 32) (main_arg2 : FVec F S256x128 .f32) (main_arg3 : FVec F S128 .f32) (main_arg4 : FVec F S256x128 .f32) (main_arg5 : FVec F S128 .f32) (main_arg6 : FVec F S128x128 .f32) (main_arg7 : FVec F S128 .f32) (main_arg8 : FVec F S128x128 .f32) (main_arg9 : FVec F S128 .f32) (main_arg10 : FVec F S128x64 .f32) (main_arg11 : FVec F S64 .f32) (main_arg12 : FVec F S128x64 .f32) (main_arg13 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_arg10 main_arg11 main_arg12 main_arg13 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S50000x128 : Shape := ⟨2, ![50000, 128]⟩
abbrev S2000x256 : Shape := ⟨2, ![2000, 256]⟩
abbrev S2000x128 : Shape := ⟨2, ![2000, 128]⟩
abbrev S850000x128 : Shape := ⟨2, ![850000, 128]⟩
abbrev S1x64 : Shape := ⟨2, ![1, 64]⟩
abbrev S50000x64 : Shape := ⟨2, ![50000, 64]⟩
abbrev S2000x64 : Shape := ⟨2, ![2000, 64]⟩
abbrev S850000x64 : Shape := ⟨2, ![850000, 64]⟩

abbrev nBuf : Space → Nat
  | .hbm => 269
  | .vmem => 126
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S256x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x64, .f32⟩
  | 11 => ⟨S64, .f32⟩
  | 12 => ⟨S128x64, .f32⟩
  | 13 => ⟨S64, .f32⟩
  | 14 => ⟨S50000, .i32⟩
  | 15 => ⟨S1x800000, .i32⟩
  | 16 => ⟨S800000, .i32⟩
  | 17 => ⟨S850000, .i32⟩
  | 18 => ⟨S1x800000, .i32⟩
  | 19 => ⟨S800000, .i32⟩
  | 20 => ⟨S850000, .i32⟩
  | 21 => ⟨S_, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S_, .f32⟩
  | 28 => ⟨S50000, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S1x128, .f32⟩
  | 51 => ⟨S50000x128, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x128, .f32⟩
  | 61 => ⟨S850000x1, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S50000x128, .f32⟩
  | 69 => ⟨S_, .i32⟩
  | 70 => ⟨S850000, .i32⟩
  | 71 => ⟨S850000, .i1⟩
  | 72 => ⟨S_, .i32⟩
  | 73 => ⟨S850000, .i32⟩
  | 74 => ⟨S850000, .i32⟩
  | 75 => ⟨S850000, .i32⟩
  | 76 => ⟨S850000x1, .i32⟩
  | 77 => ⟨S850000x128, .f32⟩
  | 78 => ⟨S850000x1, .f32⟩
  | 79 => ⟨S850000x128, .f32⟩
  | 80 => ⟨S850000x128, .f32⟩
  | 81 => ⟨S_, .f32⟩
  | 82 => ⟨S50000x128, .f32⟩
  | 83 => ⟨S850000x1, .i32⟩
  | 84 => ⟨S50000x128, .f32⟩
  | 85 => ⟨S50000x128, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000x128, .f32⟩
  | 95 => ⟨S850000x1, .f32⟩
  | 96 => ⟨S850000x128, .f32⟩
  | 97 => ⟨S850000x128, .f32⟩
  | 98 => ⟨S_, .f32⟩
  | 99 => ⟨S50000x128, .f32⟩
  | 100 => ⟨S850000x1, .i32⟩
  | 101 => ⟨S50000x128, .f32⟩
  | 102 => ⟨S50000x128, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000x128, .f32⟩
  | 112 => ⟨S850000x1, .f32⟩
  | 113 => ⟨S850000x128, .f32⟩
  | 114 => ⟨S850000x128, .f32⟩
  | 115 => ⟨S_, .f32⟩
  | 116 => ⟨S50000x128, .f32⟩
  | 117 => ⟨S850000x1, .i32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S1x128, .f32⟩
  | 124 => ⟨S50000x128, .f32⟩
  | 125 => ⟨S_, .i32⟩
  | 126 => ⟨S850000, .i32⟩
  | 127 => ⟨S850000, .i1⟩
  | _ => ⟨S50000x256, .f32⟩

abbrev hbmTy0_1 (i : Nat) : BufTy := match i % 128 with
  | 0 => ⟨S_, .i32⟩
  | 1 => ⟨S850000, .i32⟩
  | 2 => ⟨S850000, .i32⟩
  | 3 => ⟨S850000, .i32⟩
  | 4 => ⟨S850000x1, .i32⟩
  | 5 => ⟨S850000x128, .f32⟩
  | 6 => ⟨S850000x1, .f32⟩
  | 7 => ⟨S850000x128, .f32⟩
  | 8 => ⟨S850000x128, .f32⟩
  | 9 => ⟨S_, .f32⟩
  | 10 => ⟨S50000x128, .f32⟩
  | 11 => ⟨S850000x1, .i32⟩
  | 12 => ⟨S50000x128, .f32⟩
  | 13 => ⟨S50000x128, .f32⟩
  | 14 => ⟨S_, .i32⟩
  | 15 => ⟨S850000, .i32⟩
  | 16 => ⟨S850000, .i1⟩
  | 17 => ⟨S_, .i32⟩
  | 18 => ⟨S850000, .i32⟩
  | 19 => ⟨S850000, .i32⟩
  | 20 => ⟨S850000, .i32⟩
  | 21 => ⟨S850000x1, .i32⟩
  | 22 => ⟨S850000x128, .f32⟩
  | 23 => ⟨S850000x1, .f32⟩
  | 24 => ⟨S850000x128, .f32⟩
  | 25 => ⟨S850000x128, .f32⟩
  | 26 => ⟨S_, .f32⟩
  | 27 => ⟨S50000x128, .f32⟩
  | 28 => ⟨S850000x1, .i32⟩
  | 29 => ⟨S50000x128, .f32⟩
  | 30 => ⟨S50000x128, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000x128, .f32⟩
  | 40 => ⟨S850000x1, .f32⟩
  | 41 => ⟨S850000x128, .f32⟩
  | 42 => ⟨S850000x128, .f32⟩
  | 43 => ⟨S_, .f32⟩
  | 44 => ⟨S50000x128, .f32⟩
  | 45 => ⟨S850000x1, .i32⟩
  | 46 => ⟨S50000x128, .f32⟩
  | 47 => ⟨S50000x128, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x128, .f32⟩
  | 57 => ⟨S850000x1, .f32⟩
  | 58 => ⟨S850000x128, .f32⟩
  | 59 => ⟨S850000x128, .f32⟩
  | 60 => ⟨S_, .f32⟩
  | 61 => ⟨S50000x128, .f32⟩
  | 62 => ⟨S850000x1, .i32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S1x64, .f32⟩
  | 69 => ⟨S50000x64, .f32⟩
  | 70 => ⟨S_, .i32⟩
  | 71 => ⟨S850000, .i32⟩
  | 72 => ⟨S850000, .i1⟩
  | 73 => ⟨S_, .i32⟩
  | 74 => ⟨S850000, .i32⟩
  | 75 => ⟨S850000, .i32⟩
  | 76 => ⟨S850000, .i32⟩
  | 77 => ⟨S850000x1, .i32⟩
  | 78 => ⟨S850000x64, .f32⟩
  | 79 => ⟨S850000x1, .f32⟩
  | 80 => ⟨S850000x64, .f32⟩
  | 81 => ⟨S850000x64, .f32⟩
  | 82 => ⟨S_, .f32⟩
  | 83 => ⟨S50000x64, .f32⟩
  | 84 => ⟨S850000x1, .i32⟩
  | 85 => ⟨S50000x64, .f32⟩
  | 86 => ⟨S50000x64, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000x64, .f32⟩
  | 96 => ⟨S850000x1, .f32⟩
  | 97 => ⟨S850000x64, .f32⟩
  | 98 => ⟨S850000x64, .f32⟩
  | 99 => ⟨S_, .f32⟩
  | 100 => ⟨S50000x64, .f32⟩
  | 101 => ⟨S850000x1, .i32⟩
  | 102 => ⟨S50000x64, .f32⟩
  | 103 => ⟨S50000x64, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000x64, .f32⟩
  | 113 => ⟨S850000x1, .f32⟩
  | 114 => ⟨S850000x64, .f32⟩
  | 115 => ⟨S850000x64, .f32⟩
  | 116 => ⟨S_, .f32⟩
  | 117 => ⟨S50000x64, .f32⟩
  | 118 => ⟨S850000x1, .i32⟩
  | 119 => ⟨S50000x64, .f32⟩
  | 120 => ⟨S50000x64, .f32⟩
  | 121 => ⟨S_, .i32⟩
  | 122 => ⟨S850000, .i32⟩
  | 123 => ⟨S850000, .i1⟩
  | 124 => ⟨S_, .i32⟩
  | 125 => ⟨S850000, .i32⟩
  | 126 => ⟨S850000, .i32⟩
  | 127 => ⟨S850000, .i32⟩
  | _ => ⟨S50000x256, .f32⟩

abbrev hbmTy0_2 (i : Nat) : BufTy := match i % 128 with
  | 0 => ⟨S850000x1, .i32⟩
  | 1 => ⟨S850000x64, .f32⟩
  | 2 => ⟨S850000x1, .f32⟩
  | 3 => ⟨S850000x64, .f32⟩
  | 4 => ⟨S850000x64, .f32⟩
  | 5 => ⟨S_, .f32⟩
  | 6 => ⟨S50000x64, .f32⟩
  | 7 => ⟨S850000x1, .i32⟩
  | 8 => ⟨S50000x64, .f32⟩
  | 9 => ⟨S50000x64, .f32⟩
  | 10 => ⟨S1x64, .f32⟩
  | 11 => ⟨S50000x64, .f32⟩
  | 12 => ⟨S50000x64, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x256, .f32⟩
  | .local _ .vmem, ⟨31, _⟩ => ⟨S2000x256, .f32⟩
  | .local _ .vmem, ⟨32, _⟩ => ⟨S256x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S128x128, .f32⟩
  | .local _ .vmem, ⟨45, _⟩ => ⟨S1x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S2000x128, .f32⟩
  | .local _ .vmem, ⟨57, _⟩ => ⟨S2000x128, .f32⟩
  | .local _ .vmem, ⟨58, _⟩ => ⟨S2000x128, .f32⟩
  | .local _ .vmem, ⟨59, _⟩ => ⟨S2000x128, .f32⟩
  | .local _ .vmem, ⟨60, _⟩ => ⟨S2000x128, .f32⟩
  | .local _ .vmem, ⟨61, _⟩ => ⟨S2000x128, .f32⟩
  | .local _ .vmem, ⟨62, _⟩ => ⟨S2000x128, .f32⟩
  | .local _ .vmem, ⟨63, _⟩ => ⟨S2000x128, .f32⟩
  | .local _ .vmem, ⟨64, _⟩ => ⟨S2000x128, .f32⟩
  | .local _ .vmem, ⟨65, _⟩ => ⟨S2000x128, .f32⟩
  | .local _ .vmem, ⟨66, _⟩ => ⟨S2000x128, .f32⟩
  | .local _ .vmem, ⟨67, _⟩ => ⟨S2000x128, .f32⟩
  | .local _ .vmem, ⟨68, _⟩ => ⟨S2000x128, .f32⟩
  | .local _ .vmem, ⟨69, _⟩ => ⟨S2000x128, .f32⟩
  | .local _ .vmem, ⟨70, _⟩ => ⟨S2000x128, .f32⟩
  | .local _ .vmem, ⟨71, _⟩ => ⟨S2000x128, .f32⟩
  | .local _ .vmem, ⟨72, _⟩ => ⟨S2000x128, .f32⟩
  | .local _ .vmem, ⟨73, _⟩ => ⟨S2000x128, .f32⟩
  | .local _ .vmem, ⟨74, _⟩ => ⟨S128x128, .f32⟩
  | .local _ .vmem, ⟨75, _⟩ => ⟨S1x128, .f32⟩
  | .local _ .vmem, ⟨76, _⟩ => ⟨S2000x128, .f32⟩
  | .local _ .vmem, ⟨77, _⟩ => ⟨S2000x128, .f32⟩
  | .local _ .vmem, ⟨78, _⟩ => ⟨S2000x128, .f32⟩
  | .local _ .vmem, ⟨79, _⟩ => ⟨S2000x128, .f32⟩
  | .local _ .vmem, ⟨80, _⟩ => ⟨S2000x128, .f32⟩
  | .local _ .vmem, ⟨81, _⟩ => ⟨S2000x128, .f32⟩
  | .local _ .vmem, ⟨82, _⟩ => ⟨S2000x128, .f32⟩
  | .local _ .vmem, ⟨83, _⟩ => ⟨S2000x128, .f32⟩
  | .local _ .vmem, ⟨84, _⟩ => ⟨S2000x128, .f32⟩
  | .local _ .vmem, ⟨85, _⟩ => ⟨S2000x128, .f32⟩
  | .local _ .vmem, ⟨86, _⟩ => ⟨S128x64, .f32⟩
  | .local _ .vmem, ⟨87, _⟩ => ⟨S1x64, .f32⟩
  | .local _ .vmem, ⟨88, _⟩ => ⟨S2000x64, .f32⟩
  | .local _ .vmem, ⟨89, _⟩ => ⟨S2000x64, .f32⟩
  | .local _ .vmem, ⟨90, _⟩ => ⟨S2000x64, .f32⟩
  | .local _ .vmem, ⟨91, _⟩ => ⟨S2000x64, .f32⟩
  | .local _ .vmem, ⟨92, _⟩ => ⟨S2000x64, .f32⟩
  | .local _ .vmem, ⟨93, _⟩ => ⟨S2000x64, .f32⟩
  | .local _ .vmem, ⟨94, _⟩ => ⟨S2000x64, .f32⟩
  | .local _ .vmem, ⟨95, _⟩ => ⟨S2000x64, .f32⟩
  | .local _ .vmem, ⟨96, _⟩ => ⟨S2000x64, .f32⟩
  | .local _ .vmem, ⟨97, _⟩ => ⟨S2000x64, .f32⟩
  | .local _ .vmem, ⟨98, _⟩ => ⟨S2000x64, .f32⟩
  | .local _ .vmem, ⟨99, _⟩ => ⟨S2000x64, .f32⟩
  | .local _ .vmem, ⟨100, _⟩ => ⟨S2000x64, .f32⟩
  | .local _ .vmem, ⟨101, _⟩ => ⟨S2000x64, .f32⟩
  | .local _ .vmem, ⟨102, _⟩ => ⟨S2000x64, .f32⟩
  | .local _ .vmem, ⟨103, _⟩ => ⟨S2000x64, .f32⟩
  | .local _ .vmem, ⟨104, _⟩ => ⟨S2000x64, .f32⟩
  | .local _ .vmem, ⟨105, _⟩ => ⟨S2000x64, .f32⟩
  | .local _ .vmem, ⟨106, _⟩ => ⟨S2000x64, .f32⟩
  | .local _ .vmem, ⟨107, _⟩ => ⟨S2000x64, .f32⟩
  | .local _ .vmem, ⟨108, _⟩ => ⟨S2000x64, .f32⟩
  | .local _ .vmem, ⟨109, _⟩ => ⟨S2000x64, .f32⟩
  | .local _ .vmem, ⟨110, _⟩ => ⟨S2000x64, .f32⟩
  | .local _ .vmem, ⟨111, _⟩ => ⟨S2000x64, .f32⟩
  | .local _ .vmem, ⟨112, _⟩ => ⟨S2000x64, .f32⟩
  | .local _ .vmem, ⟨113, _⟩ => ⟨S2000x64, .f32⟩
  | .local _ .vmem, ⟨114, _⟩ => ⟨S2000x128, .f32⟩
  | .local _ .vmem, ⟨115, _⟩ => ⟨S2000x128, .f32⟩
  | .local _ .vmem, ⟨116, _⟩ => ⟨S128x64, .f32⟩
  | .local _ .vmem, ⟨117, _⟩ => ⟨S1x64, .f32⟩
  | .local _ .vmem, ⟨118, _⟩ => ⟨S2000x64, .f32⟩
  | .local _ .vmem, ⟨119, _⟩ => ⟨S2000x64, .f32⟩
  | .local _ .vmem, ⟨120, _⟩ => ⟨S2000x64, .f32⟩
  | .local _ .vmem, ⟨121, _⟩ => ⟨S2000x64, .f32⟩
  | .local _ .vmem, ⟨122, _⟩ => ⟨S2000x64, .f32⟩
  | .local _ .vmem, ⟨123, _⟩ => ⟨S2000x64, .f32⟩
  | .local _ .vmem, ⟨124, _⟩ => ⟨S2000x64, .f32⟩
  | .local _ .vmem, ⟨125, _⟩ => ⟨S2000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | .vmem, ⟨124, _⟩ => true
  | .vmem, ⟨125, _⟩ => true
  | _, _ => false

abbrev semScoped : Fin 0 → Bool
  | ⟨_, h⟩ => absurd h (Nat.not_lt_zero _)

abbrev dmaSemScoped : Fin 126 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | _ => false

abbrev sig : RefSig :=
  ofTc nBuf bufTy 0 126 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_8 : Ref sig .tc := ⟨.hbm, 69, rfl⟩
abbrev main_v45 : Ref sig .tc := ⟨.hbm, 70, rfl⟩
abbrev main_v46 : Ref sig .tc := ⟨.hbm, 71, rfl⟩
abbrev main_c_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_11 : Ref sig .tc := ⟨.hbm, 86, rfl⟩
abbrev main_v59 : Ref sig .tc := ⟨.hbm, 87, rfl⟩
abbrev main_v60 : Ref sig .tc := ⟨.hbm, 88, rfl⟩
abbrev main_c_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_14 : Ref sig .tc := ⟨.hbm, 103, rfl⟩
abbrev main_v73 : Ref sig .tc := ⟨.hbm, 104, rfl⟩
abbrev main_v74 : Ref sig .tc := ⟨.hbm, 105, rfl⟩
abbrev main_c_15 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_16 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_c_17 : Ref sig .tc := ⟨.hbm, 125, rfl⟩
abbrev main_v92 : Ref sig .tc := ⟨.hbm, 126, rfl⟩
abbrev main_v93 : Ref sig .tc := ⟨.hbm, 127, rfl⟩
abbrev main_c_18 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_19 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_c_20 : Ref sig .tc := ⟨.hbm, 142, rfl⟩
abbrev main_v106 : Ref sig .tc := ⟨.hbm, 143, rfl⟩
abbrev main_v107 : Ref sig .tc := ⟨.hbm, 144, rfl⟩
abbrev main_c_21 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_cst_22 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_c_23 : Ref sig .tc := ⟨.hbm, 159, rfl⟩
abbrev main_v120 : Ref sig .tc := ⟨.hbm, 160, rfl⟩
abbrev main_v121 : Ref sig .tc := ⟨.hbm, 161, rfl⟩
abbrev main_c_24 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_cst_25 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_c_26 : Ref sig .tc := ⟨.hbm, 176, rfl⟩
abbrev main_v134 : Ref sig .tc := ⟨.hbm, 177, rfl⟩
abbrev main_v135 : Ref sig .tc := ⟨.hbm, 178, rfl⟩
abbrev main_c_27 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_cst_28 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_c_29 : Ref sig .tc := ⟨.hbm, 198, rfl⟩
abbrev main_v153 : Ref sig .tc := ⟨.hbm, 199, rfl⟩
abbrev main_v154 : Ref sig .tc := ⟨.hbm, 200, rfl⟩
abbrev main_c_30 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_cst_31 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_c_32 : Ref sig .tc := ⟨.hbm, 215, rfl⟩
abbrev main_v167 : Ref sig .tc := ⟨.hbm, 216, rfl⟩
abbrev main_v168 : Ref sig .tc := ⟨.hbm, 217, rfl⟩
abbrev main_c_33 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_cst_34 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_c_35 : Ref sig .tc := ⟨.hbm, 232, rfl⟩
abbrev main_v181 : Ref sig .tc := ⟨.hbm, 233, rfl⟩
abbrev main_v182 : Ref sig .tc := ⟨.hbm, 234, rfl⟩
abbrev main_c_36 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_cst_37 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_c_38 : Ref sig .tc := ⟨.hbm, 249, rfl⟩
abbrev main_v195 : Ref sig .tc := ⟨.hbm, 250, rfl⟩
abbrev main_v196 : Ref sig .tc := ⟨.hbm, 251, rfl⟩
abbrev main_c_39 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_cst_40 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg3_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg1_1 : Ref sig .tc := ⟨.vmem, 51, rfl⟩
abbrev cc8_stg2_0 : Ref sig .tc := ⟨.vmem, 52, rfl⟩
abbrev cc8_stg2_1 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg1_1 : Ref sig .tc := ⟨.vmem, 57, rfl⟩
abbrev cc9_stg2_0 : Ref sig .tc := ⟨.vmem, 58, rfl⟩
abbrev cc9_stg2_1 : Ref sig .tc := ⟨.vmem, 59, rfl⟩
abbrev cc10_stg0_0 : Ref sig .tc := ⟨.vmem, 60, rfl⟩
abbrev cc10_stg0_1 : Ref sig .tc := ⟨.vmem, 61, rfl⟩
abbrev cc10_stg1_0 : Ref sig .tc := ⟨.vmem, 62, rfl⟩
abbrev cc10_stg1_1 : Ref sig .tc := ⟨.vmem, 63, rfl⟩
abbrev cc10_stg2_0 : Ref sig .tc := ⟨.vmem, 64, rfl⟩
abbrev cc10_stg2_1 : Ref sig .tc := ⟨.vmem, 65, rfl⟩
abbrev cc11_stg0_0 : Ref sig .tc := ⟨.vmem, 66, rfl⟩
abbrev cc11_stg0_1 : Ref sig .tc := ⟨.vmem, 67, rfl⟩
abbrev cc11_stg1_0 : Ref sig .tc := ⟨.vmem, 68, rfl⟩
abbrev cc11_stg1_1 : Ref sig .tc := ⟨.vmem, 69, rfl⟩
abbrev cc11_stg2_0 : Ref sig .tc := ⟨.vmem, 70, rfl⟩
abbrev cc11_stg2_1 : Ref sig .tc := ⟨.vmem, 71, rfl⟩
abbrev cc12_stg0_0 : Ref sig .tc := ⟨.vmem, 72, rfl⟩
abbrev cc12_stg0_1 : Ref sig .tc := ⟨.vmem, 73, rfl⟩
abbrev cc12_stg1_0 : Ref sig .tc := ⟨.vmem, 74, rfl⟩
abbrev cc12_stg2_0 : Ref sig .tc := ⟨.vmem, 75, rfl⟩
abbrev cc12_stg3_0 : Ref sig .tc := ⟨.vmem, 76, rfl⟩
abbrev cc12_stg3_1 : Ref sig .tc := ⟨.vmem, 77, rfl⟩
abbrev cc13_stg0_0 : Ref sig .tc := ⟨.vmem, 78, rfl⟩
abbrev cc13_stg0_1 : Ref sig .tc := ⟨.vmem, 79, rfl⟩
abbrev cc13_stg1_0 : Ref sig .tc := ⟨.vmem, 80, rfl⟩
abbrev cc13_stg1_1 : Ref sig .tc := ⟨.vmem, 81, rfl⟩
abbrev cc13_stg2_0 : Ref sig .tc := ⟨.vmem, 82, rfl⟩
abbrev cc13_stg2_1 : Ref sig .tc := ⟨.vmem, 83, rfl⟩
abbrev cc14_stg0_0 : Ref sig .tc := ⟨.vmem, 84, rfl⟩
abbrev cc14_stg0_1 : Ref sig .tc := ⟨.vmem, 85, rfl⟩
abbrev cc14_stg1_0 : Ref sig .tc := ⟨.vmem, 86, rfl⟩
abbrev cc14_stg2_0 : Ref sig .tc := ⟨.vmem, 87, rfl⟩
abbrev cc14_stg3_0 : Ref sig .tc := ⟨.vmem, 88, rfl⟩
abbrev cc14_stg3_1 : Ref sig .tc := ⟨.vmem, 89, rfl⟩
abbrev cc15_stg0_0 : Ref sig .tc := ⟨.vmem, 90, rfl⟩
abbrev cc15_stg0_1 : Ref sig .tc := ⟨.vmem, 91, rfl⟩
abbrev cc15_stg1_0 : Ref sig .tc := ⟨.vmem, 92, rfl⟩
abbrev cc15_stg1_1 : Ref sig .tc := ⟨.vmem, 93, rfl⟩
abbrev cc15_stg2_0 : Ref sig .tc := ⟨.vmem, 94, rfl⟩
abbrev cc15_stg2_1 : Ref sig .tc := ⟨.vmem, 95, rfl⟩
abbrev cc16_stg0_0 : Ref sig .tc := ⟨.vmem, 96, rfl⟩
abbrev cc16_stg0_1 : Ref sig .tc := ⟨.vmem, 97, rfl⟩
abbrev cc16_stg1_0 : Ref sig .tc := ⟨.vmem, 98, rfl⟩
abbrev cc16_stg1_1 : Ref sig .tc := ⟨.vmem, 99, rfl⟩
abbrev cc16_stg2_0 : Ref sig .tc := ⟨.vmem, 100, rfl⟩
abbrev cc16_stg2_1 : Ref sig .tc := ⟨.vmem, 101, rfl⟩
abbrev cc17_stg0_0 : Ref sig .tc := ⟨.vmem, 102, rfl⟩
abbrev cc17_stg0_1 : Ref sig .tc := ⟨.vmem, 103, rfl⟩
abbrev cc17_stg1_0 : Ref sig .tc := ⟨.vmem, 104, rfl⟩
abbrev cc17_stg1_1 : Ref sig .tc := ⟨.vmem, 105, rfl⟩
abbrev cc17_stg2_0 : Ref sig .tc := ⟨.vmem, 106, rfl⟩
abbrev cc17_stg2_1 : Ref sig .tc := ⟨.vmem, 107, rfl⟩
abbrev cc18_stg0_0 : Ref sig .tc := ⟨.vmem, 108, rfl⟩
abbrev cc18_stg0_1 : Ref sig .tc := ⟨.vmem, 109, rfl⟩
abbrev cc18_stg1_0 : Ref sig .tc := ⟨.vmem, 110, rfl⟩
abbrev cc18_stg1_1 : Ref sig .tc := ⟨.vmem, 111, rfl⟩
abbrev cc18_stg2_0 : Ref sig .tc := ⟨.vmem, 112, rfl⟩
abbrev cc18_stg2_1 : Ref sig .tc := ⟨.vmem, 113, rfl⟩
abbrev cc19_stg0_0 : Ref sig .tc := ⟨.vmem, 114, rfl⟩
abbrev cc19_stg0_1 : Ref sig .tc := ⟨.vmem, 115, rfl⟩
abbrev cc19_stg1_0 : Ref sig .tc := ⟨.vmem, 116, rfl⟩
abbrev cc19_stg2_0 : Ref sig .tc := ⟨.vmem, 117, rfl⟩
abbrev cc19_stg3_0 : Ref sig .tc := ⟨.vmem, 118, rfl⟩
abbrev cc19_stg3_1 : Ref sig .tc := ⟨.vmem, 119, rfl⟩
abbrev cc20_stg0_0 : Ref sig .tc := ⟨.vmem, 120, rfl⟩
abbrev cc20_stg0_1 : Ref sig .tc := ⟨.vmem, 121, rfl⟩
abbrev cc20_stg1_0 : Ref sig .tc := ⟨.vmem, 122, rfl⟩
abbrev cc20_stg1_1 : Ref sig .tc := ⟨.vmem, 123, rfl⟩
abbrev cc20_stg2_0 : Ref sig .tc := ⟨.vmem, 124, rfl⟩
abbrev cc20_stg2_1 : Ref sig .tc := ⟨.vmem, 125, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem2_0 : DmaSem sig := 45
abbrev cc7_sem3_0 : DmaSem sig := 46
abbrev cc7_sem3_1 : DmaSem sig := 47
abbrev cc8_sem0_0 : DmaSem sig := 48
abbrev cc8_sem0_1 : DmaSem sig := 49
abbrev cc8_sem1_0 : DmaSem sig := 50
abbrev cc8_sem1_1 : DmaSem sig := 51
abbrev cc8_sem2_0 : DmaSem sig := 52
abbrev cc8_sem2_1 : DmaSem sig := 53
abbrev cc9_sem0_0 : DmaSem sig := 54
abbrev cc9_sem0_1 : DmaSem sig := 55
abbrev cc9_sem1_0 : DmaSem sig := 56
abbrev cc9_sem1_1 : DmaSem sig := 57
abbrev cc9_sem2_0 : DmaSem sig := 58
abbrev cc9_sem2_1 : DmaSem sig := 59
abbrev cc10_sem0_0 : DmaSem sig := 60
abbrev cc10_sem0_1 : DmaSem sig := 61
abbrev cc10_sem1_0 : DmaSem sig := 62
abbrev cc10_sem1_1 : DmaSem sig := 63
abbrev cc10_sem2_0 : DmaSem sig := 64
abbrev cc10_sem2_1 : DmaSem sig := 65
abbrev cc11_sem0_0 : DmaSem sig := 66
abbrev cc11_sem0_1 : DmaSem sig := 67
abbrev cc11_sem1_0 : DmaSem sig := 68
abbrev cc11_sem1_1 : DmaSem sig := 69
abbrev cc11_sem2_0 : DmaSem sig := 70
abbrev cc11_sem2_1 : DmaSem sig := 71
abbrev cc12_sem0_0 : DmaSem sig := 72
abbrev cc12_sem0_1 : DmaSem sig := 73
abbrev cc12_sem1_0 : DmaSem sig := 74
abbrev cc12_sem2_0 : DmaSem sig := 75
abbrev cc12_sem3_0 : DmaSem sig := 76
abbrev cc12_sem3_1 : DmaSem sig := 77
abbrev cc13_sem0_0 : DmaSem sig := 78
abbrev cc13_sem0_1 : DmaSem sig := 79
abbrev cc13_sem1_0 : DmaSem sig := 80
abbrev cc13_sem1_1 : DmaSem sig := 81
abbrev cc13_sem2_0 : DmaSem sig := 82
abbrev cc13_sem2_1 : DmaSem sig := 83
abbrev cc14_sem0_0 : DmaSem sig := 84
abbrev cc14_sem0_1 : DmaSem sig := 85
abbrev cc14_sem1_0 : DmaSem sig := 86
abbrev cc14_sem2_0 : DmaSem sig := 87
abbrev cc14_sem3_0 : DmaSem sig := 88
abbrev cc14_sem3_1 : DmaSem sig := 89
abbrev cc15_sem0_0 : DmaSem sig := 90
abbrev cc15_sem0_1 : DmaSem sig := 91
abbrev cc15_sem1_0 : DmaSem sig := 92
abbrev cc15_sem1_1 : DmaSem sig := 93
abbrev cc15_sem2_0 : DmaSem sig := 94
abbrev cc15_sem2_1 : DmaSem sig := 95
abbrev cc16_sem0_0 : DmaSem sig := 96
abbrev cc16_sem0_1 : DmaSem sig := 97
abbrev cc16_sem1_0 : DmaSem sig := 98
abbrev cc16_sem1_1 : DmaSem sig := 99
abbrev cc16_sem2_0 : DmaSem sig := 100
abbrev cc16_sem2_1 : DmaSem sig := 101
abbrev cc17_sem0_0 : DmaSem sig := 102
abbrev cc17_sem0_1 : DmaSem sig := 103
abbrev cc17_sem1_0 : DmaSem sig := 104
abbrev cc17_sem1_1 : DmaSem sig := 105
abbrev cc17_sem2_0 : DmaSem sig := 106
abbrev cc17_sem2_1 : DmaSem sig := 107
abbrev cc18_sem0_0 : DmaSem sig := 108
abbrev cc18_sem0_1 : DmaSem sig := 109
abbrev cc18_sem1_0 : DmaSem sig := 110
abbrev cc18_sem1_1 : DmaSem sig := 111
abbrev cc18_sem2_0 : DmaSem sig := 112
abbrev cc18_sem2_1 : DmaSem sig := 113
abbrev cc19_sem0_0 : DmaSem sig := 114
abbrev cc19_sem0_1 : DmaSem sig := 115
abbrev cc19_sem1_0 : DmaSem sig := 116
abbrev cc19_sem2_0 : DmaSem sig := 117
abbrev cc19_sem3_0 : DmaSem sig := 118
abbrev cc19_sem3_1 : DmaSem sig := 119
abbrev cc20_sem0_0 : DmaSem sig := 120
abbrev cc20_sem0_1 : DmaSem sig := 121
abbrev cc20_sem1_0 : DmaSem sig := 122
abbrev cc20_sem1_1 : DmaSem sig := 123
abbrev cc20_sem2_0 : DmaSem sig := 124
abbrev cc20_sem2_1 : DmaSem sig := 125

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S2000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S2000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S2000x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S2000x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![25], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S2000x128 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![25], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S2000x128 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S2000x128 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![25], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S2000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S128x64 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x64 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 2 → Memref sig .tc .vmem S2000x64 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev grid15 : Pipeline.Grid := ⟨1, ![25], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S2000x64 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S2000x64 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 2 → Memref sig .tc .vmem S2000x64 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev grid16 : Pipeline.Grid := ⟨1, ![25], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S2000x64 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S2000x64 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 2 → Memref sig .tc .vmem S2000x64 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev grid17 : Pipeline.Grid := ⟨1, ![25], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S2000x64 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 2 → Memref sig .tc .vmem S2000x64 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

abbrev stage17_2 : Fin 2 → Memref sig .tc .vmem S2000x64 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev grid18 : Pipeline.Grid := ⟨1, ![25], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S2000x64 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S2000x64 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev stage18_2 : Fin 2 → Memref sig .tc .vmem S2000x64 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true]

abbrev grid19 : Pipeline.Grid := ⟨1, ![25], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_3 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S2000x128 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S128x64 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 1 → Memref sig .tc .vmem S1x64 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev stage19_3 : Fin 2 → Memref sig .tc .vmem S2000x64 .f32 := fun | 0 => Memref.whole cc19_stg3_0 | 1 => Memref.whole cc19_stg3_1 | ⟨_ + 2, h⟩ => absurd h (Nat.not_lt.2 (Nat.le_add_left _ _))
abbrev sem19_3 : Fin 2 → DmaSem sig := fun | 0 => cc19_sem3_0 | 1 => cc19_sem3_1 | ⟨_ + 2, h⟩ => absurd h (Nat.not_lt.2 (Nat.le_add_left _ _))
abbrev reads19_3 : Fin grid19.rank → Bool := ![true]

abbrev grid20 : Pipeline.Grid := ⟨1, ![25], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_2 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S2000x64 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 2 → Memref sig .tc .vmem S2000x64 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true]

abbrev stage20_2 : Fin 2 → Memref sig .tc .vmem S2000x64 .f32 := fun | 0 => Memref.whole cc20_stg2_0 | 1 => Memref.whole cc20_stg2_1 | ⟨_ + 2, h⟩ => absurd h (Nat.not_lt.2 (Nat.le_add_left _ _))
abbrev sem20_2 : Fin 2 → DmaSem sig := fun | 0 => cc20_sem2_0 | 1 => cc20_sem2_1 | ⟨_ + 2, h⟩ => absurd h (Nat.not_lt.2 (Nat.le_add_left _ _))
abbrev reads20_2 : Fin grid20.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S128_S1x128 : S128.ShapeCasts S1x128
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S2000x64_S2000x64 : S2000x64.ShapeCasts S2000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x128.size a ≤ S256x128.size a
  hwx5_1 : ∀ i : grid5.Coords, EltTy.bits .f32 = 32 ∨ (Rect.block (s := S256x128) S256x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S50000x128.size a
  hwx5_3 : ∀ i : grid5.Coords, EltTy.bits .f32 = 32 ∨ (Rect.block (s := S50000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S50000x128.size a
  hwx6_1 : ∀ i : grid6.Coords, EltTy.bits .f32 = 32 ∨ (Rect.block (s := S50000x128) S2000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S50000x128.size a
  hwx6_2 : ∀ i : grid6.Coords, EltTy.bits .f32 = 32 ∨ (Rect.block (s := S50000x128) S2000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x128.size a ≤ S50000x128.size a
  hwx7_3 : ∀ i : grid7.Coords, EltTy.bits .f32 = 32 ∨ (Rect.block (s := S50000x128) S2000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x128.size a ≤ S50000x128.size a
  hwx8_1 : ∀ i : grid8.Coords, EltTy.bits .f32 = 32 ∨ (Rect.block (s := S50000x128) S2000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x128.size a ≤ S50000x128.size a
  hwx8_2 : ∀ i : grid8.Coords, EltTy.bits .f32 = 32 ∨ (Rect.block (s := S50000x128) S2000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x128.size a ≤ S50000x128.size a
  hwx9_1 : ∀ i : grid9.Coords, EltTy.bits .f32 = 32 ∨ (Rect.block (s := S50000x128) S2000x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x128.size a ≤ S50000x128.size a
  hwx9_2 : ∀ i : grid9.Coords, EltTy.bits .f32 = 32 ∨ (Rect.block (s := S50000x128) S2000x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S50000x128.size a
  hwx10_0 : ∀ i : grid10.Coords, EltTy.bits .f32 = 32 ∨ (Rect.block (s := S50000x128) S2000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x128.size a ≤ S50000x128.size a
  hwx10_1 : ∀ i : grid10.Coords, EltTy.bits .f32 = 32 ∨ (Rect.block (s := S50000x128) S2000x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2000x128.size a ≤ S50000x128.size a
  hwx10_2 : ∀ i : grid10.Coords, EltTy.bits .f32 = 32 ∨ (Rect.block (s := S50000x128) S2000x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x128.size a ≤ S50000x128.size a
  hwx11_0 : ∀ i : grid11.Coords, EltTy.bits .f32 = 32 ∨ (Rect.block (s := S50000x128) S2000x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S2000x128.size a ≤ S50000x128.size a
  hwx11_1 : ∀ i : grid11.Coords, EltTy.bits .f32 = 32 ∨ (Rect.block (s := S50000x128) S2000x128.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S2000x128.size a ≤ S50000x128.size a
  hwx11_2 : ∀ i : grid11.Coords, EltTy.bits .f32 = 32 ∨ (Rect.block (s := S50000x128) S2000x128.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x128.size a ≤ S50000x128.size a
  hwx12_0 : ∀ i : grid12.Coords, EltTy.bits .f32 = 32 ∨ (Rect.block (s := S50000x128) S2000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x128.size a ≤ S128x128.size a
  hwx12_1 : ∀ i : grid12.Coords, EltTy.bits .f32 = 32 ∨ (Rect.block (s := S128x128) S128x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S2000x128.size a ≤ S50000x128.size a
  hwx12_3 : ∀ i : grid12.Coords, EltTy.bits .f32 = 32 ∨ (Rect.block (s := S50000x128) S2000x128.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x128.size a ≤ S50000x128.size a
  hwx13_0 : ∀ i : grid13.Coords, EltTy.bits .f32 = 32 ∨ (Rect.block (s := S50000x128) S2000x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S2000x128.size a ≤ S50000x128.size a
  hwx13_1 : ∀ i : grid13.Coords, EltTy.bits .f32 = 32 ∨ (Rect.block (s := S50000x128) S2000x128.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S2000x128.size a ≤ S50000x128.size a
  hwx13_2 : ∀ i : grid13.Coords, EltTy.bits .f32 = 32 ∨ (Rect.block (s := S50000x128) S2000x128.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2000x128.size a ≤ S50000x128.size a
  hwx14_0 : ∀ i : grid14.Coords, EltTy.bits .f32 = 32 ∨ (Rect.block (s := S50000x128) S2000x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S128x64.size a ≤ S128x64.size a
  hwx14_1 : ∀ i : grid14.Coords, EltTy.bits .f32 = 32 ∨ (Rect.block (s := S128x64) S128x64.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x64.size a ≤ S1x64.size a
  hwx14_2 : ∀ i : grid14.Coords, EltTy.bits .f32 = 32 ∨ (Rect.block (s := S1x64) S1x64.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S2000x64.size a ≤ S50000x64.size a
  hwx14_3 : ∀ i : grid14.Coords, EltTy.bits .f32 = 32 ∨ (Rect.block (s := S50000x64) S2000x64.size (cc14_transform_3 i) (hinb14_3 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S2000x64.size a ≤ S50000x64.size a
  hwx15_0 : ∀ i : grid15.Coords, EltTy.bits .f32 = 32 ∨ (Rect.block (s := S50000x64) S2000x64.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S2000x64.size a ≤ S50000x64.size a
  hwx15_1 : ∀ i : grid15.Coords, EltTy.bits .f32 = 32 ∨ (Rect.block (s := S50000x64) S2000x64.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S2000x64.size a ≤ S50000x64.size a
  hwx15_2 : ∀ i : grid15.Coords, EltTy.bits .f32 = 32 ∨ (Rect.block (s := S50000x64) S2000x64.size (cc15_transform_2 i) (hinb15_2 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S2000x64.size a ≤ S50000x64.size a
  hwx16_0 : ∀ i : grid16.Coords, EltTy.bits .f32 = 32 ∨ (Rect.block (s := S50000x64) S2000x64.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S2000x64.size a ≤ S50000x64.size a
  hwx16_1 : ∀ i : grid16.Coords, EltTy.bits .f32 = 32 ∨ (Rect.block (s := S50000x64) S2000x64.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S2000x64.size a ≤ S50000x64.size a
  hwx16_2 : ∀ i : grid16.Coords, EltTy.bits .f32 = 32 ∨ (Rect.block (s := S50000x64) S2000x64.size (cc16_transform_2 i) (hinb16_2 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S2000x64.size a ≤ S50000x64.size a
  hwx17_0 : ∀ i : grid17.Coords, EltTy.bits .f32 = 32 ∨ (Rect.block (s := S50000x64) S2000x64.size (cc17_transform_0 i) (hinb17_0 i)).WholeWords (EltTy.packing .f32)
  hstage17_1 : ∀ j, (stage17_1 j).IsWhole
  nbuf17_1 : grid17.bufCount reads17_1 false = 2
  hreads17_1 : ∀ i i' : grid17.Coords, (∀ a, reads17_1 a = true → i a = i' a) → cc17_transform_1 i = cc17_transform_1 i'
  hinb17_1 : ∀ (i : grid17.Coords) a, (cc17_transform_1 i a + 1) * S2000x64.size a ≤ S50000x64.size a
  hwx17_1 : ∀ i : grid17.Coords, EltTy.bits .f32 = 32 ∨ (Rect.block (s := S50000x64) S2000x64.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S2000x64.size a ≤ S50000x64.size a
  hwx17_2 : ∀ i : grid17.Coords, EltTy.bits .f32 = 32 ∨ (Rect.block (s := S50000x64) S2000x64.size (cc17_transform_2 i) (hinb17_2 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S2000x64.size a ≤ S50000x64.size a
  hwx18_0 : ∀ i : grid18.Coords, EltTy.bits .f32 = 32 ∨ (Rect.block (s := S50000x64) S2000x64.size (cc18_transform_0 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S2000x64.size a ≤ S50000x64.size a
  hwx18_1 : ∀ i : grid18.Coords, EltTy.bits .f32 = 32 ∨ (Rect.block (s := S50000x64) S2000x64.size (cc18_transform_1 i) (hinb18_1 i)).WholeWords (EltTy.packing .f32)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S2000x64.size a ≤ S50000x64.size a
  hwx18_2 : ∀ i : grid18.Coords, EltTy.bits .f32 = 32 ∨ (Rect.block (s := S50000x64) S2000x64.size (cc18_transform_2 i) (hinb18_2 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S2000x128.size a ≤ S50000x128.size a
  hwx19_0 : ∀ i : grid19.Coords, EltTy.bits .f32 = 32 ∨ (Rect.block (s := S50000x128) S2000x128.size (cc19_transform_0 i) (hinb19_0 i)).WholeWords (EltTy.packing .f32)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S128x64.size a ≤ S128x64.size a
  hwx19_1 : ∀ i : grid19.Coords, EltTy.bits .f32 = 32 ∨ (Rect.block (s := S128x64) S128x64.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S1x64.size a ≤ S1x64.size a
  hwx19_2 : ∀ i : grid19.Coords, EltTy.bits .f32 = 32 ∨ (Rect.block (s := S1x64) S1x64.size (cc19_transform_2 i) (hinb19_2 i)).WholeWords (EltTy.packing .f32)
  hstage19_3 : ∀ j, (stage19_3 j).IsWhole
  nbuf19_3 : grid19.bufCount reads19_3 false = 2
  hreads19_3 : ∀ i i' : grid19.Coords, (∀ a, reads19_3 a = true → i a = i' a) → cc19_transform_3 i = cc19_transform_3 i'
  hinb19_3 : ∀ (i : grid19.Coords) a, (cc19_transform_3 i a + 1) * S2000x64.size a ≤ S50000x64.size a
  hwx19_3 : ∀ i : grid19.Coords, EltTy.bits .f32 = 32 ∨ (Rect.block (s := S50000x64) S2000x64.size (cc19_transform_3 i) (hinb19_3 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S2000x64.size a ≤ S50000x64.size a
  hwx20_0 : ∀ i : grid20.Coords, EltTy.bits .f32 = 32 ∨ (Rect.block (s := S50000x64) S2000x64.size (cc20_transform_0 i) (hinb20_0 i)).WholeWords (EltTy.packing .f32)
  hstage20_1 : ∀ j, (stage20_1 j).IsWhole
  nbuf20_1 : grid20.bufCount reads20_1 false = 2
  hreads20_1 : ∀ i i' : grid20.Coords, (∀ a, reads20_1 a = true → i a = i' a) → cc20_transform_1 i = cc20_transform_1 i'
  hinb20_1 : ∀ (i : grid20.Coords) a, (cc20_transform_1 i a + 1) * S2000x64.size a ≤ S50000x64.size a
  hwx20_1 : ∀ i : grid20.Coords, EltTy.bits .f32 = 32 ∨ (Rect.block (s := S50000x64) S2000x64.size (cc20_transform_1 i) (hinb20_1 i)).WholeWords (EltTy.packing .f32)
  hstage20_2 : ∀ j, (stage20_2 j).IsWhole
  nbuf20_2 : grid20.bufCount reads20_2 false = 2
  hreads20_2 : ∀ i i' : grid20.Coords, (∀ a, reads20_2 a = true → i a = i' a) → cc20_transform_2 i = cc20_transform_2 i'
  hinb20_2 : ∀ (i : grid20.Coords) a, (cc20_transform_2 i a + 1) * S2000x64.size a ≤ S50000x64.size a
  hwx20_2 : ∀ i : grid20.Coords, EltTy.bits .f32 = 32 ∨ (Rect.block (s := S50000x64) S2000x64.size (cc20_transform_2 i) (hinb20_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v30) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v58) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v30) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v71) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v72) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v30) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v85) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v86) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_arg0) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg4) S256x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v87) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v88) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v86) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v88) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v89) S2000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v89) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg6) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v90) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v91) S2000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v91) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v104) S2000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v105) S2000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v91) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v118) S2000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v119) S2000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v91) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v132) S2000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v133) S2000x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v91) S2000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v146) S2000x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v147) S2000x128.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v89) S2000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg8) S128x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v148) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v149) S2000x128.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v147) S2000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v149) S2000x128.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v150) S2000x128.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v150) S2000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_arg10) S128x64.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v151) S1x64.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v152) S2000x64.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev win15_0 : Pipeline.Window sig grid15 :=
  Pipeline.Window.ofSpec (Memref.whole main_v152) S2000x64.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v165) S2000x64.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v166) S2000x64.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_v152) S2000x64.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v179) S2000x64.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v180) S2000x64.size cc16_transform_2 reads16_2 true false 2 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

abbrev win17_0 : Pipeline.Window sig grid17 :=
  Pipeline.Window.ofSpec (Memref.whole main_v152) S2000x64.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v193) S2000x64.size cc17_transform_1 reads17_1 false false 2 stage17_1 sem17_1
    hrank17 hreads17_1 hinb17_1 nbuf17_1 (Memref.isWhole_whole _) hwx17_1 hstage17_1

abbrev win17_2 : Pipeline.Window sig grid17 :=
  Pipeline.Window.ofSpec (Memref.whole main_v194) S2000x64.size cc17_transform_2 reads17_2 true false 2 stage17_2 sem17_2
    hrank17 hreads17_2 hinb17_2 nbuf17_2 (Memref.isWhole_whole _) hwx17_2 hstage17_2

abbrev win17 : Fin 3 → Pipeline.Window sig grid17 := fun | 0 => win17_0 | 1 => win17_1 | 2 => win17_2 | ⟨_ + 3, h⟩ => absurd h (Nat.not_lt.2 (Nat.le_add_left _ _))
abbrev spec17 : Fin 3 → Pipeline.WinSpec sig grid17.rank := fun w => (win17 w).toWinSpec

abbrev win18_0 : Pipeline.Window sig grid18 :=
  Pipeline.Window.ofSpec (Memref.whole main_v152) S2000x64.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v207) S2000x64.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_v208) S2000x64.size cc18_transform_2 reads18_2 true false 2 stage18_2 sem18_2
    hrank18 hreads18_2 hinb18_2 nbuf18_2 (Memref.isWhole_whole _) hwx18_2 hstage18_2

abbrev win18 : Fin 3 → Pipeline.Window sig grid18 := fun | 0 => win18_0 | 1 => win18_1 | 2 => win18_2 | ⟨_ + 3, h⟩ => absurd h (Nat.not_lt.2 (Nat.le_add_left _ _))
abbrev spec18 : Fin 3 → Pipeline.WinSpec sig grid18.rank := fun w => (win18 w).toWinSpec

abbrev win19_0 : Pipeline.Window sig grid19 :=
  Pipeline.Window.ofSpec (Memref.whole main_v150) S2000x128.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_arg12) S128x64.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_v209) S1x64.size cc19_transform_2 reads19_2 false true 1 stage19_2 sem19_2
    hrank19 hreads19_2 hinb19_2 nbuf19_2 (Memref.isWhole_whole _) hwx19_2 hstage19_2

abbrev win19_3 : Pipeline.Window sig grid19 :=
  Pipeline.Window.ofSpec (Memref.whole main_v210) S2000x64.size cc19_transform_3 reads19_3 true false 2 stage19_3 sem19_3
    hrank19 hreads19_3 hinb19_3 nbuf19_3 (Memref.isWhole_whole _) hwx19_3 hstage19_3

abbrev win19 : Fin 4 → Pipeline.Window sig grid19 := fun | 0 => win19_0 | 1 => win19_1 | 2 => win19_2 | 3 => win19_3 | ⟨_ + 4, h⟩ => absurd h (Nat.not_lt.2 (Nat.le_add_left _ _))
abbrev spec19 : Fin 4 → Pipeline.WinSpec sig grid19.rank := fun w => (win19 w).toWinSpec

abbrev win20_0 : Pipeline.Window sig grid20 :=
  Pipeline.Window.ofSpec (Memref.whole main_v208) S2000x64.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v210) S2000x64.size cc20_transform_1 reads20_1 false false 2 stage20_1 sem20_1
    hrank20 hreads20_1 hinb20_1 nbuf20_1 (Memref.isWhole_whole _) hwx20_1 hstage20_1

abbrev win20_2 : Pipeline.Window sig grid20 :=
  Pipeline.Window.ofSpec (Memref.whole main_v211) S2000x64.size cc20_transform_2 reads20_2 true false 2 stage20_2 sem20_2
    hrank20 hreads20_2 hinb20_2 nbuf20_2 (Memref.isWhole_whole _) hwx20_2 hstage20_2

abbrev win20 : Fin 3 → Pipeline.Window sig grid20 := fun | 0 => win20_0 | 1 => win20_1 | 2 => win20_2 | ⟨_ + 3, h⟩ => absurd h (Nat.not_lt.2 (Nat.le_add_left _ _))
abbrev spec20 : Fin 3 → Pipeline.WinSpec sig grid20.rank := fun w => (win20 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S50000x128 : Shape := ⟨2, ![50000, 128]⟩
abbrev S1x128 : Shape := ⟨2, ![1, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S50000x64 : Shape := ⟨2, ![50000, 64]⟩
abbrev S1x64 : Shape := ⟨2, ![1, 64]⟩
abbrev S850000x64 : Shape := ⟨2, ![850000, 64]⟩

abbrev nBuf : Space → Nat
  | .hbm => 455
  | .vmem => 0
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S256x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x64, .f32⟩
  | 11 => ⟨S64, .f32⟩
  | 12 => ⟨S128x64, .f32⟩
  | 13 => ⟨S64, .f32⟩
  | 14 => ⟨S50000x128, .f32⟩
  | 15 => ⟨S1x128, .f32⟩
  | 16 => ⟨S50000x128, .f32⟩
  | 17 => ⟨S50000x128, .f32⟩
  | 18 => ⟨S50000, .i32⟩
  | 19 => ⟨S1x800000, .i32⟩
  | 20 => ⟨S800000, .i32⟩
  | 21 => ⟨S850000, .i32⟩
  | 22 => ⟨S1x800000, .i32⟩
  | 23 => ⟨S800000, .i32⟩
  | 24 => ⟨S850000, .i32⟩
  | 25 => ⟨S_, .f32⟩
  | 26 => ⟨S850000, .f32⟩
  | 27 => ⟨S_, .f32⟩
  | 28 => ⟨S50000, .f32⟩
  | 29 => ⟨S850000x1, .i32⟩
  | 30 => ⟨S50000, .f32⟩
  | 31 => ⟨S_, .f32⟩
  | 32 => ⟨S50000, .f32⟩
  | 33 => ⟨S50000, .f32⟩
  | 34 => ⟨S50000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S850000, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x128, .f32⟩
  | 63 => ⟨S850000x1, .f32⟩
  | 64 => ⟨S850000x128, .f32⟩
  | 65 => ⟨S850000x128, .f32⟩
  | 66 => ⟨S_, .f32⟩
  | 67 => ⟨S50000x128, .f32⟩
  | 68 => ⟨S850000x1, .i32⟩
  | 69 => ⟨S50000x128, .f32⟩
  | 70 => ⟨S_, .f32⟩
  | 71 => ⟨S50000x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S_, .i32⟩
  | 78 => ⟨S850000, .i32⟩
  | 79 => ⟨S850000, .i1⟩
  | 80 => ⟨S_, .i32⟩
  | 81 => ⟨S850000, .i32⟩
  | 82 => ⟨S850000, .i32⟩
  | 83 => ⟨S850000, .i32⟩
  | 84 => ⟨S850000x1, .i32⟩
  | 85 => ⟨S850000x128, .f32⟩
  | 86 => ⟨S850000x1, .f32⟩
  | 87 => ⟨S850000x128, .f32⟩
  | 88 => ⟨S850000x128, .f32⟩
  | 89 => ⟨S_, .f32⟩
  | 90 => ⟨S50000x128, .f32⟩
  | 91 => ⟨S850000x1, .i32⟩
  | 92 => ⟨S50000x128, .f32⟩
  | 93 => ⟨S_, .f32⟩
  | 94 => ⟨S50000x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000x128, .f32⟩
  | 109 => ⟨S850000x1, .f32⟩
  | 110 => ⟨S850000x128, .f32⟩
  | 111 => ⟨S850000x128, .f32⟩
  | 112 => ⟨S_, .f32⟩
  | 113 => ⟨S50000x128, .f32⟩
  | 114 => ⟨S850000x1, .i32⟩
  | 115 => ⟨S50000x128, .f32⟩
  | 116 => ⟨S_, .f32⟩
  | 117 => ⟨S50000x128, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S_, .i32⟩
  | 124 => ⟨S850000, .i32⟩
  | 125 => ⟨S850000, .i1⟩
  | 126 => ⟨S_, .i32⟩
  | 127 => ⟨S850000, .i32⟩
  | _ => ⟨S50000x256, .f32⟩

abbrev hbmTy0_1 (i : Nat) : BufTy := match i % 128 with
  | 0 => ⟨S850000, .i32⟩
  | 1 => ⟨S850000, .i32⟩
  | 2 => ⟨S850000x1, .i32⟩
  | 3 => ⟨S850000x128, .f32⟩
  | 4 => ⟨S850000x1, .f32⟩
  | 5 => ⟨S850000x128, .f32⟩
  | 6 => ⟨S850000x128, .f32⟩
  | 7 => ⟨S_, .f32⟩
  | 8 => ⟨S50000x128, .f32⟩
  | 9 => ⟨S850000x1, .i32⟩
  | 10 => ⟨S50000x128, .f32⟩
  | 11 => ⟨S_, .f32⟩
  | 12 => ⟨S50000x128, .f32⟩
  | 13 => ⟨S50000x128, .f32⟩
  | 14 => ⟨S50000x128, .f32⟩
  | 15 => ⟨S_, .f32⟩
  | 16 => ⟨S50000x128, .f32⟩
  | 17 => ⟨S50000x128, .f32⟩
  | 18 => ⟨S50000x128, .f32⟩
  | 19 => ⟨S1x128, .f32⟩
  | 20 => ⟨S50000x128, .f32⟩
  | 21 => ⟨S50000x128, .f32⟩
  | 22 => ⟨S50000x128, .f32⟩
  | 23 => ⟨S_, .f32⟩
  | 24 => ⟨S50000x128, .f32⟩
  | 25 => ⟨S50000x128, .i1⟩
  | 26 => ⟨S_, .f32⟩
  | 27 => ⟨S50000x128, .f32⟩
  | 28 => ⟨S50000x128, .i1⟩
  | 29 => ⟨S_, .f32⟩
  | 30 => ⟨S_, .f32⟩
  | 31 => ⟨S50000x128, .f32⟩
  | 32 => ⟨S50000x128, .f32⟩
  | 33 => ⟨S50000x128, .f32⟩
  | 34 => ⟨S_, .f32⟩
  | 35 => ⟨S50000x128, .f32⟩
  | 36 => ⟨S50000x128, .f32⟩
  | 37 => ⟨S50000x128, .f32⟩
  | 38 => ⟨S50000x128, .f32⟩
  | 39 => ⟨S1x128, .f32⟩
  | 40 => ⟨S50000x128, .f32⟩
  | 41 => ⟨S50000x128, .f32⟩
  | 42 => ⟨S50000, .i32⟩
  | 43 => ⟨S1x800000, .i32⟩
  | 44 => ⟨S800000, .i32⟩
  | 45 => ⟨S850000, .i32⟩
  | 46 => ⟨S1x800000, .i32⟩
  | 47 => ⟨S800000, .i32⟩
  | 48 => ⟨S850000, .i32⟩
  | 49 => ⟨S_, .f32⟩
  | 50 => ⟨S850000, .f32⟩
  | 51 => ⟨S_, .f32⟩
  | 52 => ⟨S50000, .f32⟩
  | 53 => ⟨S850000x1, .i32⟩
  | 54 => ⟨S50000, .f32⟩
  | 55 => ⟨S_, .f32⟩
  | 56 => ⟨S50000, .f32⟩
  | 57 => ⟨S50000, .f32⟩
  | 58 => ⟨S50000, .f32⟩
  | 59 => ⟨S_, .i32⟩
  | 60 => ⟨S850000, .i32⟩
  | 61 => ⟨S850000, .i1⟩
  | 62 => ⟨S_, .i32⟩
  | 63 => ⟨S850000, .i32⟩
  | 64 => ⟨S850000, .i32⟩
  | 65 => ⟨S850000, .i32⟩
  | 66 => ⟨S850000x1, .i32⟩
  | 67 => ⟨S850000, .f32⟩
  | 68 => ⟨S_, .i32⟩
  | 69 => ⟨S850000, .i32⟩
  | 70 => ⟨S850000, .i1⟩
  | 71 => ⟨S_, .i32⟩
  | 72 => ⟨S850000, .i32⟩
  | 73 => ⟨S850000, .i32⟩
  | 74 => ⟨S850000, .i32⟩
  | 75 => ⟨S850000x1, .i32⟩
  | 76 => ⟨S850000, .f32⟩
  | 77 => ⟨S850000, .f32⟩
  | 78 => ⟨S_, .i32⟩
  | 79 => ⟨S850000, .i32⟩
  | 80 => ⟨S850000, .i1⟩
  | 81 => ⟨S_, .i32⟩
  | 82 => ⟨S850000, .i32⟩
  | 83 => ⟨S850000, .i32⟩
  | 84 => ⟨S850000, .i32⟩
  | 85 => ⟨S850000x1, .i32⟩
  | 86 => ⟨S850000x128, .f32⟩
  | 87 => ⟨S850000x1, .f32⟩
  | 88 => ⟨S850000x128, .f32⟩
  | 89 => ⟨S850000x128, .f32⟩
  | 90 => ⟨S_, .f32⟩
  | 91 => ⟨S50000x128, .f32⟩
  | 92 => ⟨S850000x1, .i32⟩
  | 93 => ⟨S50000x128, .f32⟩
  | 94 => ⟨S_, .f32⟩
  | 95 => ⟨S50000x128, .f32⟩
  | 96 => ⟨S50000x128, .f32⟩
  | 97 => ⟨S50000x128, .f32⟩
  | 98 => ⟨S_, .f32⟩
  | 99 => ⟨S50000x128, .f32⟩
  | 100 => ⟨S50000x128, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000x128, .f32⟩
  | 110 => ⟨S850000x1, .f32⟩
  | 111 => ⟨S850000x128, .f32⟩
  | 112 => ⟨S850000x128, .f32⟩
  | 113 => ⟨S_, .f32⟩
  | 114 => ⟨S50000x128, .f32⟩
  | 115 => ⟨S850000x1, .i32⟩
  | 116 => ⟨S50000x128, .f32⟩
  | 117 => ⟨S_, .f32⟩
  | 118 => ⟨S50000x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S_, .i32⟩
  | 125 => ⟨S850000, .i32⟩
  | 126 => ⟨S850000, .i1⟩
  | 127 => ⟨S_, .i32⟩
  | _ => ⟨S50000x256, .f32⟩

abbrev hbmTy0_2 (i : Nat) : BufTy := match i % 128 with
  | 0 => ⟨S850000, .i32⟩
  | 1 => ⟨S850000, .i32⟩
  | 2 => ⟨S850000, .i32⟩
  | 3 => ⟨S850000x1, .i32⟩
  | 4 => ⟨S850000x128, .f32⟩
  | 5 => ⟨S850000x1, .f32⟩
  | 6 => ⟨S850000x128, .f32⟩
  | 7 => ⟨S850000x128, .f32⟩
  | 8 => ⟨S_, .f32⟩
  | 9 => ⟨S50000x128, .f32⟩
  | 10 => ⟨S850000x1, .i32⟩
  | 11 => ⟨S50000x128, .f32⟩
  | 12 => ⟨S_, .f32⟩
  | 13 => ⟨S50000x128, .f32⟩
  | 14 => ⟨S50000x128, .f32⟩
  | 15 => ⟨S50000x128, .f32⟩
  | 16 => ⟨S_, .f32⟩
  | 17 => ⟨S50000x128, .f32⟩
  | 18 => ⟨S50000x128, .f32⟩
  | 19 => ⟨S_, .i32⟩
  | 20 => ⟨S850000, .i32⟩
  | 21 => ⟨S850000, .i1⟩
  | 22 => ⟨S_, .i32⟩
  | 23 => ⟨S850000, .i32⟩
  | 24 => ⟨S850000, .i32⟩
  | 25 => ⟨S850000, .i32⟩
  | 26 => ⟨S850000x1, .i32⟩
  | 27 => ⟨S850000x128, .f32⟩
  | 28 => ⟨S850000x1, .f32⟩
  | 29 => ⟨S850000x128, .f32⟩
  | 30 => ⟨S850000x128, .f32⟩
  | 31 => ⟨S_, .f32⟩
  | 32 => ⟨S50000x128, .f32⟩
  | 33 => ⟨S850000x1, .i32⟩
  | 34 => ⟨S50000x128, .f32⟩
  | 35 => ⟨S_, .f32⟩
  | 36 => ⟨S50000x128, .f32⟩
  | 37 => ⟨S50000x128, .f32⟩
  | 38 => ⟨S50000x128, .f32⟩
  | 39 => ⟨S_, .f32⟩
  | 40 => ⟨S50000x128, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S50000x128, .f32⟩
  | 47 => ⟨S_, .f32⟩
  | 48 => ⟨S50000x128, .f32⟩
  | 49 => ⟨S50000x128, .i1⟩
  | 50 => ⟨S_, .f32⟩
  | 51 => ⟨S50000x128, .f32⟩
  | 52 => ⟨S50000x128, .i1⟩
  | 53 => ⟨S_, .f32⟩
  | 54 => ⟨S_, .f32⟩
  | 55 => ⟨S50000x128, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S50000x128, .f32⟩
  | 62 => ⟨S50000x64, .f32⟩
  | 63 => ⟨S1x64, .f32⟩
  | 64 => ⟨S50000x64, .f32⟩
  | 65 => ⟨S50000x64, .f32⟩
  | 66 => ⟨S50000, .i32⟩
  | 67 => ⟨S1x800000, .i32⟩
  | 68 => ⟨S800000, .i32⟩
  | 69 => ⟨S850000, .i32⟩
  | 70 => ⟨S1x800000, .i32⟩
  | 71 => ⟨S800000, .i32⟩
  | 72 => ⟨S850000, .i32⟩
  | 73 => ⟨S_, .f32⟩
  | 74 => ⟨S850000, .f32⟩
  | 75 => ⟨S_, .f32⟩
  | 76 => ⟨S50000, .f32⟩
  | 77 => ⟨S850000x1, .i32⟩
  | 78 => ⟨S50000, .f32⟩
  | 79 => ⟨S_, .f32⟩
  | 80 => ⟨S50000, .f32⟩
  | 81 => ⟨S50000, .f32⟩
  | 82 => ⟨S50000, .f32⟩
  | 83 => ⟨S_, .i32⟩
  | 84 => ⟨S850000, .i32⟩
  | 85 => ⟨S850000, .i1⟩
  | 86 => ⟨S_, .i32⟩
  | 87 => ⟨S850000, .i32⟩
  | 88 => ⟨S850000, .i32⟩
  | 89 => ⟨S850000, .i32⟩
  | 90 => ⟨S850000x1, .i32⟩
  | 91 => ⟨S850000, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000, .f32⟩
  | 101 => ⟨S850000, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000x64, .f32⟩
  | 111 => ⟨S850000x1, .f32⟩
  | 112 => ⟨S850000x64, .f32⟩
  | 113 => ⟨S850000x64, .f32⟩
  | 114 => ⟨S_, .f32⟩
  | 115 => ⟨S50000x64, .f32⟩
  | 116 => ⟨S850000x1, .i32⟩
  | 117 => ⟨S50000x64, .f32⟩
  | 118 => ⟨S_, .f32⟩
  | 119 => ⟨S50000x64, .f32⟩
  | 120 => ⟨S50000x64, .f32⟩
  | 121 => ⟨S50000x64, .f32⟩
  | 122 => ⟨S_, .f32⟩
  | 123 => ⟨S50000x64, .f32⟩
  | 124 => ⟨S50000x64, .f32⟩
  | 125 => ⟨S_, .i32⟩
  | 126 => ⟨S850000, .i32⟩
  | 127 => ⟨S850000, .i1⟩
  | _ => ⟨S50000x256, .f32⟩

abbrev hbmTy0_3 (i : Nat) : BufTy := match i % 128 with
  | 0 => ⟨S_, .i32⟩
  | 1 => ⟨S850000, .i32⟩
  | 2 => ⟨S850000, .i32⟩
  | 3 => ⟨S850000, .i32⟩
  | 4 => ⟨S850000x1, .i32⟩
  | 5 => ⟨S850000x64, .f32⟩
  | 6 => ⟨S850000x1, .f32⟩
  | 7 => ⟨S850000x64, .f32⟩
  | 8 => ⟨S850000x64, .f32⟩
  | 9 => ⟨S_, .f32⟩
  | 10 => ⟨S50000x64, .f32⟩
  | 11 => ⟨S850000x1, .i32⟩
  | 12 => ⟨S50000x64, .f32⟩
  | 13 => ⟨S_, .f32⟩
  | 14 => ⟨S50000x64, .f32⟩
  | 15 => ⟨S50000x64, .f32⟩
  | 16 => ⟨S50000x64, .f32⟩
  | 17 => ⟨S_, .f32⟩
  | 18 => ⟨S50000x64, .f32⟩
  | 19 => ⟨S50000x64, .f32⟩
  | 20 => ⟨S_, .i32⟩
  | 21 => ⟨S850000, .i32⟩
  | 22 => ⟨S850000, .i1⟩
  | 23 => ⟨S_, .i32⟩
  | 24 => ⟨S850000, .i32⟩
  | 25 => ⟨S850000, .i32⟩
  | 26 => ⟨S850000, .i32⟩
  | 27 => ⟨S850000x1, .i32⟩
  | 28 => ⟨S850000x64, .f32⟩
  | 29 => ⟨S850000x1, .f32⟩
  | 30 => ⟨S850000x64, .f32⟩
  | 31 => ⟨S850000x64, .f32⟩
  | 32 => ⟨S_, .f32⟩
  | 33 => ⟨S50000x64, .f32⟩
  | 34 => ⟨S850000x1, .i32⟩
  | 35 => ⟨S50000x64, .f32⟩
  | 36 => ⟨S_, .f32⟩
  | 37 => ⟨S50000x64, .f32⟩
  | 38 => ⟨S50000x64, .f32⟩
  | 39 => ⟨S50000x64, .f32⟩
  | 40 => ⟨S_, .f32⟩
  | 41 => ⟨S50000x64, .f32⟩
  | 42 => ⟨S50000x64, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000x64, .f32⟩
  | 52 => ⟨S850000x1, .f32⟩
  | 53 => ⟨S850000x64, .f32⟩
  | 54 => ⟨S850000x64, .f32⟩
  | 55 => ⟨S_, .f32⟩
  | 56 => ⟨S50000x64, .f32⟩
  | 57 => ⟨S850000x1, .i32⟩
  | 58 => ⟨S50000x64, .f32⟩
  | 59 => ⟨S_, .f32⟩
  | 60 => ⟨S50000x64, .f32⟩
  | 61 => ⟨S50000x64, .f32⟩
  | 62 => ⟨S50000x64, .f32⟩
  | 63 => ⟨S_, .f32⟩
  | 64 => ⟨S50000x64, .f32⟩
  | 65 => ⟨S50000x64, .f32⟩
  | 66 => ⟨S50000x64, .f32⟩
  | 67 => ⟨S1x64, .f32⟩
  | 68 => ⟨S50000x64, .f32⟩
  | 69 => ⟨S50000x64, .f32⟩
  | 70 => ⟨S50000x64, .f32⟩
  | _ => ⟨S50000x256, .f32⟩

abbrev hbmTy (i : Nat) : BufTy := match i / 128 with
  | 0 => hbmTy0_0 i
  | 1 => hbmTy0_1 i
  | 2 => hbmTy0_2 i
  | 3 => hbmTy0_3 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_3 : Ref sig .tc := ⟨.hbm, 44, rfl⟩
abbrev main_v25 : Ref sig .tc := ⟨.hbm, 45, rfl⟩
abbrev main_v26 : Ref sig .tc := ⟨.hbm, 46, rfl⟩
abbrev main_c_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_5 : Ref sig .tc := ⟨.hbm, 54, rfl⟩
abbrev main_v33 : Ref sig .tc := ⟨.hbm, 55, rfl⟩
abbrev main_v34 : Ref sig .tc := ⟨.hbm, 56, rfl⟩
abbrev main_c_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_13 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_14 : Ref sig .tc := ⟨.hbm, 97, rfl⟩
abbrev main_v67 : Ref sig .tc := ⟨.hbm, 98, rfl⟩
abbrev main_v68 : Ref sig .tc := ⟨.hbm, 99, rfl⟩
abbrev main_c_15 : Ref sig .tc := ⟨.hbm, 100, rfl⟩
abbrev main_v69 : Ref sig .tc := ⟨.hbm, 101, rfl⟩
abbrev main_v70 : Ref sig .tc := ⟨.hbm, 102, rfl⟩
abbrev main_c_16 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_17 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_18 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_c_20 : Ref sig .tc := ⟨.hbm, 123, rfl⟩
abbrev main_v87 : Ref sig .tc := ⟨.hbm, 124, rfl⟩
abbrev main_v88 : Ref sig .tc := ⟨.hbm, 125, rfl⟩
abbrev main_c_21 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_22 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_cst_23 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_24 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_call0_cst : Ref sig .tc := ⟨.hbm, 151, rfl⟩
abbrev main_call0_v0 : Ref sig .tc := ⟨.hbm, 152, rfl⟩
abbrev main_call0_v1 : Ref sig .tc := ⟨.hbm, 153, rfl⟩
abbrev main_call0_cst_0 : Ref sig .tc := ⟨.hbm, 154, rfl⟩
abbrev main_call0_v2 : Ref sig .tc := ⟨.hbm, 155, rfl⟩
abbrev main_call0_v3 : Ref sig .tc := ⟨.hbm, 156, rfl⟩
abbrev main_call0_cst_1 : Ref sig .tc := ⟨.hbm, 157, rfl⟩
abbrev main_call0_call0_v0 : Ref sig .tc := ⟨.hbm, 158, rfl⟩
abbrev main_call0_call0_v1 : Ref sig .tc := ⟨.hbm, 159, rfl⟩
abbrev main_call0_v4 : Ref sig .tc := ⟨.hbm, 160, rfl⟩
abbrev main_call0_v5 : Ref sig .tc := ⟨.hbm, 161, rfl⟩
abbrev main_call0_cst_2 : Ref sig .tc := ⟨.hbm, 162, rfl⟩
abbrev main_call0_v6 : Ref sig .tc := ⟨.hbm, 163, rfl⟩
abbrev main_call0_v7 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_cst_25 : Ref sig .tc := ⟨.hbm, 177, rfl⟩
abbrev main_v122 : Ref sig .tc := ⟨.hbm, 178, rfl⟩
abbrev main_cst_26 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_cst_27 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_c_28 : Ref sig .tc := ⟨.hbm, 187, rfl⟩
abbrev main_v129 : Ref sig .tc := ⟨.hbm, 188, rfl⟩
abbrev main_v130 : Ref sig .tc := ⟨.hbm, 189, rfl⟩
abbrev main_c_29 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_c_30 : Ref sig .tc := ⟨.hbm, 196, rfl⟩
abbrev main_v136 : Ref sig .tc := ⟨.hbm, 197, rfl⟩
abbrev main_v137 : Ref sig .tc := ⟨.hbm, 198, rfl⟩
abbrev main_c_31 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_c_32 : Ref sig .tc := ⟨.hbm, 206, rfl⟩
abbrev main_v144 : Ref sig .tc := ⟨.hbm, 207, rfl⟩
abbrev main_v145 : Ref sig .tc := ⟨.hbm, 208, rfl⟩
abbrev main_c_33 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_cst_34 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_cst_35 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_cst_36 : Ref sig .tc := ⟨.hbm, 226, rfl⟩
abbrev main_v160 : Ref sig .tc := ⟨.hbm, 227, rfl⟩
abbrev main_v161 : Ref sig .tc := ⟨.hbm, 228, rfl⟩
abbrev main_c_37 : Ref sig .tc := ⟨.hbm, 229, rfl⟩
abbrev main_v162 : Ref sig .tc := ⟨.hbm, 230, rfl⟩
abbrev main_v163 : Ref sig .tc := ⟨.hbm, 231, rfl⟩
abbrev main_c_38 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_cst_39 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_cst_40 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_cst_41 : Ref sig .tc := ⟨.hbm, 249, rfl⟩
abbrev main_v178 : Ref sig .tc := ⟨.hbm, 250, rfl⟩
abbrev main_v179 : Ref sig .tc := ⟨.hbm, 251, rfl⟩
abbrev main_c_42 : Ref sig .tc := ⟨.hbm, 252, rfl⟩
abbrev main_v180 : Ref sig .tc := ⟨.hbm, 253, rfl⟩
abbrev main_v181 : Ref sig .tc := ⟨.hbm, 254, rfl⟩
abbrev main_c_43 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_cst_44 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_cst_45 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_cst_46 : Ref sig .tc := ⟨.hbm, 272, rfl⟩
abbrev main_v196 : Ref sig .tc := ⟨.hbm, 273, rfl⟩
abbrev main_v197 : Ref sig .tc := ⟨.hbm, 274, rfl⟩
abbrev main_c_47 : Ref sig .tc := ⟨.hbm, 275, rfl⟩
abbrev main_v198 : Ref sig .tc := ⟨.hbm, 276, rfl⟩
abbrev main_v199 : Ref sig .tc := ⟨.hbm, 277, rfl⟩
abbrev main_c_48 : Ref sig .tc := ⟨.hbm, 278, rfl⟩
abbrev main_v200 : Ref sig .tc := ⟨.hbm, 279, rfl⟩
abbrev main_v201 : Ref sig .tc := ⟨.hbm, 280, rfl⟩
abbrev main_v202 : Ref sig .tc := ⟨.hbm, 281, rfl⟩
abbrev main_v203 : Ref sig .tc := ⟨.hbm, 282, rfl⟩
abbrev main_v204 : Ref sig .tc := ⟨.hbm, 283, rfl⟩
abbrev main_v205 : Ref sig .tc := ⟨.hbm, 284, rfl⟩
abbrev main_v206 : Ref sig .tc := ⟨.hbm, 285, rfl⟩
abbrev main_v207 : Ref sig .tc := ⟨.hbm, 286, rfl⟩
abbrev main_cst_49 : Ref sig .tc := ⟨.hbm, 287, rfl⟩
abbrev main_v208 : Ref sig .tc := ⟨.hbm, 288, rfl⟩
abbrev main_v209 : Ref sig .tc := ⟨.hbm, 289, rfl⟩
abbrev main_v210 : Ref sig .tc := ⟨.hbm, 290, rfl⟩
abbrev main_cst_50 : Ref sig .tc := ⟨.hbm, 291, rfl⟩
abbrev main_v211 : Ref sig .tc := ⟨.hbm, 292, rfl⟩
abbrev main_v212 : Ref sig .tc := ⟨.hbm, 293, rfl⟩
abbrev main_v213 : Ref sig .tc := ⟨.hbm, 294, rfl⟩
abbrev main_cst_51 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_v217 : Ref sig .tc := ⟨.hbm, 299, rfl⟩
abbrev main_v218 : Ref sig .tc := ⟨.hbm, 300, rfl⟩
abbrev main_v219 : Ref sig .tc := ⟨.hbm, 301, rfl⟩
abbrev main_v220 : Ref sig .tc := ⟨.hbm, 302, rfl⟩
abbrev main_call1_cst : Ref sig .tc := ⟨.hbm, 303, rfl⟩
abbrev main_call1_v0 : Ref sig .tc := ⟨.hbm, 304, rfl⟩
abbrev main_call1_v1 : Ref sig .tc := ⟨.hbm, 305, rfl⟩
abbrev main_call1_cst_0 : Ref sig .tc := ⟨.hbm, 306, rfl⟩
abbrev main_call1_v2 : Ref sig .tc := ⟨.hbm, 307, rfl⟩
abbrev main_call1_v3 : Ref sig .tc := ⟨.hbm, 308, rfl⟩
abbrev main_call1_cst_1 : Ref sig .tc := ⟨.hbm, 309, rfl⟩
abbrev main_call1_call0_v0 : Ref sig .tc := ⟨.hbm, 310, rfl⟩
abbrev main_call1_call0_v1 : Ref sig .tc := ⟨.hbm, 311, rfl⟩
abbrev main_call1_v4 : Ref sig .tc := ⟨.hbm, 312, rfl⟩
abbrev main_call1_v5 : Ref sig .tc := ⟨.hbm, 313, rfl⟩
abbrev main_call1_cst_2 : Ref sig .tc := ⟨.hbm, 314, rfl⟩
abbrev main_call1_v6 : Ref sig .tc := ⟨.hbm, 315, rfl⟩
abbrev main_call1_v7 : Ref sig .tc := ⟨.hbm, 316, rfl⟩
abbrev main_v221 : Ref sig .tc := ⟨.hbm, 317, rfl⟩
abbrev main_v222 : Ref sig .tc := ⟨.hbm, 318, rfl⟩
abbrev main_v223 : Ref sig .tc := ⟨.hbm, 319, rfl⟩
abbrev main_v224 : Ref sig .tc := ⟨.hbm, 320, rfl⟩
abbrev main_v225 : Ref sig .tc := ⟨.hbm, 321, rfl⟩
abbrev main_v226 : Ref sig .tc := ⟨.hbm, 322, rfl⟩
abbrev main_v227 : Ref sig .tc := ⟨.hbm, 323, rfl⟩
abbrev main_v228 : Ref sig .tc := ⟨.hbm, 324, rfl⟩
abbrev main_v229 : Ref sig .tc := ⟨.hbm, 325, rfl⟩
abbrev main_v230 : Ref sig .tc := ⟨.hbm, 326, rfl⟩
abbrev main_v231 : Ref sig .tc := ⟨.hbm, 327, rfl⟩
abbrev main_v232 : Ref sig .tc := ⟨.hbm, 328, rfl⟩
abbrev main_cst_52 : Ref sig .tc := ⟨.hbm, 329, rfl⟩
abbrev main_v233 : Ref sig .tc := ⟨.hbm, 330, rfl⟩
abbrev main_cst_53 : Ref sig .tc := ⟨.hbm, 331, rfl⟩
abbrev main_v234 : Ref sig .tc := ⟨.hbm, 332, rfl⟩
abbrev main_v235 : Ref sig .tc := ⟨.hbm, 333, rfl⟩
abbrev main_v236 : Ref sig .tc := ⟨.hbm, 334, rfl⟩
abbrev main_cst_54 : Ref sig .tc := ⟨.hbm, 335, rfl⟩
abbrev main_v237 : Ref sig .tc := ⟨.hbm, 336, rfl⟩
abbrev main_v238 : Ref sig .tc := ⟨.hbm, 337, rfl⟩
abbrev main_v239 : Ref sig .tc := ⟨.hbm, 338, rfl⟩
abbrev main_c_55 : Ref sig .tc := ⟨.hbm, 339, rfl⟩
abbrev main_v240 : Ref sig .tc := ⟨.hbm, 340, rfl⟩
abbrev main_v241 : Ref sig .tc := ⟨.hbm, 341, rfl⟩
abbrev main_c_56 : Ref sig .tc := ⟨.hbm, 342, rfl⟩
abbrev main_v242 : Ref sig .tc := ⟨.hbm, 343, rfl⟩
abbrev main_v243 : Ref sig .tc := ⟨.hbm, 344, rfl⟩
abbrev main_v244 : Ref sig .tc := ⟨.hbm, 345, rfl⟩
abbrev main_v245 : Ref sig .tc := ⟨.hbm, 346, rfl⟩
abbrev main_v246 : Ref sig .tc := ⟨.hbm, 347, rfl⟩
abbrev main_c_57 : Ref sig .tc := ⟨.hbm, 348, rfl⟩
abbrev main_v247 : Ref sig .tc := ⟨.hbm, 349, rfl⟩
abbrev main_v248 : Ref sig .tc := ⟨.hbm, 350, rfl⟩
abbrev main_c_58 : Ref sig .tc := ⟨.hbm, 351, rfl⟩
abbrev main_v249 : Ref sig .tc := ⟨.hbm, 352, rfl⟩
abbrev main_v250 : Ref sig .tc := ⟨.hbm, 353, rfl⟩
abbrev main_v251 : Ref sig .tc := ⟨.hbm, 354, rfl⟩
abbrev main_v252 : Ref sig .tc := ⟨.hbm, 355, rfl⟩
abbrev main_v253 : Ref sig .tc := ⟨.hbm, 356, rfl⟩
abbrev main_v254 : Ref sig .tc := ⟨.hbm, 357, rfl⟩
abbrev main_c_59 : Ref sig .tc := ⟨.hbm, 358, rfl⟩
abbrev main_v255 : Ref sig .tc := ⟨.hbm, 359, rfl⟩
abbrev main_v256 : Ref sig .tc := ⟨.hbm, 360, rfl⟩
abbrev main_c_60 : Ref sig .tc := ⟨.hbm, 361, rfl⟩
abbrev main_v257 : Ref sig .tc := ⟨.hbm, 362, rfl⟩
abbrev main_v258 : Ref sig .tc := ⟨.hbm, 363, rfl⟩
abbrev main_v259 : Ref sig .tc := ⟨.hbm, 364, rfl⟩
abbrev main_v260 : Ref sig .tc := ⟨.hbm, 365, rfl⟩
abbrev main_v261 : Ref sig .tc := ⟨.hbm, 366, rfl⟩
abbrev main_v262 : Ref sig .tc := ⟨.hbm, 367, rfl⟩
abbrev main_v263 : Ref sig .tc := ⟨.hbm, 368, rfl⟩
abbrev main_v264 : Ref sig .tc := ⟨.hbm, 369, rfl⟩
abbrev main_cst_61 : Ref sig .tc := ⟨.hbm, 370, rfl⟩
abbrev main_v265 : Ref sig .tc := ⟨.hbm, 371, rfl⟩
abbrev main_v266 : Ref sig .tc := ⟨.hbm, 372, rfl⟩
abbrev main_v267 : Ref sig .tc := ⟨.hbm, 373, rfl⟩
abbrev main_cst_62 : Ref sig .tc := ⟨.hbm, 374, rfl⟩
abbrev main_v268 : Ref sig .tc := ⟨.hbm, 375, rfl⟩
abbrev main_v269 : Ref sig .tc := ⟨.hbm, 376, rfl⟩
abbrev main_v270 : Ref sig .tc := ⟨.hbm, 377, rfl⟩
abbrev main_cst_63 : Ref sig .tc := ⟨.hbm, 378, rfl⟩
abbrev main_v271 : Ref sig .tc := ⟨.hbm, 379, rfl⟩
abbrev main_v272 : Ref sig .tc := ⟨.hbm, 380, rfl⟩
abbrev main_c_64 : Ref sig .tc := ⟨.hbm, 381, rfl⟩
abbrev main_v273 : Ref sig .tc := ⟨.hbm, 382, rfl⟩
abbrev main_v274 : Ref sig .tc := ⟨.hbm, 383, rfl⟩
abbrev main_c_65 : Ref sig .tc := ⟨.hbm, 384, rfl⟩
abbrev main_v275 : Ref sig .tc := ⟨.hbm, 385, rfl⟩
abbrev main_v276 : Ref sig .tc := ⟨.hbm, 386, rfl⟩
abbrev main_v277 : Ref sig .tc := ⟨.hbm, 387, rfl⟩
abbrev main_v278 : Ref sig .tc := ⟨.hbm, 388, rfl⟩
abbrev main_v279 : Ref sig .tc := ⟨.hbm, 389, rfl⟩
abbrev main_v280 : Ref sig .tc := ⟨.hbm, 390, rfl⟩
abbrev main_v281 : Ref sig .tc := ⟨.hbm, 391, rfl⟩
abbrev main_v282 : Ref sig .tc := ⟨.hbm, 392, rfl⟩
abbrev main_cst_66 : Ref sig .tc := ⟨.hbm, 393, rfl⟩
abbrev main_v283 : Ref sig .tc := ⟨.hbm, 394, rfl⟩
abbrev main_v284 : Ref sig .tc := ⟨.hbm, 395, rfl⟩
abbrev main_v285 : Ref sig .tc := ⟨.hbm, 396, rfl⟩
abbrev main_cst_67 : Ref sig .tc := ⟨.hbm, 397, rfl⟩
abbrev main_v286 : Ref sig .tc := ⟨.hbm, 398, rfl⟩
abbrev main_v287 : Ref sig .tc := ⟨.hbm, 399, rfl⟩
abbrev main_v288 : Ref sig .tc := ⟨.hbm, 400, rfl⟩
abbrev main_cst_68 : Ref sig .tc := ⟨.hbm, 401, rfl⟩
abbrev main_v289 : Ref sig .tc := ⟨.hbm, 402, rfl⟩
abbrev main_v290 : Ref sig .tc := ⟨.hbm, 403, rfl⟩
abbrev main_c_69 : Ref sig .tc := ⟨.hbm, 404, rfl⟩
abbrev main_v291 : Ref sig .tc := ⟨.hbm, 405, rfl⟩
abbrev main_v292 : Ref sig .tc := ⟨.hbm, 406, rfl⟩
abbrev main_c_70 : Ref sig .tc := ⟨.hbm, 407, rfl⟩
abbrev main_v293 : Ref sig .tc := ⟨.hbm, 408, rfl⟩
abbrev main_v294 : Ref sig .tc := ⟨.hbm, 409, rfl⟩
abbrev main_v295 : Ref sig .tc := ⟨.hbm, 410, rfl⟩
abbrev main_v296 : Ref sig .tc := ⟨.hbm, 411, rfl⟩
abbrev main_v297 : Ref sig .tc := ⟨.hbm, 412, rfl⟩
abbrev main_v298 : Ref sig .tc := ⟨.hbm, 413, rfl⟩
abbrev main_v299 : Ref sig .tc := ⟨.hbm, 414, rfl⟩
abbrev main_v300 : Ref sig .tc := ⟨.hbm, 415, rfl⟩
abbrev main_cst_71 : Ref sig .tc := ⟨.hbm, 416, rfl⟩
abbrev main_v301 : Ref sig .tc := ⟨.hbm, 417, rfl⟩
abbrev main_v302 : Ref sig .tc := ⟨.hbm, 418, rfl⟩
abbrev main_v303 : Ref sig .tc := ⟨.hbm, 419, rfl⟩
abbrev main_cst_72 : Ref sig .tc := ⟨.hbm, 420, rfl⟩
abbrev main_v304 : Ref sig .tc := ⟨.hbm, 421, rfl⟩
abbrev main_v305 : Ref sig .tc := ⟨.hbm, 422, rfl⟩
abbrev main_v306 : Ref sig .tc := ⟨.hbm, 423, rfl⟩
abbrev main_cst_73 : Ref sig .tc := ⟨.hbm, 424, rfl⟩
abbrev main_v307 : Ref sig .tc := ⟨.hbm, 425, rfl⟩
abbrev main_v308 : Ref sig .tc := ⟨.hbm, 426, rfl⟩
abbrev main_c_74 : Ref sig .tc := ⟨.hbm, 427, rfl⟩
abbrev main_v309 : Ref sig .tc := ⟨.hbm, 428, rfl⟩
abbrev main_v310 : Ref sig .tc := ⟨.hbm, 429, rfl⟩
abbrev main_c_75 : Ref sig .tc := ⟨.hbm, 430, rfl⟩
abbrev main_v311 : Ref sig .tc := ⟨.hbm, 431, rfl⟩
abbrev main_v312 : Ref sig .tc := ⟨.hbm, 432, rfl⟩
abbrev main_v313 : Ref sig .tc := ⟨.hbm, 433, rfl⟩
abbrev main_v314 : Ref sig .tc := ⟨.hbm, 434, rfl⟩
abbrev main_v315 : Ref sig .tc := ⟨.hbm, 435, rfl⟩
abbrev main_v316 : Ref sig .tc := ⟨.hbm, 436, rfl⟩
abbrev main_v317 : Ref sig .tc := ⟨.hbm, 437, rfl⟩
abbrev main_v318 : Ref sig .tc := ⟨.hbm, 438, rfl⟩
abbrev main_cst_76 : Ref sig .tc := ⟨.hbm, 439, rfl⟩
abbrev main_v319 : Ref sig .tc := ⟨.hbm, 440, rfl⟩
abbrev main_v320 : Ref sig .tc := ⟨.hbm, 441, rfl⟩
abbrev main_v321 : Ref sig .tc := ⟨.hbm, 442, rfl⟩
abbrev main_cst_77 : Ref sig .tc := ⟨.hbm, 443, rfl⟩
abbrev main_v322 : Ref sig .tc := ⟨.hbm, 444, rfl⟩
abbrev main_v323 : Ref sig .tc := ⟨.hbm, 445, rfl⟩
abbrev main_v324 : Ref sig .tc := ⟨.hbm, 446, rfl⟩
abbrev main_cst_78 : Ref sig .tc := ⟨.hbm, 447, rfl⟩
abbrev main_v325 : Ref sig .tc := ⟨.hbm, 448, rfl⟩
abbrev main_v326 : Ref sig .tc := ⟨.hbm, 449, rfl⟩
abbrev main_v327 : Ref sig .tc := ⟨.hbm, 450, rfl⟩
abbrev main_v328 : Ref sig .tc := ⟨.hbm, 451, rfl⟩
abbrev main_v329 : Ref sig .tc := ⟨.hbm, 452, rfl⟩
abbrev main_v330 : Ref sig .tc := ⟨.hbm, 453, rfl⟩
abbrev main_v331 : Ref sig .tc := ⟨.hbm, 454, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  dot_S50000x256_S256x128_S50000x128_1_0_0_1_n_n_wf : DotDims.WF S50000x256 S256x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KRun.lean ====
/-
  The idealized kernel's run with its result named. Every weakly fair execution of @main terminates without a
  fault, the fourteen argument arrays end as launched, and the result array (the last launch's output) ends at
  the contents the fold of buffer contents through @main's thirty-nine segments assigns it at the last boundary:
  each host stretch applies its operations to the contents before it, each launch replaces its output array by
  what its grid points wrote back and leaves every other buffer alone. The later modules read that fold, segment
  by segment, as one function of the argument arrays.
-/
import proofs.«149349_j76854144794846_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, with the result array read at the last boundary's contents and the arguments unchanged. -/
theorem run_result : θ_run defs (onTc (τ := τ) (main (F := F))) ⟨m, fun _ => 0, ρ⟩ (fun r => ∀ c : Dev nD,
      r.2.mem ((c.tc : Thread nD τ).loc main_v211) = W39 m ρ c (Proc.devRef .tc main_v211)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W39 m ρ c b)
    (hfin := fun c s' => by
      iintro ⟨⟨Hh, -⟩, HSI⟩
      unfold StableHlo.held
      imodintro
      iapply (pointsTo_read_all (Pipeline.ucRefs τ sig) (fun b => (((c : Thread nD τ)).1, b)) (W39 m ρ c) s')
      isplitl [Hh] <;> iassumption)
    (hQ := fun s h c =>
      ⟨h c _ (mem_uc main_v211 (by decide)),
       (h c _ (mem_uc main_arg0 (by decide))).trans (W39_main_arg0 m ρ c),
       (h c _ (mem_uc main_arg1 (by decide))).trans (W39_main_arg1 m ρ c),
       (h c _ (mem_uc main_arg2 (by decide))).trans (W39_main_arg2 m ρ c),
       (h c _ (mem_uc main_arg3 (by decide))).trans (W39_main_arg3 m ρ c),
       (h c _ (mem_uc main_arg4 (by decide))).trans (W39_main_arg4 m ρ c),
       (h c _ (mem_uc main_arg5 (by decide))).trans (W39_main_arg5 m ρ c),
       (h c _ (mem_uc main_arg6 (by decide))).trans (W39_main_arg6 m ρ c),
       (h c _ (mem_uc main_arg7 (by decide))).trans (W39_main_arg7 m ρ c),
       (h c _ (mem_uc main_arg8 (by decide))).trans (W39_main_arg8 m ρ c),
       (h c _ (mem_uc main_arg9 (by decide))).trans (W39_main_arg9 m ρ c),
       (h c _ (mem_uc main_arg10 (by decide))).trans (W39_main_arg10 m ρ c),
       (h c _ (mem_uc main_arg11 (by decide))).trans (W39_main_arg11 m ρ c),
       (h c _ (mem_uc main_arg12 (by decide))).trans (W39_main_arg12 m ρ c),
       (h c _ (mem_uc main_arg13 (by decide))).trans (W39_main_arg13 m ρ c)⟩)

end Cert.KernelIdeal.KRun

end
-- ==== Proof.KKeep.lean ====
/-
  Walking a buffer's contents back through @main's segments. The contents of the TensorCore's buffers at the
  thirty-nine segment boundaries are a fold: a host stretch rewrites exactly the buffers its operations write, a
  launch rewrites exactly its output array. Every value of @main is written once, so the contents of a buffer at
  any later boundary are its contents at the boundary right after the segment that produced it. The lemmas here
  state one step of that walk for each host stretch (a launch's step is the generated W k_of_ne, or, for an array one of
  its input windows stages, that the pipeline never writes an input window back).
-/
import proofs.«149349_j76854144794846_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- No operation of a literal host stretch writes the buffer: each operation writes one buffer, another one. -/
macro "host_not_written" : tactic =>
  `(tactic| (refine List.forall_iff_forall_mem.mp ?_
             simp only [hostOps0, hostOps1, hostOps2, hostOps3, hostOps4, hostOps5, hostOps7, hostOps8, hostOps9, hostOps10, hostOps11, hostOps12, hostOps14, hostOps15, hostOps16, hostOps17, hostOps18, hostOps19, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

/-- A buffer that no operation of host stretch 0 writes holds after the stretch what it held before it. -/
theorem W1_keep (c : Dev nD) (b : Ref sig .tc)
    (hb : ∀ op ∈ (hostOps0 : List (HloOp τ sig (Elt F))), (Proc.devRef .tc b : DevRef τ sig) ∉ op.writes) :
    W1 m ρ c (Proc.devRef .tc b) = W0 m ρ c (Proc.devRef .tc b) :=
  StableHlo.after_of_forall_not_mem _ _ hb
/-- A buffer that no operation of host stretch 1 writes holds after the stretch what it held before it. -/
theorem W3_keep (c : Dev nD) (b : Ref sig .tc)
    (hb : ∀ op ∈ (hostOps1 : List (HloOp τ sig (Elt F))), (Proc.devRef .tc b : DevRef τ sig) ∉ op.writes) :
    W3 m ρ c (Proc.devRef .tc b) = W2 m ρ c (Proc.devRef .tc b) :=
  StableHlo.after_of_forall_not_mem _ _ hb
/-- A buffer that no operation of host stretch 2 writes holds after the stretch what it held before it. -/
theorem W5_keep (c : Dev nD) (b : Ref sig .tc)
    (hb : ∀ op ∈ (hostOps2 : List (HloOp τ sig (Elt F))), (Proc.devRef .tc b : DevRef τ sig) ∉ op.writes) :
    W5 m ρ c (Proc.devRef .tc b) = W4 m ρ c (Proc.devRef .tc b) :=
  StableHlo.after_of_forall_not_mem _ _ hb
/-- A buffer that no operation of host stretch 3 writes holds after the stretch what it held before it. -/
theorem W7_keep (c : Dev nD) (b : Ref sig .tc)
    (hb : ∀ op ∈ (hostOps3 : List (HloOp τ sig (Elt F))), (Proc.devRef .tc b : DevRef τ sig) ∉ op.writes) :
    W7 m ρ c (Proc.devRef .tc b) = W6 m ρ c (Proc.devRef .tc b) :=
  StableHlo.after_of_forall_not_mem _ _ hb
/-- A buffer that no operation of host stretch 4 writes holds after the stretch what it held before it. -/
theorem W9_keep (c : Dev nD) (b : Ref sig .tc)
    (hb : ∀ op ∈ (hostOps4 : List (HloOp τ sig (Elt F))), (Proc.devRef .tc b : DevRef τ sig) ∉ op.writes) :
    W9 m ρ c (Proc.devRef .tc b) = W8 m ρ c (Proc.devRef .tc b) :=
  StableHlo.after_of_forall_not_mem _ _ hb
/-- A buffer that no operation of host stretch 5 writes holds after the stretch what it held before it. -/
theorem W11_keep (c : Dev nD) (b : Ref sig .tc)
    (hb : ∀ op ∈ (hostOps5 : List (HloOp τ sig (Elt F))), (Proc.devRef .tc b : DevRef τ sig) ∉ op.writes) :
    W11 m ρ c (Proc.devRef .tc b) = W10 m ρ c (Proc.devRef .tc b) :=
  StableHlo.after_of_forall_not_mem _ _ hb
/-- A buffer that no operation of host stretch 7 writes holds after the stretch what it held before it. -/
theorem W14_keep (c : Dev nD) (b : Ref sig .tc)
    (hb : ∀ op ∈ (hostOps7 : List (HloOp τ sig (Elt F))), (Proc.devRef .tc b : DevRef τ sig) ∉ op.writes) :
    W14 m ρ c (Proc.devRef .tc b) = W13 m ρ c (Proc.devRef .tc b) :=
  StableHlo.after_of_forall_not_mem _ _ hb
/-- A buffer that no operation of host stretch 8 writes holds after the stretch what it held before it. -/
theorem W16_keep (c : Dev nD) (b : Ref sig .tc)
    (hb : ∀ op ∈ (hostOps8 : List (HloOp τ sig (Elt F))), (Proc.devRef .tc b : DevRef τ sig) ∉ op.writes) :
    W16 m ρ c (Proc.devRef .tc b) = W15 m ρ c (Proc.devRef .tc b) :=
  StableHlo.after_of_forall_not_mem _ _ hb
/-- A buffer that no operation of host stretch 9 writes holds after the stretch what it held before it. -/
theorem W18_keep (c : Dev nD) (b : Ref sig .tc)
    (hb : ∀ op ∈ (hostOps9 : List (HloOp τ sig (Elt F))), (Proc.devRef .tc b : DevRef τ sig) ∉ op.writes) :
    W18 m ρ c (Proc.devRef .tc b) = W17 m ρ c (Proc.devRef .tc b) :=
  StableHlo.after_of_forall_not_mem _ _ hb
/-- A buffer that no operation of host stretch 10 writes holds after the stretch what it held before it. -/
theorem W20_keep (c : Dev nD) (b : Ref sig .tc)
    (hb : ∀ op ∈ (hostOps10 : List (HloOp τ sig (Elt F))), (Proc.devRef .tc b : DevRef τ sig) ∉ op.writes) :
    W20 m ρ c (Proc.devRef .tc b) = W19 m ρ c (Proc.devRef .tc b) :=
  StableHlo.after_of_forall_not_mem _ _ hb
/-- A buffer that no operation of host stretch 11 writes holds after the stretch what it held before it. -/
theorem W22_keep (c : Dev nD) (b : Ref sig .tc)
    (hb : ∀ op ∈ (hostOps11 : List (HloOp τ sig (Elt F))), (Proc.devRef .tc b : DevRef τ sig) ∉ op.writes) :
    W22 m ρ c (Proc.devRef .tc b) = W21 m ρ c (Proc.devRef .tc b) :=
  StableHlo.after_of_forall_not_mem _ _ hb
/-- A buffer that no operation of host stretch 12 writes holds after the stretch what it held before it. -/
theorem W24_keep (c : Dev nD) (b : Ref sig .tc)
    (hb : ∀ op ∈ (hostOps12 : List (HloOp τ sig (Elt F))), (Proc.devRef .tc b : DevRef τ sig) ∉ op.writes) :
    W24 m ρ c (Proc.devRef .tc b) = W23 m ρ c (Proc.devRef .tc b) :=
  StableHlo.after_of_forall_not_mem _ _ hb
/-- A buffer that no operation of host stretch 14 writes holds after the stretch what it held before it. -/
theorem W27_keep (c : Dev nD) (b : Ref sig .tc)
    (hb : ∀ op ∈ (hostOps14 : List (HloOp τ sig (Elt F))), (Proc.devRef .tc b : DevRef τ sig) ∉ op.writes) :
    W27 m ρ c (Proc.devRef .tc b) = W26 m ρ c (Proc.devRef .tc b) :=
  StableHlo.after_of_forall_not_mem _ _ hb
/-- A buffer that no operation of host stretch 15 writes holds after the stretch what it held before it. -/
theorem W29_keep (c : Dev nD) (b : Ref sig .tc)
    (hb : ∀ op ∈ (hostOps15 : List (HloOp τ sig (Elt F))), (Proc.devRef .tc b : DevRef τ sig) ∉ op.writes) :
    W29 m ρ c (Proc.devRef .tc b) = W28 m ρ c (Proc.devRef .tc b) :=
  StableHlo.after_of_forall_not_mem _ _ hb
/-- A buffer that no operation of host stretch 16 writes holds after the stretch what it held before it. -/
theorem W31_keep (c : Dev nD) (b : Ref sig .tc)
    (hb : ∀ op ∈ (hostOps16 : List (HloOp τ sig (Elt F))), (Proc.devRef .tc b : DevRef τ sig) ∉ op.writes) :
    W31 m ρ c (Proc.devRef .tc b) = W30 m ρ c (Proc.devRef .tc b) :=
  StableHlo.after_of_forall_not_mem _ _ hb
/-- A buffer that no operation of host stretch 17 writes holds after the stretch what it held before it. -/
theorem W33_keep (c : Dev nD) (b : Ref sig .tc)
    (hb : ∀ op ∈ (hostOps17 : List (HloOp τ sig (Elt F))), (Proc.devRef .tc b : DevRef τ sig) ∉ op.writes) :
    W33 m ρ c (Proc.devRef .tc b) = W32 m ρ c (Proc.devRef .tc b) :=
  StableHlo.after_of_forall_not_mem _ _ hb
/-- A buffer that no operation of host stretch 18 writes holds after the stretch what it held before it. -/
theorem W35_keep (c : Dev nD) (b : Ref sig .tc)
    (hb : ∀ op ∈ (hostOps18 : List (HloOp τ sig (Elt F))), (Proc.devRef .tc b : DevRef τ sig) ∉ op.writes) :
    W35 m ρ c (Proc.devRef .tc b) = W34 m ρ c (Proc.devRef .tc b) :=
  StableHlo.after_of_forall_not_mem _ _ hb
/-- A buffer that no operation of host stretch 19 writes holds after the stretch what it held before it. -/
theorem W37_keep (c : Dev nD) (b : Ref sig .tc)
    (hb : ∀ op ∈ (hostOps19 : List (HloOp τ sig (Elt F))), (Proc.devRef .tc b : DevRef τ sig) ∉ op.writes) :
    W37 m ρ c (Proc.devRef .tc b) = W36 m ρ c (Proc.devRef .tc b) :=
  StableHlo.after_of_forall_not_mem _ _ hb

end Cert.KernelIdeal.KRun

end
-- ==== Proof.KStage.lean ====
/-
  The host stretches of the idealized kernel's @main as functions of the arrays they read, written with the very
  operations the printed lines apply. `srcI` / `dstI`: the source and destination node of every edge, the 800000
  given edges followed by one self-loop per node. `nrm`: the symmetric normalisation of an edge, the product of
  `rsqrt (max (degree, 1e-12))` at its two ends, the degree counted by scatter-adding ones at the destinations.
  `agg`: one propagation step — gather the rows of `h` at the edges' sources, scale each by the edge's
  normalisation, scatter-add them at the edges' destinations into zeros. An index is first normalised the way array
  indexing does it: a negative index has the extent added.
-/
import proofs.«149349_j76854144794846_1_alg».proof.KernelIdeal
import proofs.«149349_j76854144794846_1_alg».proof.Proof.Gen.KernelIdeal

noncomputable section

namespace Cert.KernelIdeal.KStage

open Idealize.ShloMosaic Cert.KernelIdeal
open Cert.KernelIdeal.Facts₀ Cert.KernelIdeal.Facts

variable {F : FTy → Type} [FloatOps F]

/-- An edge-indexed array of node numbers, normalised as array indexing normalises it, as a column of start indices. -/
def normIdx (s : (⟨S850000, .i32⟩ : BufTy).Contents (Elt F)) : (⟨S850000x1, .i32⟩ : BufTy).Contents (Elt F) :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- Row `r` (0 the sources, 1 the destinations) of the edge list, followed by every node's own number. -/
def srcI (ei : (⟨S2x800000, .i32⟩ : BufTy).Contents (Elt F)) : (⟨S850000, .i32⟩ : BufTy).Contents (Elt F) :=
  concatenate S850000 0 [⟨S800000, fun i => shapeCast S800000 (extractStridedSlice S1x800000 ![0, 0] ei slices_S2x800000_S1x800000_0_0) shapeCasts_S1x800000_S800000 i⟩,
    ⟨S50000, iotaInDim S50000 32 0⟩] concatenates_S800000_S50000_S850000_d0

def dstI (ei : (⟨S2x800000, .i32⟩ : BufTy).Contents (Elt F)) : (⟨S850000, .i32⟩ : BufTy).Contents (Elt F) :=
  concatenate S850000 0 [⟨S800000, fun i => shapeCast S800000 (extractStridedSlice S1x800000 ![1, 0] ei slices_S2x800000_S1x800000_1_0) shapeCasts_S1x800000_S800000 i⟩,
    ⟨S50000, iotaInDim S50000 32 0⟩] concatenates_S800000_S50000_S850000_d0

/-- `rsqrt (max (degree, 1e-12))` per node, the degree the number of edges (self-loops included) that end at it. -/
def dinv (d : (⟨S850000, .i32⟩ : BufTy).Contents (Elt F)) : FVec F S50000 .f32 :=
  Host.rsqrt (maximumf
    (Host.scatterAdd scatter_S50000_S850000x1_S850000_n_0_0_1 (broadcastInDim S50000 ![] bcast_S_S50000 (constant S_ .f32 0x00000000#32))
      (broadcastInDim S850000x1 ![0] bcast_S850000_S850000x1_0 d) (broadcastInDim S850000 ![] bcast_S_S850000 (constant S_ .f32 0x3F800000#32)))
    (broadcastInDim S50000 ![] bcast_S_S50000 (constant S_ .f32 0x2B8CBCCC#32)))

/-- The normalisation of every edge. -/
def nrm (s d : (⟨S850000, .i32⟩ : BufTy).Contents (Elt F)) : FVec F S850000 .f32 :=
  mulf (Host.gather gather_S50000_S850000x1_S850000_n_0_n_n_0_1_1 (dinv d) (normIdx s))
    (Host.gather gather_S50000_S850000x1_S850000_n_0_n_n_0_1_1 (dinv d) (normIdx d))

/-- One propagation step on rows of width 128. -/
def agg128 (s d : (⟨S850000, .i32⟩ : BufTy).Contents (Elt F)) (n : FVec F S850000 .f32) (h : FVec F S50000x128 .f32) :
    FVec F S50000x128 .f32 :=
  Host.scatterAdd scatter_S50000x128_S850000x1_S850000x128_1_0_0_1 (broadcastInDim S50000x128 ![] bcast_S_S50000x128 (constant S_ .f32 0x00000000#32))
    (broadcastInDim S850000x1 ![0] bcast_S850000_S850000x1_0 d)
    (mulf (Host.gather gather_S50000x128_S850000x1_S850000x128_1_0_n_n_0_1_1128 h (normIdx s))
      (broadcastInDim S850000x128 ![0, 1] bcast_S850000x1_S850000x128_0_1 (broadcastInDim S850000x1 ![0] bcast_S850000_S850000x1_0 n)))

/-- One propagation step on rows of width 64. -/
def agg64 (s d : (⟨S850000, .i32⟩ : BufTy).Contents (Elt F)) (n : FVec F S850000 .f32) (h : FVec F S50000x64 .f32) :
    FVec F S50000x64 .f32 :=
  Host.scatterAdd scatter_S50000x64_S850000x1_S850000x64_1_0_0_1 (broadcastInDim S50000x64 ![] bcast_S_S50000x64 (constant S_ .f32 0x00000000#32))
    (broadcastInDim S850000x1 ![0] bcast_S850000_S850000x1_0 d)
    (mulf (Host.gather gather_S50000x64_S850000x1_S850000x64_1_0_n_n_0_1_164 h (normIdx s))
      (broadcastInDim S850000x64 ![0, 1] bcast_S850000x1_S850000x64_0_1 (broadcastInDim S850000x1 ![0] bcast_S850000_S850000x1_0 n)))

/-- A bias vector as the one-row matrix the matmul launches take. -/
def row128 (b : FVec F S128 .f32) : FVec F S1x128 .f32 := fun i => shapeCast S1x128 b shapeCasts_S128_S1x128 i
def row64 (b : FVec F S64 .f32) : FVec F S1x64 .f32 := fun i => shapeCast S1x64 b shapeCasts_S64_S1x64 i

end Cert.KernelIdeal.KStage

end
-- ==== Proof.KHost.lean ====
/-
  Each host stretch of the idealized kernel's @main read back: from ANY contents W of the buffers before the
  stretch, the buffer a later segment reads holds, after the stretch, the stage function (edge lists, edge
  normalisation, one propagation step, a bias as a one-row matrix) of the contents W gives the buffers the stretch
  reads. Each operation's result is its function of its operands' buffers, and a buffer the operation does not
  write keeps its contents, so the fold over the stretch's literal operation list computes the composed term.
-/
import proofs.«149349_j76854144794846_1_alg».proof.Proof.Gen.KernelIdeal.Launch
import proofs.«149349_j76854144794846_1_alg».proof.Proof.KStage
import Idealize.ShloMosaic.Lib.StableHlo.Run

set_option maxRecDepth 16384

noncomputable section

namespace Cert.KernelIdeal.KHost

open Idealize.ShloMosaic Idealize.ShloMosaic.StableHlo Cert.KernelIdeal Cert.KernelIdeal.Gen

variable {F : FTy → Type} [FloatOps F]

theorem host0_v3 (W : Valuation τ sig (Elt F)) :
    StableHlo.after hostOps0 W (Proc.devRef .tc main_v3)
      = KStage.srcI (W (Proc.devRef .tc main_arg1)) := by
  after_results_simp
  rfl

theorem host0_v6 (W : Valuation τ sig (Elt F)) :
    StableHlo.after hostOps0 W (Proc.devRef .tc main_v6)
      = KStage.dstI (W (Proc.devRef .tc main_arg1)) := by
  after_results_simp
  rfl

theorem host0_v28 (W : Valuation τ sig (Elt F)) :
    StableHlo.after hostOps0 W (Proc.devRef .tc main_v28)
      = KStage.nrm (KStage.srcI (W (Proc.devRef .tc main_arg1))) (KStage.dstI (W (Proc.devRef .tc main_arg1))) := by
  after_results_simp
  rfl

theorem host0_v29 (W : Valuation τ sig (Elt F)) :
    StableHlo.after hostOps0 W (Proc.devRef .tc main_v29)
      = KStage.row128 (W (Proc.devRef .tc main_arg3)) := by
  after_results_simp
  rfl

theorem host1_v43 (W : Valuation τ sig (Elt F)) :
    StableHlo.after hostOps1 W (Proc.devRef .tc main_v43)
      = KStage.agg128 (W (Proc.devRef .tc main_v3)) (W (Proc.devRef .tc main_v6)) (W (Proc.devRef .tc main_v28)) (W (Proc.devRef .tc main_v30)) := by
  after_results_simp
  rfl

theorem host2_v57 (W : Valuation τ sig (Elt F)) :
    StableHlo.after hostOps2 W (Proc.devRef .tc main_v57)
      = KStage.agg128 (W (Proc.devRef .tc main_v3)) (W (Proc.devRef .tc main_v6)) (W (Proc.devRef .tc main_v28)) (W (Proc.devRef .tc main_v44)) := by
  after_results_simp
  rfl

theorem host3_v71 (W : Valuation τ sig (Elt F)) :
    StableHlo.after hostOps3 W (Proc.devRef .tc main_v71)
      = KStage.agg128 (W (Proc.devRef .tc main_v3)) (W (Proc.devRef .tc main_v6)) (W (Proc.devRef .tc main_v28)) (W (Proc.devRef .tc main_v58)) := by
  after_results_simp
  rfl

theorem host4_v85 (W : Valuation τ sig (Elt F)) :
    StableHlo.after hostOps4 W (Proc.devRef .tc main_v85)
      = KStage.agg128 (W (Proc.devRef .tc main_v3)) (W (Proc.devRef .tc main_v6)) (W (Proc.devRef .tc main_v28)) (W (Proc.devRef .tc main_v72)) := by
  after_results_simp
  rfl

theorem host5_v87 (W : Valuation τ sig (Elt F)) :
    StableHlo.after hostOps5 W (Proc.devRef .tc main_v87)
      = KStage.row128 (W (Proc.devRef .tc main_arg5)) := by
  after_results_simp
  rfl

theorem host7_v90 (W : Valuation τ sig (Elt F)) :
    StableHlo.after hostOps7 W (Proc.devRef .tc main_v90)
      = KStage.row128 (W (Proc.devRef .tc main_arg7)) := by
  after_results_simp
  rfl

theorem host8_v104 (W : Valuation τ sig (Elt F)) :
    StableHlo.after hostOps8 W (Proc.devRef .tc main_v104)
      = KStage.agg128 (W (Proc.devRef .tc main_v3)) (W (Proc.devRef .tc main_v6)) (W (Proc.devRef .tc main_v28)) (W (Proc.devRef .tc main_v91)) := by
  after_results_simp
  rfl

theorem host9_v118 (W : Valuation τ sig (Elt F)) :
    StableHlo.after hostOps9 W (Proc.devRef .tc main_v118)
      = KStage.agg128 (W (Proc.devRef .tc main_v3)) (W (Proc.devRef .tc main_v6)) (W (Proc.devRef .tc main_v28)) (W (Proc.devRef .tc main_v105)) := by
  after_results_simp
  rfl

theorem host10_v132 (W : Valuation τ sig (Elt F)) :
    StableHlo.after hostOps10 W (Proc.devRef .tc main_v132)
      = KStage.agg128 (W (Proc.devRef .tc main_v3)) (W (Proc.devRef .tc main_v6)) (W (Proc.devRef .tc main_v28)) (W (Proc.devRef .tc main_v119)) := by
  after_results_simp
  rfl

theorem host11_v146 (W : Valuation τ sig (Elt F)) :
    StableHlo.after hostOps11 W (Proc.devRef .tc main_v146)
      = KStage.agg128 (W (Proc.devRef .tc main_v3)) (W (Proc.devRef .tc main_v6)) (W (Proc.devRef .tc main_v28)) (W (Proc.devRef .tc main_v133)) := by
  after_results_simp
  rfl

theorem host12_v148 (W : Valuation τ sig (Elt F)) :
    StableHlo.after hostOps12 W (Proc.devRef .tc main_v148)
      = KStage.row128 (W (Proc.devRef .tc main_arg9)) := by
  after_results_simp
  rfl

theorem host14_v151 (W : Valuation τ sig (Elt F)) :
    StableHlo.after hostOps14 W (Proc.devRef .tc main_v151)
      = KStage.row64 (W (Proc.devRef .tc main_arg11)) := by
  after_results_simp
  rfl

theorem host15_v165 (W : Valuation τ sig (Elt F)) :
    StableHlo.after hostOps15 W (Proc.devRef .tc main_v165)
      = KStage.agg64 (W (Proc.devRef .tc main_v3)) (W (Proc.devRef .tc main_v6)) (W (Proc.devRef .tc main_v28)) (W (Proc.devRef .tc main_v152)) := by
  after_results_simp
  rfl

theorem host16_v179 (W : Valuation τ sig (Elt F)) :
    StableHlo.after hostOps16 W (Proc.devRef .tc main_v179)
      = KStage.agg64 (W (Proc.devRef .tc main_v3)) (W (Proc.devRef .tc main_v6)) (W (Proc.devRef .tc main_v28)) (W (Proc.devRef .tc main_v166)) := by
  after_results_simp
  rfl

theorem host17_v193 (W : Valuation τ sig (Elt F)) :
    StableHlo.after hostOps17 W (Proc.devRef .tc main_v193)
      = KStage.agg64 (W (Proc.devRef .tc main_v3)) (W (Proc.devRef .tc main_v6)) (W (Proc.devRef .tc main_v28)) (W (Proc.devRef .tc main_v180)) := by
  after_results_simp
  rfl

theorem host18_v207 (W : Valuation τ sig (Elt F)) :
    StableHlo.after hostOps18 W (Proc.devRef .tc main_v207)
      = KStage.agg64 (W (Proc.devRef .tc main_v3)) (W (Proc.devRef .tc main_v6)) (W (Proc.devRef .tc main_v28)) (W (Proc.devRef .tc main_v194)) := by
  after_results_simp
  rfl

theorem host19_v209 (W : Valuation τ sig (Elt F)) :
    StableHlo.after hostOps19 W (Proc.devRef .tc main_v209)
      = KStage.row64 (W (Proc.devRef .tc main_arg13)) := by
  after_results_simp
  rfl

end Cert.KernelIdeal.KHost

end
-- ==== Proof.Regions.PointSpec.lean ====
/- The whole-array functions that the pointwise regions of the kernel compute, generic in the float
   model. Each region reads two arrays and writes a third; index by index the third is one scalar function of the
   two: a weighted combination (x + 0.6 * y) * 0.625, the sum followed by ELU (s if s > 0 else exp s - 1), or the sum.
   The array functions are written with the vector operations the kernel bodies use, at the array's shape, and each
   is read at an index as its scalar function. -/
import proofs.«149349_j76854144794846_1_alg».proof.KernelIdeal

noncomputable section

namespace Cert.KernelIdeal.RegionValue

open Cert.KernelIdeal Idealize.ShloMosaic

variable {F : FTy → Type} [FloatOps F]

/-! ## The scalar functions -/

/-- The weighted combination of two scalars: (x + 0.6 * y) * 0.625, the constants as their f32 words. -/
def combE (x y : F .f32) : F .f32 :=
  FloatOps.mulf (FloatOps.addf x (FloatOps.mulf (Scalar.ofBits .f32 0x3F19999A#32) y)) (Scalar.ofBits .f32 0x3F200000#32)

/-- The sum of two scalars followed by ELU: with s = x + y, s where s > 0 and exp s - 1 elsewhere. -/
def eluE (x y : F .f32) : F .f32 :=
  Scalar.select (FloatOps.cmpf .ogt (FloatOps.addf x y) (Scalar.ofBits .f32 0x00000000#32)) (FloatOps.addf x y)
    (FloatOps.subf (FloatOps.exp (FloatOps.addf x y)) (Scalar.ofBits .f32 0x3F800000#32))

/-! ## The array functions -/

/-- The weighted combination of two [50000, 128] arrays. -/
def Gcomb128 (a0 a1 : FVec F S50000x128 .f32) : FVec F S50000x128 .f32 :=
  mulf (addf a0 (mulf (broadcast S50000x128 (Scalar.ofBits .f32 0x3F19999A#32)) a1)) (broadcast S50000x128 (Scalar.ofBits .f32 0x3F200000#32))

/-- The weighted combination of two [50000, 64] arrays. -/
def Gcomb64 (a0 a1 : FVec F S50000x64 .f32) : FVec F S50000x64 .f32 :=
  mulf (addf a0 (mulf (broadcast S50000x64 (Scalar.ofBits .f32 0x3F19999A#32)) a1)) (broadcast S50000x64 (Scalar.ofBits .f32 0x3F200000#32))

/-- The sum of two [50000, 128] arrays followed by ELU. -/
def Gelu128 (a0 a1 : FVec F S50000x128 .f32) : FVec F S50000x128 .f32 :=
  let s := addf a0 a1
  select (cmpf .ogt s (broadcast S50000x128 (Scalar.ofBits .f32 0x00000000#32))) s (subf (exp s) (broadcast S50000x128 (Scalar.ofBits .f32 0x3F800000#32)))

/-- The sum of two [50000, 64] arrays. -/
def Gadd64 (a0 a1 : FVec F S50000x64 .f32) : FVec F S50000x64 .f32 := addf a0 a1

/-! ## Each array function at an index -/

theorem Gcomb128_apply (a0 a1 : FVec F S50000x128 .f32) (i : S50000x128.Idx) : Gcomb128 a0 a1 i = combE (a0 i) (a1 i) := rfl

theorem Gcomb64_apply (a0 a1 : FVec F S50000x64 .f32) (i : S50000x64.Idx) : Gcomb64 a0 a1 i = combE (a0 i) (a1 i) := rfl

theorem Gelu128_apply (a0 a1 : FVec F S50000x128 .f32) (i : S50000x128.Idx) : Gelu128 a0 a1 i = eluE (a0 i) (a1 i) := rfl

theorem Gadd64_apply (a0 a1 : FVec F S50000x64 .f32) (i : S50000x64.Idx) : Gadd64 a0 a1 i = FloatOps.addf (a0 i) (a1 i) := rfl

/-! ## The same operations on a block, at an index of the block -/

/-- The combination's vector operations at any shape, read at an index. -/
theorem comb_block_apply {S : Shape} (x0 x1 : FVec F S .f32) (j : S.Idx) :
    mulf (addf x0 (mulf (broadcast S (Scalar.ofBits .f32 0x3F19999A#32)) x1)) (broadcast S (Scalar.ofBits .f32 0x3F200000#32)) j = combE (x0 j) (x1 j) := rfl

/-- The sum-then-ELU's vector operations at any shape, read at an index. -/
theorem elu_block_apply {S : Shape} (x0 x1 : FVec F S .f32) (j : S.Idx) :
    select (cmpf .ogt (addf x0 x1) (broadcast S (Scalar.ofBits .f32 0x00000000#32))) (addf x0 x1)
      (subf (exp (addf x0 x1)) (broadcast S (Scalar.ofBits .f32 0x3F800000#32))) j = eluE (x0 j) (x1 j) := rfl

/-- The two zero offsets of a block's one store, however spelt. -/
theorem hz : (![0, 0] : Fin 2 → Nat) = fun _ => 0 := funext fun a => by fin_cases a <;> rfl

end Cert.KernelIdeal.RegionValue

end
-- ==== Proof.Regions.LinSpec.lean ====
/-
  The dense layers of the network as index-wise functions of whole arrays: row `r`, column `j` of the result is the
  sum over the contraction index `k` of `x[r, k] * w[k, j]`, plus the bias row's entry `b[0, j]`. Three sizes occur:
  256 → 128, 128 → 128 and 128 → 64 features, each over 50000 rows. No program is imported here: both the blocked
  device computation and the host computation are shown equal to these functions elsewhere.
-/
import Idealize.ShloMosaic.PureOps.Ideal
import Idealize.ShloMosaic.Lib.ValueIdx

noncomputable section

open scoped BigOperators

namespace Cert.KernelIdeal.RegionValue

open Idealize.ShloMosaic Idealize.ShloMosaic.ValueIdx

/-- The dense layer 256 → 128 on 50000 rows: `(∑ k, x[r, k] * w[k, j]) + b[0, j]`. -/
def Glin256x128 (x : FVec Ideal ⟨2, ![50000, 256]⟩ .f32) (w : FVec Ideal ⟨2, ![256, 128]⟩ .f32)
    (b : FVec Ideal ⟨2, ![1, 128]⟩ .f32) : FVec Ideal ⟨2, ![50000, 128]⟩ .f32 := fun i =>
  (∑ k : Fin 256, x (ix2 (⟨(i 0).val, idx2_lt0 i⟩ : Fin 50000) k) * w (ix2 k (⟨(i 1).val, idx2_lt1 i⟩ : Fin 128)))
    + b (ix2 (0 : Fin 1) (⟨(i 1).val, idx2_lt1 i⟩ : Fin 128))

/-- The dense layer 128 → 128 on 50000 rows. -/
def Glin128x128 (x : FVec Ideal ⟨2, ![50000, 128]⟩ .f32) (w : FVec Ideal ⟨2, ![128, 128]⟩ .f32)
    (b : FVec Ideal ⟨2, ![1, 128]⟩ .f32) : FVec Ideal ⟨2, ![50000, 128]⟩ .f32 := fun i =>
  (∑ k : Fin 128, x (ix2 (⟨(i 0).val, idx2_lt0 i⟩ : Fin 50000) k) * w (ix2 k (⟨(i 1).val, idx2_lt1 i⟩ : Fin 128)))
    + b (ix2 (0 : Fin 1) (⟨(i 1).val, idx2_lt1 i⟩ : Fin 128))

/-- The dense layer 128 → 64 on 50000 rows. -/
def Glin128x64 (x : FVec Ideal ⟨2, ![50000, 128]⟩ .f32) (w : FVec Ideal ⟨2, ![128, 64]⟩ .f32)
    (b : FVec Ideal ⟨2, ![1, 64]⟩ .f32) : FVec Ideal ⟨2, ![50000, 64]⟩ .f32 := fun i =>
  (∑ k : Fin 128, x (ix2 (⟨(i 0).val, idx2_lt0 i⟩ : Fin 50000) k) * w (ix2 k (⟨(i 1).val, idx2_lt1 i⟩ : Fin 64)))
    + b (ix2 (0 : Fin 1) (⟨(i 1).val, idx2_lt1 i⟩ : Fin 64))

/-- Each at coordinates: the value at row `r`, column `j`. -/
theorem Glin256x128_apply (x : FVec Ideal ⟨2, ![50000, 256]⟩ .f32) (w : FVec Ideal ⟨2, ![256, 128]⟩ .f32)
    (b : FVec Ideal ⟨2, ![1, 128]⟩ .f32) (r : Fin 50000) (j : Fin 128) :
    Glin256x128 x w b (ix2 r j) = (∑ k : Fin 256, x (ix2 r k) * w (ix2 k j)) + b (ix2 (0 : Fin 1) j) := rfl

theorem Glin128x128_apply (x : FVec Ideal ⟨2, ![50000, 128]⟩ .f32) (w : FVec Ideal ⟨2, ![128, 128]⟩ .f32)
    (b : FVec Ideal ⟨2, ![1, 128]⟩ .f32) (r : Fin 50000) (j : Fin 128) :
    Glin128x128 x w b (ix2 r j) = (∑ k : Fin 128, x (ix2 r k) * w (ix2 k j)) + b (ix2 (0 : Fin 1) j) := rfl

theorem Glin128x64_apply (x : FVec Ideal ⟨2, ![50000, 128]⟩ .f32) (w : FVec Ideal ⟨2, ![128, 64]⟩ .f32)
    (b : FVec Ideal ⟨2, ![1, 64]⟩ .f32) (r : Fin 50000) (j : Fin 64) :
    Glin128x64 x w b (ix2 r j) = (∑ k : Fin 128, x (ix2 r k) * w (ix2 k j)) + b (ix2 (0 : Fin 1) j) := rfl

/-- The layer 256 → 128 at an index i of the whole result, from any x, w, b that agree with the arrays on row i's
    entries: x's row r with the array's row `i 0`, w's and b's column j = `i 1` with the arrays'. -/
theorem Glin256x128_of_rows (A : FVec Ideal ⟨2, ![50000, 256]⟩ .f32) (W : FVec Ideal ⟨2, ![256, 128]⟩ .f32) (B : FVec Ideal ⟨2, ![1, 128]⟩ .f32)
    (x : FVec Ideal ⟨2, ![2000, 256]⟩ .f32) (w : FVec Ideal ⟨2, ![256, 128]⟩ .f32) (b : FVec Ideal ⟨2, ![1, 128]⟩ .f32) (r : Fin 2000) (j : Fin 128)
    (i : (⟨2, ![50000, 128]⟩ : Shape).Idx) (hj : (i 1).val = j.val)
    (hx : ∀ k : Fin 256, x (ix2 r k) = A (ix2 (⟨(i 0).val, idx2_lt0 i⟩ : Fin 50000) k))
    (hw : ∀ k : Fin 256, w (ix2 k j) = W (ix2 k j)) (hb : b (ix2 (0 : Fin 1) j) = B (ix2 (0 : Fin 1) j)) :
    (∑ k : Fin 256, x (ix2 r k) * w (ix2 k j)) + b (ix2 (0 : Fin 1) j) = Glin256x128 A W B i := by
  obtain rfl : j = (⟨(i 1).val, idx2_lt1 i⟩ : Fin 128) := Fin.ext hj.symm
  unfold Glin256x128
  rw [hb]
  refine congrArg₂ (· + ·) (Finset.sum_congr rfl fun k _ => ?_) rfl
  rw [hx k, hw k]

/-- The layer 128 → 128 at an index i of the whole result, from any x, w, b that agree with the arrays on row i's
    entries: x's row r with the array's row `i 0`, w's and b's column j = `i 1` with the arrays'. -/
theorem Glin128x128_of_rows (A : FVec Ideal ⟨2, ![50000, 128]⟩ .f32) (W : FVec Ideal ⟨2, ![128, 128]⟩ .f32) (B : FVec Ideal ⟨2, ![1, 128]⟩ .f32)
    (x : FVec Ideal ⟨2, ![2000, 128]⟩ .f32) (w : FVec Ideal ⟨2, ![128, 128]⟩ .f32) (b : FVec Ideal ⟨2, ![1, 128]⟩ .f32) (r : Fin 2000) (j : Fin 128)
    (i : (⟨2, ![50000, 128]⟩ : Shape).Idx) (hj : (i 1).val = j.val)
    (hx : ∀ k : Fin 128, x (ix2 r k) = A (ix2 (⟨(i 0).val, idx2_lt0 i⟩ : Fin 50000) k))
    (hw : ∀ k : Fin 128, w (ix2 k j) = W (ix2 k j)) (hb : b (ix2 (0 : Fin 1) j) = B (ix2 (0 : Fin 1) j)) :
    (∑ k : Fin 128, x (ix2 r k) * w (ix2 k j)) + b (ix2 (0 : Fin 1) j) = Glin128x128 A W B i := by
  obtain rfl : j = (⟨(i 1).val, idx2_lt1 i⟩ : Fin 128) := Fin.ext hj.symm
  unfold Glin128x128
  rw [hb]
  refine congrArg₂ (· + ·) (Finset.sum_congr rfl fun k _ => ?_) rfl
  rw [hx k, hw k]

/-- The layer 128 → 64 at an index i of the whole result, from any x, w, b that agree with the arrays on row i's
    entries: x's row r with the array's row `i 0`, w's and b's column j = `i 1` with the arrays'. -/
theorem Glin128x64_of_rows (A : FVec Ideal ⟨2, ![50000, 128]⟩ .f32) (W : FVec Ideal ⟨2, ![128, 64]⟩ .f32) (B : FVec Ideal ⟨2, ![1, 64]⟩ .f32)
    (x : FVec Ideal ⟨2, ![2000, 128]⟩ .f32) (w : FVec Ideal ⟨2, ![128, 64]⟩ .f32) (b : FVec Ideal ⟨2, ![1, 64]⟩ .f32) (r : Fin 2000) (j : Fin 64)
    (i : (⟨2, ![50000, 64]⟩ : Shape).Idx) (hj : (i 1).val = j.val)
    (hx : ∀ k : Fin 128, x (ix2 r k) = A (ix2 (⟨(i 0).val, idx2_lt0 i⟩ : Fin 50000) k))
    (hw : ∀ k : Fin 128, w (ix2 k j) = W (ix2 k j)) (hb : b (ix2 (0 : Fin 1) j) = B (ix2 (0 : Fin 1) j)) :
    (∑ k : Fin 128, x (ix2 r k) * w (ix2 k j)) + b (ix2 (0 : Fin 1) j) = Glin128x64 A W B i := by
  obtain rfl : j = (⟨(i 1).val, idx2_lt1 i⟩ : Fin 64) := Fin.ext hj.symm
  unfold Glin128x64
  rw [hb]
  refine congrArg₂ (· + ·) (Finset.sum_congr rfl fun k _ => ?_) rfl
  rw [hx k, hw k]

end Cert.KernelIdeal.RegionValue

end
-- ==== Proof.KNet.lean ====
/-
  The idealized kernel's result as ONE function of its fourteen argument arrays, on the extended reals. A layer
  projects the node features twice (a matrix product plus a bias row: once for the diffusion, once for the skip
  connection), runs four diffusion updates `h ← (xl + 0.6 · agg h) · 0.625` from `h = xl`, where `agg` gathers
  the rows of `h` along the edges, scales them by the edges' symmetric normalisation and sums them at the edges'
  destinations, and adds the skip projection; the first two layers then apply the exponential linear unit. Each
  piece is the function one launch's grid points jointly compute (the `G…` of the launches' closed forms) or the
  term one host stretch computes.
-/
import proofs.«149349_j76854144794846_1_alg».proof.Proof.KStage
import proofs.«149349_j76854144794846_1_alg».proof.Proof.Regions.PointSpec
import proofs.«149349_j76854144794846_1_alg».proof.Proof.Regions.LinSpec

noncomputable section

namespace Cert.KernelIdeal.KNet

open Idealize.ShloMosaic Cert.KernelIdeal Cert.KernelIdeal.KStage Cert.KernelIdeal.RegionValue

/-- Four diffusion updates from the projected features `xl`, rows of width 128. -/
def hops128 (s d : (⟨S850000, .i32⟩ : BufTy).Contents (Elt Ideal)) (n : FVec Ideal S850000 .f32)
    (xl : FVec Ideal S50000x128 .f32) : FVec Ideal S50000x128 .f32 :=
  Gcomb128 xl (agg128 s d n (Gcomb128 xl (agg128 s d n (Gcomb128 xl (agg128 s d n (Gcomb128 xl (agg128 s d n xl)))))))

/-- Four diffusion updates from the projected features `xl`, rows of width 64. -/
def hops64 (s d : (⟨S850000, .i32⟩ : BufTy).Contents (Elt Ideal)) (n : FVec Ideal S850000 .f32)
    (xl : FVec Ideal S50000x64 .f32) : FVec Ideal S50000x64 .f32 :=
  Gcomb64 xl (agg64 s d n (Gcomb64 xl (agg64 s d n (Gcomb64 xl (agg64 s d n (Gcomb64 xl (agg64 s d n xl)))))))

/-- The first layer: 256 features to 128, with the exponential linear unit. -/
def layer1 (s d : (⟨S850000, .i32⟩ : BufTy).Contents (Elt Ideal)) (n : FVec Ideal S850000 .f32)
    (x : FVec Ideal S50000x256 .f32) (wc : FVec Ideal S256x128 .f32) (bc : FVec Ideal S128 .f32)
    (wl : FVec Ideal S256x128 .f32) (bl : FVec Ideal S128 .f32) : FVec Ideal S50000x128 .f32 :=
  Gelu128 (hops128 s d n (Glin256x128 x wc (row128 bc))) (Glin256x128 x wl (row128 bl))

/-- The second layer: 128 features to 128, with the exponential linear unit. -/
def layer2 (s d : (⟨S850000, .i32⟩ : BufTy).Contents (Elt Ideal)) (n : FVec Ideal S850000 .f32)
    (h : FVec Ideal S50000x128 .f32) (wc : FVec Ideal S128x128 .f32) (bc : FVec Ideal S128 .f32)
    (wl : FVec Ideal S128x128 .f32) (bl : FVec Ideal S128 .f32) : FVec Ideal S50000x128 .f32 :=
  Gelu128 (hops128 s d n (Glin128x128 h wc (row128 bc))) (Glin128x128 h wl (row128 bl))

/-- The third layer: 128 features to 64, no activation. -/
def layer3 (s d : (⟨S850000, .i32⟩ : BufTy).Contents (Elt Ideal)) (n : FVec Ideal S850000 .f32)
    (h : FVec Ideal S50000x128 .f32) (wc : FVec Ideal S128x64 .f32) (bc : FVec Ideal S64 .f32)
    (wl : FVec Ideal S128x64 .f32) (bl : FVec Ideal S64 .f32) : FVec Ideal S50000x64 .f32 :=
  Gadd64 (hops64 s d n (Glin128x64 h wc (row64 bc))) (Glin128x64 h wl (row64 bl))

/-- The whole network, the arguments in @main's order. -/
def net (x : FVec Ideal S50000x256 .f32) (ei : (⟨S2x800000, .i32⟩ : BufTy).Contents (Elt Ideal))
    (wc1 : FVec Ideal S256x128 .f32) (bc1 : FVec Ideal S128 .f32) (wl1 : FVec Ideal S256x128 .f32) (bl1 : FVec Ideal S128 .f32)
    (wc2 : FVec Ideal S128x128 .f32) (bc2 : FVec Ideal S128 .f32) (wl2 : FVec Ideal S128x128 .f32) (bl2 : FVec Ideal S128 .f32)
    (wc3 : FVec Ideal S128x64 .f32) (bc3 : FVec Ideal S64 .f32) (wl3 : FVec Ideal S128x64 .f32) (bl3 : FVec Ideal S64 .f32) :
    FVec Ideal S50000x64 .f32 :=
  layer3 (srcI ei) (dstI ei) (nrm (srcI ei) (dstI ei))
    (layer2 (srcI ei) (dstI ei) (nrm (srcI ei) (dstI ei))
      (layer1 (srcI ei) (dstI ei) (nrm (srcI ei) (dstI ei)) x wc1 bc1 wl1 bl1) wc2 bc2 wl2 bl2) wc3 bc3 wl3 bl3

end Cert.KernelIdeal.KNet

end
-- ==== Proof.Regions.LinPay.lean ====
/-
  The six dense-layer bodies read at one element of their output block. Each body multiplies its block of rows of x by
  the whole weight matrix into a zero accumulator and adds the bias row laid along every row; at the extended reals a
  change of float format is the identity and the accumulator's zero drops, so element (r, j) of the block is
  `(∑ k, x[r, k] * w[k, j]) + b[0, j]`.
-/
import proofs.«149349_j76854144794846_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.RegionValue

open Cert.KernelIdeal Cert.KernelIdeal.Gen
open Idealize.ShloMosaic Idealize.ShloMosaic.ValueIdx

/-- The block product 2000x256 · 256x128 into a zero accumulator, read at (r, j): the sum over the contraction index. -/
theorem blockDot256x128 (x : FVec Ideal S2000x256 .bf16) (w : FVec Ideal S256x128 .bf16) (r : Fin 2000) (j : Fin 128) :
    matmul dot_S2000x256_S256x128_S2000x128_1_0_0_1_n_n none x w (constant S2000x128 .f32 0x00000000#32) (ix2 r j)
      = ∑ k : Fin 256, x (ix2 r k) * w (ix2 k j) := by
  refine (Ideal.matmul_constant_zero_apply dot_S2000x256_S256x128_S2000x128_1_0_0_1_n_n none x w (ix2 r j)).trans ?_
  refine (Equiv.sum_comp (contrEquiv1 dot_S2000x256_S256x128_S2000x128_1_0_0_1_n_n 256 rfl rfl).symm _).symm.trans ?_
  refine Finset.sum_congr rfl fun k _ => ?_
  have hl : dot_S2000x256_S256x128_S2000x128_1_0_0_1_n_n.lhsIdx (ix2 r j) ((contrEquiv1 dot_S2000x256_S256x128_S2000x128_1_0_0_1_n_n 256 rfl rfl).symm k) = ix2 r k := by
    funext a; apply Fin.ext
    match a with
    | ⟨0, _⟩ => rfl
    | ⟨1, _⟩ => exact (DotDims.lhsIdx_val_of_single _ rfl (ix2 r j) _).trans (contrEquiv1_symm_val _ 256 rfl rfl k)
  have hr : dot_S2000x256_S256x128_S2000x128_1_0_0_1_n_n.rhsIdx (ix2 r j) ((contrEquiv1 dot_S2000x256_S256x128_S2000x128_1_0_0_1_n_n 256 rfl rfl).symm k) = ix2 k j := by
    funext a; apply Fin.ext
    match a with
    | ⟨0, _⟩ => exact (DotDims.rhsIdx_val_of_single _ rfl (ix2 r j) _).trans (contrEquiv1_symm_val _ 256 rfl rfl k)
    | ⟨1, _⟩ => rfl
  rw [hl, hr]

/-- The block product 2000x128 · 128x128 into a zero accumulator, read at (r, j): the sum over the contraction index. -/
theorem blockDot128x128 (x : FVec Ideal S2000x128 .bf16) (w : FVec Ideal S128x128 .bf16) (r : Fin 2000) (j : Fin 128) :
    matmul dot_S2000x128_S128x128_S2000x128_1_0_0_1_n_n none x w (constant S2000x128 .f32 0x00000000#32) (ix2 r j)
      = ∑ k : Fin 128, x (ix2 r k) * w (ix2 k j) := by
  refine (Ideal.matmul_constant_zero_apply dot_S2000x128_S128x128_S2000x128_1_0_0_1_n_n none x w (ix2 r j)).trans ?_
  refine (Equiv.sum_comp (contrEquiv1 dot_S2000x128_S128x128_S2000x128_1_0_0_1_n_n 128 rfl rfl).symm _).symm.trans ?_
  refine Finset.sum_congr rfl fun k _ => ?_
  have hl : dot_S2000x128_S128x128_S2000x128_1_0_0_1_n_n.lhsIdx (ix2 r j) ((contrEquiv1 dot_S2000x128_S128x128_S2000x128_1_0_0_1_n_n 128 rfl rfl).symm k) = ix2 r k := by
    funext a; apply Fin.ext
    match a with
    | ⟨0, _⟩ => rfl
    | ⟨1, _⟩ => exact (DotDims.lhsIdx_val_of_single _ rfl (ix2 r j) _).trans (contrEquiv1_symm_val _ 128 rfl rfl k)
  have hr : dot_S2000x128_S128x128_S2000x128_1_0_0_1_n_n.rhsIdx (ix2 r j) ((contrEquiv1 dot_S2000x128_S128x128_S2000x128_1_0_0_1_n_n 128 rfl rfl).symm k) = ix2 k j := by
    funext a; apply Fin.ext
    match a with
    | ⟨0, _⟩ => exact (DotDims.rhsIdx_val_of_single _ rfl (ix2 r j) _).trans (contrEquiv1_symm_val _ 128 rfl rfl k)
    | ⟨1, _⟩ => rfl
  rw [hl, hr]

/-- The block product 2000x128 · 128x64 into a zero accumulator, read at (r, j): the sum over the contraction index. -/
theorem blockDot128x64 (x : FVec Ideal S2000x128 .bf16) (w : FVec Ideal S128x64 .bf16) (r : Fin 2000) (j : Fin 64) :
    matmul dot_S2000x128_S128x64_S2000x64_1_0_0_1_n_n none x w (constant S2000x64 .f32 0x00000000#32) (ix2 r j)
      = ∑ k : Fin 128, x (ix2 r k) * w (ix2 k j) := by
  refine (Ideal.matmul_constant_zero_apply dot_S2000x128_S128x64_S2000x64_1_0_0_1_n_n none x w (ix2 r j)).trans ?_
  refine (Equiv.sum_comp (contrEquiv1 dot_S2000x128_S128x64_S2000x64_1_0_0_1_n_n 128 rfl rfl).symm _).symm.trans ?_
  refine Finset.sum_congr rfl fun k _ => ?_
  have hl : dot_S2000x128_S128x64_S2000x64_1_0_0_1_n_n.lhsIdx (ix2 r j) ((contrEquiv1 dot_S2000x128_S128x64_S2000x64_1_0_0_1_n_n 128 rfl rfl).symm k) = ix2 r k := by
    funext a; apply Fin.ext
    match a with
    | ⟨0, _⟩ => rfl
    | ⟨1, _⟩ => exact (DotDims.lhsIdx_val_of_single _ rfl (ix2 r j) _).trans (contrEquiv1_symm_val _ 128 rfl rfl k)
  have hr : dot_S2000x128_S128x64_S2000x64_1_0_0_1_n_n.rhsIdx (ix2 r j) ((contrEquiv1 dot_S2000x128_S128x64_S2000x64_1_0_0_1_n_n 128 rfl rfl).symm k) = ix2 k j := by
    funext a; apply Fin.ext
    match a with
    | ⟨0, _⟩ => exact (DotDims.rhsIdx_val_of_single _ rfl (ix2 r j) _).trans (contrEquiv1_symm_val _ 128 rfl rfl k)
    | ⟨1, _⟩ => rfl
  rw [hl, hr]

/-- A one-row matrix of 128 entries laid along each of the block's 2000 rows, read at (r, j): the row's entry j. -/
theorem biasRow128 (b : FVec Ideal S1x128 .f32) (hbc : S1x128.Broadcasts S2000x128) (r : Fin 2000) (j : Fin 128) :
    broadcastTo S2000x128 b hbc (ix2 r j) = b (ix2 (0 : Fin 1) j) := by
  refine broadcastTo_apply b hbc (ix2 r j) (ix2 (0 : Fin 1) j) ?_
  intro a
  match a with
  | ⟨0, _⟩ => rfl
  | ⟨1, _⟩ => rfl

/-- A one-row matrix of 64 entries laid along each of the block's 2000 rows, read at (r, j): the row's entry j. -/
theorem biasRow64 (b : FVec Ideal S1x64 .f32) (hbc : S1x64.Broadcasts S2000x64) (r : Fin 2000) (j : Fin 64) :
    broadcastTo S2000x64 b hbc (ix2 r j) = b (ix2 (0 : Fin 1) j) := by
  refine broadcastTo_apply b hbc (ix2 r j) (ix2 (0 : Fin 1) j) ?_
  intro a
  match a with
  | ⟨0, _⟩ => rfl
  | ⟨1, _⟩ => rfl

/-- Region 0's payload read at an index of the block: the row of x against the column of w, plus the bias entry. -/
theorem pay0_apply (x : Vec Ideal S2000x256 .f32) (w : Vec Ideal S256x128 .f32) (b : Vec Ideal S1x128 .f32) (y : S2000x128.Idx) :
    k0_pay1 x w b y
      = (∑ k : Fin 256, x (ix2 (⟨(y 0).val, idx2_lt0 y⟩ : Fin 2000) k) * w (ix2 k (⟨(y 1).val, idx2_lt1 y⟩ : Fin 128)))
        + b (ix2 (0 : Fin 1) (⟨(y 1).val, idx2_lt1 y⟩ : Fin 128)) := by
  obtain ⟨r, j, rfl⟩ : ∃ (r : Fin 2000) (j : Fin 128), y = ix2 r j := ⟨y 0, y 1, eq_ix2 y⟩
  unfold k0_pay1
  simp only [shapeCast_self]
  rw [addf_apply, blockDot256x128, biasRow128]
  rfl

/-- Region 5's payload read at an index of the block: the row of x against the column of w, plus the bias entry. -/
theorem pay5_apply (x : Vec Ideal S2000x256 .f32) (w : Vec Ideal S256x128 .f32) (b : Vec Ideal S1x128 .f32) (y : S2000x128.Idx) :
    k5_pay1 x w b y
      = (∑ k : Fin 256, x (ix2 (⟨(y 0).val, idx2_lt0 y⟩ : Fin 2000) k) * w (ix2 k (⟨(y 1).val, idx2_lt1 y⟩ : Fin 128)))
        + b (ix2 (0 : Fin 1) (⟨(y 1).val, idx2_lt1 y⟩ : Fin 128)) := by
  obtain ⟨r, j, rfl⟩ : ∃ (r : Fin 2000) (j : Fin 128), y = ix2 r j := ⟨y 0, y 1, eq_ix2 y⟩
  unfold k5_pay1
  simp only [shapeCast_self]
  rw [addf_apply, blockDot256x128, biasRow128]
  rfl

/-- Region 7's payload read at an index of the block: the row of x against the column of w, plus the bias entry. -/
theorem pay7_apply (x : Vec Ideal S2000x128 .f32) (w : Vec Ideal S128x128 .f32) (b : Vec Ideal S1x128 .f32) (y : S2000x128.Idx) :
    k7_pay1 x w b y
      = (∑ k : Fin 128, x (ix2 (⟨(y 0).val, idx2_lt0 y⟩ : Fin 2000) k) * w (ix2 k (⟨(y 1).val, idx2_lt1 y⟩ : Fin 128)))
        + b (ix2 (0 : Fin 1) (⟨(y 1).val, idx2_lt1 y⟩ : Fin 128)) := by
  obtain ⟨r, j, rfl⟩ : ∃ (r : Fin 2000) (j : Fin 128), y = ix2 r j := ⟨y 0, y 1, eq_ix2 y⟩
  unfold k7_pay1
  simp only [shapeCast_self]
  rw [addf_apply, blockDot128x128, biasRow128]
  rfl

/-- Region 12's payload read at an index of the block: the row of x against the column of w, plus the bias entry. -/
theorem pay12_apply (x : Vec Ideal S2000x128 .f32) (w : Vec Ideal S128x128 .f32) (b : Vec Ideal S1x128 .f32) (y : S2000x128.Idx) :
    k12_pay1 x w b y
      = (∑ k : Fin 128, x (ix2 (⟨(y 0).val, idx2_lt0 y⟩ : Fin 2000) k) * w (ix2 k (⟨(y 1).val, idx2_lt1 y⟩ : Fin 128)))
        + b (ix2 (0 : Fin 1) (⟨(y 1).val, idx2_lt1 y⟩ : Fin 128)) := by
  obtain ⟨r, j, rfl⟩ : ∃ (r : Fin 2000) (j : Fin 128), y = ix2 r j := ⟨y 0, y 1, eq_ix2 y⟩
  unfold k12_pay1
  simp only [shapeCast_self]
  rw [addf_apply, blockDot128x128, biasRow128]
  rfl

/-- Region 14's payload read at an index of the block: the row of x against the column of w, plus the bias entry. -/
theorem pay14_apply (x : Vec Ideal S2000x128 .f32) (w : Vec Ideal S128x64 .f32) (b : Vec Ideal S1x64 .f32) (y : S2000x64.Idx) :
    k14_pay1 x w b y
      = (∑ k : Fin 128, x (ix2 (⟨(y 0).val, idx2_lt0 y⟩ : Fin 2000) k) * w (ix2 k (⟨(y 1).val, idx2_lt1 y⟩ : Fin 64)))
        + b (ix2 (0 : Fin 1) (⟨(y 1).val, idx2_lt1 y⟩ : Fin 64)) := by
  obtain ⟨r, j, rfl⟩ : ∃ (r : Fin 2000) (j : Fin 64), y = ix2 r j := ⟨y 0, y 1, eq_ix2 y⟩
  unfold k14_pay1
  simp only [shapeCast_self]
  rw [addf_apply, blockDot128x64, biasRow64]
  rfl

/-- Region 19's payload read at an index of the block: the row of x against the column of w, plus the bias entry. -/
theorem pay19_apply (x : Vec Ideal S2000x128 .f32) (w : Vec Ideal S128x64 .f32) (b : Vec Ideal S1x64 .f32) (y : S2000x64.Idx) :
    k19_pay1 x w b y
      = (∑ k : Fin 128, x (ix2 (⟨(y 0).val, idx2_lt0 y⟩ : Fin 2000) k) * w (ix2 k (⟨(y 1).val, idx2_lt1 y⟩ : Fin 64)))
        + b (ix2 (0 : Fin 1) (⟨(y 1).val, idx2_lt1 y⟩ : Fin 64)) := by
  obtain ⟨r, j, rfl⟩ : ∃ (r : Fin 2000) (j : Fin 64), y = ix2 r j := ⟨y 0, y 1, eq_ix2 y⟩
  unfold k19_pay1
  simp only [shapeCast_self]
  rw [addf_apply, blockDot128x64, biasRow64]
  rfl

end Cert.KernelIdeal.RegionValue

end
-- ==== Proof.Regions.R0.lean ====
/-
  Region 0: the dense layer 256 → 128, computed block by block — 25 blocks of 2000 rows, each against the whole
  weight matrix and the whole bias row — leaves in the output array the layer of the whole input array, index by
  index: block t is rows 2000 t … 2000 t + 1999, a row of the result depends only on the same row of the input, and
  the 25 blocks tile the 50000 rows.
-/
import proofs.«149349_j76854144794846_1_alg».proof.Proof.Regions.LinSpec
import proofs.«149349_j76854144794846_1_alg».proof.Proof.Regions.LinPay
import proofs.«149349_j76854144794846_1_alg».proof.Proof.Gen.KernelIdeal.Frame
import Idealize.ShloMosaic.Lib.Pipeline.Value
import Idealize.ShloMosaic.Lib.Tactic

set_option maxRecDepth 16384

noncomputable section

open scoped BigOperators

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOff0 : (![0, 0] : Fin 2 → Nat) = fun _ => 0 := funext fun a => by fin_cases a <;> rfl

/-- The windows' block indices at point t: the input's and the output's row block is t, the weights and the bias row
    are whole at every point. Decided over the 25 points. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input's block at point t is rows 2000 t … 2000 t + 1999 of the input array. -/
theorem xBlock0 (c : Dev nD) (t : Fin cfg0.N) (r : Fin 2000) (k : Fin 256) (i : S50000x256.Idx)
    (h0 : (i 0).val = 2000 * t.val + r.val) (h1 : (i 1).val = k.val) :
    (iblk0 V c 0 t : Vec Ideal S2000x256 .f32) (ix2 r k) = (V c (Pipeline.arrRef spec0 0) : S50000x256.Idx → Elt Ideal .f32) i := by
  obtain ⟨e0, e1, -⟩ := blockIdx0 t
  unfold iblk0
  rw [View.read_apply]
  show V c (Pipeline.arrRef spec0 0) _ = V c (Pipeline.arrRef spec0 0) _
  congr 1
  funext a
  apply Fin.ext
  match a with
  | ⟨0, _⟩ => show win0_0.index t 0 * 2000 + 1 * r.val = (i 0).val; rw [e0, h0]; omega
  | ⟨1, _⟩ => show win0_0.index t 1 * 256 + 1 * k.val = (i 1).val; rw [e1, h1]; omega

/-- The weights' block at every point is the whole weight matrix. -/
theorem wBlock0 (c : Dev nD) (t : Fin cfg0.N) (k : Fin 256) (j : Fin 128) :
    (iblk0 V c 1 t : Vec Ideal S256x128 .f32) (ix2 k j) = (V c (Pipeline.arrRef spec0 1) : S256x128.Idx → Elt Ideal .f32) (ix2 k j) := by
  obtain ⟨-, -, e0, e1, -⟩ := blockIdx0 t
  unfold iblk0
  rw [View.read_apply]
  show V c (Pipeline.arrRef spec0 1) _ = V c (Pipeline.arrRef spec0 1) _
  congr 1
  funext a
  apply Fin.ext
  match a with
  | ⟨0, _⟩ => show win0_1.index t 0 * 256 + 1 * k.val = k.val; rw [e0]; omega
  | ⟨1, _⟩ => show win0_1.index t 1 * 128 + 1 * j.val = j.val; rw [e1]; omega

/-- The bias row's block at every point is the whole row. -/
theorem bBlock0 (c : Dev nD) (t : Fin cfg0.N) (j : Fin 128) :
    (iblk0 V c 2 t : Vec Ideal S1x128 .f32) (ix2 (0 : Fin 1) j) = (V c (Pipeline.arrRef spec0 2) : S1x128.Idx → Elt Ideal .f32) (ix2 (0 : Fin 1) j) := by
  obtain ⟨-, -, -, -, e0, e1, -⟩ := blockIdx0 t
  unfold iblk0
  rw [View.read_apply]
  show V c (Pipeline.arrRef spec0 2) _ = V c (Pipeline.arrRef spec0 2) _
  congr 1
  funext a
  apply Fin.ext
  match a with
  | ⟨0, _⟩ => show win0_2.index t 0 * 1 + 1 * 0 = 0; rw [e0]
  | ⟨1, _⟩ => show win0_2.index t 1 * 128 + 1 * j.val = j.val; rw [e1]; omega

/-- What point t writes back is block t of the layer of the arrays as the region finds them. -/
theorem flushed0_eq (c : Dev nD) (t : Fin cfg0.N) :
    (dat0 (F := Ideal) V c).flushed 3 t = ((cfg0.win 3).blk t).view.read (Elt Ideal)
      (Glin256x128 (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zeroOff0]
  simp only [View.ld_unit_zero (S := S2000x256) zeroOff0, View.ld_unit_zero (S := S256x128) zeroOff0, View.ld_unit_zero (S := S1x128) zeroOff0]
  obtain ⟨-, -, -, -, -, -, e0, e1⟩ := blockIdx0 t
  funext y
  have hy0 : (y 0).val < 2000 := (y 0).isLt
  have hy1 : (y 1).val < 128 := (y 1).isLt
  refine (pay0_apply _ _ _ _).trans ?_
  show _ = Glin256x128 (V c (Pipeline.arrRef spec0 0)) (V c (Pipeline.arrRef spec0 1)) (V c (Pipeline.arrRef spec0 2)) (((cfg0.win 3).blk t).view.emb y)
  refine Glin256x128_of_rows _ _ _ _ _ _ _ _ (((cfg0.win 3).blk t).view.emb y) ?_ (fun k => ?_) (fun k => wBlock0 V c t k _) (bBlock0 V c t _)
  · show win0_3.index t 1 * 128 + 1 * (y 1).val = (y 1).val
    rw [e1]; omega
  · refine xBlock0 V c t _ k _ ?_ rfl
    show win0_3.index t 0 * 2000 + 1 * (y 0).val = 2000 * t.val + (y 0).val
    rw [e0]; omega

/-- An index of the output array is in point t's block iff each coordinate is in the block's range on its axis. -/
theorem memBlock0 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v30).slice (win0_3.rect t)).set ↔ _
  rw [View.set_slice_whole, Rect.mem_set_unit]
  exact Iff.rfl

/-- Every row is in some block: row r is in block r / 2000. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  have ht : (i 0).val / 2000 < cfg0.N := by rw [hN]; omega
  obtain ⟨-, -, -, -, -, -, e0, e1⟩ := blockIdx0 ⟨(i 0).val / 2000, ht⟩
  refine ⟨⟨(i 0).val / 2000, ht⟩, flush0_3 _, ?_⟩
  rw [memBlock0]
  intro a
  match a with
  | ⟨0, _⟩ =>
    show win0_3.index ⟨(i 0).val / 2000, ht⟩ 0 * 2000 ≤ (i 0).val ∧ (i 0).val < win0_3.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win0_3.index ⟨(i 0).val / 2000, ht⟩ 1 * 128 ≤ (i 1).val ∧ (i 1).val < win0_3.index ⟨(i 0).val / 2000, ht⟩ 1 * 128 + 128
    rw [e1]; omega

/-- After region 0 the output array holds the dense layer of the arrays the region was entered with. -/
theorem closed0 (c : Dev nD) :
    (dat0 (F := Ideal) V c).arrAt 3 cfg0.N
      = Glin256x128 (V c (Pipeline.arrRef spec0 0)) (V c (Pipeline.arrRef spec0 1)) (V c (Pipeline.arrRef spec0 2)) :=
  (dat0 (F := Ideal) V c).arrAt_eq_of_cover 3 _ (fun t _ => flushed0_eq V c t) cover0

end Cert.KernelIdeal.RegionValue

end
-- ==== Proof.Regions.R1.lean ====
/- Region 1 of the kernel in closed form. Its body is pointwise: at every grid point it reads
   the point's block of two arrays and writes the weighted combination (x + 0.6 * y) * 0.625 of the two blocks to the point's block
   of a third. The 25 blocks of 2000 rows tile the array, so after the region the third array is that function of the
   first two as the region found them, index by index, whatever the buffers held when the region was entered. -/
import proofs.«149349_j76854144794846_1_alg».proof.Proof.Regions.PointSpec
import proofs.«149349_j76854144794846_1_alg».proof.Proof.Gen.KernelIdeal.Frame
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's payload, index by index: the scalar function of the two loaded blocks (a cast of a shape to itself is
    the identity). -/
theorem pay1_eq (x0 : Vec F S2000x128 .f32) (x1 : Vec F S2000x128 .f32) : k1_pay1 x0 x1 = fun j => combE (x0 j) (x1 j) := by
  funext j; unfold k1_pay1; rw [shapeCast_self, shapeCast_self]; exact comb_block_apply x0 x1 j

/-- The printed index maps, decided over the grid: at point `t` every window's block is block row `t`, block column 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

set_option maxHeartbeats 1000000 in
/-- What point `t` writes back is block `t` of the array function of the two input arrays as the region finds them. -/
theorem flushed1_eq (c : Dev nD) (t : Fin cfg1.N) :
    (dat1 V c).flushed 2 t = ((cfg1.win 2).blk t).view.read (Elt F) (Gcomb128 (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S2000x128) hz]
  rw [pay1_eq]
  obtain ⟨e0, e1, e2, e3, e4, e5⟩ := idx_facts1 t
  funext j
  refine Eq.trans ?_ (Gcomb128_apply (V c (Pipeline.arrRef spec1 0)) (V c (Pipeline.arrRef spec1 1)) (((cfg1.win 2).blk t).view.emb j)).symm
  show combE (V c (Pipeline.arrRef spec1 0) (((cfg1.win 0).blk t).view.emb j)) (V c (Pipeline.arrRef spec1 1) (((cfg1.win 1).blk t).view.emb j)) = combE (V c (Pipeline.arrRef spec1 0) (((cfg1.win 2).blk t).view.emb j)) (V c (Pipeline.arrRef spec1 1) (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 2000 + 1 * (j 0).val = win1_2.index t (0 : Fin 2) * 2000 + 1 * (j 0).val; rw [e0, e4]
    | ⟨1, _⟩ => show win1_0.index t (1 : Fin 2) * 128 + 1 * (j 1).val = win1_2.index t (1 : Fin 2) * 128 + 1 * (j 1).val; rw [e1, e5]
  have h1 : ((cfg1.win 1).blk t).view.emb j = ((cfg1.win 2).blk t).view.emb j := by
    funext a; apply Fin.ext
    match a with
    | ⟨0, _⟩ => show win1_1.index t (0 : Fin 2) * 2000 + 1 * (j 0).val = win1_2.index t (0 : Fin 2) * 2000 + 1 * (j 0).val; rw [e2, e4]
    | ⟨1, _⟩ => show win1_1.index t (1 : Fin 2) * 128 + 1 * (j 1).val = win1_2.index t (1 : Fin 2) * 128 + 1 * (j 1).val; rw [e3, e5]
  rw [h0, h1]

/-- An index of the array is in point `t`'s block iff each coordinate is in the block's range on its axis. -/
theorem mem_blk1 (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v44).slice (win1_2.rect t)).set ↔ _
  rw [View.set_slice_whole, Rect.mem_set_unit]
  exact Iff.rfl

/-- The blocks tile the array: row `r` is in the block of point `r / 2000`. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, by rw [show cfg1.N = 25 from N_1]; omega⟩, rfl⟩
  obtain ⟨e0, e1, e2, e3, e4, e5⟩ := idx_facts1 t
  refine ⟨t, flush1_2 t, ?_⟩
  rw [mem_blk1]
  intro a
  match a with
  | ⟨0, _⟩ => show win1_2.index t (0 : Fin 2) * 2000 ≤ (i 0).val ∧ (i 0).val < win1_2.index t (0 : Fin 2) * 2000 + 2000; rw [e4, ht]; omega
  | ⟨1, _⟩ => show win1_2.index t (1 : Fin 2) * 128 ≤ (i 1).val ∧ (i 1).val < win1_2.index t (1 : Fin 2) * 128 + 128; rw [e5]; omega

/-- THE ARRAY after region 1: the array function of the two input arrays as the region finds them. -/
theorem closed1 (c : Dev nD) :
    (dat1 V c).arrAt 2 cfg1.N = Gcomb128 (V c (Pipeline.arrRef spec1 0)) (V c (Pipeline.arrRef spec1 1)) :=
  (dat1 V c).arrAt_eq_of_cover 2 (Gcomb128 (V c (Pipeline.arrRef spec1 0)) (V c (Pipeline.arrRef spec1 1))) (fun t _ => flushed1_eq V c t) (cover1)

end Cert.KernelIdeal.RegionValue

end
-- ==== Proof.Regions.R2.lean ====
/- Region 2 of the kernel in closed form. Its body is pointwise: at every grid point it reads
   the point's block of two arrays and writes the weighted combination (x + 0.6 * y) * 0.625 of the two blocks to the point's block
   of a third. The 25 blocks of 2000 rows tile the array, so after the region the third array is that function of the
   first two as the region found them, index by index, whatever the buffers held when the region was entered. -/
import proofs.«149349_j76854144794846_1_alg».proof.Proof.Regions.PointSpec
import proofs.«149349_j76854144794846_1_alg».proof.Proof.Gen.KernelIdeal.Frame
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's payload, index by index: the scalar function of the two loaded blocks (a cast of a shape to itself is
    the identity). -/
theorem pay2_eq (x0 : Vec F S2000x128 .f32) (x1 : Vec F S2000x128 .f32) : k2_pay1 x0 x1 = fun j => combE (x0 j) (x1 j) := by
  funext j; unfold k2_pay1; rw [shapeCast_self, shapeCast_self]; exact comb_block_apply x0 x1 j

/-- The printed index maps, decided over the grid: at point `t` every window's block is block row `t`, block column 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

set_option maxHeartbeats 1000000 in
/-- What point `t` writes back is block `t` of the array function of the two input arrays as the region finds them. -/
theorem flushed2_eq (c : Dev nD) (t : Fin cfg2.N) :
    (dat2 V c).flushed 2 t = ((cfg2.win 2).blk t).view.read (Elt F) (Gcomb128 (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S2000x128) hz]
  rw [pay2_eq]
  obtain ⟨e0, e1, e2, e3, e4, e5⟩ := idx_facts2 t
  funext j
  refine Eq.trans ?_ (Gcomb128_apply (V c (Pipeline.arrRef spec2 0)) (V c (Pipeline.arrRef spec2 1)) (((cfg2.win 2).blk t).view.emb j)).symm
  show combE (V c (Pipeline.arrRef spec2 0) (((cfg2.win 0).blk t).view.emb j)) (V c (Pipeline.arrRef spec2 1) (((cfg2.win 1).blk t).view.emb j)) = combE (V c (Pipeline.arrRef spec2 0) (((cfg2.win 2).blk t).view.emb j)) (V c (Pipeline.arrRef spec2 1) (((cfg2.win 2).blk t).view.emb j))
  have h0 : ((cfg2.win 0).blk t).view.emb j = ((cfg2.win 2).blk t).view.emb j := by
    funext a; apply Fin.ext
    match a with
    | ⟨0, _⟩ => show win2_0.index t (0 : Fin 2) * 2000 + 1 * (j 0).val = win2_2.index t (0 : Fin 2) * 2000 + 1 * (j 0).val; rw [e0, e4]
    | ⟨1, _⟩ => show win2_0.index t (1 : Fin 2) * 128 + 1 * (j 1).val = win2_2.index t (1 : Fin 2) * 128 + 1 * (j 1).val; rw [e1, e5]
  have h1 : ((cfg2.win 1).blk t).view.emb j = ((cfg2.win 2).blk t).view.emb j := by
    funext a; apply Fin.ext
    match a with
    | ⟨0, _⟩ => show win2_1.index t (0 : Fin 2) * 2000 + 1 * (j 0).val = win2_2.index t (0 : Fin 2) * 2000 + 1 * (j 0).val; rw [e2, e4]
    | ⟨1, _⟩ => show win2_1.index t (1 : Fin 2) * 128 + 1 * (j 1).val = win2_2.index t (1 : Fin 2) * 128 + 1 * (j 1).val; rw [e3, e5]
  rw [h0, h1]

/-- An index of the array is in point `t`'s block iff each coordinate is in the block's range on its axis. -/
theorem mem_blk2 (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v58).slice (win2_2.rect t)).set ↔ _
  rw [View.set_slice_whole, Rect.mem_set_unit]
  exact Iff.rfl

/-- The blocks tile the array: row `r` is in the block of point `r / 2000`. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ : ∃ t : Fin cfg2.N, t.val = (i 0).val / 2000 :=
    ⟨⟨(i 0).val / 2000, by rw [show cfg2.N = 25 from N_2]; omega⟩, rfl⟩
  obtain ⟨e0, e1, e2, e3, e4, e5⟩ := idx_facts2 t
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; rw [e4, ht]; omega
  | ⟨1, _⟩ => show win2_2.index t (1 : Fin 2) * 128 ≤ (i 1).val ∧ (i 1).val < win2_2.index t (1 : Fin 2) * 128 + 128; rw [e5]; omega

/-- THE ARRAY after region 2: the array function of the two input arrays as the region finds them. -/
theorem closed2 (c : Dev nD) :
    (dat2 V c).arrAt 2 cfg2.N = Gcomb128 (V c (Pipeline.arrRef spec2 0)) (V c (Pipeline.arrRef spec2 1)) :=
  (dat2 V c).arrAt_eq_of_cover 2 (Gcomb128 (V c (Pipeline.arrRef spec2 0)) (V c (Pipeline.arrRef spec2 1))) (fun t _ => flushed2_eq V c t) (cover2)

end Cert.KernelIdeal.RegionValue

end
-- ==== Proof.Regions.R3.lean ====
/- Region 3 of the kernel in closed form. Its body is pointwise: at every grid point it reads
   the point's block of two arrays and writes the weighted combination (x + 0.6 * y) * 0.625 of the two blocks to the point's block
   of a third. The 25 blocks of 2000 rows tile the array, so after the region the third array is that function of the
   first two as the region found them, index by index, whatever the buffers held when the region was entered. -/
import proofs.«149349_j76854144794846_1_alg».proof.Proof.Regions.PointSpec
import proofs.«149349_j76854144794846_1_alg».proof.Proof.Gen.KernelIdeal.Frame
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's payload, index by index: the scalar function of the two loaded blocks (a cast of a shape to itself is
    the identity). -/
theorem pay3_eq (x0 : Vec F S2000x128 .f32) (x1 : Vec F S2000x128 .f32) : k3_pay1 x0 x1 = fun j => combE (x0 j) (x1 j) := by
  funext j; unfold k3_pay1; rw [shapeCast_self, shapeCast_self]; exact comb_block_apply x0 x1 j

/-- The printed index maps, decided over the grid: at point `t` every window's block is block row `t`, block column 0. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

set_option maxHeartbeats 1000000 in
/-- What point `t` writes back is block `t` of the array function of the two input arrays as the region finds them. -/
theorem flushed3_eq (c : Dev nD) (t : Fin cfg3.N) :
    (dat3 V c).flushed 2 t = ((cfg3.win 2).blk t).view.read (Elt F) (Gcomb128 (V c (Pipeline.arrRef spec3 0)) (V c (Pipeline.arrRef spec3 1))) := by
  show (cfg3.win 2).cut (grid3.coords t) ((dat3 V c).after 2 t) = _
  rw [after3_2]
  unfold out3_2
  rw [View.canon_unit_zero hz]
  simp only [View.ld_unit_zero (S := S2000x128) hz]
  rw [pay3_eq]
  obtain ⟨e0, e1, e2, e3, e4, e5⟩ := idx_facts3 t
  funext j
  refine Eq.trans ?_ (Gcomb128_apply (V c (Pipeline.arrRef spec3 0)) (V c (Pipeline.arrRef spec3 1)) (((cfg3.win 2).blk t).view.emb j)).symm
  show combE (V c (Pipeline.arrRef spec3 0) (((cfg3.win 0).blk t).view.emb j)) (V c (Pipeline.arrRef spec3 1) (((cfg3.win 1).blk t).view.emb j)) = combE (V c (Pipeline.arrRef spec3 0) (((cfg3.win 2).blk t).view.emb j)) (V c (Pipeline.arrRef spec3 1) (((cfg3.win 2).blk t).view.emb j))
  have h0 : ((cfg3.win 0).blk t).view.emb j = ((cfg3.win 2).blk t).view.emb j := by
    funext a; apply Fin.ext
    match a with
    | ⟨0, _⟩ => show win3_0.index t (0 : Fin 2) * 2000 + 1 * (j 0).val = win3_2.index t (0 : Fin 2) * 2000 + 1 * (j 0).val; rw [e0, e4]
    | ⟨1, _⟩ => show win3_0.index t (1 : Fin 2) * 128 + 1 * (j 1).val = win3_2.index t (1 : Fin 2) * 128 + 1 * (j 1).val; rw [e1, e5]
  have h1 : ((cfg3.win 1).blk t).view.emb j = ((cfg3.win 2).blk t).view.emb j := by
    funext a; apply Fin.ext
    match a with
    | ⟨0, _⟩ => show win3_1.index t (0 : Fin 2) * 2000 + 1 * (j 0).val = win3_2.index t (0 : Fin 2) * 2000 + 1 * (j 0).val; rw [e2, e4]
    | ⟨1, _⟩ => show win3_1.index t (1 : Fin 2) * 128 + 1 * (j 1).val = win3_2.index t (1 : Fin 2) * 128 + 1 * (j 1).val; rw [e3, e5]
  rw [h0, h1]

/-- An index of the array is in point `t`'s block iff each coordinate is in the block's range on its axis. -/
theorem mem_blk3 (t : Fin cfg3.N) (i : S50000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v72).slice (win3_2.rect t)).set ↔ _
  rw [View.set_slice_whole, Rect.mem_set_unit]
  exact Iff.rfl

/-- The blocks tile the array: row `r` is in the block of point `r / 2000`. -/
theorem cover3 (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ : ∃ t : Fin cfg3.N, t.val = (i 0).val / 2000 :=
    ⟨⟨(i 0).val / 2000, by rw [show cfg3.N = 25 from N_3]; omega⟩, rfl⟩
  obtain ⟨e0, e1, e2, e3, e4, e5⟩ := idx_facts3 t
  refine ⟨t, flush3_2 t, ?_⟩
  rw [mem_blk3]
  intro a
  match a with
  | ⟨0, _⟩ => show win3_2.index t (0 : Fin 2) * 2000 ≤ (i 0).val ∧ (i 0).val < win3_2.index t (0 : Fin 2) * 2000 + 2000; rw [e4, ht]; omega
  | ⟨1, _⟩ => show win3_2.index t (1 : Fin 2) * 128 ≤ (i 1).val ∧ (i 1).val < win3_2.index t (1 : Fin 2) * 128 + 128; rw [e5]; omega

/-- THE ARRAY after region 3: the array function of the two input arrays as the region finds them. -/
theorem closed3 (c : Dev nD) :
    (dat3 V c).arrAt 2 cfg3.N = Gcomb128 (V c (Pipeline.arrRef spec3 0)) (V c (Pipeline.arrRef spec3 1)) :=
  (dat3 V c).arrAt_eq_of_cover 2 (Gcomb128 (V c (Pipeline.arrRef spec3 0)) (V c (Pipeline.arrRef spec3 1))) (fun t _ => flushed3_eq V c t) (cover3)

end Cert.KernelIdeal.RegionValue

end
-- ==== Proof.Regions.R4.lean ====
/- Region 4 of the kernel in closed form. Its body is pointwise: at every grid point it reads
   the point's block of two arrays and writes the weighted combination (x + 0.6 * y) * 0.625 of the two blocks to the point's block
   of a third. The 25 blocks of 2000 rows tile the array, so after the region the third array is that function of the
   first two as the region found them, index by index, whatever the buffers held when the region was entered. -/
import proofs.«149349_j76854144794846_1_alg».proof.Proof.Regions.PointSpec
import proofs.«149349_j76854144794846_1_alg».proof.Proof.Gen.KernelIdeal.Frame
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's payload, index by index: the scalar function of the two loaded blocks (a cast of a shape to itself is
    the identity). -/
theorem pay4_eq (x0 : Vec F S2000x128 .f32) (x1 : Vec F S2000x128 .f32) : k4_pay1 x0 x1 = fun j => combE (x0 j) (x1 j) := by
  funext j; unfold k4_pay1; rw [shapeCast_self, shapeCast_self]; exact comb_block_apply x0 x1 j

/-- The printed index maps, decided over the grid: at point `t` every window's block is block row `t`, block column 0. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

set_option maxHeartbeats 1000000 in
/-- What point `t` writes back is block `t` of the array function of the two input arrays as the region finds them. -/
theorem flushed4_eq (c : Dev nD) (t : Fin cfg4.N) :
    (dat4 V c).flushed 2 t = ((cfg4.win 2).blk t).view.read (Elt F) (Gcomb128 (V c (Pipeline.arrRef spec4 0)) (V c (Pipeline.arrRef spec4 1))) := by
  show (cfg4.win 2).cut (grid4.coords t) ((dat4 V c).after 2 t) = _
  rw [after4_2]
  unfold out4_2
  rw [View.canon_unit_zero hz]
  simp only [View.ld_unit_zero (S := S2000x128) hz]
  rw [pay4_eq]
  obtain ⟨e0, e1, e2, e3, e4, e5⟩ := idx_facts4 t
  funext j
  refine Eq.trans ?_ (Gcomb128_apply (V c (Pipeline.arrRef spec4 0)) (V c (Pipeline.arrRef spec4 1)) (((cfg4.win 2).blk t).view.emb j)).symm
  show combE (V c (Pipeline.arrRef spec4 0) (((cfg4.win 0).blk t).view.emb j)) (V c (Pipeline.arrRef spec4 1) (((cfg4.win 1).blk t).view.emb j)) = combE (V c (Pipeline.arrRef spec4 0) (((cfg4.win 2).blk t).view.emb j)) (V c (Pipeline.arrRef spec4 1) (((cfg4.win 2).blk t).view.emb j))
  have h0 : ((cfg4.win 0).blk t).view.emb j = ((cfg4.win 2).blk t).view.emb j := by
    funext a; apply Fin.ext
    match a with
    | ⟨0, _⟩ => show win4_0.index t (0 : Fin 2) * 2000 + 1 * (j 0).val = win4_2.index t (0 : Fin 2) * 2000 + 1 * (j 0).val; rw [e0, e4]
    | ⟨1, _⟩ => show win4_0.index t (1 : Fin 2) * 128 + 1 * (j 1).val = win4_2.index t (1 : Fin 2) * 128 + 1 * (j 1).val; rw [e1, e5]
  have h1 : ((cfg4.win 1).blk t).view.emb j = ((cfg4.win 2).blk t).view.emb j := by
    funext a; apply Fin.ext
    match a with
    | ⟨0, _⟩ => show win4_1.index t (0 : Fin 2) * 2000 + 1 * (j 0).val = win4_2.index t (0 : Fin 2) * 2000 + 1 * (j 0).val; rw [e2, e4]
    | ⟨1, _⟩ => show win4_1.index t (1 : Fin 2) * 128 + 1 * (j 1).val = win4_2.index t (1 : Fin 2) * 128 + 1 * (j 1).val; rw [e3, e5]
  rw [h0, h1]

/-- An index of the array is in point `t`'s block iff each coordinate is in the block's range on its axis. -/
theorem mem_blk4 (t : Fin cfg4.N) (i : S50000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v86).slice (win4_2.rect t)).set ↔ _
  rw [View.set_slice_whole, Rect.mem_set_unit]
  exact Iff.rfl

/-- The blocks tile the array: row `r` is in the block of point `r / 2000`. -/
theorem cover4 (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, ht⟩ : ∃ t : Fin cfg4.N, t.val = (i 0).val / 2000 :=
    ⟨⟨(i 0).val / 2000, by rw [show cfg4.N = 25 from N_4]; omega⟩, rfl⟩
  obtain ⟨e0, e1, e2, e3, e4, e5⟩ := idx_facts4 t
  refine ⟨t, flush4_2 t, ?_⟩
  rw [mem_blk4]
  intro a
  match a with
  | ⟨0, _⟩ => show win4_2.index t (0 : Fin 2) * 2000 ≤ (i 0).val ∧ (i 0).val < win4_2.index t (0 : Fin 2) * 2000 + 2000; rw [e4, ht]; omega
  | ⟨1, _⟩ => show win4_2.index t (1 : Fin 2) * 128 ≤ (i 1).val ∧ (i 1).val < win4_2.index t (1 : Fin 2) * 128 + 128; rw [e5]; omega

/-- THE ARRAY after region 4: the array function of the two input arrays as the region finds them. -/
theorem closed4 (c : Dev nD) :
    (dat4 V c).arrAt 2 cfg4.N = Gcomb128 (V c (Pipeline.arrRef spec4 0)) (V c (Pipeline.arrRef spec4 1)) :=
  (dat4 V c).arrAt_eq_of_cover 2 (Gcomb128 (V c (Pipeline.arrRef spec4 0)) (V c (Pipeline.arrRef spec4 1))) (fun t _ => flushed4_eq V c t) (cover4)

end Cert.KernelIdeal.RegionValue

end
-- ==== Proof.Regions.R5.lean ====
/-
  Region 5: the dense layer 256 → 128, computed block by block — 25 blocks of 2000 rows, each against the whole
  weight matrix and the whole bias row — leaves in the output array the layer of the whole input array, index by
  index: block t is rows 2000 t … 2000 t + 1999, a row of the result depends only on the same row of the input, and
  the 25 blocks tile the 50000 rows.
-/
import proofs.«149349_j76854144794846_1_alg».proof.Proof.Regions.LinSpec
import proofs.«149349_j76854144794846_1_alg».proof.Proof.Regions.LinPay
import proofs.«149349_j76854144794846_1_alg».proof.Proof.Gen.KernelIdeal.Frame
import Idealize.ShloMosaic.Lib.Pipeline.Value
import Idealize.ShloMosaic.Lib.Tactic

set_option maxRecDepth 16384

noncomputable section

open scoped BigOperators

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOff5 : (![0, 0] : Fin 2 → Nat) = fun _ => 0 := funext fun a => by fin_cases a <;> rfl

/-- The windows' block indices at point t: the input's and the output's row block is t, the weights and the bias row
    are whole at every point. Decided over the 25 points. -/
theorem blockIdx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The input's block at point t is rows 2000 t … 2000 t + 1999 of the input array. -/
theorem xBlock5 (c : Dev nD) (t : Fin cfg5.N) (r : Fin 2000) (k : Fin 256) (i : S50000x256.Idx)
    (h0 : (i 0).val = 2000 * t.val + r.val) (h1 : (i 1).val = k.val) :
    (iblk5 V c 0 t : Vec Ideal S2000x256 .f32) (ix2 r k) = (V c (Pipeline.arrRef spec5 0) : S50000x256.Idx → Elt Ideal .f32) i := by
  obtain ⟨e0, e1, -⟩ := blockIdx5 t
  unfold iblk5
  rw [View.read_apply]
  show V c (Pipeline.arrRef spec5 0) _ = V c (Pipeline.arrRef spec5 0) _
  congr 1
  funext a
  apply Fin.ext
  match a with
  | ⟨0, _⟩ => show win5_0.index t 0 * 2000 + 1 * r.val = (i 0).val; rw [e0, h0]; omega
  | ⟨1, _⟩ => show win5_0.index t 1 * 256 + 1 * k.val = (i 1).val; rw [e1, h1]; omega

/-- The weights' block at every point is the whole weight matrix. -/
theorem wBlock5 (c : Dev nD) (t : Fin cfg5.N) (k : Fin 256) (j : Fin 128) :
    (iblk5 V c 1 t : Vec Ideal S256x128 .f32) (ix2 k j) = (V c (Pipeline.arrRef spec5 1) : S256x128.Idx → Elt Ideal .f32) (ix2 k j) := by
  obtain ⟨-, -, e0, e1, -⟩ := blockIdx5 t
  unfold iblk5
  rw [View.read_apply]
  show V c (Pipeline.arrRef spec5 1) _ = V c (Pipeline.arrRef spec5 1) _
  congr 1
  funext a
  apply Fin.ext
  match a with
  | ⟨0, _⟩ => show win5_1.index t 0 * 256 + 1 * k.val = k.val; rw [e0]; omega
  | ⟨1, _⟩ => show win5_1.index t 1 * 128 + 1 * j.val = j.val; rw [e1]; omega

/-- The bias row's block at every point is the whole row. -/
theorem bBlock5 (c : Dev nD) (t : Fin cfg5.N) (j : Fin 128) :
    (iblk5 V c 2 t : Vec Ideal S1x128 .f32) (ix2 (0 : Fin 1) j) = (V c (Pipeline.arrRef spec5 2) : S1x128.Idx → Elt Ideal .f32) (ix2 (0 : Fin 1) j) := by
  obtain ⟨-, -, -, -, e0, e1, -⟩ := blockIdx5 t
  unfold iblk5
  rw [View.read_apply]
  show V c (Pipeline.arrRef spec5 2) _ = V c (Pipeline.arrRef spec5 2) _
  congr 1
  funext a
  apply Fin.ext
  match a with
  | ⟨0, _⟩ => show win5_2.index t 0 * 1 + 1 * 0 = 0; rw [e0]
  | ⟨1, _⟩ => show win5_2.index t 1 * 128 + 1 * j.val = j.val; rw [e1]; omega

/-- What point t writes back is block t of the layer of the arrays as the region finds them. -/
theorem flushed5_eq (c : Dev nD) (t : Fin cfg5.N) :
    (dat5 (F := Ideal) V c).flushed 3 t = ((cfg5.win 3).blk t).view.read (Elt Ideal)
      (Glin256x128 (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero zeroOff5]
  simp only [View.ld_unit_zero (S := S2000x256) zeroOff5, View.ld_unit_zero (S := S256x128) zeroOff5, View.ld_unit_zero (S := S1x128) zeroOff5]
  obtain ⟨-, -, -, -, -, -, e0, e1⟩ := blockIdx5 t
  funext y
  have hy0 : (y 0).val < 2000 := (y 0).isLt
  have hy1 : (y 1).val < 128 := (y 1).isLt
  refine (pay5_apply _ _ _ _).trans ?_
  show _ = Glin256x128 (V c (Pipeline.arrRef spec5 0)) (V c (Pipeline.arrRef spec5 1)) (V c (Pipeline.arrRef spec5 2)) (((cfg5.win 3).blk t).view.emb y)
  refine Glin256x128_of_rows _ _ _ _ _ _ _ _ (((cfg5.win 3).blk t).view.emb y) ?_ (fun k => ?_) (fun k => wBlock5 V c t k _) (bBlock5 V c t _)
  · show win5_3.index t 1 * 128 + 1 * (y 1).val = (y 1).val
    rw [e1]; omega
  · refine xBlock5 V c t _ k _ ?_ rfl
    show win5_3.index t 0 * 2000 + 1 * (y 0).val = 2000 * t.val + (y 0).val
    rw [e0]; omega

/-- An index of the output array is in point t's block iff each coordinate is in the block's range on its axis. -/
theorem memBlock5 (t : Fin cfg5.N) (i : S50000x128.Idx) :
    i ∈ ((cfg5.win 3).blk t).view.set ↔ ∀ a : Fin 2, win5_3.index t a * S2000x128.size a ≤ (i a).val ∧ (i a).val < win5_3.index t a * S2000x128.size a + S2000x128.size a := by
  show i ∈ ((View.whole main_v88).slice (win5_3.rect t)).set ↔ _
  rw [View.set_slice_whole, Rect.mem_set_unit]
  exact Iff.rfl

/-- Every row is in some block: row r is in block r / 2000. -/
theorem cover5 (i : S50000x128.Idx) : ∃ t : Fin cfg5.N, (cfg5.win 3).flush t = true ∧ i ∈ ((cfg5.win 3).blk t).view.set := by
  have hi0 : (i 0).val < 50000 := (i 0).isLt
  have hi1 : (i 1).val < 128 := (i 1).isLt
  have hN : cfg5.N = 25 := N_5
  have ht : (i 0).val / 2000 < cfg5.N := by rw [hN]; omega
  obtain ⟨-, -, -, -, -, -, e0, e1⟩ := blockIdx5 ⟨(i 0).val / 2000, ht⟩
  refine ⟨⟨(i 0).val / 2000, ht⟩, flush5_3 _, ?_⟩
  rw [memBlock5]
  intro a
  match a with
  | ⟨0, _⟩ =>
    show win5_3.index ⟨(i 0).val / 2000, ht⟩ 0 * 2000 ≤ (i 0).val ∧ (i 0).val < win5_3.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win5_3.index ⟨(i 0).val / 2000, ht⟩ 1 * 128 ≤ (i 1).val ∧ (i 1).val < win5_3.index ⟨(i 0).val / 2000, ht⟩ 1 * 128 + 128
    rw [e1]; omega

/-- After region 5 the output array holds the dense layer of the arrays the region was entered with. -/
theorem closed5 (c : Dev nD) :
    (dat5 (F := Ideal) V c).arrAt 3 cfg5.N
      = Glin256x128 (V c (Pipeline.arrRef spec5 0)) (V c (Pipeline.arrRef spec5 1)) (V c (Pipeline.arrRef spec5 2)) :=
  (dat5 (F := Ideal) V c).arrAt_eq_of_cover 3 _ (fun t _ => flushed5_eq V c t) cover5

end Cert.KernelIdeal.RegionValue

end
-- ==== Proof.Regions.R6.lean ====
/- Region 6 of the kernel in closed form. Its body is pointwise: at every grid point it reads
   the point's block of two arrays and writes the sum followed by ELU of the two blocks to the point's block
   of a third. The 25 blocks of 2000 rows tile the array, so after the region the third array is that function of the
   first two as the region found them, index by index, whatever the buffers held when the region was entered. -/
import proofs.«149349_j76854144794846_1_alg».proof.Proof.Regions.PointSpec
import proofs.«149349_j76854144794846_1_alg».proof.Proof.Gen.KernelIdeal.Frame
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's payload, index by index: the scalar function of the two loaded blocks (a cast of a shape to itself is
    the identity). -/
theorem pay6_eq (x0 : Vec F S2000x128 .f32) (x1 : Vec F S2000x128 .f32) : k6_pay1 x0 x1 = fun j => eluE (x0 j) (x1 j) := by
  funext j; unfold k6_pay1; rw [shapeCast_self, shapeCast_self]; exact elu_block_apply x0 x1 j

/-- The printed index maps, decided over the grid: at point `t` every window's block is block row `t`, block column 0. -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

set_option maxHeartbeats 1000000 in
/-- What point `t` writes back is block `t` of the array function of the two input arrays as the region finds them. -/
theorem flushed6_eq (c : Dev nD) (t : Fin cfg6.N) :
    (dat6 V c).flushed 2 t = ((cfg6.win 2).blk t).view.read (Elt F) (Gelu128 (V c (Pipeline.arrRef spec6 0)) (V c (Pipeline.arrRef spec6 1))) := by
  show (cfg6.win 2).cut (grid6.coords t) ((dat6 V c).after 2 t) = _
  rw [after6_2]
  unfold out6_2
  rw [View.canon_unit_zero hz]
  simp only [View.ld_unit_zero (S := S2000x128) hz]
  rw [pay6_eq]
  obtain ⟨e0, e1, e2, e3, e4, e5⟩ := idx_facts6 t
  funext j
  refine Eq.trans ?_ (Gelu128_apply (V c (Pipeline.arrRef spec6 0)) (V c (Pipeline.arrRef spec6 1)) (((cfg6.win 2).blk t).view.emb j)).symm
  show eluE (V c (Pipeline.arrRef spec6 0) (((cfg6.win 0).blk t).view.emb j)) (V c (Pipeline.arrRef spec6 1) (((cfg6.win 1).blk t).view.emb j)) = eluE (V c (Pipeline.arrRef spec6 0) (((cfg6.win 2).blk t).view.emb j)) (V c (Pipeline.arrRef spec6 1) (((cfg6.win 2).blk t).view.emb j))
  have h0 : ((cfg6.win 0).blk t).view.emb j = ((cfg6.win 2).blk t).view.emb j := by
    funext a; apply Fin.ext
    match a with
    | ⟨0, _⟩ => show win6_0.index t (0 : Fin 2) * 2000 + 1 * (j 0).val = win6_2.index t (0 : Fin 2) * 2000 + 1 * (j 0).val; rw [e0, e4]
    | ⟨1, _⟩ => show win6_0.index t (1 : Fin 2) * 128 + 1 * (j 1).val = win6_2.index t (1 : Fin 2) * 128 + 1 * (j 1).val; rw [e1, e5]
  have h1 : ((cfg6.win 1).blk t).view.emb j = ((cfg6.win 2).blk t).view.emb j := by
    funext a; apply Fin.ext
    match a with
    | ⟨0, _⟩ => show win6_1.index t (0 : Fin 2) * 2000 + 1 * (j 0).val = win6_2.index t (0 : Fin 2) * 2000 + 1 * (j 0).val; rw [e2, e4]
    | ⟨1, _⟩ => show win6_1.index t (1 : Fin 2) * 128 + 1 * (j 1).val = win6_2.index t (1 : Fin 2) * 128 + 1 * (j 1).val; rw [e3, e5]
  rw [h0, h1]

/-- An index of the array is in point `t`'s block iff each coordinate is in the block's range on its axis. -/
theorem mem_blk6 (t : Fin cfg6.N) (i : S50000x128.Idx) :
    i ∈ ((cfg6.win 2).blk t).view.set ↔ ∀ a : Fin 2, win6_2.index t a * S2000x128.size a ≤ (i a).val ∧ (i a).val < win6_2.index t a * S2000x128.size a + S2000x128.size a := by
  show i ∈ ((View.whole main_v89).slice (win6_2.rect t)).set ↔ _
  rw [View.set_slice_whole, Rect.mem_set_unit]
  exact Iff.rfl

/-- The blocks tile the array: row `r` is in the block of point `r / 2000`. -/
theorem cover6 (i : S50000x128.Idx) : ∃ t : Fin cfg6.N, (cfg6.win 2).flush t = true ∧ i ∈ ((cfg6.win 2).blk t).view.set := by
  have hi0 : (i 0).val < 50000 := (i 0).isLt
  have hi1 : (i 1).val < 128 := (i 1).isLt
  obtain ⟨t, ht⟩ : ∃ t : Fin cfg6.N, t.val = (i 0).val / 2000 :=
    ⟨⟨(i 0).val / 2000, by rw [show cfg6.N = 25 from N_6]; omega⟩, rfl⟩
  obtain ⟨e0, e1, e2, e3, e4, e5⟩ := idx_facts6 t
  refine ⟨t, flush6_2 t, ?_⟩
  rw [mem_blk6]
  intro a
  match a with
  | ⟨0, _⟩ => show win6_2.index t (0 : Fin 2) * 2000 ≤ (i 0).val ∧ (i 0).val < win6_2.index t (0 : Fin 2) * 2000 + 2000; rw [e4, ht]; omega
  | ⟨1, _⟩ => show win6_2.index t (1 : Fin 2) * 128 ≤ (i 1).val ∧ (i 1).val < win6_2.index t (1 : Fin 2) * 128 + 128; rw [e5]; omega

/-- THE ARRAY after region 6: the array function of the two input arrays as the region finds them. -/
theorem closed6 (c : Dev nD) :
    (dat6 V c).arrAt 2 cfg6.N = Gelu128 (V c (Pipeline.arrRef spec6 0)) (V c (Pipeline.arrRef spec6 1)) :=
  (dat6 V c).arrAt_eq_of_cover 2 (Gelu128 (V c (Pipeline.arrRef spec6 0)) (V c (Pipeline.arrRef spec6 1))) (fun t _ => flushed6_eq V c t) (cover6)

end Cert.KernelIdeal.RegionValue

end
-- ==== Proof.Regions.R7.lean ====
/-
  Region 7: the dense layer 128 → 128, computed block by block — 25 blocks of 2000 rows, each against the whole
  weight matrix and the whole bias row — leaves in the output array the layer of the whole input array, index by
  index: block t is rows 2000 t … 2000 t + 1999, a row of the result depends only on the same row of the input, and
  the 25 blocks tile the 50000 rows.
-/
import proofs.«149349_j76854144794846_1_alg».proof.Proof.Regions.LinSpec
import proofs.«149349_j76854144794846_1_alg».proof.Proof.Regions.LinPay
import proofs.«149349_j76854144794846_1_alg».proof.Proof.Gen.KernelIdeal.Frame
import Idealize.ShloMosaic.Lib.Pipeline.Value
import Idealize.ShloMosaic.Lib.Tactic

set_option maxRecDepth 16384

noncomputable section

open scoped BigOperators

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOff7 : (![0, 0] : Fin 2 → Nat) = fun _ => 0 := funext fun a => by fin_cases a <;> rfl

/-- The windows' block indices at point t: the input's and the output's row block is t, the weights and the bias row
    are whole at every point. Decided over the 25 points. -/
theorem blockIdx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- The input's block at point t is rows 2000 t … 2000 t + 1999 of the input array. -/
theorem xBlock7 (c : Dev nD) (t : Fin cfg7.N) (r : Fin 2000) (k : Fin 128) (i : S50000x128.Idx)
    (h0 : (i 0).val = 2000 * t.val + r.val) (h1 : (i 1).val = k.val) :
    (iblk7 V c 0 t : Vec Ideal S2000x128 .f32) (ix2 r k) = (V c (Pipeline.arrRef spec7 0) : S50000x128.Idx → Elt Ideal .f32) i := by
  obtain ⟨e0, e1, -⟩ := blockIdx7 t
  unfold iblk7
  rw [View.read_apply]
  show V c (Pipeline.arrRef spec7 0) _ = V c (Pipeline.arrRef spec7 0) _
  congr 1
  funext a
  apply Fin.ext
  match a with
  | ⟨0, _⟩ => show win7_0.index t 0 * 2000 + 1 * r.val = (i 0).val; rw [e0, h0]; omega
  | ⟨1, _⟩ => show win7_0.index t 1 * 128 + 1 * k.val = (i 1).val; rw [e1, h1]; omega

/-- The weights' block at every point is the whole weight matrix. -/
theorem wBlock7 (c : Dev nD) (t : Fin cfg7.N) (k : Fin 128) (j : Fin 128) :
    (iblk7 V c 1 t : Vec Ideal S128x128 .f32) (ix2 k j) = (V c (Pipeline.arrRef spec7 1) : S128x128.Idx → Elt Ideal .f32) (ix2 k j) := by
  obtain ⟨-, -, e0, e1, -⟩ := blockIdx7 t
  unfold iblk7
  rw [View.read_apply]
  show V c (Pipeline.arrRef spec7 1) _ = V c (Pipeline.arrRef spec7 1) _
  congr 1
  funext a
  apply Fin.ext
  match a with
  | ⟨0, _⟩ => show win7_1.index t 0 * 128 + 1 * k.val = k.val; rw [e0]; omega
  | ⟨1, _⟩ => show win7_1.index t 1 * 128 + 1 * j.val = j.val; rw [e1]; omega

/-- The bias row's block at every point is the whole row. -/
theorem bBlock7 (c : Dev nD) (t : Fin cfg7.N) (j : Fin 128) :
    (iblk7 V c 2 t : Vec Ideal S1x128 .f32) (ix2 (0 : Fin 1) j) = (V c (Pipeline.arrRef spec7 2) : S1x128.Idx → Elt Ideal .f32) (ix2 (0 : Fin 1) j) := by
  obtain ⟨-, -, -, -, e0, e1, -⟩ := blockIdx7 t
  unfold iblk7
  rw [View.read_apply]
  show V c (Pipeline.arrRef spec7 2) _ = V c (Pipeline.arrRef spec7 2) _
  congr 1
  funext a
  apply Fin.ext
  match a with
  | ⟨0, _⟩ => show win7_2.index t 0 * 1 + 1 * 0 = 0; rw [e0]
  | ⟨1, _⟩ => show win7_2.index t 1 * 128 + 1 * j.val = j.val; rw [e1]; omega

/-- What point t writes back is block t of the layer of the arrays as the region finds them. -/
theorem flushed7_eq (c : Dev nD) (t : Fin cfg7.N) :
    (dat7 (F := Ideal) V c).flushed 3 t = ((cfg7.win 3).blk t).view.read (Elt Ideal)
      (Glin128x128 (V c (Pipeline.arrRef spec7 0)) (V c (Pipeline.arrRef spec7 1)) (V c (Pipeline.arrRef spec7 2))) := by
  show (cfg7.win 3).cut (grid7.coords t) ((dat7 V c).after 3 t) = _
  rw [after7_3]
  unfold out7_3
  rw [View.canon_unit_zero zeroOff7]
  simp only [View.ld_unit_zero (S := S2000x128) zeroOff7, View.ld_unit_zero (S := S128x128) zeroOff7, View.ld_unit_zero (S := S1x128) zeroOff7]
  obtain ⟨-, -, -, -, -, -, e0, e1⟩ := blockIdx7 t
  funext y
  have hy0 : (y 0).val < 2000 := (y 0).isLt
  have hy1 : (y 1).val < 128 := (y 1).isLt
  refine (pay7_apply _ _ _ _).trans ?_
  show _ = Glin128x128 (V c (Pipeline.arrRef spec7 0)) (V c (Pipeline.arrRef spec7 1)) (V c (Pipeline.arrRef spec7 2)) (((cfg7.win 3).blk t).view.emb y)
  refine Glin128x128_of_rows _ _ _ _ _ _ _ _ (((cfg7.win 3).blk t).view.emb y) ?_ (fun k => ?_) (fun k => wBlock7 V c t k _) (bBlock7 V c t _)
  · show win7_3.index t 1 * 128 + 1 * (y 1).val = (y 1).val
    rw [e1]; omega
  · refine xBlock7 V c t _ k _ ?_ rfl
    show win7_3.index t 0 * 2000 + 1 * (y 0).val = 2000 * t.val + (y 0).val
    rw [e0]; omega

/-- An index of the output array is in point t's block iff each coordinate is in the block's range on its axis. -/
theorem memBlock7 (t : Fin cfg7.N) (i : S50000x128.Idx) :
    i ∈ ((cfg7.win 3).blk t).view.set ↔ ∀ a : Fin 2, win7_3.index t a * S2000x128.size a ≤ (i a).val ∧ (i a).val < win7_3.index t a * S2000x128.size a + S2000x128.size a := by
  show i ∈ ((View.whole main_v91).slice (win7_3.rect t)).set ↔ _
  rw [View.set_slice_whole, Rect.mem_set_unit]
  exact Iff.rfl

/-- Every row is in some block: row r is in block r / 2000. -/
theorem cover7 (i : S50000x128.Idx) : ∃ t : Fin cfg7.N, (cfg7.win 3).flush t = true ∧ i ∈ ((cfg7.win 3).blk t).view.set := by
  have hi0 : (i 0).val < 50000 := (i 0).isLt
  have hi1 : (i 1).val < 128 := (i 1).isLt
  have hN : cfg7.N = 25 := N_7
  have ht : (i 0).val / 2000 < cfg7.N := by rw [hN]; omega
  obtain ⟨-, -, -, -, -, -, e0, e1⟩ := blockIdx7 ⟨(i 0).val / 2000, ht⟩
  refine ⟨⟨(i 0).val / 2000, ht⟩, flush7_3 _, ?_⟩
  rw [memBlock7]
  intro a
  match a with
  | ⟨0, _⟩ =>
    show win7_3.index ⟨(i 0).val / 2000, ht⟩ 0 * 2000 ≤ (i 0).val ∧ (i 0).val < win7_3.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win7_3.index ⟨(i 0).val / 2000, ht⟩ 1 * 128 ≤ (i 1).val ∧ (i 1).val < win7_3.index ⟨(i 0).val / 2000, ht⟩ 1 * 128 + 128
    rw [e1]; omega

/-- After region 7 the output array holds the dense layer of the arrays the region was entered with. -/
theorem closed7 (c : Dev nD) :
    (dat7 (F := Ideal) V c).arrAt 3 cfg7.N
      = Glin128x128 (V c (Pipeline.arrRef spec7 0)) (V c (Pipeline.arrRef spec7 1)) (V c (Pipeline.arrRef spec7 2)) :=
  (dat7 (F := Ideal) V c).arrAt_eq_of_cover 3 _ (fun t _ => flushed7_eq V c t) cover7

end Cert.KernelIdeal.RegionValue

end
-- ==== Proof.Regions.R8.lean ====
/- Region 8 of the kernel in closed form. Its body is pointwise: at every grid point it reads
   the point's block of two arrays and writes the weighted combination (x + 0.6 * y) * 0.625 of the two blocks to the point's block
   of a third. The 25 blocks of 2000 rows tile the array, so after the region the third array is that function of the
   first two as the region found them, index by index, whatever the buffers held when the region was entered. -/
import proofs.«149349_j76854144794846_1_alg».proof.Proof.Regions.PointSpec
import proofs.«149349_j76854144794846_1_alg».proof.Proof.Gen.KernelIdeal.Frame
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's payload, index by index: the scalar function of the two loaded blocks (a cast of a shape to itself is
    the identity). -/
theorem pay8_eq (x0 : Vec F S2000x128 .f32) (x1 : Vec F S2000x128 .f32) : k8_pay1 x0 x1 = fun j => combE (x0 j) (x1 j) := by
  funext j; unfold k8_pay1; rw [shapeCast_self, shapeCast_self]; exact comb_block_apply x0 x1 j

/-- The printed index maps, decided over the grid: at point `t` every window's block is block row `t`, block column 0. -/
theorem idx_facts8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0 :=
  (by decide +kernel : ∀ t : Fin grid8.N, _)

set_option maxHeartbeats 1000000 in
/-- What point `t` writes back is block `t` of the array function of the two input arrays as the region finds them. -/
theorem flushed8_eq (c : Dev nD) (t : Fin cfg8.N) :
    (dat8 V c).flushed 2 t = ((cfg8.win 2).blk t).view.read (Elt F) (Gcomb128 (V c (Pipeline.arrRef spec8 0)) (V c (Pipeline.arrRef spec8 1))) := by
  show (cfg8.win 2).cut (grid8.coords t) ((dat8 V c).after 2 t) = _
  rw [after8_2]
  unfold out8_2
  rw [View.canon_unit_zero hz]
  simp only [View.ld_unit_zero (S := S2000x128) hz]
  rw [pay8_eq]
  obtain ⟨e0, e1, e2, e3, e4, e5⟩ := idx_facts8 t
  funext j
  refine Eq.trans ?_ (Gcomb128_apply (V c (Pipeline.arrRef spec8 0)) (V c (Pipeline.arrRef spec8 1)) (((cfg8.win 2).blk t).view.emb j)).symm
  show combE (V c (Pipeline.arrRef spec8 0) (((cfg8.win 0).blk t).view.emb j)) (V c (Pipeline.arrRef spec8 1) (((cfg8.win 1).blk t).view.emb j)) = combE (V c (Pipeline.arrRef spec8 0) (((cfg8.win 2).blk t).view.emb j)) (V c (Pipeline.arrRef spec8 1) (((cfg8.win 2).blk t).view.emb j))
  have h0 : ((cfg8.win 0).blk t).view.emb j = ((cfg8.win 2).blk t).view.emb j := by
    funext a; apply Fin.ext
    match a with
    | ⟨0, _⟩ => show win8_0.index t (0 : Fin 2) * 2000 + 1 * (j 0).val = win8_2.index t (0 : Fin 2) * 2000 + 1 * (j 0).val; rw [e0, e4]
    | ⟨1, _⟩ => show win8_0.index t (1 : Fin 2) * 128 + 1 * (j 1).val = win8_2.index t (1 : Fin 2) * 128 + 1 * (j 1).val; rw [e1, e5]
  have h1 : ((cfg8.win 1).blk t).view.emb j = ((cfg8.win 2).blk t).view.emb j := by
    funext a; apply Fin.ext
    match a with
    | ⟨0, _⟩ => show win8_1.index t (0 : Fin 2) * 2000 + 1 * (j 0).val = win8_2.index t (0 : Fin 2) * 2000 + 1 * (j 0).val; rw [e2, e4]
    | ⟨1, _⟩ => show win8_1.index t (1 : Fin 2) * 128 + 1 * (j 1).val = win8_2.index t (1 : Fin 2) * 128 + 1 * (j 1).val; rw [e3, e5]
  rw [h0, h1]

/-- An index of the array is in point `t`'s block iff each coordinate is in the block's range on its axis. -/
theorem mem_blk8 (t : Fin cfg8.N) (i : S50000x128.Idx) :
    i ∈ ((cfg8.win 2).blk t).view.set ↔ ∀ a : Fin 2, win8_2.index t a * S2000x128.size a ≤ (i a).val ∧ (i a).val < win8_2.index t a * S2000x128.size a + S2000x128.size a := by
  show i ∈ ((View.whole main_v105).slice (win8_2.rect t)).set ↔ _
  rw [View.set_slice_whole, Rect.mem_set_unit]
  exact Iff.rfl

/-- The blocks tile the array: row `r` is in the block of point `r / 2000`. -/
theorem cover8 (i : S50000x128.Idx) : ∃ t : Fin cfg8.N, (cfg8.win 2).flush t = true ∧ i ∈ ((cfg8.win 2).blk t).view.set := by
  have hi0 : (i 0).val < 50000 := (i 0).isLt
  have hi1 : (i 1).val < 128 := (i 1).isLt
  obtain ⟨t, ht⟩ : ∃ t : Fin cfg8.N, t.val = (i 0).val / 2000 :=
    ⟨⟨(i 0).val / 2000, by rw [show cfg8.N = 25 from N_8]; omega⟩, rfl⟩
  obtain ⟨e0, e1, e2, e3, e4, e5⟩ := idx_facts8 t
  refine ⟨t, flush8_2 t, ?_⟩
  rw [mem_blk8]
  intro a
  match a with
  | ⟨0, _⟩ => show win8_2.index t (0 : Fin 2) * 2000 ≤ (i 0).val ∧ (i 0).val < win8_2.index t (0 : Fin 2) * 2000 + 2000; rw [e4, ht]; omega
  | ⟨1, _⟩ => show win8_2.index t (1 : Fin 2) * 128 ≤ (i 1).val ∧ (i 1).val < win8_2.index t (1 : Fin 2) * 128 + 128; rw [e5]; omega

/-- THE ARRAY after region 8: the array function of the two input arrays as the region finds them. -/
theorem closed8 (c : Dev nD) :
    (dat8 V c).arrAt 2 cfg8.N = Gcomb128 (V c (Pipeline.arrRef spec8 0)) (V c (Pipeline.arrRef spec8 1)) :=
  (dat8 V c).arrAt_eq_of_cover 2 (Gcomb128 (V c (Pipeline.arrRef spec8 0)) (V c (Pipeline.arrRef spec8 1))) (fun t _ => flushed8_eq V c t) (cover8)

end Cert.KernelIdeal.RegionValue

end
-- ==== Proof.Regions.R9.lean ====
/- Region 9 of the kernel in closed form. Its body is pointwise: at every grid point it reads
   the point's block of two arrays and writes the weighted combination (x + 0.6 * y) * 0.625 of the two blocks to the point's block
   of a third. The 25 blocks of 2000 rows tile the array, so after the region the third array is that function of the
   first two as the region found them, index by index, whatever the buffers held when the region was entered. -/
import proofs.«149349_j76854144794846_1_alg».proof.Proof.Regions.PointSpec
import proofs.«149349_j76854144794846_1_alg».proof.Proof.Gen.KernelIdeal.Frame
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's payload, index by index: the scalar function of the two loaded blocks (a cast of a shape to itself is
    the identity). -/
theorem pay9_eq (x0 : Vec F S2000x128 .f32) (x1 : Vec F S2000x128 .f32) : k9_pay1 x0 x1 = fun j => combE (x0 j) (x1 j) := by
  funext j; unfold k9_pay1; rw [shapeCast_self, shapeCast_self]; exact comb_block_apply x0 x1 j

/-- The printed index maps, decided over the grid: at point `t` every window's block is block row `t`, block column 0. -/
theorem idx_facts9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0 :=
  (by decide +kernel : ∀ t : Fin grid9.N, _)

set_option maxHeartbeats 1000000 in
/-- What point `t` writes back is block `t` of the array function of the two input arrays as the region finds them. -/
theorem flushed9_eq (c : Dev nD) (t : Fin cfg9.N) :
    (dat9 V c).flushed 2 t = ((cfg9.win 2).blk t).view.read (Elt F) (Gcomb128 (V c (Pipeline.arrRef spec9 0)) (V c (Pipeline.arrRef spec9 1))) := by
  show (cfg9.win 2).cut (grid9.coords t) ((dat9 V c).after 2 t) = _
  rw [after9_2]
  unfold out9_2
  rw [View.canon_unit_zero hz]
  simp only [View.ld_unit_zero (S := S2000x128) hz]
  rw [pay9_eq]
  obtain ⟨e0, e1, e2, e3, e4, e5⟩ := idx_facts9 t
  funext j
  refine Eq.trans ?_ (Gcomb128_apply (V c (Pipeline.arrRef spec9 0)) (V c (Pipeline.arrRef spec9 1)) (((cfg9.win 2).blk t).view.emb j)).symm
  show combE (V c (Pipeline.arrRef spec9 0) (((cfg9.win 0).blk t).view.emb j)) (V c (Pipeline.arrRef spec9 1) (((cfg9.win 1).blk t).view.emb j)) = combE (V c (Pipeline.arrRef spec9 0) (((cfg9.win 2).blk t).view.emb j)) (V c (Pipeline.arrRef spec9 1) (((cfg9.win 2).blk t).view.emb j))
  have h0 : ((cfg9.win 0).blk t).view.emb j = ((cfg9.win 2).blk t).view.emb j := by
    funext a; apply Fin.ext
    match a with
    | ⟨0, _⟩ => show win9_0.index t (0 : Fin 2) * 2000 + 1 * (j 0).val = win9_2.index t (0 : Fin 2) * 2000 + 1 * (j 0).val; rw [e0, e4]
    | ⟨1, _⟩ => show win9_0.index t (1 : Fin 2) * 128 + 1 * (j 1).val = win9_2.index t (1 : Fin 2) * 128 + 1 * (j 1).val; rw [e1, e5]
  have h1 : ((cfg9.win 1).blk t).view.emb j = ((cfg9.win 2).blk t).view.emb j := by
    funext a; apply Fin.ext
    match a with
    | ⟨0, _⟩ => show win9_1.index t (0 : Fin 2) * 2000 + 1 * (j 0).val = win9_2.index t (0 : Fin 2) * 2000 + 1 * (j 0).val; rw [e2, e4]
    | ⟨1, _⟩ => show win9_1.index t (1 : Fin 2) * 128 + 1 * (j 1).val = win9_2.index t (1 : Fin 2) * 128 + 1 * (j 1).val; rw [e3, e5]
  rw [h0, h1]

/-- An index of the array is in point `t`'s block iff each coordinate is in the block's range on its axis. -/
theorem mem_blk9 (t : Fin cfg9.N) (i : S50000x128.Idx) :
    i ∈ ((cfg9.win 2).blk t).view.set ↔ ∀ a : Fin 2, win9_2.index t a * S2000x128.size a ≤ (i a).val ∧ (i a).val < win9_2.index t a * S2000x128.size a + S2000x128.size a := by
  show i ∈ ((View.whole main_v119).slice (win9_2.rect t)).set ↔ _
  rw [View.set_slice_whole, Rect.mem_set_unit]
  exact Iff.rfl

/-- The blocks tile the array: row `r` is in the block of point `r / 2000`. -/
theorem cover9 (i : S50000x128.Idx) : ∃ t : Fin cfg9.N, (cfg9.win 2).flush t = true ∧ i ∈ ((cfg9.win 2).blk t).view.set := by
  have hi0 : (i 0).val < 50000 := (i 0).isLt
  have hi1 : (i 1).val < 128 := (i 1).isLt
  obtain ⟨t, ht⟩ : ∃ t : Fin cfg9.N, t.val = (i 0).val / 2000 :=
    ⟨⟨(i 0).val / 2000, by rw [show cfg9.N = 25 from N_9]; omega⟩, rfl⟩
  obtain ⟨e0, e1, e2, e3, e4, e5⟩ := idx_facts9 t
  refine ⟨t, flush9_2 t, ?_⟩
  rw [mem_blk9]
  intro a
  match a with
  | ⟨0, _⟩ => show win9_2.index t (0 : Fin 2) * 2000 ≤ (i 0).val ∧ (i 0).val < win9_2.index t (0 : Fin 2) * 2000 + 2000; rw [e4, ht]; omega
  | ⟨1, _⟩ => show win9_2.index t (1 : Fin 2) * 128 ≤ (i 1).val ∧ (i 1).val < win9_2.index t (1 : Fin 2) * 128 + 128; rw [e5]; omega

/-- THE ARRAY after region 9: the array function of the two input arrays as the region finds them. -/
theorem closed9 (c : Dev nD) :
    (dat9 V c).arrAt 2 cfg9.N = Gcomb128 (V c (Pipeline.arrRef spec9 0)) (V c (Pipeline.arrRef spec9 1)) :=
  (dat9 V c).arrAt_eq_of_cover 2 (Gcomb128 (V c (Pipeline.arrRef spec9 0)) (V c (Pipeline.arrRef spec9 1))) (fun t _ => flushed9_eq V c t) (cover9)

end Cert.KernelIdeal.RegionValue

end
-- ==== Proof.Regions.R10.lean ====
/- Region 10 of the kernel in closed form. Its body is pointwise: at every grid point it reads
   the point's block of two arrays and writes the weighted combination (x + 0.6 * y) * 0.625 of the two blocks to the point's block
   of a third. The 25 blocks of 2000 rows tile the array, so after the region the third array is that function of the
   first two as the region found them, index by index, whatever the buffers held when the region was entered. -/
import proofs.«149349_j76854144794846_1_alg».proof.Proof.Regions.PointSpec
import proofs.«149349_j76854144794846_1_alg».proof.Proof.Gen.KernelIdeal.Frame
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's payload, index by index: the scalar function of the two loaded blocks (a cast of a shape to itself is
    the identity). -/
theorem pay10_eq (x0 : Vec F S2000x128 .f32) (x1 : Vec F S2000x128 .f32) : k10_pay1 x0 x1 = fun j => combE (x0 j) (x1 j) := by
  funext j; unfold k10_pay1; rw [shapeCast_self, shapeCast_self]; exact comb_block_apply x0 x1 j

/-- The printed index maps, decided over the grid: at point `t` every window's block is block row `t`, block column 0. -/
theorem idx_facts10 : ∀ t : Fin cfg10.N, win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0 :=
  (by decide +kernel : ∀ t : Fin grid10.N, _)

set_option maxHeartbeats 1000000 in
/-- What point `t` writes back is block `t` of the array function of the two input arrays as the region finds them. -/
theorem flushed10_eq (c : Dev nD) (t : Fin cfg10.N) :
    (dat10 V c).flushed 2 t = ((cfg10.win 2).blk t).view.read (Elt F) (Gcomb128 (V c (Pipeline.arrRef spec10 0)) (V c (Pipeline.arrRef spec10 1))) := by
  show (cfg10.win 2).cut (grid10.coords t) ((dat10 V c).after 2 t) = _
  rw [after10_2]
  unfold out10_2
  rw [View.canon_unit_zero hz]
  simp only [View.ld_unit_zero (S := S2000x128) hz]
  rw [pay10_eq]
  obtain ⟨e0, e1, e2, e3, e4, e5⟩ := idx_facts10 t
  funext j
  refine Eq.trans ?_ (Gcomb128_apply (V c (Pipeline.arrRef spec10 0)) (V c (Pipeline.arrRef spec10 1)) (((cfg10.win 2).blk t).view.emb j)).symm
  show combE (V c (Pipeline.arrRef spec10 0) (((cfg10.win 0).blk t).view.emb j)) (V c (Pipeline.arrRef spec10 1) (((cfg10.win 1).blk t).view.emb j)) = combE (V c (Pipeline.arrRef spec10 0) (((cfg10.win 2).blk t).view.emb j)) (V c (Pipeline.arrRef spec10 1) (((cfg10.win 2).blk t).view.emb j))
  have h0 : ((cfg10.win 0).blk t).view.emb j = ((cfg10.win 2).blk t).view.emb j := by
    funext a; apply Fin.ext
    match a with
    | ⟨0, _⟩ => show win10_0.index t (0 : Fin 2) * 2000 + 1 * (j 0).val = win10_2.index t (0 : Fin 2) * 2000 + 1 * (j 0).val; rw [e0, e4]
    | ⟨1, _⟩ => show win10_0.index t (1 : Fin 2) * 128 + 1 * (j 1).val = win10_2.index t (1 : Fin 2) * 128 + 1 * (j 1).val; rw [e1, e5]
  have h1 : ((cfg10.win 1).blk t).view.emb j = ((cfg10.win 2).blk t).view.emb j := by
    funext a; apply Fin.ext
    match a with
    | ⟨0, _⟩ => show win10_1.index t (0 : Fin 2) * 2000 + 1 * (j 0).val = win10_2.index t (0 : Fin 2) * 2000 + 1 * (j 0).val; rw [e2, e4]
    | ⟨1, _⟩ => show win10_1.index t (1 : Fin 2) * 128 + 1 * (j 1).val = win10_2.index t (1 : Fin 2) * 128 + 1 * (j 1).val; rw [e3, e5]
  rw [h0, h1]

/-- An index of the array is in point `t`'s block iff each coordinate is in the block's range on its axis. -/
theorem mem_blk10 (t : Fin cfg10.N) (i : S50000x128.Idx) :
    i ∈ ((cfg10.win 2).blk t).view.set ↔ ∀ a : Fin 2, win10_2.index t a * S2000x128.size a ≤ (i a).val ∧ (i a).val < win10_2.index t a * S2000x128.size a + S2000x128.size a := by
  show i ∈ ((View.whole main_v133).slice (win10_2.rect t)).set ↔ _
  rw [View.set_slice_whole, Rect.mem_set_unit]
  exact Iff.rfl

/-- The blocks tile the array: row `r` is in the block of point `r / 2000`. -/
theorem cover10 (i : S50000x128.Idx) : ∃ t : Fin cfg10.N, (cfg10.win 2).flush t = true ∧ i ∈ ((cfg10.win 2).blk t).view.set := by
  have hi0 : (i 0).val < 50000 := (i 0).isLt
  have hi1 : (i 1).val < 128 := (i 1).isLt
  obtain ⟨t, ht⟩ : ∃ t : Fin cfg10.N, t.val = (i 0).val / 2000 :=
    ⟨⟨(i 0).val / 2000, by rw [show cfg10.N = 25 from N_10]; omega⟩, rfl⟩
  obtain ⟨e0, e1, e2, e3, e4, e5⟩ := idx_facts10 t
  refine ⟨t, flush10_2 t, ?_⟩
  rw [mem_blk10]
  intro a
  match a with
  | ⟨0, _⟩ => show win10_2.index t (0 : Fin 2) * 2000 ≤ (i 0).val ∧ (i 0).val < win10_2.index t (0 : Fin 2) * 2000 + 2000; rw [e4, ht]; omega
  | ⟨1, _⟩ => show win10_2.index t (1 : Fin 2) * 128 ≤ (i 1).val ∧ (i 1).val < win10_2.index t (1 : Fin 2) * 128 + 128; rw [e5]; omega

/-- THE ARRAY after region 10: the array function of the two input arrays as the region finds them. -/
theorem closed10 (c : Dev nD) :
    (dat10 V c).arrAt 2 cfg10.N = Gcomb128 (V c (Pipeline.arrRef spec10 0)) (V c (Pipeline.arrRef spec10 1)) :=
  (dat10 V c).arrAt_eq_of_cover 2 (Gcomb128 (V c (Pipeline.arrRef spec10 0)) (V c (Pipeline.arrRef spec10 1))) (fun t _ => flushed10_eq V c t) (cover10)

end Cert.KernelIdeal.RegionValue

end
-- ==== Proof.Regions.R11.lean ====
/- Region 11 of the kernel in closed form. Its body is pointwise: at every grid point it reads
   the point's block of two arrays and writes the weighted combination (x + 0.6 * y) * 0.625 of the two blocks to the point's block
   of a third. The 25 blocks of 2000 rows tile the array, so after the region the third array is that function of the
   first two as the region found them, index by index, whatever the buffers held when the region was entered. -/
import proofs.«149349_j76854144794846_1_alg».proof.Proof.Regions.PointSpec
import proofs.«149349_j76854144794846_1_alg».proof.Proof.Gen.KernelIdeal.Frame
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's payload, index by index: the scalar function of the two loaded blocks (a cast of a shape to itself is
    the identity). -/
theorem pay11_eq (x0 : Vec F S2000x128 .f32) (x1 : Vec F S2000x128 .f32) : k11_pay1 x0 x1 = fun j => combE (x0 j) (x1 j) := by
  funext j; unfold k11_pay1; rw [shapeCast_self, shapeCast_self]; exact comb_block_apply x0 x1 j

/-- The printed index maps, decided over the grid: at point `t` every window's block is block row `t`, block column 0. -/
theorem idx_facts11 : ∀ t : Fin cfg11.N, win11_0.index t (0 : Fin 2) = t.val ∧ win11_0.index t (1 : Fin 2) = 0
    ∧ win11_1.index t (0 : Fin 2) = t.val ∧ win11_1.index t (1 : Fin 2) = 0
    ∧ win11_2.index t (0 : Fin 2) = t.val ∧ win11_2.index t (1 : Fin 2) = 0 :=
  (by decide +kernel : ∀ t : Fin grid11.N, _)

set_option maxHeartbeats 1000000 in
/-- What point `t` writes back is block `t` of the array function of the two input arrays as the region finds them. -/
theorem flushed11_eq (c : Dev nD) (t : Fin cfg11.N) :
    (dat11 V c).flushed 2 t = ((cfg11.win 2).blk t).view.read (Elt F) (Gcomb128 (V c (Pipeline.arrRef spec11 0)) (V c (Pipeline.arrRef spec11 1))) := by
  show (cfg11.win 2).cut (grid11.coords t) ((dat11 V c).after 2 t) = _
  rw [after11_2]
  unfold out11_2
  rw [View.canon_unit_zero hz]
  simp only [View.ld_unit_zero (S := S2000x128) hz]
  rw [pay11_eq]
  obtain ⟨e0, e1, e2, e3, e4, e5⟩ := idx_facts11 t
  funext j
  refine Eq.trans ?_ (Gcomb128_apply (V c (Pipeline.arrRef spec11 0)) (V c (Pipeline.arrRef spec11 1)) (((cfg11.win 2).blk t).view.emb j)).symm
  show combE (V c (Pipeline.arrRef spec11 0) (((cfg11.win 0).blk t).view.emb j)) (V c (Pipeline.arrRef spec11 1) (((cfg11.win 1).blk t).view.emb j)) = combE (V c (Pipeline.arrRef spec11 0) (((cfg11.win 2).blk t).view.emb j)) (V c (Pipeline.arrRef spec11 1) (((cfg11.win 2).blk t).view.emb j))
  have h0 : ((cfg11.win 0).blk t).view.emb j = ((cfg11.win 2).blk t).view.emb j := by
    funext a; apply Fin.ext
    match a with
    | ⟨0, _⟩ => show win11_0.index t (0 : Fin 2) * 2000 + 1 * (j 0).val = win11_2.index t (0 : Fin 2) * 2000 + 1 * (j 0).val; rw [e0, e4]
    | ⟨1, _⟩ => show win11_0.index t (1 : Fin 2) * 128 + 1 * (j 1).val = win11_2.index t (1 : Fin 2) * 128 + 1 * (j 1).val; rw [e1, e5]
  have h1 : ((cfg11.win 1).blk t).view.emb j = ((cfg11.win 2).blk t).view.emb j := by
    funext a; apply Fin.ext
    match a with
    | ⟨0, _⟩ => show win11_1.index t (0 : Fin 2) * 2000 + 1 * (j 0).val = win11_2.index t (0 : Fin 2) * 2000 + 1 * (j 0).val; rw [e2, e4]
    | ⟨1, _⟩ => show win11_1.index t (1 : Fin 2) * 128 + 1 * (j 1).val = win11_2.index t (1 : Fin 2) * 128 + 1 * (j 1).val; rw [e3, e5]
  rw [h0, h1]

/-- An index of the array is in point `t`'s block iff each coordinate is in the block's range on its axis. -/
theorem mem_blk11 (t : Fin cfg11.N) (i : S50000x128.Idx) :
    i ∈ ((cfg11.win 2).blk t).view.set ↔ ∀ a : Fin 2, win11_2.index t a * S2000x128.size a ≤ (i a).val ∧ (i a).val < win11_2.index t a * S2000x128.size a + S2000x128.size a := by
  show i ∈ ((View.whole main_v147).slice (win11_2.rect t)).set ↔ _
  rw [View.set_slice_whole, Rect.mem_set_unit]
  exact Iff.rfl

/-- The blocks tile the array: row `r` is in the block of point `r / 2000`. -/
theorem cover11 (i : S50000x128.Idx) : ∃ t : Fin cfg11.N, (cfg11.win 2).flush t = true ∧ i ∈ ((cfg11.win 2).blk t).view.set := by
  have hi0 : (i 0).val < 50000 := (i 0).isLt
  have hi1 : (i 1).val < 128 := (i 1).isLt
  obtain ⟨t, ht⟩ : ∃ t : Fin cfg11.N, t.val = (i 0).val / 2000 :=
    ⟨⟨(i 0).val / 2000, by rw [show cfg11.N = 25 from N_11]; omega⟩, rfl⟩
  obtain ⟨e0, e1, e2, e3, e4, e5⟩ := idx_facts11 t
  refine ⟨t, flush11_2 t, ?_⟩
  rw [mem_blk11]
  intro a
  match a with
  | ⟨0, _⟩ => show win11_2.index t (0 : Fin 2) * 2000 ≤ (i 0).val ∧ (i 0).val < win11_2.index t (0 : Fin 2) * 2000 + 2000; rw [e4, ht]; omega
  | ⟨1, _⟩ => show win11_2.index t (1 : Fin 2) * 128 ≤ (i 1).val ∧ (i 1).val < win11_2.index t (1 : Fin 2) * 128 + 128; rw [e5]; omega

/-- THE ARRAY after region 11: the array function of the two input arrays as the region finds them. -/
theorem closed11 (c : Dev nD) :
    (dat11 V c).arrAt 2 cfg11.N = Gcomb128 (V c (Pipeline.arrRef spec11 0)) (V c (Pipeline.arrRef spec11 1)) :=
  (dat11 V c).arrAt_eq_of_cover 2 (Gcomb128 (V c (Pipeline.arrRef spec11 0)) (V c (Pipeline.arrRef spec11 1))) (fun t _ => flushed11_eq V c t) (cover11)

end Cert.KernelIdeal.RegionValue

end
-- ==== Proof.Regions.R12.lean ====
/-
  Region 12: the dense layer 128 → 128, computed block by block — 25 blocks of 2000 rows, each against the whole
  weight matrix and the whole bias row — leaves in the output array the layer of the whole input array, index by
  index: block t is rows 2000 t … 2000 t + 1999, a row of the result depends only on the same row of the input, and
  the 25 blocks tile the 50000 rows.
-/
import proofs.«149349_j76854144794846_1_alg».proof.Proof.Regions.LinSpec
import proofs.«149349_j76854144794846_1_alg».proof.Proof.Regions.LinPay
import proofs.«149349_j76854144794846_1_alg».proof.Proof.Gen.KernelIdeal.Frame
import Idealize.ShloMosaic.Lib.Pipeline.Value
import Idealize.ShloMosaic.Lib.Tactic

set_option maxRecDepth 16384

noncomputable section

open scoped BigOperators

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOff12 : (![0, 0] : Fin 2 → Nat) = fun _ => 0 := funext fun a => by fin_cases a <;> rfl

/-- The windows' block indices at point t: the input's and the output's row block is t, the weights and the bias row
    are whole at every point. Decided over the 25 points. -/
theorem blockIdx12 : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0 :=
  (by decide +kernel : ∀ t : Fin grid12.N, _)

/-- The input's block at point t is rows 2000 t … 2000 t + 1999 of the input array. -/
theorem xBlock12 (c : Dev nD) (t : Fin cfg12.N) (r : Fin 2000) (k : Fin 128) (i : S50000x128.Idx)
    (h0 : (i 0).val = 2000 * t.val + r.val) (h1 : (i 1).val = k.val) :
    (iblk12 V c 0 t : Vec Ideal S2000x128 .f32) (ix2 r k) = (V c (Pipeline.arrRef spec12 0) : S50000x128.Idx → Elt Ideal .f32) i := by
  obtain ⟨e0, e1, -⟩ := blockIdx12 t
  unfold iblk12
  rw [View.read_apply]
  show V c (Pipeline.arrRef spec12 0) _ = V c (Pipeline.arrRef spec12 0) _
  congr 1
  funext a
  apply Fin.ext
  match a with
  | ⟨0, _⟩ => show win12_0.index t 0 * 2000 + 1 * r.val = (i 0).val; rw [e0, h0]; omega
  | ⟨1, _⟩ => show win12_0.index t 1 * 128 + 1 * k.val = (i 1).val; rw [e1, h1]; omega

/-- The weights' block at every point is the whole weight matrix. -/
theorem wBlock12 (c : Dev nD) (t : Fin cfg12.N) (k : Fin 128) (j : Fin 128) :
    (iblk12 V c 1 t : Vec Ideal S128x128 .f32) (ix2 k j) = (V c (Pipeline.arrRef spec12 1) : S128x128.Idx → Elt Ideal .f32) (ix2 k j) := by
  obtain ⟨-, -, e0, e1, -⟩ := blockIdx12 t
  unfold iblk12
  rw [View.read_apply]
  show V c (Pipeline.arrRef spec12 1) _ = V c (Pipeline.arrRef spec12 1) _
  congr 1
  funext a
  apply Fin.ext
  match a with
  | ⟨0, _⟩ => show win12_1.index t 0 * 128 + 1 * k.val = k.val; rw [e0]; omega
  | ⟨1, _⟩ => show win12_1.index t 1 * 128 + 1 * j.val = j.val; rw [e1]; omega

/-- The bias row's block at every point is the whole row. -/
theorem bBlock12 (c : Dev nD) (t : Fin cfg12.N) (j : Fin 128) :
    (iblk12 V c 2 t : Vec Ideal S1x128 .f32) (ix2 (0 : Fin 1) j) = (V c (Pipeline.arrRef spec12 2) : S1x128.Idx → Elt Ideal .f32) (ix2 (0 : Fin 1) j) := by
  obtain ⟨-, -, -, -, e0, e1, -⟩ := blockIdx12 t
  unfold iblk12
  rw [View.read_apply]
  show V c (Pipeline.arrRef spec12 2) _ = V c (Pipeline.arrRef spec12 2) _
  congr 1
  funext a
  apply Fin.ext
  match a with
  | ⟨0, _⟩ => show win12_2.index t 0 * 1 + 1 * 0 = 0; rw [e0]
  | ⟨1, _⟩ => show win12_2.index t 1 * 128 + 1 * j.val = j.val; rw [e1]; omega

/-- What point t writes back is block t of the layer of the arrays as the region finds them. -/
theorem flushed12_eq (c : Dev nD) (t : Fin cfg12.N) :
    (dat12 (F := Ideal) V c).flushed 3 t = ((cfg12.win 3).blk t).view.read (Elt Ideal)
      (Glin128x128 (V c (Pipeline.arrRef spec12 0)) (V c (Pipeline.arrRef spec12 1)) (V c (Pipeline.arrRef spec12 2))) := by
  show (cfg12.win 3).cut (grid12.coords t) ((dat12 V c).after 3 t) = _
  rw [after12_3]
  unfold out12_3
  rw [View.canon_unit_zero zeroOff12]
  simp only [View.ld_unit_zero (S := S2000x128) zeroOff12, View.ld_unit_zero (S := S128x128) zeroOff12, View.ld_unit_zero (S := S1x128) zeroOff12]
  obtain ⟨-, -, -, -, -, -, e0, e1⟩ := blockIdx12 t
  funext y
  have hy0 : (y 0).val < 2000 := (y 0).isLt
  have hy1 : (y 1).val < 128 := (y 1).isLt
  refine (pay12_apply _ _ _ _).trans ?_
  show _ = Glin128x128 (V c (Pipeline.arrRef spec12 0)) (V c (Pipeline.arrRef spec12 1)) (V c (Pipeline.arrRef spec12 2)) (((cfg12.win 3).blk t).view.emb y)
  refine Glin128x128_of_rows _ _ _ _ _ _ _ _ (((cfg12.win 3).blk t).view.emb y) ?_ (fun k => ?_) (fun k => wBlock12 V c t k _) (bBlock12 V c t _)
  · show win12_3.index t 1 * 128 + 1 * (y 1).val = (y 1).val
    rw [e1]; omega
  · refine xBlock12 V c t _ k _ ?_ rfl
    show win12_3.index t 0 * 2000 + 1 * (y 0).val = 2000 * t.val + (y 0).val
    rw [e0]; omega

/-- An index of the output array is in point t's block iff each coordinate is in the block's range on its axis. -/
theorem memBlock12 (t : Fin cfg12.N) (i : S50000x128.Idx) :
    i ∈ ((cfg12.win 3).blk t).view.set ↔ ∀ a : Fin 2, win12_3.index t a * S2000x128.size a ≤ (i a).val ∧ (i a).val < win12_3.index t a * S2000x128.size a + S2000x128.size a := by
  show i ∈ ((View.whole main_v149).slice (win12_3.rect t)).set ↔ _
  rw [View.set_slice_whole, Rect.mem_set_unit]
  exact Iff.rfl

/-- Every row is in some block: row r is in block r / 2000. -/
theorem cover12 (i : S50000x128.Idx) : ∃ t : Fin cfg12.N, (cfg12.win 3).flush t = true ∧ i ∈ ((cfg12.win 3).blk t).view.set := by
  have hi0 : (i 0).val < 50000 := (i 0).isLt
  have hi1 : (i 1).val < 128 := (i 1).isLt
  have hN : cfg12.N = 25 := N_12
  have ht : (i 0).val / 2000 < cfg12.N := by rw [hN]; omega
  obtain ⟨-, -, -, -, -, -, e0, e1⟩ := blockIdx12 ⟨(i 0).val / 2000, ht⟩
  refine ⟨⟨(i 0).val / 2000, ht⟩, flush12_3 _, ?_⟩
  rw [memBlock12]
  intro a
  match a with
  | ⟨0, _⟩ =>
    show win12_3.index ⟨(i 0).val / 2000, ht⟩ 0 * 2000 ≤ (i 0).val ∧ (i 0).val < win12_3.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win12_3.index ⟨(i 0).val / 2000, ht⟩ 1 * 128 ≤ (i 1).val ∧ (i 1).val < win12_3.index ⟨(i 0).val / 2000, ht⟩ 1 * 128 + 128
    rw [e1]; omega

/-- After region 12 the output array holds the dense layer of the arrays the region was entered with. -/
theorem closed12 (c : Dev nD) :
    (dat12 (F := Ideal) V c).arrAt 3 cfg12.N
      = Glin128x128 (V c (Pipeline.arrRef spec12 0)) (V c (Pipeline.arrRef spec12 1)) (V c (Pipeline.arrRef spec12 2)) :=
  (dat12 (F := Ideal) V c).arrAt_eq_of_cover 3 _ (fun t _ => flushed12_eq V c t) cover12

end Cert.KernelIdeal.RegionValue

end
-- ==== Proof.Regions.R13.lean ====
/- Region 13 of the kernel in closed form. Its body is pointwise: at every grid point it reads
   the point's block of two arrays and writes the sum followed by ELU of the two blocks to the point's block
   of a third. The 25 blocks of 2000 rows tile the array, so after the region the third array is that function of the
   first two as the region found them, index by index, whatever the buffers held when the region was entered. -/
import proofs.«149349_j76854144794846_1_alg».proof.Proof.Regions.PointSpec
import proofs.«149349_j76854144794846_1_alg».proof.Proof.Gen.KernelIdeal.Frame
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's payload, index by index: the scalar function of the two loaded blocks (a cast of a shape to itself is
    the identity). -/
theorem pay13_eq (x0 : Vec F S2000x128 .f32) (x1 : Vec F S2000x128 .f32) : k13_pay1 x0 x1 = fun j => eluE (x0 j) (x1 j) := by
  funext j; unfold k13_pay1; rw [shapeCast_self, shapeCast_self]; exact elu_block_apply x0 x1 j

/-- The printed index maps, decided over the grid: at point `t` every window's block is block row `t`, block column 0. -/
theorem idx_facts13 : ∀ t : Fin cfg13.N, win13_0.index t (0 : Fin 2) = t.val ∧ win13_0.index t (1 : Fin 2) = 0
    ∧ win13_1.index t (0 : Fin 2) = t.val ∧ win13_1.index t (1 : Fin 2) = 0
    ∧ win13_2.index t (0 : Fin 2) = t.val ∧ win13_2.index t (1 : Fin 2) = 0 :=
  (by decide +kernel : ∀ t : Fin grid13.N, _)

set_option maxHeartbeats 1000000 in
/-- What point `t` writes back is block `t` of the array function of the two input arrays as the region finds them. -/
theorem flushed13_eq (c : Dev nD) (t : Fin cfg13.N) :
    (dat13 V c).flushed 2 t = ((cfg13.win 2).blk t).view.read (Elt F) (Gelu128 (V c (Pipeline.arrRef spec13 0)) (V c (Pipeline.arrRef spec13 1))) := by
  show (cfg13.win 2).cut (grid13.coords t) ((dat13 V c).after 2 t) = _
  rw [after13_2]
  unfold out13_2
  rw [View.canon_unit_zero hz]
  simp only [View.ld_unit_zero (S := S2000x128) hz]
  rw [pay13_eq]
  obtain ⟨e0, e1, e2, e3, e4, e5⟩ := idx_facts13 t
  funext j
  refine Eq.trans ?_ (Gelu128_apply (V c (Pipeline.arrRef spec13 0)) (V c (Pipeline.arrRef spec13 1)) (((cfg13.win 2).blk t).view.emb j)).symm
  show eluE (V c (Pipeline.arrRef spec13 0) (((cfg13.win 0).blk t).view.emb j)) (V c (Pipeline.arrRef spec13 1) (((cfg13.win 1).blk t).view.emb j)) = eluE (V c (Pipeline.arrRef spec13 0) (((cfg13.win 2).blk t).view.emb j)) (V c (Pipeline.arrRef spec13 1) (((cfg13.win 2).blk t).view.emb j))
  have h0 : ((cfg13.win 0).blk t).view.emb j = ((cfg13.win 2).blk t).view.emb j := by
    funext a; apply Fin.ext
    match a with
    | ⟨0, _⟩ => show win13_0.index t (0 : Fin 2) * 2000 + 1 * (j 0).val = win13_2.index t (0 : Fin 2) * 2000 + 1 * (j 0).val; rw [e0, e4]
    | ⟨1, _⟩ => show win13_0.index t (1 : Fin 2) * 128 + 1 * (j 1).val = win13_2.index t (1 : Fin 2) * 128 + 1 * (j 1).val; rw [e1, e5]
  have h1 : ((cfg13.win 1).blk t).view.emb j = ((cfg13.win 2).blk t).view.emb j := by
    funext a; apply Fin.ext
    match a with
    | ⟨0, _⟩ => show win13_1.index t (0 : Fin 2) * 2000 + 1 * (j 0).val = win13_2.index t (0 : Fin 2) * 2000 + 1 * (j 0).val; rw [e2, e4]
    | ⟨1, _⟩ => show win13_1.index t (1 : Fin 2) * 128 + 1 * (j 1).val = win13_2.index t (1 : Fin 2) * 128 + 1 * (j 1).val; rw [e3, e5]
  rw [h0, h1]

/-- An index of the array is in point `t`'s block iff each coordinate is in the block's range on its axis. -/
theorem mem_blk13 (t : Fin cfg13.N) (i : S50000x128.Idx) :
    i ∈ ((cfg13.win 2).blk t).view.set ↔ ∀ a : Fin 2, win13_2.index t a * S2000x128.size a ≤ (i a).val ∧ (i a).val < win13_2.index t a * S2000x128.size a + S2000x128.size a := by
  show i ∈ ((View.whole main_v150).slice (win13_2.rect t)).set ↔ _
  rw [View.set_slice_whole, Rect.mem_set_unit]
  exact Iff.rfl

/-- The blocks tile the array: row `r` is in the block of point `r / 2000`. -/
theorem cover13 (i : S50000x128.Idx) : ∃ t : Fin cfg13.N, (cfg13.win 2).flush t = true ∧ i ∈ ((cfg13.win 2).blk t).view.set := by
  have hi0 : (i 0).val < 50000 := (i 0).isLt
  have hi1 : (i 1).val < 128 := (i 1).isLt
  obtain ⟨t, ht⟩ : ∃ t : Fin cfg13.N, t.val = (i 0).val / 2000 :=
    ⟨⟨(i 0).val / 2000, by rw [show cfg13.N = 25 from N_13]; omega⟩, rfl⟩
  obtain ⟨e0, e1, e2, e3, e4, e5⟩ := idx_facts13 t
  refine ⟨t, flush13_2 t, ?_⟩
  rw [mem_blk13]
  intro a
  match a with
  | ⟨0, _⟩ => show win13_2.index t (0 : Fin 2) * 2000 ≤ (i 0).val ∧ (i 0).val < win13_2.index t (0 : Fin 2) * 2000 + 2000; rw [e4, ht]; omega
  | ⟨1, _⟩ => show win13_2.index t (1 : Fin 2) * 128 ≤ (i 1).val ∧ (i 1).val < win13_2.index t (1 : Fin 2) * 128 + 128; rw [e5]; omega

/-- THE ARRAY after region 13: the array function of the two input arrays as the region finds them. -/
theorem closed13 (c : Dev nD) :
    (dat13 V c).arrAt 2 cfg13.N = Gelu128 (V c (Pipeline.arrRef spec13 0)) (V c (Pipeline.arrRef spec13 1)) :=
  (dat13 V c).arrAt_eq_of_cover 2 (Gelu128 (V c (Pipeline.arrRef spec13 0)) (V c (Pipeline.arrRef spec13 1))) (fun t _ => flushed13_eq V c t) (cover13)

end Cert.KernelIdeal.RegionValue

end
-- ==== Proof.Regions.R14.lean ====
/-
  Region 14: the dense layer 128 → 64, computed block by block — 25 blocks of 2000 rows, each against the whole
  weight matrix and the whole bias row — leaves in the output array the layer of the whole input array, index by
  index: block t is rows 2000 t … 2000 t + 1999, a row of the result depends only on the same row of the input, and
  the 25 blocks tile the 50000 rows.
-/
import proofs.«149349_j76854144794846_1_alg».proof.Proof.Regions.LinSpec
import proofs.«149349_j76854144794846_1_alg».proof.Proof.Regions.LinPay
import proofs.«149349_j76854144794846_1_alg».proof.Proof.Gen.KernelIdeal.Frame
import Idealize.ShloMosaic.Lib.Pipeline.Value
import Idealize.ShloMosaic.Lib.Tactic

set_option maxRecDepth 16384

noncomputable section

open scoped BigOperators

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOff14 : (![0, 0] : Fin 2 → Nat) = fun _ => 0 := funext fun a => by fin_cases a <;> rfl

/-- The windows' block indices at point t: the input's and the output's row block is t, the weights and the bias row
    are whole at every point. Decided over the 25 points. -/
theorem blockIdx14 : ∀ t : Fin cfg14.N, win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = t.val ∧ win14_3.index t (1 : Fin 2) = 0 :=
  (by decide +kernel : ∀ t : Fin grid14.N, _)

/-- The input's block at point t is rows 2000 t … 2000 t + 1999 of the input array. -/
theorem xBlock14 (c : Dev nD) (t : Fin cfg14.N) (r : Fin 2000) (k : Fin 128) (i : S50000x128.Idx)
    (h0 : (i 0).val = 2000 * t.val + r.val) (h1 : (i 1).val = k.val) :
    (iblk14 V c 0 t : Vec Ideal S2000x128 .f32) (ix2 r k) = (V c (Pipeline.arrRef spec14 0) : S50000x128.Idx → Elt Ideal .f32) i := by
  obtain ⟨e0, e1, -⟩ := blockIdx14 t
  unfold iblk14
  rw [View.read_apply]
  show V c (Pipeline.arrRef spec14 0) _ = V c (Pipeline.arrRef spec14 0) _
  congr 1
  funext a
  apply Fin.ext
  match a with
  | ⟨0, _⟩ => show win14_0.index t 0 * 2000 + 1 * r.val = (i 0).val; rw [e0, h0]; omega
  | ⟨1, _⟩ => show win14_0.index t 1 * 128 + 1 * k.val = (i 1).val; rw [e1, h1]; omega

/-- The weights' block at every point is the whole weight matrix. -/
theorem wBlock14 (c : Dev nD) (t : Fin cfg14.N) (k : Fin 128) (j : Fin 64) :
    (iblk14 V c 1 t : Vec Ideal S128x64 .f32) (ix2 k j) = (V c (Pipeline.arrRef spec14 1) : S128x64.Idx → Elt Ideal .f32) (ix2 k j) := by
  obtain ⟨-, -, e0, e1, -⟩ := blockIdx14 t
  unfold iblk14
  rw [View.read_apply]
  show V c (Pipeline.arrRef spec14 1) _ = V c (Pipeline.arrRef spec14 1) _
  congr 1
  funext a
  apply Fin.ext
  match a with
  | ⟨0, _⟩ => show win14_1.index t 0 * 128 + 1 * k.val = k.val; rw [e0]; omega
  | ⟨1, _⟩ => show win14_1.index t 1 * 64 + 1 * j.val = j.val; rw [e1]; omega

/-- The bias row's block at every point is the whole row. -/
theorem bBlock14 (c : Dev nD) (t : Fin cfg14.N) (j : Fin 64) :
    (iblk14 V c 2 t : Vec Ideal S1x64 .f32) (ix2 (0 : Fin 1) j) = (V c (Pipeline.arrRef spec14 2) : S1x64.Idx → Elt Ideal .f32) (ix2 (0 : Fin 1) j) := by
  obtain ⟨-, -, -, -, e0, e1, -⟩ := blockIdx14 t
  unfold iblk14
  rw [View.read_apply]
  show V c (Pipeline.arrRef spec14 2) _ = V c (Pipeline.arrRef spec14 2) _
  congr 1
  funext a
  apply Fin.ext
  match a with
  | ⟨0, _⟩ => show win14_2.index t 0 * 1 + 1 * 0 = 0; rw [e0]
  | ⟨1, _⟩ => show win14_2.index t 1 * 64 + 1 * j.val = j.val; rw [e1]; omega

/-- What point t writes back is block t of the layer of the arrays as the region finds them. -/
theorem flushed14_eq (c : Dev nD) (t : Fin cfg14.N) :
    (dat14 (F := Ideal) V c).flushed 3 t = ((cfg14.win 3).blk t).view.read (Elt Ideal)
      (Glin128x64 (V c (Pipeline.arrRef spec14 0)) (V c (Pipeline.arrRef spec14 1)) (V c (Pipeline.arrRef spec14 2))) := by
  show (cfg14.win 3).cut (grid14.coords t) ((dat14 V c).after 3 t) = _
  rw [after14_3]
  unfold out14_3
  rw [View.canon_unit_zero zeroOff14]
  simp only [View.ld_unit_zero (S := S2000x128) zeroOff14, View.ld_unit_zero (S := S128x64) zeroOff14, View.ld_unit_zero (S := S1x64) zeroOff14]
  obtain ⟨-, -, -, -, -, -, e0, e1⟩ := blockIdx14 t
  funext y
  have hy0 : (y 0).val < 2000 := (y 0).isLt
  have hy1 : (y 1).val < 64 := (y 1).isLt
  refine (pay14_apply _ _ _ _).trans ?_
  show _ = Glin128x64 (V c (Pipeline.arrRef spec14 0)) (V c (Pipeline.arrRef spec14 1)) (V c (Pipeline.arrRef spec14 2)) (((cfg14.win 3).blk t).view.emb y)
  refine Glin128x64_of_rows _ _ _ _ _ _ _ _ (((cfg14.win 3).blk t).view.emb y) ?_ (fun k => ?_) (fun k => wBlock14 V c t k _) (bBlock14 V c t _)
  · show win14_3.index t 1 * 64 + 1 * (y 1).val = (y 1).val
    rw [e1]; omega
  · refine xBlock14 V c t _ k _ ?_ rfl
    show win14_3.index t 0 * 2000 + 1 * (y 0).val = 2000 * t.val + (y 0).val
    rw [e0]; omega

/-- An index of the output array is in point t's block iff each coordinate is in the block's range on its axis. -/
theorem memBlock14 (t : Fin cfg14.N) (i : S50000x64.Idx) :
    i ∈ ((cfg14.win 3).blk t).view.set ↔ ∀ a : Fin 2, win14_3.index t a * S2000x64.size a ≤ (i a).val ∧ (i a).val < win14_3.index t a * S2000x64.size a + S2000x64.size a := by
  show i ∈ ((View.whole main_v152).slice (win14_3.rect t)).set ↔ _
  rw [View.set_slice_whole, Rect.mem_set_unit]
  exact Iff.rfl

/-- Every row is in some block: row r is in block r / 2000. -/
theorem cover14 (i : S50000x64.Idx) : ∃ t : Fin cfg14.N, (cfg14.win 3).flush t = true ∧ i ∈ ((cfg14.win 3).blk t).view.set := by
  have hi0 : (i 0).val < 50000 := (i 0).isLt
  have hi1 : (i 1).val < 64 := (i 1).isLt
  have hN : cfg14.N = 25 := N_14
  have ht : (i 0).val / 2000 < cfg14.N := by rw [hN]; omega
  obtain ⟨-, -, -, -, -, -, e0, e1⟩ := blockIdx14 ⟨(i 0).val / 2000, ht⟩
  refine ⟨⟨(i 0).val / 2000, ht⟩, flush14_3 _, ?_⟩
  rw [memBlock14]
  intro a
  match a with
  | ⟨0, _⟩ =>
    show win14_3.index ⟨(i 0).val / 2000, ht⟩ 0 * 2000 ≤ (i 0).val ∧ (i 0).val < win14_3.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win14_3.index ⟨(i 0).val / 2000, ht⟩ 1 * 64 ≤ (i 1).val ∧ (i 1).val < win14_3.index ⟨(i 0).val / 2000, ht⟩ 1 * 64 + 64
    rw [e1]; omega

/-- After region 14 the output array holds the dense layer of the arrays the region was entered with. -/
theorem closed14 (c : Dev nD) :
    (dat14 (F := Ideal) V c).arrAt 3 cfg14.N
      = Glin128x64 (V c (Pipeline.arrRef spec14 0)) (V c (Pipeline.arrRef spec14 1)) (V c (Pipeline.arrRef spec14 2)) :=
  (dat14 (F := Ideal) V c).arrAt_eq_of_cover 3 _ (fun t _ => flushed14_eq V c t) cover14

end Cert.KernelIdeal.RegionValue

end
-- ==== Proof.Regions.R15.lean ====
/- Region 15 of the kernel in closed form. Its body is pointwise: at every grid point it reads
   the point's block of two arrays and writes the weighted combination (x + 0.6 * y) * 0.625 of the two blocks to the point's block
   of a third. The 25 blocks of 2000 rows tile the array, so after the region the third array is that function of the
   first two as the region found them, index by index, whatever the buffers held when the region was entered. -/
import proofs.«149349_j76854144794846_1_alg».proof.Proof.Regions.PointSpec
import proofs.«149349_j76854144794846_1_alg».proof.Proof.Gen.KernelIdeal.Frame
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's payload, index by index: the scalar function of the two loaded blocks (a cast of a shape to itself is
    the identity). -/
theorem pay15_eq (x0 : Vec F S2000x64 .f32) (x1 : Vec F S2000x64 .f32) : k15_pay1 x0 x1 = fun j => combE (x0 j) (x1 j) := by
  funext j; unfold k15_pay1; rw [shapeCast_self, shapeCast_self]; exact comb_block_apply x0 x1 j

/-- The printed index maps, decided over the grid: at point `t` every window's block is block row `t`, block column 0. -/
theorem idx_facts15 : ∀ t : Fin cfg15.N, win15_0.index t (0 : Fin 2) = t.val ∧ win15_0.index t (1 : Fin 2) = 0
    ∧ win15_1.index t (0 : Fin 2) = t.val ∧ win15_1.index t (1 : Fin 2) = 0
    ∧ win15_2.index t (0 : Fin 2) = t.val ∧ win15_2.index t (1 : Fin 2) = 0 :=
  (by decide +kernel : ∀ t : Fin grid15.N, _)

set_option maxHeartbeats 1000000 in
/-- What point `t` writes back is block `t` of the array function of the two input arrays as the region finds them. -/
theorem flushed15_eq (c : Dev nD) (t : Fin cfg15.N) :
    (dat15 V c).flushed 2 t = ((cfg15.win 2).blk t).view.read (Elt F) (Gcomb64 (V c (Pipeline.arrRef spec15 0)) (V c (Pipeline.arrRef spec15 1))) := by
  show (cfg15.win 2).cut (grid15.coords t) ((dat15 V c).after 2 t) = _
  rw [after15_2]
  unfold out15_2
  rw [View.canon_unit_zero hz]
  simp only [View.ld_unit_zero (S := S2000x64) hz]
  rw [pay15_eq]
  obtain ⟨e0, e1, e2, e3, e4, e5⟩ := idx_facts15 t
  funext j
  refine Eq.trans ?_ (Gcomb64_apply (V c (Pipeline.arrRef spec15 0)) (V c (Pipeline.arrRef spec15 1)) (((cfg15.win 2).blk t).view.emb j)).symm
  show combE (V c (Pipeline.arrRef spec15 0) (((cfg15.win 0).blk t).view.emb j)) (V c (Pipeline.arrRef spec15 1) (((cfg15.win 1).blk t).view.emb j)) = combE (V c (Pipeline.arrRef spec15 0) (((cfg15.win 2).blk t).view.emb j)) (V c (Pipeline.arrRef spec15 1) (((cfg15.win 2).blk t).view.emb j))
  have h0 : ((cfg15.win 0).blk t).view.emb j = ((cfg15.win 2).blk t).view.emb j := by
    funext a; apply Fin.ext
    match a with
    | ⟨0, _⟩ => show win15_0.index t (0 : Fin 2) * 2000 + 1 * (j 0).val = win15_2.index t (0 : Fin 2) * 2000 + 1 * (j 0).val; rw [e0, e4]
    | ⟨1, _⟩ => show win15_0.index t (1 : Fin 2) * 64 + 1 * (j 1).val = win15_2.index t (1 : Fin 2) * 64 + 1 * (j 1).val; rw [e1, e5]
  have h1 : ((cfg15.win 1).blk t).view.emb j = ((cfg15.win 2).blk t).view.emb j := by
    funext a; apply Fin.ext
    match a with
    | ⟨0, _⟩ => show win15_1.index t (0 : Fin 2) * 2000 + 1 * (j 0).val = win15_2.index t (0 : Fin 2) * 2000 + 1 * (j 0).val; rw [e2, e4]
    | ⟨1, _⟩ => show win15_1.index t (1 : Fin 2) * 64 + 1 * (j 1).val = win15_2.index t (1 : Fin 2) * 64 + 1 * (j 1).val; rw [e3, e5]
  rw [h0, h1]

/-- An index of the array is in point `t`'s block iff each coordinate is in the block's range on its axis. -/
theorem mem_blk15 (t : Fin cfg15.N) (i : S50000x64.Idx) :
    i ∈ ((cfg15.win 2).blk t).view.set ↔ ∀ a : Fin 2, win15_2.index t a * S2000x64.size a ≤ (i a).val ∧ (i a).val < win15_2.index t a * S2000x64.size a + S2000x64.size a := by
  show i ∈ ((View.whole main_v166).slice (win15_2.rect t)).set ↔ _
  rw [View.set_slice_whole, Rect.mem_set_unit]
  exact Iff.rfl

/-- The blocks tile the array: row `r` is in the block of point `r / 2000`. -/
theorem cover15 (i : S50000x64.Idx) : ∃ t : Fin cfg15.N, (cfg15.win 2).flush t = true ∧ i ∈ ((cfg15.win 2).blk t).view.set := by
  have hi0 : (i 0).val < 50000 := (i 0).isLt
  have hi1 : (i 1).val < 64 := (i 1).isLt
  obtain ⟨t, ht⟩ : ∃ t : Fin cfg15.N, t.val = (i 0).val / 2000 :=
    ⟨⟨(i 0).val / 2000, by rw [show cfg15.N = 25 from N_15]; omega⟩, rfl⟩
  obtain ⟨e0, e1, e2, e3, e4, e5⟩ := idx_facts15 t
  refine ⟨t, flush15_2 t, ?_⟩
  rw [mem_blk15]
  intro a
  match a with
  | ⟨0, _⟩ => show win15_2.index t (0 : Fin 2) * 2000 ≤ (i 0).val ∧ (i 0).val < win15_2.index t (0 : Fin 2) * 2000 + 2000; rw [e4, ht]; omega
  | ⟨1, _⟩ => show win15_2.index t (1 : Fin 2) * 64 ≤ (i 1).val ∧ (i 1).val < win15_2.index t (1 : Fin 2) * 64 + 64; rw [e5]; omega

/-- THE ARRAY after region 15: the array function of the two input arrays as the region finds them. -/
theorem closed15 (c : Dev nD) :
    (dat15 V c).arrAt 2 cfg15.N = Gcomb64 (V c (Pipeline.arrRef spec15 0)) (V c (Pipeline.arrRef spec15 1)) :=
  (dat15 V c).arrAt_eq_of_cover 2 (Gcomb64 (V c (Pipeline.arrRef spec15 0)) (V c (Pipeline.arrRef spec15 1))) (fun t _ => flushed15_eq V c t) (cover15)

end Cert.KernelIdeal.RegionValue

end
-- ==== Proof.Regions.R16.lean ====
/- Region 16 of the kernel in closed form. Its body is pointwise: at every grid point it reads
   the point's block of two arrays and writes the weighted combination (x + 0.6 * y) * 0.625 of the two blocks to the point's block
   of a third. The 25 blocks of 2000 rows tile the array, so after the region the third array is that function of the
   first two as the region found them, index by index, whatever the buffers held when the region was entered. -/
import proofs.«149349_j76854144794846_1_alg».proof.Proof.Regions.PointSpec
import proofs.«149349_j76854144794846_1_alg».proof.Proof.Gen.KernelIdeal.Frame
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's payload, index by index: the scalar function of the two loaded blocks (a cast of a shape to itself is
    the identity). -/
theorem pay16_eq (x0 : Vec F S2000x64 .f32) (x1 : Vec F S2000x64 .f32) : k16_pay1 x0 x1 = fun j => combE (x0 j) (x1 j) := by
  funext j; unfold k16_pay1; rw [shapeCast_self, shapeCast_self]; exact comb_block_apply x0 x1 j

/-- The printed index maps, decided over the grid: at point `t` every window's block is block row `t`, block column 0. -/
theorem idx_facts16 : ∀ t : Fin cfg16.N, win16_0.index t (0 : Fin 2) = t.val ∧ win16_0.index t (1 : Fin 2) = 0
    ∧ win16_1.index t (0 : Fin 2) = t.val ∧ win16_1.index t (1 : Fin 2) = 0
    ∧ win16_2.index t (0 : Fin 2) = t.val ∧ win16_2.index t (1 : Fin 2) = 0 :=
  (by decide +kernel : ∀ t : Fin grid16.N, _)

set_option maxHeartbeats 1000000 in
/-- What point `t` writes back is block `t` of the array function of the two input arrays as the region finds them. -/
theorem flushed16_eq (c : Dev nD) (t : Fin cfg16.N) :
    (dat16 V c).flushed 2 t = ((cfg16.win 2).blk t).view.read (Elt F) (Gcomb64 (V c (Pipeline.arrRef spec16 0)) (V c (Pipeline.arrRef spec16 1))) := by
  show (cfg16.win 2).cut (grid16.coords t) ((dat16 V c).after 2 t) = _
  rw [after16_2]
  unfold out16_2
  rw [View.canon_unit_zero hz]
  simp only [View.ld_unit_zero (S := S2000x64) hz]
  rw [pay16_eq]
  obtain ⟨e0, e1, e2, e3, e4, e5⟩ := idx_facts16 t
  funext j
  refine Eq.trans ?_ (Gcomb64_apply (V c (Pipeline.arrRef spec16 0)) (V c (Pipeline.arrRef spec16 1)) (((cfg16.win 2).blk t).view.emb j)).symm
  show combE (V c (Pipeline.arrRef spec16 0) (((cfg16.win 0).blk t).view.emb j)) (V c (Pipeline.arrRef spec16 1) (((cfg16.win 1).blk t).view.emb j)) = combE (V c (Pipeline.arrRef spec16 0) (((cfg16.win 2).blk t).view.emb j)) (V c (Pipeline.arrRef spec16 1) (((cfg16.win 2).blk t).view.emb j))
  have h0 : ((cfg16.win 0).blk t).view.emb j = ((cfg16.win 2).blk t).view.emb j := by
    funext a; apply Fin.ext
    match a with
    | ⟨0, _⟩ => show win16_0.index t (0 : Fin 2) * 2000 + 1 * (j 0).val = win16_2.index t (0 : Fin 2) * 2000 + 1 * (j 0).val; rw [e0, e4]
    | ⟨1, _⟩ => show win16_0.index t (1 : Fin 2) * 64 + 1 * (j 1).val = win16_2.index t (1 : Fin 2) * 64 + 1 * (j 1).val; rw [e1, e5]
  have h1 : ((cfg16.win 1).blk t).view.emb j = ((cfg16.win 2).blk t).view.emb j := by
    funext a; apply Fin.ext
    match a with
    | ⟨0, _⟩ => show win16_1.index t (0 : Fin 2) * 2000 + 1 * (j 0).val = win16_2.index t (0 : Fin 2) * 2000 + 1 * (j 0).val; rw [e2, e4]
    | ⟨1, _⟩ => show win16_1.index t (1 : Fin 2) * 64 + 1 * (j 1).val = win16_2.index t (1 : Fin 2) * 64 + 1 * (j 1).val; rw [e3, e5]
  rw [h0, h1]

/-- An index of the array is in point `t`'s block iff each coordinate is in the block's range on its axis. -/
theorem mem_blk16 (t : Fin cfg16.N) (i : S50000x64.Idx) :
    i ∈ ((cfg16.win 2).blk t).view.set ↔ ∀ a : Fin 2, win16_2.index t a * S2000x64.size a ≤ (i a).val ∧ (i a).val < win16_2.index t a * S2000x64.size a + S2000x64.size a := by
  show i ∈ ((View.whole main_v180).slice (win16_2.rect t)).set ↔ _
  rw [View.set_slice_whole, Rect.mem_set_unit]
  exact Iff.rfl

/-- The blocks tile the array: row `r` is in the block of point `r / 2000`. -/
theorem cover16 (i : S50000x64.Idx) : ∃ t : Fin cfg16.N, (cfg16.win 2).flush t = true ∧ i ∈ ((cfg16.win 2).blk t).view.set := by
  have hi0 : (i 0).val < 50000 := (i 0).isLt
  have hi1 : (i 1).val < 64 := (i 1).isLt
  obtain ⟨t, ht⟩ : ∃ t : Fin cfg16.N, t.val = (i 0).val / 2000 :=
    ⟨⟨(i 0).val / 2000, by rw [show cfg16.N = 25 from N_16]; omega⟩, rfl⟩
  obtain ⟨e0, e1, e2, e3, e4, e5⟩ := idx_facts16 t
  refine ⟨t, flush16_2 t, ?_⟩
  rw [mem_blk16]
  intro a
  match a with
  | ⟨0, _⟩ => show win16_2.index t (0 : Fin 2) * 2000 ≤ (i 0).val ∧ (i 0).val < win16_2.index t (0 : Fin 2) * 2000 + 2000; rw [e4, ht]; omega
  | ⟨1, _⟩ => show win16_2.index t (1 : Fin 2) * 64 ≤ (i 1).val ∧ (i 1).val < win16_2.index t (1 : Fin 2) * 64 + 64; rw [e5]; omega

/-- THE ARRAY after region 16: the array function of the two input arrays as the region finds them. -/
theorem closed16 (c : Dev nD) :
    (dat16 V c).arrAt 2 cfg16.N = Gcomb64 (V c (Pipeline.arrRef spec16 0)) (V c (Pipeline.arrRef spec16 1)) :=
  (dat16 V c).arrAt_eq_of_cover 2 (Gcomb64 (V c (Pipeline.arrRef spec16 0)) (V c (Pipeline.arrRef spec16 1))) (fun t _ => flushed16_eq V c t) (cover16)

end Cert.KernelIdeal.RegionValue

end
-- ==== Proof.Regions.R17.lean ====
/- Region 17 of the kernel in closed form. Its body is pointwise: at every grid point it reads
   the point's block of two arrays and writes the weighted combination (x + 0.6 * y) * 0.625 of the two blocks to the point's block
   of a third. The 25 blocks of 2000 rows tile the array, so after the region the third array is that function of the
   first two as the region found them, index by index, whatever the buffers held when the region was entered. -/
import proofs.«149349_j76854144794846_1_alg».proof.Proof.Regions.PointSpec
import proofs.«149349_j76854144794846_1_alg».proof.Proof.Gen.KernelIdeal.Frame
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's payload, index by index: the scalar function of the two loaded blocks (a cast of a shape to itself is
    the identity). -/
theorem pay17_eq (x0 : Vec F S2000x64 .f32) (x1 : Vec F S2000x64 .f32) : k17_pay1 x0 x1 = fun j => combE (x0 j) (x1 j) := by
  funext j; unfold k17_pay1; rw [shapeCast_self, shapeCast_self]; exact comb_block_apply x0 x1 j

/-- The printed index maps, decided over the grid: at point `t` every window's block is block row `t`, block column 0. -/
theorem idx_facts17 : ∀ t : Fin cfg17.N, win17_0.index t (0 : Fin 2) = t.val ∧ win17_0.index t (1 : Fin 2) = 0
    ∧ win17_1.index t (0 : Fin 2) = t.val ∧ win17_1.index t (1 : Fin 2) = 0
    ∧ win17_2.index t (0 : Fin 2) = t.val ∧ win17_2.index t (1 : Fin 2) = 0 :=
  (by decide +kernel : ∀ t : Fin grid17.N, _)

set_option maxHeartbeats 1000000 in
/-- What point `t` writes back is block `t` of the array function of the two input arrays as the region finds them. -/
theorem flushed17_eq (c : Dev nD) (t : Fin cfg17.N) :
    (dat17 V c).flushed 2 t = ((cfg17.win 2).blk t).view.read (Elt F) (Gcomb64 (V c (Pipeline.arrRef spec17 0)) (V c (Pipeline.arrRef spec17 1))) := by
  show (cfg17.win 2).cut (grid17.coords t) ((dat17 V c).after 2 t) = _
  rw [after17_2]
  unfold out17_2
  rw [View.canon_unit_zero hz]
  simp only [View.ld_unit_zero (S := S2000x64) hz]
  rw [pay17_eq]
  obtain ⟨e0, e1, e2, e3, e4, e5⟩ := idx_facts17 t
  funext j
  refine Eq.trans ?_ (Gcomb64_apply (V c (Pipeline.arrRef spec17 0)) (V c (Pipeline.arrRef spec17 1)) (((cfg17.win 2).blk t).view.emb j)).symm
  show combE (V c (Pipeline.arrRef spec17 0) (((cfg17.win 0).blk t).view.emb j)) (V c (Pipeline.arrRef spec17 1) (((cfg17.win 1).blk t).view.emb j)) = combE (V c (Pipeline.arrRef spec17 0) (((cfg17.win 2).blk t).view.emb j)) (V c (Pipeline.arrRef spec17 1) (((cfg17.win 2).blk t).view.emb j))
  have h0 : ((cfg17.win 0).blk t).view.emb j = ((cfg17.win 2).blk t).view.emb j := by
    funext a; apply Fin.ext
    match a with
    | ⟨0, _⟩ => show win17_0.index t (0 : Fin 2) * 2000 + 1 * (j 0).val = win17_2.index t (0 : Fin 2) * 2000 + 1 * (j 0).val; rw [e0, e4]
    | ⟨1, _⟩ => show win17_0.index t (1 : Fin 2) * 64 + 1 * (j 1).val = win17_2.index t (1 : Fin 2) * 64 + 1 * (j 1).val; rw [e1, e5]
  have h1 : ((cfg17.win 1).blk t).view.emb j = ((cfg17.win 2).blk t).view.emb j := by
    funext a; apply Fin.ext
    match a with
    | ⟨0, _⟩ => show win17_1.index t (0 : Fin 2) * 2000 + 1 * (j 0).val = win17_2.index t (0 : Fin 2) * 2000 + 1 * (j 0).val; rw [e2, e4]
    | ⟨1, _⟩ => show win17_1.index t (1 : Fin 2) * 64 + 1 * (j 1).val = win17_2.index t (1 : Fin 2) * 64 + 1 * (j 1).val; rw [e3, e5]
  rw [h0, h1]

/-- An index of the array is in point `t`'s block iff each coordinate is in the block's range on its axis. -/
theorem mem_blk17 (t : Fin cfg17.N) (i : S50000x64.Idx) :
    i ∈ ((cfg17.win 2).blk t).view.set ↔ ∀ a : Fin 2, win17_2.index t a * S2000x64.size a ≤ (i a).val ∧ (i a).val < win17_2.index t a * S2000x64.size a + S2000x64.size a := by
  show i ∈ ((View.whole main_v194).slice (win17_2.rect t)).set ↔ _
  rw [View.set_slice_whole, Rect.mem_set_unit]
  exact Iff.rfl

/-- The blocks tile the array: row `r` is in the block of point `r / 2000`. -/
theorem cover17 (i : S50000x64.Idx) : ∃ t : Fin cfg17.N, (cfg17.win 2).flush t = true ∧ i ∈ ((cfg17.win 2).blk t).view.set := by
  have hi0 : (i 0).val < 50000 := (i 0).isLt
  have hi1 : (i 1).val < 64 := (i 1).isLt
  obtain ⟨t, ht⟩ : ∃ t : Fin cfg17.N, t.val = (i 0).val / 2000 :=
    ⟨⟨(i 0).val / 2000, by rw [show cfg17.N = 25 from N_17]; omega⟩, rfl⟩
  obtain ⟨e0, e1, e2, e3, e4, e5⟩ := idx_facts17 t
  refine ⟨t, flush17_2 t, ?_⟩
  rw [mem_blk17]
  intro a
  match a with
  | ⟨0, _⟩ => show win17_2.index t (0 : Fin 2) * 2000 ≤ (i 0).val ∧ (i 0).val < win17_2.index t (0 : Fin 2) * 2000 + 2000; rw [e4, ht]; omega
  | ⟨1, _⟩ => show win17_2.index t (1 : Fin 2) * 64 ≤ (i 1).val ∧ (i 1).val < win17_2.index t (1 : Fin 2) * 64 + 64; rw [e5]; omega

/-- THE ARRAY after region 17: the array function of the two input arrays as the region finds them. -/
theorem closed17 (c : Dev nD) :
    (dat17 V c).arrAt 2 cfg17.N = Gcomb64 (V c (Pipeline.arrRef spec17 0)) (V c (Pipeline.arrRef spec17 1)) :=
  (dat17 V c).arrAt_eq_of_cover 2 (Gcomb64 (V c (Pipeline.arrRef spec17 0)) (V c (Pipeline.arrRef spec17 1))) (fun t _ => flushed17_eq V c t) (cover17)

end Cert.KernelIdeal.RegionValue

end
-- ==== Proof.Regions.R18.lean ====
/- Region 18 of the kernel in closed form. Its body is pointwise: at every grid point it reads
   the point's block of two arrays and writes the weighted combination (x + 0.6 * y) * 0.625 of the two blocks to the point's block
   of a third. The 25 blocks of 2000 rows tile the array, so after the region the third array is that function of the
   first two as the region found them, index by index, whatever the buffers held when the region was entered. -/
import proofs.«149349_j76854144794846_1_alg».proof.Proof.Regions.PointSpec
import proofs.«149349_j76854144794846_1_alg».proof.Proof.Gen.KernelIdeal.Frame
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's payload, index by index: the scalar function of the two loaded blocks (a cast of a shape to itself is
    the identity). -/
theorem pay18_eq (x0 : Vec F S2000x64 .f32) (x1 : Vec F S2000x64 .f32) : k18_pay1 x0 x1 = fun j => combE (x0 j) (x1 j) := by
  funext j; unfold k18_pay1; rw [shapeCast_self, shapeCast_self]; exact comb_block_apply x0 x1 j

/-- The printed index maps, decided over the grid: at point `t` every window's block is block row `t`, block column 0. -/
theorem idx_facts18 : ∀ t : Fin cfg18.N, win18_0.index t (0 : Fin 2) = t.val ∧ win18_0.index t (1 : Fin 2) = 0
    ∧ win18_1.index t (0 : Fin 2) = t.val ∧ win18_1.index t (1 : Fin 2) = 0
    ∧ win18_2.index t (0 : Fin 2) = t.val ∧ win18_2.index t (1 : Fin 2) = 0 :=
  (by decide +kernel : ∀ t : Fin grid18.N, _)

set_option maxHeartbeats 1000000 in
/-- What point `t` writes back is block `t` of the array function of the two input arrays as the region finds them. -/
theorem flushed18_eq (c : Dev nD) (t : Fin cfg18.N) :
    (dat18 V c).flushed 2 t = ((cfg18.win 2).blk t).view.read (Elt F) (Gcomb64 (V c (Pipeline.arrRef spec18 0)) (V c (Pipeline.arrRef spec18 1))) := by
  show (cfg18.win 2).cut (grid18.coords t) ((dat18 V c).after 2 t) = _
  rw [after18_2]
  unfold out18_2
  rw [View.canon_unit_zero hz]
  simp only [View.ld_unit_zero (S := S2000x64) hz]
  rw [pay18_eq]
  obtain ⟨e0, e1, e2, e3, e4, e5⟩ := idx_facts18 t
  funext j
  refine Eq.trans ?_ (Gcomb64_apply (V c (Pipeline.arrRef spec18 0)) (V c (Pipeline.arrRef spec18 1)) (((cfg18.win 2).blk t).view.emb j)).symm
  show combE (V c (Pipeline.arrRef spec18 0) (((cfg18.win 0).blk t).view.emb j)) (V c (Pipeline.arrRef spec18 1) (((cfg18.win 1).blk t).view.emb j)) = combE (V c (Pipeline.arrRef spec18 0) (((cfg18.win 2).blk t).view.emb j)) (V c (Pipeline.arrRef spec18 1) (((cfg18.win 2).blk t).view.emb j))
  have h0 : ((cfg18.win 0).blk t).view.emb j = ((cfg18.win 2).blk t).view.emb j := by
    funext a; apply Fin.ext
    match a with
    | ⟨0, _⟩ => show win18_0.index t (0 : Fin 2) * 2000 + 1 * (j 0).val = win18_2.index t (0 : Fin 2) * 2000 + 1 * (j 0).val; rw [e0, e4]
    | ⟨1, _⟩ => show win18_0.index t (1 : Fin 2) * 64 + 1 * (j 1).val = win18_2.index t (1 : Fin 2) * 64 + 1 * (j 1).val; rw [e1, e5]
  have h1 : ((cfg18.win 1).blk t).view.emb j = ((cfg18.win 2).blk t).view.emb j := by
    funext a; apply Fin.ext
    match a with
    | ⟨0, _⟩ => show win18_1.index t (0 : Fin 2) * 2000 + 1 * (j 0).val = win18_2.index t (0 : Fin 2) * 2000 + 1 * (j 0).val; rw [e2, e4]
    | ⟨1, _⟩ => show win18_1.index t (1 : Fin 2) * 64 + 1 * (j 1).val = win18_2.index t (1 : Fin 2) * 64 + 1 * (j 1).val; rw [e3, e5]
  rw [h0, h1]

/-- An index of the array is in point `t`'s block iff each coordinate is in the block's range on its axis. -/
theorem mem_blk18 (t : Fin cfg18.N) (i : S50000x64.Idx) :
    i ∈ ((cfg18.win 2).blk t).view.set ↔ ∀ a : Fin 2, win18_2.index t a * S2000x64.size a ≤ (i a).val ∧ (i a).val < win18_2.index t a * S2000x64.size a + S2000x64.size a := by
  show i ∈ ((View.whole main_v208).slice (win18_2.rect t)).set ↔ _
  rw [View.set_slice_whole, Rect.mem_set_unit]
  exact Iff.rfl

/-- The blocks tile the array: row `r` is in the block of point `r / 2000`. -/
theorem cover18 (i : S50000x64.Idx) : ∃ t : Fin cfg18.N, (cfg18.win 2).flush t = true ∧ i ∈ ((cfg18.win 2).blk t).view.set := by
  have hi0 : (i 0).val < 50000 := (i 0).isLt
  have hi1 : (i 1).val < 64 := (i 1).isLt
  obtain ⟨t, ht⟩ : ∃ t : Fin cfg18.N, t.val = (i 0).val / 2000 :=
    ⟨⟨(i 0).val / 2000, by rw [show cfg18.N = 25 from N_18]; omega⟩, rfl⟩
  obtain ⟨e0, e1, e2, e3, e4, e5⟩ := idx_facts18 t
  refine ⟨t, flush18_2 t, ?_⟩
  rw [mem_blk18]
  intro a
  match a with
  | ⟨0, _⟩ => show win18_2.index t (0 : Fin 2) * 2000 ≤ (i 0).val ∧ (i 0).val < win18_2.index t (0 : Fin 2) * 2000 + 2000; rw [e4, ht]; omega
  | ⟨1, _⟩ => show win18_2.index t (1 : Fin 2) * 64 ≤ (i 1).val ∧ (i 1).val < win18_2.index t (1 : Fin 2) * 64 + 64; rw [e5]; omega

/-- THE ARRAY after region 18: the array function of the two input arrays as the region finds them. -/
theorem closed18 (c : Dev nD) :
    (dat18 V c).arrAt 2 cfg18.N = Gcomb64 (V c (Pipeline.arrRef spec18 0)) (V c (Pipeline.arrRef spec18 1)) :=
  (dat18 V c).arrAt_eq_of_cover 2 (Gcomb64 (V c (Pipeline.arrRef spec18 0)) (V c (Pipeline.arrRef spec18 1))) (fun t _ => flushed18_eq V c t) (cover18)

end Cert.KernelIdeal.RegionValue

end
-- ==== Proof.Regions.R19.lean ====
/-
  Region 19: the dense layer 128 → 64, computed block by block — 25 blocks of 2000 rows, each against the whole
  weight matrix and the whole bias row — leaves in the output array the layer of the whole input array, index by
  index: block t is rows 2000 t … 2000 t + 1999, a row of the result depends only on the same row of the input, and
  the 25 blocks tile the 50000 rows.
-/
import proofs.«149349_j76854144794846_1_alg».proof.Proof.Regions.LinSpec
import proofs.«149349_j76854144794846_1_alg».proof.Proof.Regions.LinPay
import proofs.«149349_j76854144794846_1_alg».proof.Proof.Gen.KernelIdeal.Frame
import Idealize.ShloMosaic.Lib.Pipeline.Value
import Idealize.ShloMosaic.Lib.Tactic

set_option maxRecDepth 16384

noncomputable section

open scoped BigOperators

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOff19 : (![0, 0] : Fin 2 → Nat) = fun _ => 0 := funext fun a => by fin_cases a <;> rfl

/-- The windows' block indices at point t: the input's and the output's row block is t, the weights and the bias row
    are whole at every point. Decided over the 25 points. -/
theorem blockIdx19 : ∀ t : Fin cfg19.N, win19_0.index t (0 : Fin 2) = t.val ∧ win19_0.index t (1 : Fin 2) = 0
    ∧ win19_1.index t (0 : Fin 2) = 0 ∧ win19_1.index t (1 : Fin 2) = 0
    ∧ win19_2.index t (0 : Fin 2) = 0 ∧ win19_2.index t (1 : Fin 2) = 0
    ∧ win19_3.index t (0 : Fin 2) = t.val ∧ win19_3.index t (1 : Fin 2) = 0 :=
  (by decide +kernel : ∀ t : Fin grid19.N, _)

/-- The input's block at point t is rows 2000 t … 2000 t + 1999 of the input array. -/
theorem xBlock19 (c : Dev nD) (t : Fin cfg19.N) (r : Fin 2000) (k : Fin 128) (i : S50000x128.Idx)
    (h0 : (i 0).val = 2000 * t.val + r.val) (h1 : (i 1).val = k.val) :
    (iblk19 V c 0 t : Vec Ideal S2000x128 .f32) (ix2 r k) = (V c (Pipeline.arrRef spec19 0) : S50000x128.Idx → Elt Ideal .f32) i := by
  obtain ⟨e0, e1, -⟩ := blockIdx19 t
  unfold iblk19
  rw [View.read_apply]
  show V c (Pipeline.arrRef spec19 0) _ = V c (Pipeline.arrRef spec19 0) _
  congr 1
  funext a
  apply Fin.ext
  match a with
  | ⟨0, _⟩ => show win19_0.index t 0 * 2000 + 1 * r.val = (i 0).val; rw [e0, h0]; omega
  | ⟨1, _⟩ => show win19_0.index t 1 * 128 + 1 * k.val = (i 1).val; rw [e1, h1]; omega

/-- The weights' block at every point is the whole weight matrix. -/
theorem wBlock19 (c : Dev nD) (t : Fin cfg19.N) (k : Fin 128) (j : Fin 64) :
    (iblk19 V c 1 t : Vec Ideal S128x64 .f32) (ix2 k j) = (V c (Pipeline.arrRef spec19 1) : S128x64.Idx → Elt Ideal .f32) (ix2 k j) := by
  obtain ⟨-, -, e0, e1, -⟩ := blockIdx19 t
  unfold iblk19
  rw [View.read_apply]
  show V c (Pipeline.arrRef spec19 1) _ = V c (Pipeline.arrRef spec19 1) _
  congr 1
  funext a
  apply Fin.ext
  match a with
  | ⟨0, _⟩ => show win19_1.index t 0 * 128 + 1 * k.val = k.val; rw [e0]; omega
  | ⟨1, _⟩ => show win19_1.index t 1 * 64 + 1 * j.val = j.val; rw [e1]; omega

/-- The bias row's block at every point is the whole row. -/
theorem bBlock19 (c : Dev nD) (t : Fin cfg19.N) (j : Fin 64) :
    (iblk19 V c 2 t : Vec Ideal S1x64 .f32) (ix2 (0 : Fin 1) j) = (V c (Pipeline.arrRef spec19 2) : S1x64.Idx → Elt Ideal .f32) (ix2 (0 : Fin 1) j) := by
  obtain ⟨-, -, -, -, e0, e1, -⟩ := blockIdx19 t
  unfold iblk19
  rw [View.read_apply]
  show V c (Pipeline.arrRef spec19 2) _ = V c (Pipeline.arrRef spec19 2) _
  congr 1
  funext a
  apply Fin.ext
  match a with
  | ⟨0, _⟩ => show win19_2.index t 0 * 1 + 1 * 0 = 0; rw [e0]
  | ⟨1, _⟩ => show win19_2.index t 1 * 64 + 1 * j.val = j.val; rw [e1]; omega

/-- What point t writes back is block t of the layer of the arrays as the region finds them. -/
theorem flushed19_eq (c : Dev nD) (t : Fin cfg19.N) :
    (dat19 (F := Ideal) V c).flushed 3 t = ((cfg19.win 3).blk t).view.read (Elt Ideal)
      (Glin128x64 (V c (Pipeline.arrRef spec19 0)) (V c (Pipeline.arrRef spec19 1)) (V c (Pipeline.arrRef spec19 2))) := by
  show (cfg19.win 3).cut (grid19.coords t) ((dat19 V c).after 3 t) = _
  rw [after19_3]
  unfold out19_3
  rw [View.canon_unit_zero zeroOff19]
  simp only [View.ld_unit_zero (S := S2000x128) zeroOff19, View.ld_unit_zero (S := S128x64) zeroOff19, View.ld_unit_zero (S := S1x64) zeroOff19]
  obtain ⟨-, -, -, -, -, -, e0, e1⟩ := blockIdx19 t
  funext y
  have hy0 : (y 0).val < 2000 := (y 0).isLt
  have hy1 : (y 1).val < 64 := (y 1).isLt
  refine (pay19_apply _ _ _ _).trans ?_
  show _ = Glin128x64 (V c (Pipeline.arrRef spec19 0)) (V c (Pipeline.arrRef spec19 1)) (V c (Pipeline.arrRef spec19 2)) (((cfg19.win 3).blk t).view.emb y)
  refine Glin128x64_of_rows _ _ _ _ _ _ _ _ (((cfg19.win 3).blk t).view.emb y) ?_ (fun k => ?_) (fun k => wBlock19 V c t k _) (bBlock19 V c t _)
  · show win19_3.index t 1 * 64 + 1 * (y 1).val = (y 1).val
    rw [e1]; omega
  · refine xBlock19 V c t _ k _ ?_ rfl
    show win19_3.index t 0 * 2000 + 1 * (y 0).val = 2000 * t.val + (y 0).val
    rw [e0]; omega

/-- An index of the output array is in point t's block iff each coordinate is in the block's range on its axis. -/
theorem memBlock19 (t : Fin cfg19.N) (i : S50000x64.Idx) :
    i ∈ ((cfg19.win 3).blk t).view.set ↔ ∀ a : Fin 2, win19_3.index t a * S2000x64.size a ≤ (i a).val ∧ (i a).val < win19_3.index t a * S2000x64.size a + S2000x64.size a := by
  show i ∈ ((View.whole main_v210).slice (win19_3.rect t)).set ↔ _
  rw [View.set_slice_whole, Rect.mem_set_unit]
  exact Iff.rfl

/-- Every row is in some block: row r is in block r / 2000. -/
theorem cover19 (i : S50000x64.Idx) : ∃ t : Fin cfg19.N, (cfg19.win 3).flush t = true ∧ i ∈ ((cfg19.win 3).blk t).view.set := by
  have hi0 : (i 0).val < 50000 := (i 0).isLt
  have hi1 : (i 1).val < 64 := (i 1).isLt
  have hN : cfg19.N = 25 := N_19
  have ht : (i 0).val / 2000 < cfg19.N := by rw [hN]; omega
  obtain ⟨-, -, -, -, -, -, e0, e1⟩ := blockIdx19 ⟨(i 0).val / 2000, ht⟩
  refine ⟨⟨(i 0).val / 2000, ht⟩, flush19_3 _, ?_⟩
  rw [memBlock19]
  intro a
  match a with
  | ⟨0, _⟩ =>
    show win19_3.index ⟨(i 0).val / 2000, ht⟩ 0 * 2000 ≤ (i 0).val ∧ (i 0).val < win19_3.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win19_3.index ⟨(i 0).val / 2000, ht⟩ 1 * 64 ≤ (i 1).val ∧ (i 1).val < win19_3.index ⟨(i 0).val / 2000, ht⟩ 1 * 64 + 64
    rw [e1]; omega

/-- After region 19 the output array holds the dense layer of the arrays the region was entered with. -/
theorem closed19 (c : Dev nD) :
    (dat19 (F := Ideal) V c).arrAt 3 cfg19.N
      = Glin128x64 (V c (Pipeline.arrRef spec19 0)) (V c (Pipeline.arrRef spec19 1)) (V c (Pipeline.arrRef spec19 2)) :=
  (dat19 (F := Ideal) V c).arrAt_eq_of_cover 3 _ (fun t _ => flushed19_eq V c t) cover19

end Cert.KernelIdeal.RegionValue

end
-- ==== Proof.Regions.R20.lean ====
/- Region 20 of the kernel in closed form. Its body is pointwise: at every grid point it reads
   the point's block of two arrays and writes the sum of the two blocks to the point's block
   of a third. The 25 blocks of 2000 rows tile the array, so after the region the third array is that function of the
   first two as the region found them, index by index, whatever the buffers held when the region was entered. -/
import proofs.«149349_j76854144794846_1_alg».proof.Proof.Regions.PointSpec
import proofs.«149349_j76854144794846_1_alg».proof.Proof.Gen.KernelIdeal.Frame
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's payload, index by index: the scalar function of the two loaded blocks (a cast of a shape to itself is
    the identity). -/
theorem pay20_eq (x0 : Vec F S2000x64 .f32) (x1 : Vec F S2000x64 .f32) : k20_pay1 x0 x1 = fun j => FloatOps.addf (x0 j) (x1 j) := by
  funext j; unfold k20_pay1; rw [shapeCast_self, shapeCast_self]; rfl

/-- The printed index maps, decided over the grid: at point `t` every window's block is block row `t`, block column 0. -/
theorem idx_facts20 : ∀ t : Fin cfg20.N, win20_0.index t (0 : Fin 2) = t.val ∧ win20_0.index t (1 : Fin 2) = 0
    ∧ win20_1.index t (0 : Fin 2) = t.val ∧ win20_1.index t (1 : Fin 2) = 0
    ∧ win20_2.index t (0 : Fin 2) = t.val ∧ win20_2.index t (1 : Fin 2) = 0 :=
  (by decide +kernel : ∀ t : Fin grid20.N, _)

set_option maxHeartbeats 1000000 in
/-- What point `t` writes back is block `t` of the array function of the two input arrays as the region finds them. -/
theorem flushed20_eq (c : Dev nD) (t : Fin cfg20.N) :
    (dat20 V c).flushed 2 t = ((cfg20.win 2).blk t).view.read (Elt F) (Gadd64 (V c (Pipeline.arrRef spec20 0)) (V c (Pipeline.arrRef spec20 1))) := by
  show (cfg20.win 2).cut (grid20.coords t) ((dat20 V c).after 2 t) = _
  rw [after20_2]
  unfold out20_2
  rw [View.canon_unit_zero hz]
  simp only [View.ld_unit_zero (S := S2000x64) hz]
  rw [pay20_eq]
  obtain ⟨e0, e1, e2, e3, e4, e5⟩ := idx_facts20 t
  funext j
  refine Eq.trans ?_ (Gadd64_apply (V c (Pipeline.arrRef spec20 0)) (V c (Pipeline.arrRef spec20 1)) (((cfg20.win 2).blk t).view.emb j)).symm
  show FloatOps.addf (V c (Pipeline.arrRef spec20 0) (((cfg20.win 0).blk t).view.emb j)) (V c (Pipeline.arrRef spec20 1) (((cfg20.win 1).blk t).view.emb j)) = FloatOps.addf (V c (Pipeline.arrRef spec20 0) (((cfg20.win 2).blk t).view.emb j)) (V c (Pipeline.arrRef spec20 1) (((cfg20.win 2).blk t).view.emb j))
  have h0 : ((cfg20.win 0).blk t).view.emb j = ((cfg20.win 2).blk t).view.emb j := by
    funext a; apply Fin.ext
    match a with
    | ⟨0, _⟩ => show win20_0.index t (0 : Fin 2) * 2000 + 1 * (j 0).val = win20_2.index t (0 : Fin 2) * 2000 + 1 * (j 0).val; rw [e0, e4]
    | ⟨1, _⟩ => show win20_0.index t (1 : Fin 2) * 64 + 1 * (j 1).val = win20_2.index t (1 : Fin 2) * 64 + 1 * (j 1).val; rw [e1, e5]
  have h1 : ((cfg20.win 1).blk t).view.emb j = ((cfg20.win 2).blk t).view.emb j := by
    funext a; apply Fin.ext
    match a with
    | ⟨0, _⟩ => show win20_1.index t (0 : Fin 2) * 2000 + 1 * (j 0).val = win20_2.index t (0 : Fin 2) * 2000 + 1 * (j 0).val; rw [e2, e4]
    | ⟨1, _⟩ => show win20_1.index t (1 : Fin 2) * 64 + 1 * (j 1).val = win20_2.index t (1 : Fin 2) * 64 + 1 * (j 1).val; rw [e3, e5]
  rw [h0, h1]

/-- An index of the array is in point `t`'s block iff each coordinate is in the block's range on its axis. -/
theorem mem_blk20 (t : Fin cfg20.N) (i : S50000x64.Idx) :
    i ∈ ((cfg20.win 2).blk t).view.set ↔ ∀ a : Fin 2, win20_2.index t a * S2000x64.size a ≤ (i a).val ∧ (i a).val < win20_2.index t a * S2000x64.size a + S2000x64.size a := by
  show i ∈ ((View.whole main_v211).slice (win20_2.rect t)).set ↔ _
  rw [View.set_slice_whole, Rect.mem_set_unit]
  exact Iff.rfl

/-- The blocks tile the array: row `r` is in the block of point `r / 2000`. -/
theorem cover20 (i : S50000x64.Idx) : ∃ t : Fin cfg20.N, (cfg20.win 2).flush t = true ∧ i ∈ ((cfg20.win 2).blk t).view.set := by
  have hi0 : (i 0).val < 50000 := (i 0).isLt
  have hi1 : (i 1).val < 64 := (i 1).isLt
  obtain ⟨t, ht⟩ : ∃ t : Fin cfg20.N, t.val = (i 0).val / 2000 :=
    ⟨⟨(i 0).val / 2000, by rw [show cfg20.N = 25 from N_20]; omega⟩, rfl⟩
  obtain ⟨e0, e1, e2, e3, e4, e5⟩ := idx_facts20 t
  refine ⟨t, flush20_2 t, ?_⟩
  rw [mem_blk20]
  intro a
  match a with
  | ⟨0, _⟩ => show win20_2.index t (0 : Fin 2) * 2000 ≤ (i 0).val ∧ (i 0).val < win20_2.index t (0 : Fin 2) * 2000 + 2000; rw [e4, ht]; omega
  | ⟨1, _⟩ => show win20_2.index t (1 : Fin 2) * 64 ≤ (i 1).val ∧ (i 1).val < win20_2.index t (1 : Fin 2) * 64 + 64; rw [e5]; omega

/-- THE ARRAY after region 20: the array function of the two input arrays as the region finds them. -/
theorem closed20 (c : Dev nD) :
    (dat20 V c).arrAt 2 cfg20.N = Gadd64 (V c (Pipeline.arrRef spec20 0)) (V c (Pipeline.arrRef spec20 1)) :=
  (dat20 V c).arrAt_eq_of_cover 2 (Gadd64 (V c (Pipeline.arrRef spec20 0)) (V c (Pipeline.arrRef spec20 1))) (fun t _ => flushed20_eq V c t) (cover20)

end Cert.KernelIdeal.RegionValue

end
-- ==== Proof.KThread.lean ====
/-
  The fold of buffer contents through @main's thirty-nine segments, read as functions of the argument arrays.
  At the boundary after a launch, the launch's output array is what its grid points wrote back — by the launch's
  closed form, one whole-array function of the arrays its input windows stage, as the launch found them; at the
  boundary after a host stretch, a buffer the stretch produced is the stretch's stage function of the buffers it
  read, as the stretch found them. What a segment found in a buffer is what the buffer's producing segment left
  there, because every value of @main is written once: the walk back goes one segment at a time, a host stretch that
  does not write the buffer, a launch that does not stage it, or a launch that stages it as an input. Each produced
  buffer's contents get a name (v3, v6, … after @main's value numbers), defined over the earlier names; the last is the
  result array, and with the names unfolded it is the network of the argument arrays.
-/
import proofs.«149349_j76854144794846_1_alg».proof.Proof.KKeep
import proofs.«149349_j76854144794846_1_alg».proof.Proof.KHost
import proofs.«149349_j76854144794846_1_alg».proof.Proof.KNet
import proofs.«149349_j76854144794846_1_alg».proof.Proof.Regions.R0
import proofs.«149349_j76854144794846_1_alg».proof.Proof.Regions.R1
import proofs.«149349_j76854144794846_1_alg».proof.Proof.Regions.R2
import proofs.«149349_j76854144794846_1_alg».proof.Proof.Regions.R3
import proofs.«149349_j76854144794846_1_alg».proof.Proof.Regions.R4
import proofs.«149349_j76854144794846_1_alg».proof.Proof.Regions.R5
import proofs.«149349_j76854144794846_1_alg».proof.Proof.Regions.R6
import proofs.«149349_j76854144794846_1_alg».proof.Proof.Regions.R7
import proofs.«149349_j76854144794846_1_alg».proof.Proof.Regions.R8
import proofs.«149349_j76854144794846_1_alg».proof.Proof.Regions.R9
import proofs.«149349_j76854144794846_1_alg».proof.Proof.Regions.R10
import proofs.«149349_j76854144794846_1_alg».proof.Proof.Regions.R11
import proofs.«149349_j76854144794846_1_alg».proof.Proof.Regions.R12
import proofs.«149349_j76854144794846_1_alg».proof.Proof.Regions.R13
import proofs.«149349_j76854144794846_1_alg».proof.Proof.Regions.R14
import proofs.«149349_j76854144794846_1_alg».proof.Proof.Regions.R15
import proofs.«149349_j76854144794846_1_alg».proof.Proof.Regions.R16
import proofs.«149349_j76854144794846_1_alg».proof.Proof.Regions.R17
import proofs.«149349_j76854144794846_1_alg».proof.Proof.Regions.R18
import proofs.«149349_j76854144794846_1_alg».proof.Proof.Regions.R19
import proofs.«149349_j76854144794846_1_alg».proof.Proof.Regions.R20

set_option maxRecDepth 16384

noncomputable section

namespace Cert.KernelIdeal.KRun

open Cert.KernelIdeal Cert.KernelIdeal.Gen Cert.KernelIdeal.KStage Cert.KernelIdeal.KNet Cert.KernelIdeal.RegionValue
open Idealize.ShloMosaic Idealize.ShloMosaic.TcCoe Idealize.SL.Sem

variable (m : (ℓ : Loc nD τ sig) → Buf (Elt Ideal) ℓ) (ρ : Dev nD → PrngReg) (c : Dev nD)

/-- What @main's value %v3 holds, as a term over the argument arrays. -/
def v3 := srcI (m ((c : Thread nD τ).loc main_arg1))

theorem arg1_at0 : W0 m ρ c (Proc.devRef .tc main_arg1) = m ((c : Thread nD τ).loc main_arg1) := rfl

theorem v3_at1 : W1 m ρ c (Proc.devRef .tc main_v3)
    = (v3 m c) := by
  refine (KHost.host0_v3 (W0 m ρ c)).trans ?_
  unfold v3
  refine (congrArg srcI ?_)
  · exact arg1_at0 m ρ c

/-- What @main's value %v6 holds, as a term over the argument arrays. -/
def v6 := dstI (m ((c : Thread nD τ).loc main_arg1))

theorem v6_at1 : W1 m ρ c (Proc.devRef .tc main_v6)
    = (v6 m c) := by
  refine (KHost.host0_v6 (W0 m ρ c)).trans ?_
  unfold v6
  refine (congrArg dstI ?_)
  · exact arg1_at0 m ρ c

/-- What @main's value %v28 holds, as a term over the argument arrays. -/
def v28 := nrm (v3 m c) (v6 m c)

theorem v28_at1 : W1 m ρ c (Proc.devRef .tc main_v28)
    = (v28 m c) := by
  refine (KHost.host0_v28 (W0 m ρ c)).trans ?_
  unfold v28 v3 v6
  rfl

/-- What @main's value %v29 holds, as a term over the argument arrays. -/
def v29 := row128 (F := Ideal) (m ((c : Thread nD τ).loc main_arg3))

theorem arg3_at0 : W0 m ρ c (Proc.devRef .tc main_arg3) = m ((c : Thread nD τ).loc main_arg3) := rfl

theorem v29_at1 : W1 m ρ c (Proc.devRef .tc main_v29)
    = (v29 m c) := by
  refine (KHost.host0_v29 (W0 m ρ c)).trans ?_
  unfold v29
  refine (congrArg (row128 (F := Ideal)) ?_)
  · exact arg3_at0 m ρ c

/-- What @main's value %v30 holds, as a term over the argument arrays. -/
def v30 := Glin256x128 (m ((c : Thread nD τ).loc main_arg0)) (m ((c : Thread nD τ).loc main_arg2)) (v29 m c)

theorem arg0_at0 : W0 m ρ c (Proc.devRef .tc main_arg0) = m ((c : Thread nD τ).loc main_arg0) := rfl

theorem arg0_at1 : W1 m ρ c (Proc.devRef .tc main_arg0) = m ((c : Thread nD τ).loc main_arg0) :=
  (W1_keep m ρ c main_arg0 (by host_not_written)).trans (arg0_at0 m ρ c)

theorem arg2_at0 : W0 m ρ c (Proc.devRef .tc main_arg2) = m ((c : Thread nD τ).loc main_arg2) := rfl

theorem arg2_at1 : W1 m ρ c (Proc.devRef .tc main_arg2) = m ((c : Thread nD τ).loc main_arg2) :=
  (W1_keep m ρ c main_arg2 (by host_not_written)).trans (arg2_at0 m ρ c)

theorem v30_at2 : W2 m ρ c (Proc.devRef .tc main_v30)
    = (v30 m c) := by
  refine ((W2_arr m ρ c 3).trans (closed0 (V1 m ρ) c)).trans ?_
  unfold v30
  refine (congr (congr (congrArg Glin256x128 ?_) ?_) ?_)
  · exact arg0_at1 m ρ c
  · exact arg2_at1 m ρ c
  · exact v29_at1 m ρ c

/-- What @main's value %v43 holds, as a term over the argument arrays. -/
def v43 := agg128 (v3 m c) (v6 m c) (v28 m c) (v30 m c)

theorem v3_at2 : W2 m ρ c (Proc.devRef .tc main_v3) = (v3 m c) :=
  (W2_of_ne m ρ c main_v3 (by decide)).trans (v3_at1 m ρ c)

theorem v6_at2 : W2 m ρ c (Proc.devRef .tc main_v6) = (v6 m c) :=
  (W2_of_ne m ρ c main_v6 (by decide)).trans (v6_at1 m ρ c)

theorem v28_at2 : W2 m ρ c (Proc.devRef .tc main_v28) = (v28 m c) :=
  (W2_of_ne m ρ c main_v28 (by decide)).trans (v28_at1 m ρ c)

theorem v43_at3 : W3 m ρ c (Proc.devRef .tc main_v43)
    = (v43 m c) := by
  refine (KHost.host1_v43 (W2 m ρ c)).trans ?_
  unfold v43
  refine (congr (congr (congr (congrArg agg128 ?_) ?_) ?_) ?_)
  · exact v3_at2 m ρ c
  · exact v6_at2 m ρ c
  · exact v28_at2 m ρ c
  · exact v30_at2 m ρ c

/-- What @main's value %v44 holds, as a term over the argument arrays. -/
def v44 := Gcomb128 (v30 m c) (v43 m c)

theorem v30_at3 : W3 m ρ c (Proc.devRef .tc main_v30) = (v30 m c) :=
  (W3_keep m ρ c main_v30 (by host_not_written)).trans (v30_at2 m ρ c)

theorem v44_at4 : W4 m ρ c (Proc.devRef .tc main_v44)
    = (v44 m c) := by
  refine ((W4_arr m ρ c 2).trans (closed1 (V3 m ρ) c)).trans ?_
  unfold v44
  refine (congr (congrArg Gcomb128 ?_) ?_)
  · exact v30_at3 m ρ c
  · exact v43_at3 m ρ c

/-- What @main's value %v57 holds, as a term over the argument arrays. -/
def v57 := agg128 (v3 m c) (v6 m c) (v28 m c) (v44 m c)

theorem v3_at3 : W3 m ρ c (Proc.devRef .tc main_v3) = (v3 m c) :=
  (W3_keep m ρ c main_v3 (by host_not_written)).trans (v3_at2 m ρ c)

theorem v3_at4 : W4 m ρ c (Proc.devRef .tc main_v3) = (v3 m c) :=
  (W4_of_ne m ρ c main_v3 (by decide)).trans (v3_at3 m ρ c)

theorem v6_at3 : W3 m ρ c (Proc.devRef .tc main_v6) = (v6 m c) :=
  (W3_keep m ρ c main_v6 (by host_not_written)).trans (v6_at2 m ρ c)

theorem v6_at4 : W4 m ρ c (Proc.devRef .tc main_v6) = (v6 m c) :=
  (W4_of_ne m ρ c main_v6 (by decide)).trans (v6_at3 m ρ c)

theorem v28_at3 : W3 m ρ c (Proc.devRef .tc main_v28) = (v28 m c) :=
  (W3_keep m ρ c main_v28 (by host_not_written)).trans (v28_at2 m ρ c)

theorem v28_at4 : W4 m ρ c (Proc.devRef .tc main_v28) = (v28 m c) :=
  (W4_of_ne m ρ c main_v28 (by decide)).trans (v28_at3 m ρ c)

theorem v57_at5 : W5 m ρ c (Proc.devRef .tc main_v57)
    = (v57 m c) := by
  refine (KHost.host2_v57 (W4 m ρ c)).trans ?_
  unfold v57
  refine (congr (congr (congr (congrArg agg128 ?_) ?_) ?_) ?_)
  · exact v3_at4 m ρ c
  · exact v6_at4 m ρ c
  · exact v28_at4 m ρ c
  · exact v44_at4 m ρ c

/-- What @main's value %v58 holds, as a term over the argument arrays. -/
def v58 := Gcomb128 (v30 m c) (v57 m c)

theorem v30_at4 : W4 m ρ c (Proc.devRef .tc main_v30) = (v30 m c) :=
  ((W4_arr m ρ c 0).trans (((dat1 (V3 m ρ) c).arrAt_in 0 rfl _).trans (A_eq1 (V3 m ρ) c 0))).trans (v30_at3 m ρ c)

theorem v30_at5 : W5 m ρ c (Proc.devRef .tc main_v30) = (v30 m c) :=
  (W5_keep m ρ c main_v30 (by host_not_written)).trans (v30_at4 m ρ c)

theorem v58_at6 : W6 m ρ c (Proc.devRef .tc main_v58)
    = (v58 m c) := by
  refine ((W6_arr m ρ c 2).trans (closed2 (V5 m ρ) c)).trans ?_
  unfold v58
  refine (congr (congrArg Gcomb128 ?_) ?_)
  · exact v30_at5 m ρ c
  · exact v57_at5 m ρ c

/-- What @main's value %v71 holds, as a term over the argument arrays. -/
def v71 := agg128 (v3 m c) (v6 m c) (v28 m c) (v58 m c)

theorem v3_at5 : W5 m ρ c (Proc.devRef .tc main_v3) = (v3 m c) :=
  (W5_keep m ρ c main_v3 (by host_not_written)).trans (v3_at4 m ρ c)

theorem v3_at6 : W6 m ρ c (Proc.devRef .tc main_v3) = (v3 m c) :=
  (W6_of_ne m ρ c main_v3 (by decide)).trans (v3_at5 m ρ c)

theorem v6_at5 : W5 m ρ c (Proc.devRef .tc main_v6) = (v6 m c) :=
  (W5_keep m ρ c main_v6 (by host_not_written)).trans (v6_at4 m ρ c)

theorem v6_at6 : W6 m ρ c (Proc.devRef .tc main_v6) = (v6 m c) :=
  (W6_of_ne m ρ c main_v6 (by decide)).trans (v6_at5 m ρ c)

theorem v28_at5 : W5 m ρ c (Proc.devRef .tc main_v28) = (v28 m c) :=
  (W5_keep m ρ c main_v28 (by host_not_written)).trans (v28_at4 m ρ c)

theorem v28_at6 : W6 m ρ c (Proc.devRef .tc main_v28) = (v28 m c) :=
  (W6_of_ne m ρ c main_v28 (by decide)).trans (v28_at5 m ρ c)

theorem v71_at7 : W7 m ρ c (Proc.devRef .tc main_v71)
    = (v71 m c) := by
  refine (KHost.host3_v71 (W6 m ρ c)).trans ?_
  unfold v71
  refine (congr (congr (congr (congrArg agg128 ?_) ?_) ?_) ?_)
  · exact v3_at6 m ρ c
  · exact v6_at6 m ρ c
  · exact v28_at6 m ρ c
  · exact v58_at6 m ρ c

/-- What @main's value %v72 holds, as a term over the argument arrays. -/
def v72 := Gcomb128 (v30 m c) (v71 m c)

theorem v30_at6 : W6 m ρ c (Proc.devRef .tc main_v30) = (v30 m c) :=
  ((W6_arr m ρ c 0).trans (((dat2 (V5 m ρ) c).arrAt_in 0 rfl _).trans (A_eq2 (V5 m ρ) c 0))).trans (v30_at5 m ρ c)

theorem v30_at7 : W7 m ρ c (Proc.devRef .tc main_v30) = (v30 m c) :=
  (W7_keep m ρ c main_v30 (by host_not_written)).trans (v30_at6 m ρ c)

theorem v72_at8 : W8 m ρ c (Proc.devRef .tc main_v72)
    = (v72 m c) := by
  refine ((W8_arr m ρ c 2).trans (closed3 (V7 m ρ) c)).trans ?_
  unfold v72
  refine (congr (congrArg Gcomb128 ?_) ?_)
  · exact v30_at7 m ρ c
  · exact v71_at7 m ρ c

/-- What @main's value %v85 holds, as a term over the argument arrays. -/
def v85 := agg128 (v3 m c) (v6 m c) (v28 m c) (v72 m c)

theorem v3_at7 : W7 m ρ c (Proc.devRef .tc main_v3) = (v3 m c) :=
  (W7_keep m ρ c main_v3 (by host_not_written)).trans (v3_at6 m ρ c)

theorem v3_at8 : W8 m ρ c (Proc.devRef .tc main_v3) = (v3 m c) :=
  (W8_of_ne m ρ c main_v3 (by decide)).trans (v3_at7 m ρ c)

theorem v6_at7 : W7 m ρ c (Proc.devRef .tc main_v6) = (v6 m c) :=
  (W7_keep m ρ c main_v6 (by host_not_written)).trans (v6_at6 m ρ c)

theorem v6_at8 : W8 m ρ c (Proc.devRef .tc main_v6) = (v6 m c) :=
  (W8_of_ne m ρ c main_v6 (by decide)).trans (v6_at7 m ρ c)

theorem v28_at7 : W7 m ρ c (Proc.devRef .tc main_v28) = (v28 m c) :=
  (W7_keep m ρ c main_v28 (by host_not_written)).trans (v28_at6 m ρ c)

theorem v28_at8 : W8 m ρ c (Proc.devRef .tc main_v28) = (v28 m c) :=
  (W8_of_ne m ρ c main_v28 (by decide)).trans (v28_at7 m ρ c)

theorem v85_at9 : W9 m ρ c (Proc.devRef .tc main_v85)
    = (v85 m c) := by
  refine (KHost.host4_v85 (W8 m ρ c)).trans ?_
  unfold v85
  refine (congr (congr (congr (congrArg agg128 ?_) ?_) ?_) ?_)
  · exact v3_at8 m ρ c
  · exact v6_at8 m ρ c
  · exact v28_at8 m ρ c
  · exact v72_at8 m ρ c

/-- What @main's value %v86 holds, as a term over the argument arrays. -/
def v86 := Gcomb128 (v30 m c) (v85 m c)

theorem v30_at8 : W8 m ρ c (Proc.devRef .tc main_v30) = (v30 m c) :=
  ((W8_arr m ρ c 0).trans (((dat3 (V7 m ρ) c).arrAt_in 0 rfl _).trans (A_eq3 (V7 m ρ) c 0))).trans (v30_at7 m ρ c)

theorem v30_at9 : W9 m ρ c (Proc.devRef .tc main_v30) = (v30 m c) :=
  (W9_keep m ρ c main_v30 (by host_not_written)).trans (v30_at8 m ρ c)

theorem v86_at10 : W10 m ρ c (Proc.devRef .tc main_v86)
    = (v86 m c) := by
  refine ((W10_arr m ρ c 2).trans (closed4 (V9 m ρ) c)).trans ?_
  unfold v86
  refine (congr (congrArg Gcomb128 ?_) ?_)
  · exact v30_at9 m ρ c
  · exact v85_at9 m ρ c

/-- What @main's value %v87 holds, as a term over the argument arrays. -/
def v87 := row128 (F := Ideal) (m ((c : Thread nD τ).loc main_arg5))

theorem arg5_at0 : W0 m ρ c (Proc.devRef .tc main_arg5) = m ((c : Thread nD τ).loc main_arg5) := rfl

theorem arg5_at1 : W1 m ρ c (Proc.devRef .tc main_arg5) = m ((c : Thread nD τ).loc main_arg5) :=
  (W1_keep m ρ c main_arg5 (by host_not_written)).trans (arg5_at0 m ρ c)

theorem arg5_at2 : W2 m ρ c (Proc.devRef .tc main_arg5) = m ((c : Thread nD τ).loc main_arg5) :=
  (W2_of_ne m ρ c main_arg5 (by decide)).trans (arg5_at1 m ρ c)

theorem arg5_at3 : W3 m ρ c (Proc.devRef .tc main_arg5) = m ((c : Thread nD τ).loc main_arg5) :=
  (W3_keep m ρ c main_arg5 (by host_not_written)).trans (arg5_at2 m ρ c)

theorem arg5_at4 : W4 m ρ c (Proc.devRef .tc main_arg5) = m ((c : Thread nD τ).loc main_arg5) :=
  (W4_of_ne m ρ c main_arg5 (by decide)).trans (arg5_at3 m ρ c)

theorem arg5_at5 : W5 m ρ c (Proc.devRef .tc main_arg5) = m ((c : Thread nD τ).loc main_arg5) :=
  (W5_keep m ρ c main_arg5 (by host_not_written)).trans (arg5_at4 m ρ c)

theorem arg5_at6 : W6 m ρ c (Proc.devRef .tc main_arg5) = m ((c : Thread nD τ).loc main_arg5) :=
  (W6_of_ne m ρ c main_arg5 (by decide)).trans (arg5_at5 m ρ c)

theorem arg5_at7 : W7 m ρ c (Proc.devRef .tc main_arg5) = m ((c : Thread nD τ).loc main_arg5) :=
  (W7_keep m ρ c main_arg5 (by host_not_written)).trans (arg5_at6 m ρ c)

theorem arg5_at8 : W8 m ρ c (Proc.devRef .tc main_arg5) = m ((c : Thread nD τ).loc main_arg5) :=
  (W8_of_ne m ρ c main_arg5 (by decide)).trans (arg5_at7 m ρ c)

theorem arg5_at9 : W9 m ρ c (Proc.devRef .tc main_arg5) = m ((c : Thread nD τ).loc main_arg5) :=
  (W9_keep m ρ c main_arg5 (by host_not_written)).trans (arg5_at8 m ρ c)

theorem arg5_at10 : W10 m ρ c (Proc.devRef .tc main_arg5) = m ((c : Thread nD τ).loc main_arg5) :=
  (W10_of_ne m ρ c main_arg5 (by decide)).trans (arg5_at9 m ρ c)

theorem v87_at11 : W11 m ρ c (Proc.devRef .tc main_v87)
    = (v87 m c) := by
  refine (KHost.host5_v87 (W10 m ρ c)).trans ?_
  unfold v87
  refine (congrArg (row128 (F := Ideal)) ?_)
  · exact arg5_at10 m ρ c

/-- What @main's value %v88 holds, as a term over the argument arrays. -/
def v88 := Glin256x128 (m ((c : Thread nD τ).loc main_arg0)) (m ((c : Thread nD τ).loc main_arg4)) (v87 m c)

theorem arg0_at2 : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (arg0_at1 m ρ c)

theorem arg0_at3 : W3 m ρ c (Proc.devRef .tc main_arg0) = m ((c : Thread nD τ).loc main_arg0) :=
  (W3_keep m ρ c main_arg0 (by host_not_written)).trans (arg0_at2 m ρ c)

theorem arg0_at4 : W4 m ρ c (Proc.devRef .tc main_arg0) = m ((c : Thread nD τ).loc main_arg0) :=
  (W4_of_ne m ρ c main_arg0 (by decide)).trans (arg0_at3 m ρ c)

theorem arg0_at5 : W5 m ρ c (Proc.devRef .tc main_arg0) = m ((c : Thread nD τ).loc main_arg0) :=
  (W5_keep m ρ c main_arg0 (by host_not_written)).trans (arg0_at4 m ρ c)

theorem arg0_at6 : W6 m ρ c (Proc.devRef .tc main_arg0) = m ((c : Thread nD τ).loc main_arg0) :=
  (W6_of_ne m ρ c main_arg0 (by decide)).trans (arg0_at5 m ρ c)

theorem arg0_at7 : W7 m ρ c (Proc.devRef .tc main_arg0) = m ((c : Thread nD τ).loc main_arg0) :=
  (W7_keep m ρ c main_arg0 (by host_not_written)).trans (arg0_at6 m ρ c)

theorem arg0_at8 : W8 m ρ c (Proc.devRef .tc main_arg0) = m ((c : Thread nD τ).loc main_arg0) :=
  (W8_of_ne m ρ c main_arg0 (by decide)).trans (arg0_at7 m ρ c)

theorem arg0_at9 : W9 m ρ c (Proc.devRef .tc main_arg0) = m ((c : Thread nD τ).loc main_arg0) :=
  (W9_keep m ρ c main_arg0 (by host_not_written)).trans (arg0_at8 m ρ c)

theorem arg0_at10 : W10 m ρ c (Proc.devRef .tc main_arg0) = m ((c : Thread nD τ).loc main_arg0) :=
  (W10_of_ne m ρ c main_arg0 (by decide)).trans (arg0_at9 m ρ c)

theorem arg0_at11 : W11 m ρ c (Proc.devRef .tc main_arg0) = m ((c : Thread nD τ).loc main_arg0) :=
  (W11_keep m ρ c main_arg0 (by host_not_written)).trans (arg0_at10 m ρ c)

theorem arg4_at0 : W0 m ρ c (Proc.devRef .tc main_arg4) = m ((c : Thread nD τ).loc main_arg4) := rfl

theorem arg4_at1 : W1 m ρ c (Proc.devRef .tc main_arg4) = m ((c : Thread nD τ).loc main_arg4) :=
  (W1_keep m ρ c main_arg4 (by host_not_written)).trans (arg4_at0 m ρ c)

theorem arg4_at2 : W2 m ρ c (Proc.devRef .tc main_arg4) = m ((c : Thread nD τ).loc main_arg4) :=
  (W2_of_ne m ρ c main_arg4 (by decide)).trans (arg4_at1 m ρ c)

theorem arg4_at3 : W3 m ρ c (Proc.devRef .tc main_arg4) = m ((c : Thread nD τ).loc main_arg4) :=
  (W3_keep m ρ c main_arg4 (by host_not_written)).trans (arg4_at2 m ρ c)

theorem arg4_at4 : W4 m ρ c (Proc.devRef .tc main_arg4) = m ((c : Thread nD τ).loc main_arg4) :=
  (W4_of_ne m ρ c main_arg4 (by decide)).trans (arg4_at3 m ρ c)

theorem arg4_at5 : W5 m ρ c (Proc.devRef .tc main_arg4) = m ((c : Thread nD τ).loc main_arg4) :=
  (W5_keep m ρ c main_arg4 (by host_not_written)).trans (arg4_at4 m ρ c)

theorem arg4_at6 : W6 m ρ c (Proc.devRef .tc main_arg4) = m ((c : Thread nD τ).loc main_arg4) :=
  (W6_of_ne m ρ c main_arg4 (by decide)).trans (arg4_at5 m ρ c)

theorem arg4_at7 : W7 m ρ c (Proc.devRef .tc main_arg4) = m ((c : Thread nD τ).loc main_arg4) :=
  (W7_keep m ρ c main_arg4 (by host_not_written)).trans (arg4_at6 m ρ c)

theorem arg4_at8 : W8 m ρ c (Proc.devRef .tc main_arg4) = m ((c : Thread nD τ).loc main_arg4) :=
  (W8_of_ne m ρ c main_arg4 (by decide)).trans (arg4_at7 m ρ c)

theorem arg4_at9 : W9 m ρ c (Proc.devRef .tc main_arg4) = m ((c : Thread nD τ).loc main_arg4) :=
  (W9_keep m ρ c main_arg4 (by host_not_written)).trans (arg4_at8 m ρ c)

theorem arg4_at10 : W10 m ρ c (Proc.devRef .tc main_arg4) = m ((c : Thread nD τ).loc main_arg4) :=
  (W10_of_ne m ρ c main_arg4 (by decide)).trans (arg4_at9 m ρ c)

theorem arg4_at11 : W11 m ρ c (Proc.devRef .tc main_arg4) = m ((c : Thread nD τ).loc main_arg4) :=
  (W11_keep m ρ c main_arg4 (by host_not_written)).trans (arg4_at10 m ρ c)

theorem v88_at12 : W12 m ρ c (Proc.devRef .tc main_v88)
    = (v88 m c) := by
  refine ((W12_arr m ρ c 3).trans (closed5 (V11 m ρ) c)).trans ?_
  unfold v88
  refine (congr (congr (congrArg Glin256x128 ?_) ?_) ?_)
  · exact arg0_at11 m ρ c
  · exact arg4_at11 m ρ c
  · exact v87_at11 m ρ c

/-- What @main's value %v89 holds, as a term over the argument arrays. -/
def v89 := Gelu128 (v86 m c) (v88 m c)

theorem v86_at11 : W11 m ρ c (Proc.devRef .tc main_v86) = (v86 m c) :=
  (W11_keep m ρ c main_v86 (by host_not_written)).trans (v86_at10 m ρ c)

theorem v86_at12 : W12 m ρ c (Proc.devRef .tc main_v86) = (v86 m c) :=
  (W12_of_ne m ρ c main_v86 (by decide)).trans (v86_at11 m ρ c)

theorem v89_at13 : W13 m ρ c (Proc.devRef .tc main_v89)
    = (v89 m c) := by
  refine ((W13_arr m ρ c 2).trans (closed6 (V12 m ρ) c)).trans ?_
  unfold v89
  refine (congr (congrArg Gelu128 ?_) ?_)
  · exact v86_at12 m ρ c
  · exact v88_at12 m ρ c

/-- What @main's value %v90 holds, as a term over the argument arrays. -/
def v90 := row128 (F := Ideal) (m ((c : Thread nD τ).loc main_arg7))

theorem arg7_at0 : W0 m ρ c (Proc.devRef .tc main_arg7) = m ((c : Thread nD τ).loc main_arg7) := rfl

theorem arg7_at1 : W1 m ρ c (Proc.devRef .tc main_arg7) = m ((c : Thread nD τ).loc main_arg7) :=
  (W1_keep m ρ c main_arg7 (by host_not_written)).trans (arg7_at0 m ρ c)

theorem arg7_at2 : W2 m ρ c (Proc.devRef .tc main_arg7) = m ((c : Thread nD τ).loc main_arg7) :=
  (W2_of_ne m ρ c main_arg7 (by decide)).trans (arg7_at1 m ρ c)

theorem arg7_at3 : W3 m ρ c (Proc.devRef .tc main_arg7) = m ((c : Thread nD τ).loc main_arg7) :=
  (W3_keep m ρ c main_arg7 (by host_not_written)).trans (arg7_at2 m ρ c)

theorem arg7_at4 : W4 m ρ c (Proc.devRef .tc main_arg7) = m ((c : Thread nD τ).loc main_arg7) :=
  (W4_of_ne m ρ c main_arg7 (by decide)).trans (arg7_at3 m ρ c)

theorem arg7_at5 : W5 m ρ c (Proc.devRef .tc main_arg7) = m ((c : Thread nD τ).loc main_arg7) :=
  (W5_keep m ρ c main_arg7 (by host_not_written)).trans (arg7_at4 m ρ c)

theorem arg7_at6 : W6 m ρ c (Proc.devRef .tc main_arg7) = m ((c : Thread nD τ).loc main_arg7) :=
  (W6_of_ne m ρ c main_arg7 (by decide)).trans (arg7_at5 m ρ c)

theorem arg7_at7 : W7 m ρ c (Proc.devRef .tc main_arg7) = m ((c : Thread nD τ).loc main_arg7) :=
  (W7_keep m ρ c main_arg7 (by host_not_written)).trans (arg7_at6 m ρ c)

theorem arg7_at8 : W8 m ρ c (Proc.devRef .tc main_arg7) = m ((c : Thread nD τ).loc main_arg7) :=
  (W8_of_ne m ρ c main_arg7 (by decide)).trans (arg7_at7 m ρ c)

theorem arg7_at9 : W9 m ρ c (Proc.devRef .tc main_arg7) = m ((c : Thread nD τ).loc main_arg7) :=
  (W9_keep m ρ c main_arg7 (by host_not_written)).trans (arg7_at8 m ρ c)

theorem arg7_at10 : W10 m ρ c (Proc.devRef .tc main_arg7) = m ((c : Thread nD τ).loc main_arg7) :=
  (W10_of_ne m ρ c main_arg7 (by decide)).trans (arg7_at9 m ρ c)

theorem arg7_at11 : W11 m ρ c (Proc.devRef .tc main_arg7) = m ((c : Thread nD τ).loc main_arg7) :=
  (W11_keep m ρ c main_arg7 (by host_not_written)).trans (arg7_at10 m ρ c)

theorem arg7_at12 : W12 m ρ c (Proc.devRef .tc main_arg7) = m ((c : Thread nD τ).loc main_arg7) :=
  (W12_of_ne m ρ c main_arg7 (by decide)).trans (arg7_at11 m ρ c)

theorem arg7_at13 : W13 m ρ c (Proc.devRef .tc main_arg7) = m ((c : Thread nD τ).loc main_arg7) :=
  (W13_of_ne m ρ c main_arg7 (by decide)).trans (arg7_at12 m ρ c)

theorem v90_at14 : W14 m ρ c (Proc.devRef .tc main_v90)
    = (v90 m c) := by
  refine (KHost.host7_v90 (W13 m ρ c)).trans ?_
  unfold v90
  refine (congrArg (row128 (F := Ideal)) ?_)
  · exact arg7_at13 m ρ c

/-- What @main's value %v91 holds, as a term over the argument arrays. -/
def v91 := Glin128x128 (v89 m c) (m ((c : Thread nD τ).loc main_arg6)) (v90 m c)

theorem v89_at14 : W14 m ρ c (Proc.devRef .tc main_v89) = (v89 m c) :=
  (W14_keep m ρ c main_v89 (by host_not_written)).trans (v89_at13 m ρ c)

theorem arg6_at0 : W0 m ρ c (Proc.devRef .tc main_arg6) = m ((c : Thread nD τ).loc main_arg6) := rfl

theorem arg6_at1 : W1 m ρ c (Proc.devRef .tc main_arg6) = m ((c : Thread nD τ).loc main_arg6) :=
  (W1_keep m ρ c main_arg6 (by host_not_written)).trans (arg6_at0 m ρ c)

theorem arg6_at2 : W2 m ρ c (Proc.devRef .tc main_arg6) = m ((c : Thread nD τ).loc main_arg6) :=
  (W2_of_ne m ρ c main_arg6 (by decide)).trans (arg6_at1 m ρ c)

theorem arg6_at3 : W3 m ρ c (Proc.devRef .tc main_arg6) = m ((c : Thread nD τ).loc main_arg6) :=
  (W3_keep m ρ c main_arg6 (by host_not_written)).trans (arg6_at2 m ρ c)

theorem arg6_at4 : W4 m ρ c (Proc.devRef .tc main_arg6) = m ((c : Thread nD τ).loc main_arg6) :=
  (W4_of_ne m ρ c main_arg6 (by decide)).trans (arg6_at3 m ρ c)

theorem arg6_at5 : W5 m ρ c (Proc.devRef .tc main_arg6) = m ((c : Thread nD τ).loc main_arg6) :=
  (W5_keep m ρ c main_arg6 (by host_not_written)).trans (arg6_at4 m ρ c)

theorem arg6_at6 : W6 m ρ c (Proc.devRef .tc main_arg6) = m ((c : Thread nD τ).loc main_arg6) :=
  (W6_of_ne m ρ c main_arg6 (by decide)).trans (arg6_at5 m ρ c)

theorem arg6_at7 : W7 m ρ c (Proc.devRef .tc main_arg6) = m ((c : Thread nD τ).loc main_arg6) :=
  (W7_keep m ρ c main_arg6 (by host_not_written)).trans (arg6_at6 m ρ c)

theorem arg6_at8 : W8 m ρ c (Proc.devRef .tc main_arg6) = m ((c : Thread nD τ).loc main_arg6) :=
  (W8_of_ne m ρ c main_arg6 (by decide)).trans (arg6_at7 m ρ c)

theorem arg6_at9 : W9 m ρ c (Proc.devRef .tc main_arg6) = m ((c : Thread nD τ).loc main_arg6) :=
  (W9_keep m ρ c main_arg6 (by host_not_written)).trans (arg6_at8 m ρ c)

theorem arg6_at10 : W10 m ρ c (Proc.devRef .tc main_arg6) = m ((c : Thread nD τ).loc main_arg6) :=
  (W10_of_ne m ρ c main_arg6 (by decide)).trans (arg6_at9 m ρ c)

theorem arg6_at11 : W11 m ρ c (Proc.devRef .tc main_arg6) = m ((c : Thread nD τ).loc main_arg6) :=
  (W11_keep m ρ c main_arg6 (by host_not_written)).trans (arg6_at10 m ρ c)

theorem arg6_at12 : W12 m ρ c (Proc.devRef .tc main_arg6) = m ((c : Thread nD τ).loc main_arg6) :=
  (W12_of_ne m ρ c main_arg6 (by decide)).trans (arg6_at11 m ρ c)

theorem arg6_at13 : W13 m ρ c (Proc.devRef .tc main_arg6) = m ((c : Thread nD τ).loc main_arg6) :=
  (W13_of_ne m ρ c main_arg6 (by decide)).trans (arg6_at12 m ρ c)

theorem arg6_at14 : W14 m ρ c (Proc.devRef .tc main_arg6) = m ((c : Thread nD τ).loc main_arg6) :=
  (W14_keep m ρ c main_arg6 (by host_not_written)).trans (arg6_at13 m ρ c)

theorem v91_at15 : W15 m ρ c (Proc.devRef .tc main_v91)
    = (v91 m c) := by
  refine ((W15_arr m ρ c 3).trans (closed7 (V14 m ρ) c)).trans ?_
  unfold v91
  refine (congr (congr (congrArg Glin128x128 ?_) ?_) ?_)
  · exact v89_at14 m ρ c
  · exact arg6_at14 m ρ c
  · exact v90_at14 m ρ c

/-- What @main's value %v104 holds, as a term over the argument arrays. -/
def v104 := agg128 (v3 m c) (v6 m c) (v28 m c) (v91 m c)

theorem v3_at9 : W9 m ρ c (Proc.devRef .tc main_v3) = (v3 m c) :=
  (W9_keep m ρ c main_v3 (by host_not_written)).trans (v3_at8 m ρ c)

theorem v3_at10 : W10 m ρ c (Proc.devRef .tc main_v3) = (v3 m c) :=
  (W10_of_ne m ρ c main_v3 (by decide)).trans (v3_at9 m ρ c)

theorem v3_at11 : W11 m ρ c (Proc.devRef .tc main_v3) = (v3 m c) :=
  (W11_keep m ρ c main_v3 (by host_not_written)).trans (v3_at10 m ρ c)

theorem v3_at12 : W12 m ρ c (Proc.devRef .tc main_v3) = (v3 m c) :=
  (W12_of_ne m ρ c main_v3 (by decide)).trans (v3_at11 m ρ c)

theorem v3_at13 : W13 m ρ c (Proc.devRef .tc main_v3) = (v3 m c) :=
  (W13_of_ne m ρ c main_v3 (by decide)).trans (v3_at12 m ρ c)

theorem v3_at14 : W14 m ρ c (Proc.devRef .tc main_v3) = (v3 m c) :=
  (W14_keep m ρ c main_v3 (by host_not_written)).trans (v3_at13 m ρ c)

theorem v3_at15 : W15 m ρ c (Proc.devRef .tc main_v3) = (v3 m c) :=
  (W15_of_ne m ρ c main_v3 (by decide)).trans (v3_at14 m ρ c)

theorem v6_at9 : W9 m ρ c (Proc.devRef .tc main_v6) = (v6 m c) :=
  (W9_keep m ρ c main_v6 (by host_not_written)).trans (v6_at8 m ρ c)

theorem v6_at10 : W10 m ρ c (Proc.devRef .tc main_v6) = (v6 m c) :=
  (W10_of_ne m ρ c main_v6 (by decide)).trans (v6_at9 m ρ c)

theorem v6_at11 : W11 m ρ c (Proc.devRef .tc main_v6) = (v6 m c) :=
  (W11_keep m ρ c main_v6 (by host_not_written)).trans (v6_at10 m ρ c)

theorem v6_at12 : W12 m ρ c (Proc.devRef .tc main_v6) = (v6 m c) :=
  (W12_of_ne m ρ c main_v6 (by decide)).trans (v6_at11 m ρ c)

theorem v6_at13 : W13 m ρ c (Proc.devRef .tc main_v6) = (v6 m c) :=
  (W13_of_ne m ρ c main_v6 (by decide)).trans (v6_at12 m ρ c)

theorem v6_at14 : W14 m ρ c (Proc.devRef .tc main_v6) = (v6 m c) :=
  (W14_keep m ρ c main_v6 (by host_not_written)).trans (v6_at13 m ρ c)

theorem v6_at15 : W15 m ρ c (Proc.devRef .tc main_v6) = (v6 m c) :=
  (W15_of_ne m ρ c main_v6 (by decide)).trans (v6_at14 m ρ c)

theorem v28_at9 : W9 m ρ c (Proc.devRef .tc main_v28) = (v28 m c) :=
  (W9_keep m ρ c main_v28 (by host_not_written)).trans (v28_at8 m ρ c)

theorem v28_at10 : W10 m ρ c (Proc.devRef .tc main_v28) = (v28 m c) :=
  (W10_of_ne m ρ c main_v28 (by decide)).trans (v28_at9 m ρ c)

theorem v28_at11 : W11 m ρ c (Proc.devRef .tc main_v28) = (v28 m c) :=
  (W11_keep m ρ c main_v28 (by host_not_written)).trans (v28_at10 m ρ c)

theorem v28_at12 : W12 m ρ c (Proc.devRef .tc main_v28) = (v28 m c) :=
  (W12_of_ne m ρ c main_v28 (by decide)).trans (v28_at11 m ρ c)

theorem v28_at13 : W13 m ρ c (Proc.devRef .tc main_v28) = (v28 m c) :=
  (W13_of_ne m ρ c main_v28 (by decide)).trans (v28_at12 m ρ c)

theorem v28_at14 : W14 m ρ c (Proc.devRef .tc main_v28) = (v28 m c) :=
  (W14_keep m ρ c main_v28 (by host_not_written)).trans (v28_at13 m ρ c)

theorem v28_at15 : W15 m ρ c (Proc.devRef .tc main_v28) = (v28 m c) :=
  (W15_of_ne m ρ c main_v28 (by decide)).trans (v28_at14 m ρ c)

theorem v104_at16 : W16 m ρ c (Proc.devRef .tc main_v104)
    = (v104 m c) := by
  refine (KHost.host8_v104 (W15 m ρ c)).trans ?_
  unfold v104
  refine (congr (congr (congr (congrArg agg128 ?_) ?_) ?_) ?_)
  · exact v3_at15 m ρ c
  · exact v6_at15 m ρ c
  · exact v28_at15 m ρ c
  · exact v91_at15 m ρ c

/-- What @main's value %v105 holds, as a term over the argument arrays. -/
def v105 := Gcomb128 (v91 m c) (v104 m c)

theorem v91_at16 : W16 m ρ c (Proc.devRef .tc main_v91) = (v91 m c) :=
  (W16_keep m ρ c main_v91 (by host_not_written)).trans (v91_at15 m ρ c)

theorem v105_at17 : W17 m ρ c (Proc.devRef .tc main_v105)
    = (v105 m c) := by
  refine ((W17_arr m ρ c 2).trans (closed8 (V16 m ρ) c)).trans ?_
  unfold v105
  refine (congr (congrArg Gcomb128 ?_) ?_)
  · exact v91_at16 m ρ c
  · exact v104_at16 m ρ c

/-- What @main's value %v118 holds, as a term over the argument arrays. -/
def v118 := agg128 (v3 m c) (v6 m c) (v28 m c) (v105 m c)

theorem v3_at16 : W16 m ρ c (Proc.devRef .tc main_v3) = (v3 m c) :=
  (W16_keep m ρ c main_v3 (by host_not_written)).trans (v3_at15 m ρ c)

theorem v3_at17 : W17 m ρ c (Proc.devRef .tc main_v3) = (v3 m c) :=
  (W17_of_ne m ρ c main_v3 (by decide)).trans (v3_at16 m ρ c)

theorem v6_at16 : W16 m ρ c (Proc.devRef .tc main_v6) = (v6 m c) :=
  (W16_keep m ρ c main_v6 (by host_not_written)).trans (v6_at15 m ρ c)

theorem v6_at17 : W17 m ρ c (Proc.devRef .tc main_v6) = (v6 m c) :=
  (W17_of_ne m ρ c main_v6 (by decide)).trans (v6_at16 m ρ c)

theorem v28_at16 : W16 m ρ c (Proc.devRef .tc main_v28) = (v28 m c) :=
  (W16_keep m ρ c main_v28 (by host_not_written)).trans (v28_at15 m ρ c)

theorem v28_at17 : W17 m ρ c (Proc.devRef .tc main_v28) = (v28 m c) :=
  (W17_of_ne m ρ c main_v28 (by decide)).trans (v28_at16 m ρ c)

theorem v118_at18 : W18 m ρ c (Proc.devRef .tc main_v118)
    = (v118 m c) := by
  refine (KHost.host9_v118 (W17 m ρ c)).trans ?_
  unfold v118
  refine (congr (congr (congr (congrArg agg128 ?_) ?_) ?_) ?_)
  · exact v3_at17 m ρ c
  · exact v6_at17 m ρ c
  · exact v28_at17 m ρ c
  · exact v105_at17 m ρ c

/-- What @main's value %v119 holds, as a term over the argument arrays. -/
def v119 := Gcomb128 (v91 m c) (v118 m c)

theorem v91_at17 : W17 m ρ c (Proc.devRef .tc main_v91) = (v91 m c) :=
  ((W17_arr m ρ c 0).trans (((dat8 (V16 m ρ) c).arrAt_in 0 rfl _).trans (A_eq8 (V16 m ρ) c 0))).trans (v91_at16 m ρ c)

theorem v91_at18 : W18 m ρ c (Proc.devRef .tc main_v91) = (v91 m c) :=
  (W18_keep m ρ c main_v91 (by host_not_written)).trans (v91_at17 m ρ c)

theorem v119_at19 : W19 m ρ c (Proc.devRef .tc main_v119)
    = (v119 m c) := by
  refine ((W19_arr m ρ c 2).trans (closed9 (V18 m ρ) c)).trans ?_
  unfold v119
  refine (congr (congrArg Gcomb128 ?_) ?_)
  · exact v91_at18 m ρ c
  · exact v118_at18 m ρ c

/-- What @main's value %v132 holds, as a term over the argument arrays. -/
def v132 := agg128 (v3 m c) (v6 m c) (v28 m c) (v119 m c)

theorem v3_at18 : W18 m ρ c (Proc.devRef .tc main_v3) = (v3 m c) :=
  (W18_keep m ρ c main_v3 (by host_not_written)).trans (v3_at17 m ρ c)

theorem v3_at19 : W19 m ρ c (Proc.devRef .tc main_v3) = (v3 m c) :=
  (W19_of_ne m ρ c main_v3 (by decide)).trans (v3_at18 m ρ c)

theorem v6_at18 : W18 m ρ c (Proc.devRef .tc main_v6) = (v6 m c) :=
  (W18_keep m ρ c main_v6 (by host_not_written)).trans (v6_at17 m ρ c)

theorem v6_at19 : W19 m ρ c (Proc.devRef .tc main_v6) = (v6 m c) :=
  (W19_of_ne m ρ c main_v6 (by decide)).trans (v6_at18 m ρ c)

theorem v28_at18 : W18 m ρ c (Proc.devRef .tc main_v28) = (v28 m c) :=
  (W18_keep m ρ c main_v28 (by host_not_written)).trans (v28_at17 m ρ c)

theorem v28_at19 : W19 m ρ c (Proc.devRef .tc main_v28) = (v28 m c) :=
  (W19_of_ne m ρ c main_v28 (by decide)).trans (v28_at18 m ρ c)

theorem v132_at20 : W20 m ρ c (Proc.devRef .tc main_v132)
    = (v132 m c) := by
  refine (KHost.host10_v132 (W19 m ρ c)).trans ?_
  unfold v132
  refine (congr (congr (congr (congrArg agg128 ?_) ?_) ?_) ?_)
  · exact v3_at19 m ρ c
  · exact v6_at19 m ρ c
  · exact v28_at19 m ρ c
  · exact v119_at19 m ρ c

/-- What @main's value %v133 holds, as a term over the argument arrays. -/
def v133 := Gcomb128 (v91 m c) (v132 m c)

theorem v91_at19 : W19 m ρ c (Proc.devRef .tc main_v91) = (v91 m c) :=
  ((W19_arr m ρ c 0).trans (((dat9 (V18 m ρ) c).arrAt_in 0 rfl _).trans (A_eq9 (V18 m ρ) c 0))).trans (v91_at18 m ρ c)

theorem v91_at20 : W20 m ρ c (Proc.devRef .tc main_v91) = (v91 m c) :=
  (W20_keep m ρ c main_v91 (by host_not_written)).trans (v91_at19 m ρ c)

theorem v133_at21 : W21 m ρ c (Proc.devRef .tc main_v133)
    = (v133 m c) := by
  refine ((W21_arr m ρ c 2).trans (closed10 (V20 m ρ) c)).trans ?_
  unfold v133
  refine (congr (congrArg Gcomb128 ?_) ?_)
  · exact v91_at20 m ρ c
  · exact v132_at20 m ρ c

/-- What @main's value %v146 holds, as a term over the argument arrays. -/
def v146 := agg128 (v3 m c) (v6 m c) (v28 m c) (v133 m c)

theorem v3_at20 : W20 m ρ c (Proc.devRef .tc main_v3) = (v3 m c) :=
  (W20_keep m ρ c main_v3 (by host_not_written)).trans (v3_at19 m ρ c)

theorem v3_at21 : W21 m ρ c (Proc.devRef .tc main_v3) = (v3 m c) :=
  (W21_of_ne m ρ c main_v3 (by decide)).trans (v3_at20 m ρ c)

theorem v6_at20 : W20 m ρ c (Proc.devRef .tc main_v6) = (v6 m c) :=
  (W20_keep m ρ c main_v6 (by host_not_written)).trans (v6_at19 m ρ c)

theorem v6_at21 : W21 m ρ c (Proc.devRef .tc main_v6) = (v6 m c) :=
  (W21_of_ne m ρ c main_v6 (by decide)).trans (v6_at20 m ρ c)

theorem v28_at20 : W20 m ρ c (Proc.devRef .tc main_v28) = (v28 m c) :=
  (W20_keep m ρ c main_v28 (by host_not_written)).trans (v28_at19 m ρ c)

theorem v28_at21 : W21 m ρ c (Proc.devRef .tc main_v28) = (v28 m c) :=
  (W21_of_ne m ρ c main_v28 (by decide)).trans (v28_at20 m ρ c)

theorem v146_at22 : W22 m ρ c (Proc.devRef .tc main_v146)
    = (v146 m c) := by
  refine (KHost.host11_v146 (W21 m ρ c)).trans ?_
  unfold v146
  refine (congr (congr (congr (congrArg agg128 ?_) ?_) ?_) ?_)
  · exact v3_at21 m ρ c
  · exact v6_at21 m ρ c
  · exact v28_at21 m ρ c
  · exact v133_at21 m ρ c

/-- What @main's value %v147 holds, as a term over the argument arrays. -/
def v147 := Gcomb128 (v91 m c) (v146 m c)

theorem v91_at21 : W21 m ρ c (Proc.devRef .tc main_v91) = (v91 m c) :=
  ((W21_arr m ρ c 0).trans (((dat10 (V20 m ρ) c).arrAt_in 0 rfl _).trans (A_eq10 (V20 m ρ) c 0))).trans (v91_at20 m ρ c)

theorem v91_at22 : W22 m ρ c (Proc.devRef .tc main_v91) = (v91 m c) :=
  (W22_keep m ρ c main_v91 (by host_not_written)).trans (v91_at21 m ρ c)

theorem v147_at23 : W23 m ρ c (Proc.devRef .tc main_v147)
    = (v147 m c) := by
  refine ((W23_arr m ρ c 2).trans (closed11 (V22 m ρ) c)).trans ?_
  unfold v147
  refine (congr (congrArg Gcomb128 ?_) ?_)
  · exact v91_at22 m ρ c
  · exact v146_at22 m ρ c

/-- What @main's value %v148 holds, as a term over the argument arrays. -/
def v148 := row128 (F := Ideal) (m ((c : Thread nD τ).loc main_arg9))

theorem arg9_at0 : W0 m ρ c (Proc.devRef .tc main_arg9) = m ((c : Thread nD τ).loc main_arg9) := rfl

theorem arg9_at1 : W1 m ρ c (Proc.devRef .tc main_arg9) = m ((c : Thread nD τ).loc main_arg9) :=
  (W1_keep m ρ c main_arg9 (by host_not_written)).trans (arg9_at0 m ρ c)

theorem arg9_at2 : W2 m ρ c (Proc.devRef .tc main_arg9) = m ((c : Thread nD τ).loc main_arg9) :=
  (W2_of_ne m ρ c main_arg9 (by decide)).trans (arg9_at1 m ρ c)

theorem arg9_at3 : W3 m ρ c (Proc.devRef .tc main_arg9) = m ((c : Thread nD τ).loc main_arg9) :=
  (W3_keep m ρ c main_arg9 (by host_not_written)).trans (arg9_at2 m ρ c)

theorem arg9_at4 : W4 m ρ c (Proc.devRef .tc main_arg9) = m ((c : Thread nD τ).loc main_arg9) :=
  (W4_of_ne m ρ c main_arg9 (by decide)).trans (arg9_at3 m ρ c)

theorem arg9_at5 : W5 m ρ c (Proc.devRef .tc main_arg9) = m ((c : Thread nD τ).loc main_arg9) :=
  (W5_keep m ρ c main_arg9 (by host_not_written)).trans (arg9_at4 m ρ c)

theorem arg9_at6 : W6 m ρ c (Proc.devRef .tc main_arg9) = m ((c : Thread nD τ).loc main_arg9) :=
  (W6_of_ne m ρ c main_arg9 (by decide)).trans (arg9_at5 m ρ c)

theorem arg9_at7 : W7 m ρ c (Proc.devRef .tc main_arg9) = m ((c : Thread nD τ).loc main_arg9) :=
  (W7_keep m ρ c main_arg9 (by host_not_written)).trans (arg9_at6 m ρ c)

theorem arg9_at8 : W8 m ρ c (Proc.devRef .tc main_arg9) = m ((c : Thread nD τ).loc main_arg9) :=
  (W8_of_ne m ρ c main_arg9 (by decide)).trans (arg9_at7 m ρ c)

theorem arg9_at9 : W9 m ρ c (Proc.devRef .tc main_arg9) = m ((c : Thread nD τ).loc main_arg9) :=
  (W9_keep m ρ c main_arg9 (by host_not_written)).trans (arg9_at8 m ρ c)

theorem arg9_at10 : W10 m ρ c (Proc.devRef .tc main_arg9) = m ((c : Thread nD τ).loc main_arg9) :=
  (W10_of_ne m ρ c main_arg9 (by decide)).trans (arg9_at9 m ρ c)

theorem arg9_at11 : W11 m ρ c (Proc.devRef .tc main_arg9) = m ((c : Thread nD τ).loc main_arg9) :=
  (W11_keep m ρ c main_arg9 (by host_not_written)).trans (arg9_at10 m ρ c)

theorem arg9_at12 : W12 m ρ c (Proc.devRef .tc main_arg9) = m ((c : Thread nD τ).loc main_arg9) :=
  (W12_of_ne m ρ c main_arg9 (by decide)).trans (arg9_at11 m ρ c)

theorem arg9_at13 : W13 m ρ c (Proc.devRef .tc main_arg9) = m ((c : Thread nD τ).loc main_arg9) :=
  (W13_of_ne m ρ c main_arg9 (by decide)).trans (arg9_at12 m ρ c)

theorem arg9_at14 : W14 m ρ c (Proc.devRef .tc main_arg9) = m ((c : Thread nD τ).loc main_arg9) :=
  (W14_keep m ρ c main_arg9 (by host_not_written)).trans (arg9_at13 m ρ c)

theorem arg9_at15 : W15 m ρ c (Proc.devRef .tc main_arg9) = m ((c : Thread nD τ).loc main_arg9) :=
  (W15_of_ne m ρ c main_arg9 (by decide)).trans (arg9_at14 m ρ c)

theorem arg9_at16 : W16 m ρ c (Proc.devRef .tc main_arg9) = m ((c : Thread nD τ).loc main_arg9) :=
  (W16_keep m ρ c main_arg9 (by host_not_written)).trans (arg9_at15 m ρ c)

theorem arg9_at17 : W17 m ρ c (Proc.devRef .tc main_arg9) = m ((c : Thread nD τ).loc main_arg9) :=
  (W17_of_ne m ρ c main_arg9 (by decide)).trans (arg9_at16 m ρ c)

theorem arg9_at18 : W18 m ρ c (Proc.devRef .tc main_arg9) = m ((c : Thread nD τ).loc main_arg9) :=
  (W18_keep m ρ c main_arg9 (by host_not_written)).trans (arg9_at17 m ρ c)

theorem arg9_at19 : W19 m ρ c (Proc.devRef .tc main_arg9) = m ((c : Thread nD τ).loc main_arg9) :=
  (W19_of_ne m ρ c main_arg9 (by decide)).trans (arg9_at18 m ρ c)

theorem arg9_at20 : W20 m ρ c (Proc.devRef .tc main_arg9) = m ((c : Thread nD τ).loc main_arg9) :=
  (W20_keep m ρ c main_arg9 (by host_not_written)).trans (arg9_at19 m ρ c)

theorem arg9_at21 : W21 m ρ c (Proc.devRef .tc main_arg9) = m ((c : Thread nD τ).loc main_arg9) :=
  (W21_of_ne m ρ c main_arg9 (by decide)).trans (arg9_at20 m ρ c)

theorem arg9_at22 : W22 m ρ c (Proc.devRef .tc main_arg9) = m ((c : Thread nD τ).loc main_arg9) :=
  (W22_keep m ρ c main_arg9 (by host_not_written)).trans (arg9_at21 m ρ c)

theorem arg9_at23 : W23 m ρ c (Proc.devRef .tc main_arg9) = m ((c : Thread nD τ).loc main_arg9) :=
  (W23_of_ne m ρ c main_arg9 (by decide)).trans (arg9_at22 m ρ c)

theorem v148_at24 : W24 m ρ c (Proc.devRef .tc main_v148)
    = (v148 m c) := by
  refine (KHost.host12_v148 (W23 m ρ c)).trans ?_
  unfold v148
  refine (congrArg (row128 (F := Ideal)) ?_)
  · exact arg9_at23 m ρ c

/-- What @main's value %v149 holds, as a term over the argument arrays. -/
def v149 := Glin128x128 (v89 m c) (m ((c : Thread nD τ).loc main_arg8)) (v148 m c)

theorem v89_at15 : W15 m ρ c (Proc.devRef .tc main_v89) = (v89 m c) :=
  ((W15_arr m ρ c 0).trans (((dat7 (V14 m ρ) c).arrAt_in 0 rfl _).trans (A_eq7 (V14 m ρ) c 0))).trans (v89_at14 m ρ c)

theorem v89_at16 : W16 m ρ c (Proc.devRef .tc main_v89) = (v89 m c) :=
  (W16_keep m ρ c main_v89 (by host_not_written)).trans (v89_at15 m ρ c)

theorem v89_at17 : W17 m ρ c (Proc.devRef .tc main_v89) = (v89 m c) :=
  (W17_of_ne m ρ c main_v89 (by decide)).trans (v89_at16 m ρ c)

theorem v89_at18 : W18 m ρ c (Proc.devRef .tc main_v89) = (v89 m c) :=
  (W18_keep m ρ c main_v89 (by host_not_written)).trans (v89_at17 m ρ c)

theorem v89_at19 : W19 m ρ c (Proc.devRef .tc main_v89) = (v89 m c) :=
  (W19_of_ne m ρ c main_v89 (by decide)).trans (v89_at18 m ρ c)

theorem v89_at20 : W20 m ρ c (Proc.devRef .tc main_v89) = (v89 m c) :=
  (W20_keep m ρ c main_v89 (by host_not_written)).trans (v89_at19 m ρ c)

theorem v89_at21 : W21 m ρ c (Proc.devRef .tc main_v89) = (v89 m c) :=
  (W21_of_ne m ρ c main_v89 (by decide)).trans (v89_at20 m ρ c)

theorem v89_at22 : W22 m ρ c (Proc.devRef .tc main_v89) = (v89 m c) :=
  (W22_keep m ρ c main_v89 (by host_not_written)).trans (v89_at21 m ρ c)

theorem v89_at23 : W23 m ρ c (Proc.devRef .tc main_v89) = (v89 m c) :=
  (W23_of_ne m ρ c main_v89 (by decide)).trans (v89_at22 m ρ c)

theorem v89_at24 : W24 m ρ c (Proc.devRef .tc main_v89) = (v89 m c) :=
  (W24_keep m ρ c main_v89 (by host_not_written)).trans (v89_at23 m ρ c)

theorem arg8_at0 : W0 m ρ c (Proc.devRef .tc main_arg8) = m ((c : Thread nD τ).loc main_arg8) := rfl

theorem arg8_at1 : W1 m ρ c (Proc.devRef .tc main_arg8) = m ((c : Thread nD τ).loc main_arg8) :=
  (W1_keep m ρ c main_arg8 (by host_not_written)).trans (arg8_at0 m ρ c)

theorem arg8_at2 : W2 m ρ c (Proc.devRef .tc main_arg8) = m ((c : Thread nD τ).loc main_arg8) :=
  (W2_of_ne m ρ c main_arg8 (by decide)).trans (arg8_at1 m ρ c)

theorem arg8_at3 : W3 m ρ c (Proc.devRef .tc main_arg8) = m ((c : Thread nD τ).loc main_arg8) :=
  (W3_keep m ρ c main_arg8 (by host_not_written)).trans (arg8_at2 m ρ c)

theorem arg8_at4 : W4 m ρ c (Proc.devRef .tc main_arg8) = m ((c : Thread nD τ).loc main_arg8) :=
  (W4_of_ne m ρ c main_arg8 (by decide)).trans (arg8_at3 m ρ c)

theorem arg8_at5 : W5 m ρ c (Proc.devRef .tc main_arg8) = m ((c : Thread nD τ).loc main_arg8) :=
  (W5_keep m ρ c main_arg8 (by host_not_written)).trans (arg8_at4 m ρ c)

theorem arg8_at6 : W6 m ρ c (Proc.devRef .tc main_arg8) = m ((c : Thread nD τ).loc main_arg8) :=
  (W6_of_ne m ρ c main_arg8 (by decide)).trans (arg8_at5 m ρ c)

theorem arg8_at7 : W7 m ρ c (Proc.devRef .tc main_arg8) = m ((c : Thread nD τ).loc main_arg8) :=
  (W7_keep m ρ c main_arg8 (by host_not_written)).trans (arg8_at6 m ρ c)

theorem arg8_at8 : W8 m ρ c (Proc.devRef .tc main_arg8) = m ((c : Thread nD τ).loc main_arg8) :=
  (W8_of_ne m ρ c main_arg8 (by decide)).trans (arg8_at7 m ρ c)

theorem arg8_at9 : W9 m ρ c (Proc.devRef .tc main_arg8) = m ((c : Thread nD τ).loc main_arg8) :=
  (W9_keep m ρ c main_arg8 (by host_not_written)).trans (arg8_at8 m ρ c)

theorem arg8_at10 : W10 m ρ c (Proc.devRef .tc main_arg8) = m ((c : Thread nD τ).loc main_arg8) :=
  (W10_of_ne m ρ c main_arg8 (by decide)).trans (arg8_at9 m ρ c)

theorem arg8_at11 : W11 m ρ c (Proc.devRef .tc main_arg8) = m ((c : Thread nD τ).loc main_arg8) :=
  (W11_keep m ρ c main_arg8 (by host_not_written)).trans (arg8_at10 m ρ c)

theorem arg8_at12 : W12 m ρ c (Proc.devRef .tc main_arg8) = m ((c : Thread nD τ).loc main_arg8) :=
  (W12_of_ne m ρ c main_arg8 (by decide)).trans (arg8_at11 m ρ c)

theorem arg8_at13 : W13 m ρ c (Proc.devRef .tc main_arg8) = m ((c : Thread nD τ).loc main_arg8) :=
  (W13_of_ne m ρ c main_arg8 (by decide)).trans (arg8_at12 m ρ c)

theorem arg8_at14 : W14 m ρ c (Proc.devRef .tc main_arg8) = m ((c : Thread nD τ).loc main_arg8) :=
  (W14_keep m ρ c main_arg8 (by host_not_written)).trans (arg8_at13 m ρ c)

theorem arg8_at15 : W15 m ρ c (Proc.devRef .tc main_arg8) = m ((c : Thread nD τ).loc main_arg8) :=
  (W15_of_ne m ρ c main_arg8 (by decide)).trans (arg8_at14 m ρ c)

theorem arg8_at16 : W16 m ρ c (Proc.devRef .tc main_arg8) = m ((c : Thread nD τ).loc main_arg8) :=
  (W16_keep m ρ c main_arg8 (by host_not_written)).trans (arg8_at15 m ρ c)

theorem arg8_at17 : W17 m ρ c (Proc.devRef .tc main_arg8) = m ((c : Thread nD τ).loc main_arg8) :=
  (W17_of_ne m ρ c main_arg8 (by decide)).trans (arg8_at16 m ρ c)

theorem arg8_at18 : W18 m ρ c (Proc.devRef .tc main_arg8) = m ((c : Thread nD τ).loc main_arg8) :=
  (W18_keep m ρ c main_arg8 (by host_not_written)).trans (arg8_at17 m ρ c)

theorem arg8_at19 : W19 m ρ c (Proc.devRef .tc main_arg8) = m ((c : Thread nD τ).loc main_arg8) :=
  (W19_of_ne m ρ c main_arg8 (by decide)).trans (arg8_at18 m ρ c)

theorem arg8_at20 : W20 m ρ c (Proc.devRef .tc main_arg8) = m ((c : Thread nD τ).loc main_arg8) :=
  (W20_keep m ρ c main_arg8 (by host_not_written)).trans (arg8_at19 m ρ c)

theorem arg8_at21 : W21 m ρ c (Proc.devRef .tc main_arg8) = m ((c : Thread nD τ).loc main_arg8) :=
  (W21_of_ne m ρ c main_arg8 (by decide)).trans (arg8_at20 m ρ c)

theorem arg8_at22 : W22 m ρ c (Proc.devRef .tc main_arg8) = m ((c : Thread nD τ).loc main_arg8) :=
  (W22_keep m ρ c main_arg8 (by host_not_written)).trans (arg8_at21 m ρ c)

theorem arg8_at23 : W23 m ρ c (Proc.devRef .tc main_arg8) = m ((c : Thread nD τ).loc main_arg8) :=
  (W23_of_ne m ρ c main_arg8 (by decide)).trans (arg8_at22 m ρ c)

theorem arg8_at24 : W24 m ρ c (Proc.devRef .tc main_arg8) = m ((c : Thread nD τ).loc main_arg8) :=
  (W24_keep m ρ c main_arg8 (by host_not_written)).trans (arg8_at23 m ρ c)

theorem v149_at25 : W25 m ρ c (Proc.devRef .tc main_v149)
    = (v149 m c) := by
  refine ((W25_arr m ρ c 3).trans (closed12 (V24 m ρ) c)).trans ?_
  unfold v149
  refine (congr (congr (congrArg Glin128x128 ?_) ?_) ?_)
  · exact v89_at24 m ρ c
  · exact arg8_at24 m ρ c
  · exact v148_at24 m ρ c

/-- What @main's value %v150 holds, as a term over the argument arrays. -/
def v150 := Gelu128 (v147 m c) (v149 m c)

theorem v147_at24 : W24 m ρ c (Proc.devRef .tc main_v147) = (v147 m c) :=
  (W24_keep m ρ c main_v147 (by host_not_written)).trans (v147_at23 m ρ c)

theorem v147_at25 : W25 m ρ c (Proc.devRef .tc main_v147) = (v147 m c) :=
  (W25_of_ne m ρ c main_v147 (by decide)).trans (v147_at24 m ρ c)

theorem v150_at26 : W26 m ρ c (Proc.devRef .tc main_v150)
    = (v150 m c) := by
  refine ((W26_arr m ρ c 2).trans (closed13 (V25 m ρ) c)).trans ?_
  unfold v150
  refine (congr (congrArg Gelu128 ?_) ?_)
  · exact v147_at25 m ρ c
  · exact v149_at25 m ρ c

/-- What @main's value %v151 holds, as a term over the argument arrays. -/
def v151 := row64 (F := Ideal) (m ((c : Thread nD τ).loc main_arg11))

theorem arg11_at0 : W0 m ρ c (Proc.devRef .tc main_arg11) = m ((c : Thread nD τ).loc main_arg11) := rfl

theorem arg11_at1 : W1 m ρ c (Proc.devRef .tc main_arg11) = m ((c : Thread nD τ).loc main_arg11) :=
  (W1_keep m ρ c main_arg11 (by host_not_written)).trans (arg11_at0 m ρ c)

theorem arg11_at2 : W2 m ρ c (Proc.devRef .tc main_arg11) = m ((c : Thread nD τ).loc main_arg11) :=
  (W2_of_ne m ρ c main_arg11 (by decide)).trans (arg11_at1 m ρ c)

theorem arg11_at3 : W3 m ρ c (Proc.devRef .tc main_arg11) = m ((c : Thread nD τ).loc main_arg11) :=
  (W3_keep m ρ c main_arg11 (by host_not_written)).trans (arg11_at2 m ρ c)

theorem arg11_at4 : W4 m ρ c (Proc.devRef .tc main_arg11) = m ((c : Thread nD τ).loc main_arg11) :=
  (W4_of_ne m ρ c main_arg11 (by decide)).trans (arg11_at3 m ρ c)

theorem arg11_at5 : W5 m ρ c (Proc.devRef .tc main_arg11) = m ((c : Thread nD τ).loc main_arg11) :=
  (W5_keep m ρ c main_arg11 (by host_not_written)).trans (arg11_at4 m ρ c)

theorem arg11_at6 : W6 m ρ c (Proc.devRef .tc main_arg11) = m ((c : Thread nD τ).loc main_arg11) :=
  (W6_of_ne m ρ c main_arg11 (by decide)).trans (arg11_at5 m ρ c)

theorem arg11_at7 : W7 m ρ c (Proc.devRef .tc main_arg11) = m ((c : Thread nD τ).loc main_arg11) :=
  (W7_keep m ρ c main_arg11 (by host_not_written)).trans (arg11_at6 m ρ c)

theorem arg11_at8 : W8 m ρ c (Proc.devRef .tc main_arg11) = m ((c : Thread nD τ).loc main_arg11) :=
  (W8_of_ne m ρ c main_arg11 (by decide)).trans (arg11_at7 m ρ c)

theorem arg11_at9 : W9 m ρ c (Proc.devRef .tc main_arg11) = m ((c : Thread nD τ).loc main_arg11) :=
  (W9_keep m ρ c main_arg11 (by host_not_written)).trans (arg11_at8 m ρ c)

theorem arg11_at10 : W10 m ρ c (Proc.devRef .tc main_arg11) = m ((c : Thread nD τ).loc main_arg11) :=
  (W10_of_ne m ρ c main_arg11 (by decide)).trans (arg11_at9 m ρ c)

theorem arg11_at11 : W11 m ρ c (Proc.devRef .tc main_arg11) = m ((c : Thread nD τ).loc main_arg11) :=
  (W11_keep m ρ c main_arg11 (by host_not_written)).trans (arg11_at10 m ρ c)

theorem arg11_at12 : W12 m ρ c (Proc.devRef .tc main_arg11) = m ((c : Thread nD τ).loc main_arg11) :=
  (W12_of_ne m ρ c main_arg11 (by decide)).trans (arg11_at11 m ρ c)

theorem arg11_at13 : W13 m ρ c (Proc.devRef .tc main_arg11) = m ((c : Thread nD τ).loc main_arg11) :=
  (W13_of_ne m ρ c main_arg11 (by decide)).trans (arg11_at12 m ρ c)

theorem arg11_at14 : W14 m ρ c (Proc.devRef .tc main_arg11) = m ((c : Thread nD τ).loc main_arg11) :=
  (W14_keep m ρ c main_arg11 (by host_not_written)).trans (arg11_at13 m ρ c)

theorem arg11_at15 : W15 m ρ c (Proc.devRef .tc main_arg11) = m ((c : Thread nD τ).loc main_arg11) :=
  (W15_of_ne m ρ c main_arg11 (by decide)).trans (arg11_at14 m ρ c)

theorem arg11_at16 : W16 m ρ c (Proc.devRef .tc main_arg11) = m ((c : Thread nD τ).loc main_arg11) :=
  (W16_keep m ρ c main_arg11 (by host_not_written)).trans (arg11_at15 m ρ c)

theorem arg11_at17 : W17 m ρ c (Proc.devRef .tc main_arg11) = m ((c : Thread nD τ).loc main_arg11) :=
  (W17_of_ne m ρ c main_arg11 (by decide)).trans (arg11_at16 m ρ c)

theorem arg11_at18 : W18 m ρ c (Proc.devRef .tc main_arg11) = m ((c : Thread nD τ).loc main_arg11) :=
  (W18_keep m ρ c main_arg11 (by host_not_written)).trans (arg11_at17 m ρ c)

theorem arg11_at19 : W19 m ρ c (Proc.devRef .tc main_arg11) = m ((c : Thread nD τ).loc main_arg11) :=
  (W19_of_ne m ρ c main_arg11 (by decide)).trans (arg11_at18 m ρ c)

theorem arg11_at20 : W20 m ρ c (Proc.devRef .tc main_arg11) = m ((c : Thread nD τ).loc main_arg11) :=
  (W20_keep m ρ c main_arg11 (by host_not_written)).trans (arg11_at19 m ρ c)

theorem arg11_at21 : W21 m ρ c (Proc.devRef .tc main_arg11) = m ((c : Thread nD τ).loc main_arg11) :=
  (W21_of_ne m ρ c main_arg11 (by decide)).trans (arg11_at20 m ρ c)

theorem arg11_at22 : W22 m ρ c (Proc.devRef .tc main_arg11) = m ((c : Thread nD τ).loc main_arg11) :=
  (W22_keep m ρ c main_arg11 (by host_not_written)).trans (arg11_at21 m ρ c)

theorem arg11_at23 : W23 m ρ c (Proc.devRef .tc main_arg11) = m ((c : Thread nD τ).loc main_arg11) :=
  (W23_of_ne m ρ c main_arg11 (by decide)).trans (arg11_at22 m ρ c)

theorem arg11_at24 : W24 m ρ c (Proc.devRef .tc main_arg11) = m ((c : Thread nD τ).loc main_arg11) :=
  (W24_keep m ρ c main_arg11 (by host_not_written)).trans (arg11_at23 m ρ c)

theorem arg11_at25 : W25 m ρ c (Proc.devRef .tc main_arg11) = m ((c : Thread nD τ).loc main_arg11) :=
  (W25_of_ne m ρ c main_arg11 (by decide)).trans (arg11_at24 m ρ c)

theorem arg11_at26 : W26 m ρ c (Proc.devRef .tc main_arg11) = m ((c : Thread nD τ).loc main_arg11) :=
  (W26_of_ne m ρ c main_arg11 (by decide)).trans (arg11_at25 m ρ c)

theorem v151_at27 : W27 m ρ c (Proc.devRef .tc main_v151)
    = (v151 m c) := by
  refine (KHost.host14_v151 (W26 m ρ c)).trans ?_
  unfold v151
  refine (congrArg (row64 (F := Ideal)) ?_)
  · exact arg11_at26 m ρ c

/-- What @main's value %v152 holds, as a term over the argument arrays. -/
def v152 := Glin128x64 (v150 m c) (m ((c : Thread nD τ).loc main_arg10)) (v151 m c)

theorem v150_at27 : W27 m ρ c (Proc.devRef .tc main_v150) = (v150 m c) :=
  (W27_keep m ρ c main_v150 (by host_not_written)).trans (v150_at26 m ρ c)

theorem arg10_at0 : W0 m ρ c (Proc.devRef .tc main_arg10) = m ((c : Thread nD τ).loc main_arg10) := rfl

theorem arg10_at1 : W1 m ρ c (Proc.devRef .tc main_arg10) = m ((c : Thread nD τ).loc main_arg10) :=
  (W1_keep m ρ c main_arg10 (by host_not_written)).trans (arg10_at0 m ρ c)

theorem arg10_at2 : W2 m ρ c (Proc.devRef .tc main_arg10) = m ((c : Thread nD τ).loc main_arg10) :=
  (W2_of_ne m ρ c main_arg10 (by decide)).trans (arg10_at1 m ρ c)

theorem arg10_at3 : W3 m ρ c (Proc.devRef .tc main_arg10) = m ((c : Thread nD τ).loc main_arg10) :=
  (W3_keep m ρ c main_arg10 (by host_not_written)).trans (arg10_at2 m ρ c)

theorem arg10_at4 : W4 m ρ c (Proc.devRef .tc main_arg10) = m ((c : Thread nD τ).loc main_arg10) :=
  (W4_of_ne m ρ c main_arg10 (by decide)).trans (arg10_at3 m ρ c)

theorem arg10_at5 : W5 m ρ c (Proc.devRef .tc main_arg10) = m ((c : Thread nD τ).loc main_arg10) :=
  (W5_keep m ρ c main_arg10 (by host_not_written)).trans (arg10_at4 m ρ c)

theorem arg10_at6 : W6 m ρ c (Proc.devRef .tc main_arg10) = m ((c : Thread nD τ).loc main_arg10) :=
  (W6_of_ne m ρ c main_arg10 (by decide)).trans (arg10_at5 m ρ c)

theorem arg10_at7 : W7 m ρ c (Proc.devRef .tc main_arg10) = m ((c : Thread nD τ).loc main_arg10) :=
  (W7_keep m ρ c main_arg10 (by host_not_written)).trans (arg10_at6 m ρ c)

theorem arg10_at8 : W8 m ρ c (Proc.devRef .tc main_arg10) = m ((c : Thread nD τ).loc main_arg10) :=
  (W8_of_ne m ρ c main_arg10 (by decide)).trans (arg10_at7 m ρ c)

theorem arg10_at9 : W9 m ρ c (Proc.devRef .tc main_arg10) = m ((c : Thread nD τ).loc main_arg10) :=
  (W9_keep m ρ c main_arg10 (by host_not_written)).trans (arg10_at8 m ρ c)

theorem arg10_at10 : W10 m ρ c (Proc.devRef .tc main_arg10) = m ((c : Thread nD τ).loc main_arg10) :=
  (W10_of_ne m ρ c main_arg10 (by decide)).trans (arg10_at9 m ρ c)

theorem arg10_at11 : W11 m ρ c (Proc.devRef .tc main_arg10) = m ((c : Thread nD τ).loc main_arg10) :=
  (W11_keep m ρ c main_arg10 (by host_not_written)).trans (arg10_at10 m ρ c)

theorem arg10_at12 : W12 m ρ c (Proc.devRef .tc main_arg10) = m ((c : Thread nD τ).loc main_arg10) :=
  (W12_of_ne m ρ c main_arg10 (by decide)).trans (arg10_at11 m ρ c)

theorem arg10_at13 : W13 m ρ c (Proc.devRef .tc main_arg10) = m ((c : Thread nD τ).loc main_arg10) :=
  (W13_of_ne m ρ c main_arg10 (by decide)).trans (arg10_at12 m ρ c)

theorem arg10_at14 : W14 m ρ c (Proc.devRef .tc main_arg10) = m ((c : Thread nD τ).loc main_arg10) :=
  (W14_keep m ρ c main_arg10 (by host_not_written)).trans (arg10_at13 m ρ c)

theorem arg10_at15 : W15 m ρ c (Proc.devRef .tc main_arg10) = m ((c : Thread nD τ).loc main_arg10) :=
  (W15_of_ne m ρ c main_arg10 (by decide)).trans (arg10_at14 m ρ c)

theorem arg10_at16 : W16 m ρ c (Proc.devRef .tc main_arg10) = m ((c : Thread nD τ).loc main_arg10) :=
  (W16_keep m ρ c main_arg10 (by host_not_written)).trans (arg10_at15 m ρ c)

theorem arg10_at17 : W17 m ρ c (Proc.devRef .tc main_arg10) = m ((c : Thread nD τ).loc main_arg10) :=
  (W17_of_ne m ρ c main_arg10 (by decide)).trans (arg10_at16 m ρ c)

theorem arg10_at18 : W18 m ρ c (Proc.devRef .tc main_arg10) = m ((c : Thread nD τ).loc main_arg10) :=
  (W18_keep m ρ c main_arg10 (by host_not_written)).trans (arg10_at17 m ρ c)

theorem arg10_at19 : W19 m ρ c (Proc.devRef .tc main_arg10) = m ((c : Thread nD τ).loc main_arg10) :=
  (W19_of_ne m ρ c main_arg10 (by decide)).trans (arg10_at18 m ρ c)

theorem arg10_at20 : W20 m ρ c (Proc.devRef .tc main_arg10) = m ((c : Thread nD τ).loc main_arg10) :=
  (W20_keep m ρ c main_arg10 (by host_not_written)).trans (arg10_at19 m ρ c)

theorem arg10_at21 : W21 m ρ c (Proc.devRef .tc main_arg10) = m ((c : Thread nD τ).loc main_arg10) :=
  (W21_of_ne m ρ c main_arg10 (by decide)).trans (arg10_at20 m ρ c)

theorem arg10_at22 : W22 m ρ c (Proc.devRef .tc main_arg10) = m ((c : Thread nD τ).loc main_arg10) :=
  (W22_keep m ρ c main_arg10 (by host_not_written)).trans (arg10_at21 m ρ c)

theorem arg10_at23 : W23 m ρ c (Proc.devRef .tc main_arg10) = m ((c : Thread nD τ).loc main_arg10) :=
  (W23_of_ne m ρ c main_arg10 (by decide)).trans (arg10_at22 m ρ c)

theorem arg10_at24 : W24 m ρ c (Proc.devRef .tc main_arg10) = m ((c : Thread nD τ).loc main_arg10) :=
  (W24_keep m ρ c main_arg10 (by host_not_written)).trans (arg10_at23 m ρ c)

theorem arg10_at25 : W25 m ρ c (Proc.devRef .tc main_arg10) = m ((c : Thread nD τ).loc main_arg10) :=
  (W25_of_ne m ρ c main_arg10 (by decide)).trans (arg10_at24 m ρ c)

theorem arg10_at26 : W26 m ρ c (Proc.devRef .tc main_arg10) = m ((c : Thread nD τ).loc main_arg10) :=
  (W26_of_ne m ρ c main_arg10 (by decide)).trans (arg10_at25 m ρ c)

theorem arg10_at27 : W27 m ρ c (Proc.devRef .tc main_arg10) = m ((c : Thread nD τ).loc main_arg10) :=
  (W27_keep m ρ c main_arg10 (by host_not_written)).trans (arg10_at26 m ρ c)

theorem v152_at28 : W28 m ρ c (Proc.devRef .tc main_v152)
    = (v152 m c) := by
  refine ((W28_arr m ρ c 3).trans (closed14 (V27 m ρ) c)).trans ?_
  unfold v152
  refine (congr (congr (congrArg Glin128x64 ?_) ?_) ?_)
  · exact v150_at27 m ρ c
  · exact arg10_at27 m ρ c
  · exact v151_at27 m ρ c

/-- What @main's value %v165 holds, as a term over the argument arrays. -/
def v165 := agg64 (v3 m c) (v6 m c) (v28 m c) (v152 m c)

theorem v3_at22 : W22 m ρ c (Proc.devRef .tc main_v3) = (v3 m c) :=
  (W22_keep m ρ c main_v3 (by host_not_written)).trans (v3_at21 m ρ c)

theorem v3_at23 : W23 m ρ c (Proc.devRef .tc main_v3) = (v3 m c) :=
  (W23_of_ne m ρ c main_v3 (by decide)).trans (v3_at22 m ρ c)

theorem v3_at24 : W24 m ρ c (Proc.devRef .tc main_v3) = (v3 m c) :=
  (W24_keep m ρ c main_v3 (by host_not_written)).trans (v3_at23 m ρ c)

theorem v3_at25 : W25 m ρ c (Proc.devRef .tc main_v3) = (v3 m c) :=
  (W25_of_ne m ρ c main_v3 (by decide)).trans (v3_at24 m ρ c)

theorem v3_at26 : W26 m ρ c (Proc.devRef .tc main_v3) = (v3 m c) :=
  (W26_of_ne m ρ c main_v3 (by decide)).trans (v3_at25 m ρ c)

theorem v3_at27 : W27 m ρ c (Proc.devRef .tc main_v3) = (v3 m c) :=
  (W27_keep m ρ c main_v3 (by host_not_written)).trans (v3_at26 m ρ c)

theorem v3_at28 : W28 m ρ c (Proc.devRef .tc main_v3) = (v3 m c) :=
  (W28_of_ne m ρ c main_v3 (by decide)).trans (v3_at27 m ρ c)

theorem v6_at22 : W22 m ρ c (Proc.devRef .tc main_v6) = (v6 m c) :=
  (W22_keep m ρ c main_v6 (by host_not_written)).trans (v6_at21 m ρ c)

theorem v6_at23 : W23 m ρ c (Proc.devRef .tc main_v6) = (v6 m c) :=
  (W23_of_ne m ρ c main_v6 (by decide)).trans (v6_at22 m ρ c)

theorem v6_at24 : W24 m ρ c (Proc.devRef .tc main_v6) = (v6 m c) :=
  (W24_keep m ρ c main_v6 (by host_not_written)).trans (v6_at23 m ρ c)

theorem v6_at25 : W25 m ρ c (Proc.devRef .tc main_v6) = (v6 m c) :=
  (W25_of_ne m ρ c main_v6 (by decide)).trans (v6_at24 m ρ c)

theorem v6_at26 : W26 m ρ c (Proc.devRef .tc main_v6) = (v6 m c) :=
  (W26_of_ne m ρ c main_v6 (by decide)).trans (v6_at25 m ρ c)

theorem v6_at27 : W27 m ρ c (Proc.devRef .tc main_v6) = (v6 m c) :=
  (W27_keep m ρ c main_v6 (by host_not_written)).trans (v6_at26 m ρ c)

theorem v6_at28 : W28 m ρ c (Proc.devRef .tc main_v6) = (v6 m c) :=
  (W28_of_ne m ρ c main_v6 (by decide)).trans (v6_at27 m ρ c)

theorem v28_at22 : W22 m ρ c (Proc.devRef .tc main_v28) = (v28 m c) :=
  (W22_keep m ρ c main_v28 (by host_not_written)).trans (v28_at21 m ρ c)

theorem v28_at23 : W23 m ρ c (Proc.devRef .tc main_v28) = (v28 m c) :=
  (W23_of_ne m ρ c main_v28 (by decide)).trans (v28_at22 m ρ c)

theorem v28_at24 : W24 m ρ c (Proc.devRef .tc main_v28) = (v28 m c) :=
  (W24_keep m ρ c main_v28 (by host_not_written)).trans (v28_at23 m ρ c)

theorem v28_at25 : W25 m ρ c (Proc.devRef .tc main_v28) = (v28 m c) :=
  (W25_of_ne m ρ c main_v28 (by decide)).trans (v28_at24 m ρ c)

theorem v28_at26 : W26 m ρ c (Proc.devRef .tc main_v28) = (v28 m c) :=
  (W26_of_ne m ρ c main_v28 (by decide)).trans (v28_at25 m ρ c)

theorem v28_at27 : W27 m ρ c (Proc.devRef .tc main_v28) = (v28 m c) :=
  (W27_keep m ρ c main_v28 (by host_not_written)).trans (v28_at26 m ρ c)

theorem v28_at28 : W28 m ρ c (Proc.devRef .tc main_v28) = (v28 m c) :=
  (W28_of_ne m ρ c main_v28 (by decide)).trans (v28_at27 m ρ c)

theorem v165_at29 : W29 m ρ c (Proc.devRef .tc main_v165)
    = (v165 m c) := by
  refine (KHost.host15_v165 (W28 m ρ c)).trans ?_
  unfold v165
  refine (congr (congr (congr (congrArg agg64 ?_) ?_) ?_) ?_)
  · exact v3_at28 m ρ c
  · exact v6_at28 m ρ c
  · exact v28_at28 m ρ c
  · exact v152_at28 m ρ c

/-- What @main's value %v166 holds, as a term over the argument arrays. -/
def v166 := Gcomb64 (v152 m c) (v165 m c)

theorem v152_at29 : W29 m ρ c (Proc.devRef .tc main_v152) = (v152 m c) :=
  (W29_keep m ρ c main_v152 (by host_not_written)).trans (v152_at28 m ρ c)

theorem v166_at30 : W30 m ρ c (Proc.devRef .tc main_v166)
    = (v166 m c) := by
  refine ((W30_arr m ρ c 2).trans (closed15 (V29 m ρ) c)).trans ?_
  unfold v166
  refine (congr (congrArg Gcomb64 ?_) ?_)
  · exact v152_at29 m ρ c
  · exact v165_at29 m ρ c

/-- What @main's value %v179 holds, as a term over the argument arrays. -/
def v179 := agg64 (v3 m c) (v6 m c) (v28 m c) (v166 m c)

theorem v3_at29 : W29 m ρ c (Proc.devRef .tc main_v3) = (v3 m c) :=
  (W29_keep m ρ c main_v3 (by host_not_written)).trans (v3_at28 m ρ c)

theorem v3_at30 : W30 m ρ c (Proc.devRef .tc main_v3) = (v3 m c) :=
  (W30_of_ne m ρ c main_v3 (by decide)).trans (v3_at29 m ρ c)

theorem v6_at29 : W29 m ρ c (Proc.devRef .tc main_v6) = (v6 m c) :=
  (W29_keep m ρ c main_v6 (by host_not_written)).trans (v6_at28 m ρ c)

theorem v6_at30 : W30 m ρ c (Proc.devRef .tc main_v6) = (v6 m c) :=
  (W30_of_ne m ρ c main_v6 (by decide)).trans (v6_at29 m ρ c)

theorem v28_at29 : W29 m ρ c (Proc.devRef .tc main_v28) = (v28 m c) :=
  (W29_keep m ρ c main_v28 (by host_not_written)).trans (v28_at28 m ρ c)

theorem v28_at30 : W30 m ρ c (Proc.devRef .tc main_v28) = (v28 m c) :=
  (W30_of_ne m ρ c main_v28 (by decide)).trans (v28_at29 m ρ c)

theorem v179_at31 : W31 m ρ c (Proc.devRef .tc main_v179)
    = (v179 m c) := by
  refine (KHost.host16_v179 (W30 m ρ c)).trans ?_
  unfold v179
  refine (congr (congr (congr (congrArg agg64 ?_) ?_) ?_) ?_)
  · exact v3_at30 m ρ c
  · exact v6_at30 m ρ c
  · exact v28_at30 m ρ c
  · exact v166_at30 m ρ c

/-- What @main's value %v180 holds, as a term over the argument arrays. -/
def v180 := Gcomb64 (v152 m c) (v179 m c)

theorem v152_at30 : W30 m ρ c (Proc.devRef .tc main_v152) = (v152 m c) :=
  ((W30_arr m ρ c 0).trans (((dat15 (V29 m ρ) c).arrAt_in 0 rfl _).trans (A_eq15 (V29 m ρ) c 0))).trans (v152_at29 m ρ c)

theorem v152_at31 : W31 m ρ c (Proc.devRef .tc main_v152) = (v152 m c) :=
  (W31_keep m ρ c main_v152 (by host_not_written)).trans (v152_at30 m ρ c)

theorem v180_at32 : W32 m ρ c (Proc.devRef .tc main_v180)
    = (v180 m c) := by
  refine ((W32_arr m ρ c 2).trans (closed16 (V31 m ρ) c)).trans ?_
  unfold v180
  refine (congr (congrArg Gcomb64 ?_) ?_)
  · exact v152_at31 m ρ c
  · exact v179_at31 m ρ c

/-- What @main's value %v193 holds, as a term over the argument arrays. -/
def v193 := agg64 (v3 m c) (v6 m c) (v28 m c) (v180 m c)

theorem v3_at31 : W31 m ρ c (Proc.devRef .tc main_v3) = (v3 m c) :=
  (W31_keep m ρ c main_v3 (by host_not_written)).trans (v3_at30 m ρ c)

theorem v3_at32 : W32 m ρ c (Proc.devRef .tc main_v3) = (v3 m c) :=
  (W32_of_ne m ρ c main_v3 (by decide)).trans (v3_at31 m ρ c)

theorem v6_at31 : W31 m ρ c (Proc.devRef .tc main_v6) = (v6 m c) :=
  (W31_keep m ρ c main_v6 (by host_not_written)).trans (v6_at30 m ρ c)

theorem v6_at32 : W32 m ρ c (Proc.devRef .tc main_v6) = (v6 m c) :=
  (W32_of_ne m ρ c main_v6 (by decide)).trans (v6_at31 m ρ c)

theorem v28_at31 : W31 m ρ c (Proc.devRef .tc main_v28) = (v28 m c) :=
  (W31_keep m ρ c main_v28 (by host_not_written)).trans (v28_at30 m ρ c)

theorem v28_at32 : W32 m ρ c (Proc.devRef .tc main_v28) = (v28 m c) :=
  (W32_of_ne m ρ c main_v28 (by decide)).trans (v28_at31 m ρ c)

theorem v193_at33 : W33 m ρ c (Proc.devRef .tc main_v193)
    = (v193 m c) := by
  refine (KHost.host17_v193 (W32 m ρ c)).trans ?_
  unfold v193
  refine (congr (congr (congr (congrArg agg64 ?_) ?_) ?_) ?_)
  · exact v3_at32 m ρ c
  · exact v6_at32 m ρ c
  · exact v28_at32 m ρ c
  · exact v180_at32 m ρ c

/-- What @main's value %v194 holds, as a term over the argument arrays. -/
def v194 := Gcomb64 (v152 m c) (v193 m c)

theorem v152_at32 : W32 m ρ c (Proc.devRef .tc main_v152) = (v152 m c) :=
  ((W32_arr m ρ c 0).trans (((dat16 (V31 m ρ) c).arrAt_in 0 rfl _).trans (A_eq16 (V31 m ρ) c 0))).trans (v152_at31 m ρ c)

theorem v152_at33 : W33 m ρ c (Proc.devRef .tc main_v152) = (v152 m c) :=
  (W33_keep m ρ c main_v152 (by host_not_written)).trans (v152_at32 m ρ c)

theorem v194_at34 : W34 m ρ c (Proc.devRef .tc main_v194)
    = (v194 m c) := by
  refine ((W34_arr m ρ c 2).trans (closed17 (V33 m ρ) c)).trans ?_
  unfold v194
  refine (congr (congrArg Gcomb64 ?_) ?_)
  · exact v152_at33 m ρ c
  · exact v193_at33 m ρ c

/-- What @main's value %v207 holds, as a term over the argument arrays. -/
def v207 := agg64 (v3 m c) (v6 m c) (v28 m c) (v194 m c)

theorem v3_at33 : W33 m ρ c (Proc.devRef .tc main_v3) = (v3 m c) :=
  (W33_keep m ρ c main_v3 (by host_not_written)).trans (v3_at32 m ρ c)

theorem v3_at34 : W34 m ρ c (Proc.devRef .tc main_v3) = (v3 m c) :=
  (W34_of_ne m ρ c main_v3 (by decide)).trans (v3_at33 m ρ c)

theorem v6_at33 : W33 m ρ c (Proc.devRef .tc main_v6) = (v6 m c) :=
  (W33_keep m ρ c main_v6 (by host_not_written)).trans (v6_at32 m ρ c)

theorem v6_at34 : W34 m ρ c (Proc.devRef .tc main_v6) = (v6 m c) :=
  (W34_of_ne m ρ c main_v6 (by decide)).trans (v6_at33 m ρ c)

theorem v28_at33 : W33 m ρ c (Proc.devRef .tc main_v28) = (v28 m c) :=
  (W33_keep m ρ c main_v28 (by host_not_written)).trans (v28_at32 m ρ c)

theorem v28_at34 : W34 m ρ c (Proc.devRef .tc main_v28) = (v28 m c) :=
  (W34_of_ne m ρ c main_v28 (by decide)).trans (v28_at33 m ρ c)

theorem v207_at35 : W35 m ρ c (Proc.devRef .tc main_v207)
    = (v207 m c) := by
  refine (KHost.host18_v207 (W34 m ρ c)).trans ?_
  unfold v207
  refine (congr (congr (congr (congrArg agg64 ?_) ?_) ?_) ?_)
  · exact v3_at34 m ρ c
  · exact v6_at34 m ρ c
  · exact v28_at34 m ρ c
  · exact v194_at34 m ρ c

/-- What @main's value %v208 holds, as a term over the argument arrays. -/
def v208 := Gcomb64 (v152 m c) (v207 m c)

theorem v152_at34 : W34 m ρ c (Proc.devRef .tc main_v152) = (v152 m c) :=
  ((W34_arr m ρ c 0).trans (((dat17 (V33 m ρ) c).arrAt_in 0 rfl _).trans (A_eq17 (V33 m ρ) c 0))).trans (v152_at33 m ρ c)

theorem v152_at35 : W35 m ρ c (Proc.devRef .tc main_v152) = (v152 m c) :=
  (W35_keep m ρ c main_v152 (by host_not_written)).trans (v152_at34 m ρ c)

theorem v208_at36 : W36 m ρ c (Proc.devRef .tc main_v208)
    = (v208 m c) := by
  refine ((W36_arr m ρ c 2).trans (closed18 (V35 m ρ) c)).trans ?_
  unfold v208
  refine (congr (congrArg Gcomb64 ?_) ?_)
  · exact v152_at35 m ρ c
  · exact v207_at35 m ρ c

/-- What @main's value %v209 holds, as a term over the argument arrays. -/
def v209 := row64 (F := Ideal) (m ((c : Thread nD τ).loc main_arg13))

theorem arg13_at0 : W0 m ρ c (Proc.devRef .tc main_arg13) = m ((c : Thread nD τ).loc main_arg13) := rfl

theorem arg13_at1 : W1 m ρ c (Proc.devRef .tc main_arg13) = m ((c : Thread nD τ).loc main_arg13) :=
  (W1_keep m ρ c main_arg13 (by host_not_written)).trans (arg13_at0 m ρ c)

theorem arg13_at2 : W2 m ρ c (Proc.devRef .tc main_arg13) = m ((c : Thread nD τ).loc main_arg13) :=
  (W2_of_ne m ρ c main_arg13 (by decide)).trans (arg13_at1 m ρ c)

theorem arg13_at3 : W3 m ρ c (Proc.devRef .tc main_arg13) = m ((c : Thread nD τ).loc main_arg13) :=
  (W3_keep m ρ c main_arg13 (by host_not_written)).trans (arg13_at2 m ρ c)

theorem arg13_at4 : W4 m ρ c (Proc.devRef .tc main_arg13) = m ((c : Thread nD τ).loc main_arg13) :=
  (W4_of_ne m ρ c main_arg13 (by decide)).trans (arg13_at3 m ρ c)

theorem arg13_at5 : W5 m ρ c (Proc.devRef .tc main_arg13) = m ((c : Thread nD τ).loc main_arg13) :=
  (W5_keep m ρ c main_arg13 (by host_not_written)).trans (arg13_at4 m ρ c)

theorem arg13_at6 : W6 m ρ c (Proc.devRef .tc main_arg13) = m ((c : Thread nD τ).loc main_arg13) :=
  (W6_of_ne m ρ c main_arg13 (by decide)).trans (arg13_at5 m ρ c)

theorem arg13_at7 : W7 m ρ c (Proc.devRef .tc main_arg13) = m ((c : Thread nD τ).loc main_arg13) :=
  (W7_keep m ρ c main_arg13 (by host_not_written)).trans (arg13_at6 m ρ c)

theorem arg13_at8 : W8 m ρ c (Proc.devRef .tc main_arg13) = m ((c : Thread nD τ).loc main_arg13) :=
  (W8_of_ne m ρ c main_arg13 (by decide)).trans (arg13_at7 m ρ c)

theorem arg13_at9 : W9 m ρ c (Proc.devRef .tc main_arg13) = m ((c : Thread nD τ).loc main_arg13) :=
  (W9_keep m ρ c main_arg13 (by host_not_written)).trans (arg13_at8 m ρ c)

theorem arg13_at10 : W10 m ρ c (Proc.devRef .tc main_arg13) = m ((c : Thread nD τ).loc main_arg13) :=
  (W10_of_ne m ρ c main_arg13 (by decide)).trans (arg13_at9 m ρ c)

theorem arg13_at11 : W11 m ρ c (Proc.devRef .tc main_arg13) = m ((c : Thread nD τ).loc main_arg13) :=
  (W11_keep m ρ c main_arg13 (by host_not_written)).trans (arg13_at10 m ρ c)

theorem arg13_at12 : W12 m ρ c (Proc.devRef .tc main_arg13) = m ((c : Thread nD τ).loc main_arg13) :=
  (W12_of_ne m ρ c main_arg13 (by decide)).trans (arg13_at11 m ρ c)

theorem arg13_at13 : W13 m ρ c (Proc.devRef .tc main_arg13) = m ((c : Thread nD τ).loc main_arg13) :=
  (W13_of_ne m ρ c main_arg13 (by decide)).trans (arg13_at12 m ρ c)

theorem arg13_at14 : W14 m ρ c (Proc.devRef .tc main_arg13) = m ((c : Thread nD τ).loc main_arg13) :=
  (W14_keep m ρ c main_arg13 (by host_not_written)).trans (arg13_at13 m ρ c)

theorem arg13_at15 : W15 m ρ c (Proc.devRef .tc main_arg13) = m ((c : Thread nD τ).loc main_arg13) :=
  (W15_of_ne m ρ c main_arg13 (by decide)).trans (arg13_at14 m ρ c)

theorem arg13_at16 : W16 m ρ c (Proc.devRef .tc main_arg13) = m ((c : Thread nD τ).loc main_arg13) :=
  (W16_keep m ρ c main_arg13 (by host_not_written)).trans (arg13_at15 m ρ c)

theorem arg13_at17 : W17 m ρ c (Proc.devRef .tc main_arg13) = m ((c : Thread nD τ).loc main_arg13) :=
  (W17_of_ne m ρ c main_arg13 (by decide)).trans (arg13_at16 m ρ c)

theorem arg13_at18 : W18 m ρ c (Proc.devRef .tc main_arg13) = m ((c : Thread nD τ).loc main_arg13) :=
  (W18_keep m ρ c main_arg13 (by host_not_written)).trans (arg13_at17 m ρ c)

theorem arg13_at19 : W19 m ρ c (Proc.devRef .tc main_arg13) = m ((c : Thread nD τ).loc main_arg13) :=
  (W19_of_ne m ρ c main_arg13 (by decide)).trans (arg13_at18 m ρ c)

theorem arg13_at20 : W20 m ρ c (Proc.devRef .tc main_arg13) = m ((c : Thread nD τ).loc main_arg13) :=
  (W20_keep m ρ c main_arg13 (by host_not_written)).trans (arg13_at19 m ρ c)

theorem arg13_at21 : W21 m ρ c (Proc.devRef .tc main_arg13) = m ((c : Thread nD τ).loc main_arg13) :=
  (W21_of_ne m ρ c main_arg13 (by decide)).trans (arg13_at20 m ρ c)

theorem arg13_at22 : W22 m ρ c (Proc.devRef .tc main_arg13) = m ((c : Thread nD τ).loc main_arg13) :=
  (W22_keep m ρ c main_arg13 (by host_not_written)).trans (arg13_at21 m ρ c)

theorem arg13_at23 : W23 m ρ c (Proc.devRef .tc main_arg13) = m ((c : Thread nD τ).loc main_arg13) :=
  (W23_of_ne m ρ c main_arg13 (by decide)).trans (arg13_at22 m ρ c)

theorem arg13_at24 : W24 m ρ c (Proc.devRef .tc main_arg13) = m ((c : Thread nD τ).loc main_arg13) :=
  (W24_keep m ρ c main_arg13 (by host_not_written)).trans (arg13_at23 m ρ c)

theorem arg13_at25 : W25 m ρ c (Proc.devRef .tc main_arg13) = m ((c : Thread nD τ).loc main_arg13) :=
  (W25_of_ne m ρ c main_arg13 (by decide)).trans (arg13_at24 m ρ c)

theorem arg13_at26 : W26 m ρ c (Proc.devRef .tc main_arg13) = m ((c : Thread nD τ).loc main_arg13) :=
  (W26_of_ne m ρ c main_arg13 (by decide)).trans (arg13_at25 m ρ c)

theorem arg13_at27 : W27 m ρ c (Proc.devRef .tc main_arg13) = m ((c : Thread nD τ).loc main_arg13) :=
  (W27_keep m ρ c main_arg13 (by host_not_written)).trans (arg13_at26 m ρ c)

theorem arg13_at28 : W28 m ρ c (Proc.devRef .tc main_arg13) = m ((c : Thread nD τ).loc main_arg13) :=
  (W28_of_ne m ρ c main_arg13 (by decide)).trans (arg13_at27 m ρ c)

theorem arg13_at29 : W29 m ρ c (Proc.devRef .tc main_arg13) = m ((c : Thread nD τ).loc main_arg13) :=
  (W29_keep m ρ c main_arg13 (by host_not_written)).trans (arg13_at28 m ρ c)

theorem arg13_at30 : W30 m ρ c (Proc.devRef .tc main_arg13) = m ((c : Thread nD τ).loc main_arg13) :=
  (W30_of_ne m ρ c main_arg13 (by decide)).trans (arg13_at29 m ρ c)

theorem arg13_at31 : W31 m ρ c (Proc.devRef .tc main_arg13) = m ((c : Thread nD τ).loc main_arg13) :=
  (W31_keep m ρ c main_arg13 (by host_not_written)).trans (arg13_at30 m ρ c)

theorem arg13_at32 : W32 m ρ c (Proc.devRef .tc main_arg13) = m ((c : Thread nD τ).loc main_arg13) :=
  (W32_of_ne m ρ c main_arg13 (by decide)).trans (arg13_at31 m ρ c)

theorem arg13_at33 : W33 m ρ c (Proc.devRef .tc main_arg13) = m ((c : Thread nD τ).loc main_arg13) :=
  (W33_keep m ρ c main_arg13 (by host_not_written)).trans (arg13_at32 m ρ c)

theorem arg13_at34 : W34 m ρ c (Proc.devRef .tc main_arg13) = m ((c : Thread nD τ).loc main_arg13) :=
  (W34_of_ne m ρ c main_arg13 (by decide)).trans (arg13_at33 m ρ c)

theorem arg13_at35 : W35 m ρ c (Proc.devRef .tc main_arg13) = m ((c : Thread nD τ).loc main_arg13) :=
  (W35_keep m ρ c main_arg13 (by host_not_written)).trans (arg13_at34 m ρ c)

theorem arg13_at36 : W36 m ρ c (Proc.devRef .tc main_arg13) = m ((c : Thread nD τ).loc main_arg13) :=
  (W36_of_ne m ρ c main_arg13 (by decide)).trans (arg13_at35 m ρ c)

theorem v209_at37 : W37 m ρ c (Proc.devRef .tc main_v209)
    = (v209 m c) := by
  refine (KHost.host19_v209 (W36 m ρ c)).trans ?_
  unfold v209
  refine (congrArg (row64 (F := Ideal)) ?_)
  · exact arg13_at36 m ρ c

/-- What @main's value %v210 holds, as a term over the argument arrays. -/
def v210 := Glin128x64 (v150 m c) (m ((c : Thread nD τ).loc main_arg12)) (v209 m c)

theorem v150_at28 : W28 m ρ c (Proc.devRef .tc main_v150) = (v150 m c) :=
  ((W28_arr m ρ c 0).trans (((dat14 (V27 m ρ) c).arrAt_in 0 rfl _).trans (A_eq14 (V27 m ρ) c 0))).trans (v150_at27 m ρ c)

theorem v150_at29 : W29 m ρ c (Proc.devRef .tc main_v150) = (v150 m c) :=
  (W29_keep m ρ c main_v150 (by host_not_written)).trans (v150_at28 m ρ c)

theorem v150_at30 : W30 m ρ c (Proc.devRef .tc main_v150) = (v150 m c) :=
  (W30_of_ne m ρ c main_v150 (by decide)).trans (v150_at29 m ρ c)

theorem v150_at31 : W31 m ρ c (Proc.devRef .tc main_v150) = (v150 m c) :=
  (W31_keep m ρ c main_v150 (by host_not_written)).trans (v150_at30 m ρ c)

theorem v150_at32 : W32 m ρ c (Proc.devRef .tc main_v150) = (v150 m c) :=
  (W32_of_ne m ρ c main_v150 (by decide)).trans (v150_at31 m ρ c)

theorem v150_at33 : W33 m ρ c (Proc.devRef .tc main_v150) = (v150 m c) :=
  (W33_keep m ρ c main_v150 (by host_not_written)).trans (v150_at32 m ρ c)

theorem v150_at34 : W34 m ρ c (Proc.devRef .tc main_v150) = (v150 m c) :=
  (W34_of_ne m ρ c main_v150 (by decide)).trans (v150_at33 m ρ c)

theorem v150_at35 : W35 m ρ c (Proc.devRef .tc main_v150) = (v150 m c) :=
  (W35_keep m ρ c main_v150 (by host_not_written)).trans (v150_at34 m ρ c)

theorem v150_at36 : W36 m ρ c (Proc.devRef .tc main_v150) = (v150 m c) :=
  (W36_of_ne m ρ c main_v150 (by decide)).trans (v150_at35 m ρ c)

theorem v150_at37 : W37 m ρ c (Proc.devRef .tc main_v150) = (v150 m c) :=
  (W37_keep m ρ c main_v150 (by host_not_written)).trans (v150_at36 m ρ c)

theorem arg12_at0 : W0 m ρ c (Proc.devRef .tc main_arg12) = m ((c : Thread nD τ).loc main_arg12) := rfl

theorem arg12_at1 : W1 m ρ c (Proc.devRef .tc main_arg12) = m ((c : Thread nD τ).loc main_arg12) :=
  (W1_keep m ρ c main_arg12 (by host_not_written)).trans (arg12_at0 m ρ c)

theorem arg12_at2 : W2 m ρ c (Proc.devRef .tc main_arg12) = m ((c : Thread nD τ).loc main_arg12) :=
  (W2_of_ne m ρ c main_arg12 (by decide)).trans (arg12_at1 m ρ c)

theorem arg12_at3 : W3 m ρ c (Proc.devRef .tc main_arg12) = m ((c : Thread nD τ).loc main_arg12) :=
  (W3_keep m ρ c main_arg12 (by host_not_written)).trans (arg12_at2 m ρ c)

theorem arg12_at4 : W4 m ρ c (Proc.devRef .tc main_arg12) = m ((c : Thread nD τ).loc main_arg12) :=
  (W4_of_ne m ρ c main_arg12 (by decide)).trans (arg12_at3 m ρ c)

theorem arg12_at5 : W5 m ρ c (Proc.devRef .tc main_arg12) = m ((c : Thread nD τ).loc main_arg12) :=
  (W5_keep m ρ c main_arg12 (by host_not_written)).trans (arg12_at4 m ρ c)

theorem arg12_at6 : W6 m ρ c (Proc.devRef .tc main_arg12) = m ((c : Thread nD τ).loc main_arg12) :=
  (W6_of_ne m ρ c main_arg12 (by decide)).trans (arg12_at5 m ρ c)

theorem arg12_at7 : W7 m ρ c (Proc.devRef .tc main_arg12) = m ((c : Thread nD τ).loc main_arg12) :=
  (W7_keep m ρ c main_arg12 (by host_not_written)).trans (arg12_at6 m ρ c)

theorem arg12_at8 : W8 m ρ c (Proc.devRef .tc main_arg12) = m ((c : Thread nD τ).loc main_arg12) :=
  (W8_of_ne m ρ c main_arg12 (by decide)).trans (arg12_at7 m ρ c)

theorem arg12_at9 : W9 m ρ c (Proc.devRef .tc main_arg12) = m ((c : Thread nD τ).loc main_arg12) :=
  (W9_keep m ρ c main_arg12 (by host_not_written)).trans (arg12_at8 m ρ c)

theorem arg12_at10 : W10 m ρ c (Proc.devRef .tc main_arg12) = m ((c : Thread nD τ).loc main_arg12) :=
  (W10_of_ne m ρ c main_arg12 (by decide)).trans (arg12_at9 m ρ c)

theorem arg12_at11 : W11 m ρ c (Proc.devRef .tc main_arg12) = m ((c : Thread nD τ).loc main_arg12) :=
  (W11_keep m ρ c main_arg12 (by host_not_written)).trans (arg12_at10 m ρ c)

theorem arg12_at12 : W12 m ρ c (Proc.devRef .tc main_arg12) = m ((c : Thread nD τ).loc main_arg12) :=
  (W12_of_ne m ρ c main_arg12 (by decide)).trans (arg12_at11 m ρ c)

theorem arg12_at13 : W13 m ρ c (Proc.devRef .tc main_arg12) = m ((c : Thread nD τ).loc main_arg12) :=
  (W13_of_ne m ρ c main_arg12 (by decide)).trans (arg12_at12 m ρ c)

theorem arg12_at14 : W14 m ρ c (Proc.devRef .tc main_arg12) = m ((c : Thread nD τ).loc main_arg12) :=
  (W14_keep m ρ c main_arg12 (by host_not_written)).trans (arg12_at13 m ρ c)

theorem arg12_at15 : W15 m ρ c (Proc.devRef .tc main_arg12) = m ((c : Thread nD τ).loc main_arg12) :=
  (W15_of_ne m ρ c main_arg12 (by decide)).trans (arg12_at14 m ρ c)

theorem arg12_at16 : W16 m ρ c (Proc.devRef .tc main_arg12) = m ((c : Thread nD τ).loc main_arg12) :=
  (W16_keep m ρ c main_arg12 (by host_not_written)).trans (arg12_at15 m ρ c)

theorem arg12_at17 : W17 m ρ c (Proc.devRef .tc main_arg12) = m ((c : Thread nD τ).loc main_arg12) :=
  (W17_of_ne m ρ c main_arg12 (by decide)).trans (arg12_at16 m ρ c)

theorem arg12_at18 : W18 m ρ c (Proc.devRef .tc main_arg12) = m ((c : Thread nD τ).loc main_arg12) :=
  (W18_keep m ρ c main_arg12 (by host_not_written)).trans (arg12_at17 m ρ c)

theorem arg12_at19 : W19 m ρ c (Proc.devRef .tc main_arg12) = m ((c : Thread nD τ).loc main_arg12) :=
  (W19_of_ne m ρ c main_arg12 (by decide)).trans (arg12_at18 m ρ c)

theorem arg12_at20 : W20 m ρ c (Proc.devRef .tc main_arg12) = m ((c : Thread nD τ).loc main_arg12) :=
  (W20_keep m ρ c main_arg12 (by host_not_written)).trans (arg12_at19 m ρ c)

theorem arg12_at21 : W21 m ρ c (Proc.devRef .tc main_arg12) = m ((c : Thread nD τ).loc main_arg12) :=
  (W21_of_ne m ρ c main_arg12 (by decide)).trans (arg12_at20 m ρ c)

theorem arg12_at22 : W22 m ρ c (Proc.devRef .tc main_arg12) = m ((c : Thread nD τ).loc main_arg12) :=
  (W22_keep m ρ c main_arg12 (by host_not_written)).trans (arg12_at21 m ρ c)

theorem arg12_at23 : W23 m ρ c (Proc.devRef .tc main_arg12) = m ((c : Thread nD τ).loc main_arg12) :=
  (W23_of_ne m ρ c main_arg12 (by decide)).trans (arg12_at22 m ρ c)

theorem arg12_at24 : W24 m ρ c (Proc.devRef .tc main_arg12) = m ((c : Thread nD τ).loc main_arg12) :=
  (W24_keep m ρ c main_arg12 (by host_not_written)).trans (arg12_at23 m ρ c)

theorem arg12_at25 : W25 m ρ c (Proc.devRef .tc main_arg12) = m ((c : Thread nD τ).loc main_arg12) :=
  (W25_of_ne m ρ c main_arg12 (by decide)).trans (arg12_at24 m ρ c)

theorem arg12_at26 : W26 m ρ c (Proc.devRef .tc main_arg12) = m ((c : Thread nD τ).loc main_arg12) :=
  (W26_of_ne m ρ c main_arg12 (by decide)).trans (arg12_at25 m ρ c)

theorem arg12_at27 : W27 m ρ c (Proc.devRef .tc main_arg12) = m ((c : Thread nD τ).loc main_arg12) :=
  (W27_keep m ρ c main_arg12 (by host_not_written)).trans (arg12_at26 m ρ c)

theorem arg12_at28 : W28 m ρ c (Proc.devRef .tc main_arg12) = m ((c : Thread nD τ).loc main_arg12) :=
  (W28_of_ne m ρ c main_arg12 (by decide)).trans (arg12_at27 m ρ c)

theorem arg12_at29 : W29 m ρ c (Proc.devRef .tc main_arg12) = m ((c : Thread nD τ).loc main_arg12) :=
  (W29_keep m ρ c main_arg12 (by host_not_written)).trans (arg12_at28 m ρ c)

theorem arg12_at30 : W30 m ρ c (Proc.devRef .tc main_arg12) = m ((c : Thread nD τ).loc main_arg12) :=
  (W30_of_ne m ρ c main_arg12 (by decide)).trans (arg12_at29 m ρ c)

theorem arg12_at31 : W31 m ρ c (Proc.devRef .tc main_arg12) = m ((c : Thread nD τ).loc main_arg12) :=
  (W31_keep m ρ c main_arg12 (by host_not_written)).trans (arg12_at30 m ρ c)

theorem arg12_at32 : W32 m ρ c (Proc.devRef .tc main_arg12) = m ((c : Thread nD τ).loc main_arg12) :=
  (W32_of_ne m ρ c main_arg12 (by decide)).trans (arg12_at31 m ρ c)

theorem arg12_at33 : W33 m ρ c (Proc.devRef .tc main_arg12) = m ((c : Thread nD τ).loc main_arg12) :=
  (W33_keep m ρ c main_arg12 (by host_not_written)).trans (arg12_at32 m ρ c)

theorem arg12_at34 : W34 m ρ c (Proc.devRef .tc main_arg12) = m ((c : Thread nD τ).loc main_arg12) :=
  (W34_of_ne m ρ c main_arg12 (by decide)).trans (arg12_at33 m ρ c)

theorem arg12_at35 : W35 m ρ c (Proc.devRef .tc main_arg12) = m ((c : Thread nD τ).loc main_arg12) :=
  (W35_keep m ρ c main_arg12 (by host_not_written)).trans (arg12_at34 m ρ c)

theorem arg12_at36 : W36 m ρ c (Proc.devRef .tc main_arg12) = m ((c : Thread nD τ).loc main_arg12) :=
  (W36_of_ne m ρ c main_arg12 (by decide)).trans (arg12_at35 m ρ c)

theorem arg12_at37 : W37 m ρ c (Proc.devRef .tc main_arg12) = m ((c : Thread nD τ).loc main_arg12) :=
  (W37_keep m ρ c main_arg12 (by host_not_written)).trans (arg12_at36 m ρ c)

theorem v210_at38 : W38 m ρ c (Proc.devRef .tc main_v210)
    = (v210 m c) := by
  refine ((W38_arr m ρ c 3).trans (closed19 (V37 m ρ) c)).trans ?_
  unfold v210
  refine (congr (congr (congrArg Glin128x64 ?_) ?_) ?_)
  · exact v150_at37 m ρ c
  · exact arg12_at37 m ρ c
  · exact v209_at37 m ρ c

/-- What @main's value %v211 holds, as a term over the argument arrays. -/
def v211 := Gadd64 (v208 m c) (v210 m c)

theorem v208_at37 : W37 m ρ c (Proc.devRef .tc main_v208) = (v208 m c) :=
  (W37_keep m ρ c main_v208 (by host_not_written)).trans (v208_at36 m ρ c)

theorem v208_at38 : W38 m ρ c (Proc.devRef .tc main_v208) = (v208 m c) :=
  (W38_of_ne m ρ c main_v208 (by decide)).trans (v208_at37 m ρ c)

theorem v211_at39 : W39 m ρ c (Proc.devRef .tc main_v211)
    = (v211 m c) := by
  refine ((W39_arr m ρ c 2).trans (closed20 (V38 m ρ) c)).trans ?_
  unfold v211
  refine (congr (congrArg Gadd64 ?_) ?_)
  · exact v208_at38 m ρ c
  · exact v210_at38 m ρ c

/-- The first layer's output, by its names: the layer function of the edge lists, the normalisation and the arguments. -/
theorem layer1_eq : v89 m c = layer1 (v3 m c) (v6 m c) (v28 m c) (m ((c : Thread nD τ).loc main_arg0)) (m ((c : Thread nD τ).loc main_arg2)) (m ((c : Thread nD τ).loc main_arg3)) (m ((c : Thread nD τ).loc main_arg4)) (m ((c : Thread nD τ).loc main_arg5)) := by
  unfold v89 v88 v87 v86 v85 v72 v71 v58 v57 v44 v43 v30 v29 layer1 hops128
  rfl

/-- The second layer's output over the first's. -/
theorem layer2_eq : v150 m c = layer2 (v3 m c) (v6 m c) (v28 m c) (v89 m c) (m ((c : Thread nD τ).loc main_arg6)) (m ((c : Thread nD τ).loc main_arg7)) (m ((c : Thread nD τ).loc main_arg8)) (m ((c : Thread nD τ).loc main_arg9)) := by
  unfold v150 v149 v148 v147 v146 v133 v132 v119 v118 v105 v104 v91 v90 layer2 hops128
  rfl

/-- The third layer's output over the second's. -/
theorem layer3_eq : v211 m c = layer3 (v3 m c) (v6 m c) (v28 m c) (v150 m c) (m ((c : Thread nD τ).loc main_arg10)) (m ((c : Thread nD τ).loc main_arg11)) (m ((c : Thread nD τ).loc main_arg12)) (m ((c : Thread nD τ).loc main_arg13)) := by
  unfold v211 v210 v209 v208 v207 v194 v193 v180 v179 v166 v165 v152 v151 layer3 hops64
  rfl

/-- The result array at the last boundary is the network of the argument arrays. -/
theorem result_at39 : W39 m ρ c (Proc.devRef .tc main_v211)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (v211_at39 m ρ c).trans ?_
  rw [layer3_eq, layer2_eq, layer1_eq]
  unfold net v28 v6 v3
  rfl

end Cert.KernelIdeal.KRun

end
-- ==== Proof.Ref.Stages.lean ====
import proofs.«149349_j76854144794846_1_alg».proof.Proof.Gen.ReferenceIdeal

/-! The reference network, stage by stage, as pure terms over its inputs.

Each definition is the host term the reference's lines compute for that stage, written over the stage's own
inputs: the edge list with self loops appended (source and target rows), the symmetric degree normalisation
`deg^{-1/2}[src] * deg^{-1/2}[dst]` with the degree clamped below, a dense layer `x W + b`, one
normalised neighbourhood sum (gather at the sources, scale per edge, scatter-add at the targets), the
combination `(xl + 0.6 * a) * 0.625` of a layer's input with a neighbourhood sum, the `elu` activation,
four hops of aggregate-and-combine, and the three layers composed. -/

noncomputable section

namespace Cert.ReferenceIdeal.Stage

open Cert.ReferenceIdeal Cert.ReferenceIdeal.Gen Idealize.ShloMosaic Idealize.SL.Sem

variable {F : FTy → Type} [FloatOps F]

/-- The source node of every edge, the self loops `0 … 49999` appended: row 0 of the edge list, then the iota. -/
def srcI (ei : (⟨S2x800000, .i32⟩ : BufTy).Contents (Elt F)) : (⟨S850000, .i32⟩ : BufTy).Contents (Elt F) :=
  concatenate S850000 0 [⟨S800000, shapeCast S800000 (extractStridedSlice S1x800000 ![0, 0] ei slices_S2x800000_S1x800000_0_0) shapeCasts_S1x800000_S800000⟩, ⟨S50000, iotaInDim S50000 32 0⟩] concatenates_S800000_S50000_S850000_d0

/-- The target node of every edge, the self loops appended: row 1 of the edge list, then the iota. -/
def dstI (ei : (⟨S2x800000, .i32⟩ : BufTy).Contents (Elt F)) : (⟨S850000, .i32⟩ : BufTy).Contents (Elt F) :=
  concatenate S850000 0 [⟨S800000, shapeCast S800000 (extractStridedSlice S1x800000 ![1, 0] ei slices_S2x800000_S1x800000_1_0) shapeCasts_S1x800000_S800000⟩, ⟨S50000, iotaInDim S50000 32 0⟩] concatenates_S800000_S50000_S850000_d0

/-- A gather's index column: a negative node index wraps once (`idx + 50000`), then one column per edge. -/
def wrapI (idx : (⟨S850000, .i32⟩ : BufTy).Contents (Elt F)) : (⟨S850000x1, .i32⟩ : BufTy).Contents (Elt F) :=
  broadcastInDim S850000x1 ![0] bcast_S850000_S850000x1_0 (select (cmpi .slt idx (broadcastInDim S850000 ![] bcast_S_S850000 (constantI S_ 32 0#32))) (addi idx (broadcastInDim S850000 ![] bcast_S_S850000 (constantI S_ 32 50000#32))) idx)

/-- `deg^{-1/2}` per node: ones scatter-added at the targets, clamped below by `1e-12`, reciprocal square root. -/
def dis (ei : (⟨S2x800000, .i32⟩ : BufTy).Contents (Elt F)) : (⟨S50000, .f32⟩ : BufTy).Contents (Elt F) :=
  Host.rsqrt (maximumf (Host.scatterAdd scatter_S50000_S850000x1_S850000_n_0_0_1 (broadcastInDim S50000 ![] bcast_S_S50000 (constant (F := F) S_ .f32 0x00000000#32)) (broadcastInDim S850000x1 ![0] bcast_S850000_S850000x1_0 (dstI ei)) (broadcastInDim S850000 ![] bcast_S_S850000 (constant (F := F) S_ .f32 0x3F800000#32))) (broadcastInDim S50000 ![] bcast_S_S50000 (constant (F := F) S_ .f32 0x2B8CBCCC#32)))

/-- The edge weights `deg^{-1/2}[src] * deg^{-1/2}[dst]`. -/
def nrm (ei : (⟨S2x800000, .i32⟩ : BufTy).Contents (Elt F)) : (⟨S850000, .f32⟩ : BufTy).Contents (Elt F) :=
  mulf (Host.gather gather_S50000_S850000x1_S850000_n_0_n_n_0_1_1 (dis ei) (wrapI (srcI ei))) (Host.gather gather_S50000_S850000x1_S850000_n_0_n_n_0_1_1 (dis ei) (wrapI (dstI ei)))

/-- A dense layer `x W + b`, 256 to 128 features. -/
def lin256x128 (x : (⟨S50000x256, .f32⟩ : BufTy).Contents (Elt F)) (w : (⟨S256x128, .f32⟩ : BufTy).Contents (Elt F)) (b : (⟨S128, .f32⟩ : BufTy).Contents (Elt F)) : (⟨S50000x128, .f32⟩ : BufTy).Contents (Elt F) :=
  addf (Host.dotGeneral dot_S50000x256_S256x128_S50000x128_1_0_0_1_n_n none x w) (broadcastInDim S50000x128 ![0, 1] bcast_S1x128_S50000x128_0_1 (broadcastInDim S1x128 ![1] bcast_S128_S1x128_1 b))

/-- A dense layer `x W + b`, 128 to 128 features. -/
def lin128x128 (x : (⟨S50000x128, .f32⟩ : BufTy).Contents (Elt F)) (w : (⟨S128x128, .f32⟩ : BufTy).Contents (Elt F)) (b : (⟨S128, .f32⟩ : BufTy).Contents (Elt F)) : (⟨S50000x128, .f32⟩ : BufTy).Contents (Elt F) :=
  addf (Host.dotGeneral dot_S50000x128_S128x128_S50000x128_1_0_0_1_n_n none x w) (broadcastInDim S50000x128 ![0, 1] bcast_S1x128_S50000x128_0_1 (broadcastInDim S1x128 ![1] bcast_S128_S1x128_1 b))

/-- A dense layer `x W + b`, 128 to 64 features. -/
def lin128x64 (x : (⟨S50000x128, .f32⟩ : BufTy).Contents (Elt F)) (w : (⟨S128x64, .f32⟩ : BufTy).Contents (Elt F)) (b : (⟨S64, .f32⟩ : BufTy).Contents (Elt F)) : (⟨S50000x64, .f32⟩ : BufTy).Contents (Elt F) :=
  addf (Host.dotGeneral dot_S50000x128_S128x64_S50000x64_1_0_0_1_n_n none x w) (broadcastInDim S50000x64 ![0, 1] bcast_S1x64_S50000x64_0_1 (broadcastInDim S1x64 ![1] bcast_S64_S1x64_1 b))

/-- One normalised neighbourhood sum at 128 features: rows of `h` gathered at the sources, each scaled by its edge
    weight `n`, scatter-added into zeros at the targets. -/
def agg128 (ei : (⟨S2x800000, .i32⟩ : BufTy).Contents (Elt F)) (n : (⟨S850000, .f32⟩ : BufTy).Contents (Elt F)) (h : (⟨S50000x128, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant (F := F) S_ .f32 0x00000000#32)) (broadcastInDim S850000x1 ![0] bcast_S850000_S850000x1_0 (dstI ei)) (mulf (Host.gather gather_S50000x128_S850000x1_S850000x128_1_0_n_n_0_1_1128 h (wrapI (srcI ei))) (broadcastInDim S850000x128 ![0, 1] bcast_S850000x1_S850000x128_0_1 (broadcastInDim S850000x1 ![0] bcast_S850000_S850000x1_0 n)))

/-- The same at 64 features. -/
def agg64 (ei : (⟨S2x800000, .i32⟩ : BufTy).Contents (Elt F)) (n : (⟨S850000, .f32⟩ : BufTy).Contents (Elt F)) (h : (⟨S50000x64, .f32⟩ : BufTy).Contents (Elt F)) : (⟨S50000x64, .f32⟩ : BufTy).Contents (Elt F) :=
  Host.scatterAdd scatter_S50000x64_S850000x1_S850000x64_1_0_0_1 (broadcastInDim S50000x64 ![] bcast_S_S50000x64 (constant (F := F) S_ .f32 0x00000000#32)) (broadcastInDim S850000x1 ![0] bcast_S850000_S850000x1_0 (dstI ei)) (mulf (Host.gather gather_S50000x64_S850000x1_S850000x64_1_0_n_n_0_1_164 h (wrapI (srcI ei))) (broadcastInDim S850000x64 ![0, 1] bcast_S850000x1_S850000x64_0_1 (broadcastInDim S850000x1 ![0] bcast_S850000_S850000x1_0 n)))

/-- One hop's combination at 128 features: `(xl + 0.6 * a) * 0.625`. -/
def comb128 (xl a : (⟨S50000x128, .f32⟩ : BufTy).Contents (Elt F)) : (⟨S50000x128, .f32⟩ : BufTy).Contents (Elt F) :=
  mulf (addf xl (mulf (broadcastInDim S50000x128 ![] bcast_S_S50000x128 (constant (F := F) S_ .f32 0x3F19999A#32)) a)) (broadcastInDim S50000x128 ![] bcast_S_S50000x128 (constant (F := F) S_ .f32 0x3F200000#32))

/-- The same at 64 features. -/
def comb64 (xl a : (⟨S50000x64, .f32⟩ : BufTy).Contents (Elt F)) : (⟨S50000x64, .f32⟩ : BufTy).Contents (Elt F) :=
  mulf (addf xl (mulf (broadcastInDim S50000x64 ![] bcast_S_S50000x64 (constant (F := F) S_ .f32 0x3F19999A#32)) a)) (broadcastInDim S50000x64 ![] bcast_S_S50000x64 (constant (F := F) S_ .f32 0x3F200000#32))

/-- `elu z = if z > 0 then z else 1 * expm1 (if z > 0 then 0 else z)`, elementwise. -/
def elu128 (z : (⟨S50000x128, .f32⟩ : BufTy).Contents (Elt F)) : (⟨S50000x128, .f32⟩ : BufTy).Contents (Elt F) :=
  select (cmpf .ogt z (broadcastInDim S50000x128 ![] bcast_S_S50000x128 (constant (F := F) S_ .f32 0x00000000#32))) z (mulf (broadcastInDim S50000x128 ![] bcast_S_S50000x128 (constant (F := F) S_ .f32 0x3F800000#32)) (Host.expm1 (select (cmpf .ogt z (broadcastInDim S50000x128 ![] bcast_S_S50000x128 (constant (F := F) S_ .f32 0x00000000#32))) (broadcastInDim S50000x128 ![] bcast_S_S50000x128 (id (constant (F := F) S_ .f32 0x00000000#32))) z)))

/-- Four hops of aggregate-and-combine from `xl`, every hop combining with `xl` itself, at 128 features. -/
def hops128 (ei : (⟨S2x800000, .i32⟩ : BufTy).Contents (Elt F)) (xl : (⟨S50000x128, .f32⟩ : BufTy).Contents (Elt F)) : (⟨S50000x128, .f32⟩ : BufTy).Contents (Elt F) :=
  comb128 xl (agg128 ei (nrm ei) (comb128 xl (agg128 ei (nrm ei) (comb128 xl (agg128 ei (nrm ei) (comb128 xl (agg128 ei (nrm ei) xl)))))))

/-- The same at 64 features. -/
def hops64 (ei : (⟨S2x800000, .i32⟩ : BufTy).Contents (Elt F)) (xl : (⟨S50000x64, .f32⟩ : BufTy).Contents (Elt F)) : (⟨S50000x64, .f32⟩ : BufTy).Contents (Elt F) :=
  comb64 xl (agg64 ei (nrm ei) (comb64 xl (agg64 ei (nrm ei) (comb64 xl (agg64 ei (nrm ei) (comb64 xl (agg64 ei (nrm ei) xl)))))))

/-- The first layer: `elu (hops (x Wc + bc) + (x Wl + bl))`. -/
def layer1 (x : (⟨S50000x256, .f32⟩ : BufTy).Contents (Elt F)) (ei : (⟨S2x800000, .i32⟩ : BufTy).Contents (Elt F)) (wc : (⟨S256x128, .f32⟩ : BufTy).Contents (Elt F)) (bc : (⟨S128, .f32⟩ : BufTy).Contents (Elt F)) (wl : (⟨S256x128, .f32⟩ : BufTy).Contents (Elt F)) (bl : (⟨S128, .f32⟩ : BufTy).Contents (Elt F)) : (⟨S50000x128, .f32⟩ : BufTy).Contents (Elt F) :=
  elu128 (addf (hops128 ei (lin256x128 x wc bc)) (lin256x128 x wl bl))

/-- The second layer, 128 to 128 features. -/
def layer2 (h : (⟨S50000x128, .f32⟩ : BufTy).Contents (Elt F)) (ei : (⟨S2x800000, .i32⟩ : BufTy).Contents (Elt F)) (wc : (⟨S128x128, .f32⟩ : BufTy).Contents (Elt F)) (bc : (⟨S128, .f32⟩ : BufTy).Contents (Elt F)) (wl : (⟨S128x128, .f32⟩ : BufTy).Contents (Elt F)) (bl : (⟨S128, .f32⟩ : BufTy).Contents (Elt F)) : (⟨S50000x128, .f32⟩ : BufTy).Contents (Elt F) :=
  elu128 (addf (hops128 ei (lin128x128 h wc bc)) (lin128x128 h wl bl))

/-- The third layer, 128 to 64 features, no activation. -/
def layer3 (h : (⟨S50000x128, .f32⟩ : BufTy).Contents (Elt F)) (ei : (⟨S2x800000, .i32⟩ : BufTy).Contents (Elt F)) (wc : (⟨S128x64, .f32⟩ : BufTy).Contents (Elt F)) (bc : (⟨S64, .f32⟩ : BufTy).Contents (Elt F)) (wl : (⟨S128x64, .f32⟩ : BufTy).Contents (Elt F)) (bl : (⟨S64, .f32⟩ : BufTy).Contents (Elt F)) : (⟨S50000x64, .f32⟩ : BufTy).Contents (Elt F) :=
  addf (hops64 ei (lin128x64 h wc bc)) (lin128x64 h wl bl)

/-- The network: the three layers in turn, the arguments in the order the program takes them. -/
def net (x : (⟨S50000x256, .f32⟩ : BufTy).Contents (Elt F)) (ei : (⟨S2x800000, .i32⟩ : BufTy).Contents (Elt F))
    (wc1 : (⟨S256x128, .f32⟩ : BufTy).Contents (Elt F)) (bc1 : (⟨S128, .f32⟩ : BufTy).Contents (Elt F)) (wl1 : (⟨S256x128, .f32⟩ : BufTy).Contents (Elt F)) (bl1 : (⟨S128, .f32⟩ : BufTy).Contents (Elt F))
    (wc2 : (⟨S128x128, .f32⟩ : BufTy).Contents (Elt F)) (bc2 : (⟨S128, .f32⟩ : BufTy).Contents (Elt F)) (wl2 : (⟨S128x128, .f32⟩ : BufTy).Contents (Elt F)) (bl2 : (⟨S128, .f32⟩ : BufTy).Contents (Elt F))
    (wc3 : (⟨S128x64, .f32⟩ : BufTy).Contents (Elt F)) (bc3 : (⟨S64, .f32⟩ : BufTy).Contents (Elt F)) (wl3 : (⟨S128x64, .f32⟩ : BufTy).Contents (Elt F)) (bl3 : (⟨S64, .f32⟩ : BufTy).Contents (Elt F)) : (⟨S50000x64, .f32⟩ : BufTy).Contents (Elt F) :=
  layer3 (layer2 (layer1 x ei wc1 bc1 wl1 bl1) ei wc2 bc2 wl2 bl2) ei wc3 bc3 wl3 bl3

end Cert.ReferenceIdeal.Stage

end
-- ==== Proof.Regions.LinHost.lean ====
/-
  The reference computes each dense layer on the host as a product of whole arrays plus the bias vector broadcast
  along axis 1 to one row and then down the rows. Read index by index that is the same function of x, w and the bias
  laid out as one row: the product at (r, j) is the sum over the contraction index, the two broadcasts read the bias
  vector's entry j, and so does the reshape of the vector to one row.
-/
import proofs.«149349_j76854144794846_1_alg».proof.Proof.Regions.LinSpec
import proofs.«149349_j76854144794846_1_alg».proof.ReferenceIdeal
import proofs.«149349_j76854144794846_1_alg».proof.Proof.Gen.ReferenceIdeal
import proofs.«149349_j76854144794846_1_alg».proof.Proof.Gen.KernelIdeal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost

noncomputable section

open scoped BigOperators

namespace Cert.KernelIdeal.RegionValue

open Idealize.ShloMosaic Idealize.ShloMosaic.ValueIdx

/-- The host's product 50000x256 · 256x128 read at (r, j): the sum over the contraction index. -/
theorem hostDot256x128 (x : FVec Ideal Cert.ReferenceIdeal.S50000x256 .f32) (w : FVec Ideal Cert.ReferenceIdeal.S256x128 .f32)
    (r : Fin 50000) (j : Fin 128) :
    Host.dotGeneral Cert.ReferenceIdeal.dot_S50000x256_S256x128_S50000x128_1_0_0_1_n_n none x w (ix2 r j)
      = ∑ k : Fin 256, x (ix2 r k) * w (ix2 k j) := by
  refine (Ideal.dotGeneral_apply Cert.ReferenceIdeal.dot_S50000x256_S256x128_S50000x128_1_0_0_1_n_n none .single x w (ix2 r j)).trans ?_
  refine (Equiv.sum_comp (contrEquiv1 Cert.ReferenceIdeal.dot_S50000x256_S256x128_S50000x128_1_0_0_1_n_n 256 rfl rfl).symm _).symm.trans ?_
  refine Finset.sum_congr rfl fun k _ => ?_
  have hl : Cert.ReferenceIdeal.dot_S50000x256_S256x128_S50000x128_1_0_0_1_n_n.lhsIdx (ix2 r j) ((contrEquiv1 Cert.ReferenceIdeal.dot_S50000x256_S256x128_S50000x128_1_0_0_1_n_n 256 rfl rfl).symm k) = ix2 r k := by
    funext a; apply Fin.ext
    match a with
    | ⟨0, _⟩ => rfl
    | ⟨1, _⟩ => exact (DotDims.lhsIdx_val_of_single _ rfl (ix2 r j) _).trans (contrEquiv1_symm_val _ 256 rfl rfl k)
  have hr : Cert.ReferenceIdeal.dot_S50000x256_S256x128_S50000x128_1_0_0_1_n_n.rhsIdx (ix2 r j) ((contrEquiv1 Cert.ReferenceIdeal.dot_S50000x256_S256x128_S50000x128_1_0_0_1_n_n 256 rfl rfl).symm k) = ix2 k j := by
    funext a; apply Fin.ext
    match a with
    | ⟨0, _⟩ => exact (DotDims.rhsIdx_val_of_single _ rfl (ix2 r j) _).trans (contrEquiv1_symm_val _ 256 rfl rfl k)
    | ⟨1, _⟩ => rfl
  rw [hl, hr]

/-- The host's product 50000x128 · 128x128 read at (r, j): the sum over the contraction index. -/
theorem hostDot128x128 (x : FVec Ideal Cert.ReferenceIdeal.S50000x128 .f32) (w : FVec Ideal Cert.ReferenceIdeal.S128x128 .f32)
    (r : Fin 50000) (j : Fin 128) :
    Host.dotGeneral Cert.ReferenceIdeal.dot_S50000x128_S128x128_S50000x128_1_0_0_1_n_n none x w (ix2 r j)
      = ∑ k : Fin 128, x (ix2 r k) * w (ix2 k j) := by
  refine (Ideal.dotGeneral_apply Cert.ReferenceIdeal.dot_S50000x128_S128x128_S50000x128_1_0_0_1_n_n none .single x w (ix2 r j)).trans ?_
  refine (Equiv.sum_comp (contrEquiv1 Cert.ReferenceIdeal.dot_S50000x128_S128x128_S50000x128_1_0_0_1_n_n 128 rfl rfl).symm _).symm.trans ?_
  refine Finset.sum_congr rfl fun k _ => ?_
  have hl : Cert.ReferenceIdeal.dot_S50000x128_S128x128_S50000x128_1_0_0_1_n_n.lhsIdx (ix2 r j) ((contrEquiv1 Cert.ReferenceIdeal.dot_S50000x128_S128x128_S50000x128_1_0_0_1_n_n 128 rfl rfl).symm k) = ix2 r k := by
    funext a; apply Fin.ext
    match a with
    | ⟨0, _⟩ => rfl
    | ⟨1, _⟩ => exact (DotDims.lhsIdx_val_of_single _ rfl (ix2 r j) _).trans (contrEquiv1_symm_val _ 128 rfl rfl k)
  have hr : Cert.ReferenceIdeal.dot_S50000x128_S128x128_S50000x128_1_0_0_1_n_n.rhsIdx (ix2 r j) ((contrEquiv1 Cert.ReferenceIdeal.dot_S50000x128_S128x128_S50000x128_1_0_0_1_n_n 128 rfl rfl).symm k) = ix2 k j := by
    funext a; apply Fin.ext
    match a with
    | ⟨0, _⟩ => exact (DotDims.rhsIdx_val_of_single _ rfl (ix2 r j) _).trans (contrEquiv1_symm_val _ 128 rfl rfl k)
    | ⟨1, _⟩ => rfl
  rw [hl, hr]

/-- The host's product 50000x128 · 128x64 read at (r, j): the sum over the contraction index. -/
theorem hostDot128x64 (x : FVec Ideal Cert.ReferenceIdeal.S50000x128 .f32) (w : FVec Ideal Cert.ReferenceIdeal.S128x64 .f32)
    (r : Fin 50000) (j : Fin 64) :
    Host.dotGeneral Cert.ReferenceIdeal.dot_S50000x128_S128x64_S50000x64_1_0_0_1_n_n none x w (ix2 r j)
      = ∑ k : Fin 128, x (ix2 r k) * w (ix2 k j) := by
  refine (Ideal.dotGeneral_apply Cert.ReferenceIdeal.dot_S50000x128_S128x64_S50000x64_1_0_0_1_n_n none .single x w (ix2 r j)).trans ?_
  refine (Equiv.sum_comp (contrEquiv1 Cert.ReferenceIdeal.dot_S50000x128_S128x64_S50000x64_1_0_0_1_n_n 128 rfl rfl).symm _).symm.trans ?_
  refine Finset.sum_congr rfl fun k _ => ?_
  have hl : Cert.ReferenceIdeal.dot_S50000x128_S128x64_S50000x64_1_0_0_1_n_n.lhsIdx (ix2 r j) ((contrEquiv1 Cert.ReferenceIdeal.dot_S50000x128_S128x64_S50000x64_1_0_0_1_n_n 128 rfl rfl).symm k) = ix2 r k := by
    funext a; apply Fin.ext
    match a with
    | ⟨0, _⟩ => rfl
    | ⟨1, _⟩ => exact (DotDims.lhsIdx_val_of_single _ rfl (ix2 r j) _).trans (contrEquiv1_symm_val _ 128 rfl rfl k)
  have hr : Cert.ReferenceIdeal.dot_S50000x128_S128x64_S50000x64_1_0_0_1_n_n.rhsIdx (ix2 r j) ((contrEquiv1 Cert.ReferenceIdeal.dot_S50000x128_S128x64_S50000x64_1_0_0_1_n_n 128 rfl rfl).symm k) = ix2 k j := by
    funext a; apply Fin.ext
    match a with
    | ⟨0, _⟩ => exact (DotDims.rhsIdx_val_of_single _ rfl (ix2 r j) _).trans (contrEquiv1_symm_val _ 128 rfl rfl k)
    | ⟨1, _⟩ => rfl
  rw [hl, hr]

/-- A vector of n entries as a one-row matrix, by the host's broadcast along axis 1 and by a reshape: the same row. -/
theorem rowOfVector {n : Nat} (b : (⟨1, ![n]⟩ : Shape).Idx → EReal) (h1 : (⟨1, ![n]⟩ : Shape).BroadcastsInDim ⟨2, ![1, n]⟩ ![1])
    (hc : (⟨1, ![n]⟩ : Shape).ShapeCasts ⟨2, ![1, n]⟩) (j : Fin n) :
    broadcastInDim ⟨2, ![1, n]⟩ ![1] h1 b (ix2 (0 : Fin 1) j) = shapeCast ⟨2, ![1, n]⟩ b hc (ix2 (0 : Fin 1) j) := by
  have e2 := shapeCast_apply b hc (ix2 (0 : Fin 1) j) (ix1 j) (by
    rw [Shape.rowMajor_val_two, Shape.rowMajor_val_one]; show j.val = 0 * n + j.val; omega)
  have e3 := broadcastInDim_apply ![1] h1 b (ix2 (0 : Fin 1) j) (ix1 j) (by
    intro a
    match a with
    | ⟨0, _⟩ =>
      show j.val = if n = 1 then 0 else j.val
      split
      · have := j.isLt; omega
      · rfl)
  exact e3.trans e2.symm

/-- The host's dense layer 256 → 128 — the product, plus the bias vector broadcast to a row and the row down the
    50000 rows — is the layer of x, w and the bias vector reshaped to one row. -/
theorem linHost256x128 (x : FVec Ideal Cert.ReferenceIdeal.S50000x256 .f32) (w : FVec Ideal Cert.ReferenceIdeal.S256x128 .f32)
    (b : FVec Ideal Cert.ReferenceIdeal.S128 .f32) :
    addf (Host.dotGeneral Cert.ReferenceIdeal.dot_S50000x256_S256x128_S50000x128_1_0_0_1_n_n none x w)
        (broadcastInDim Cert.ReferenceIdeal.S50000x128 ![0, 1] Cert.ReferenceIdeal.Facts₀.bcast_S1x128_S50000x128_0_1
          (broadcastInDim Cert.ReferenceIdeal.S1x128 ![1] Cert.ReferenceIdeal.Facts₀.bcast_S128_S1x128_1 b))
      = Glin256x128 x w (shapeCast Cert.KernelIdeal.S1x128 b Cert.KernelIdeal.Facts₀.shapeCasts_S128_S1x128) := by
  funext i
  obtain ⟨r, j, rfl⟩ : ∃ (r : Fin 50000) (j : Fin 128), i = ix2 r j := ⟨i 0, i 1, eq_ix2 i⟩
  rw [Glin256x128_apply, addf_apply, hostDot256x128, broadcastInDim_oneRow_apply, rowOfVector]

/-- The host's dense layer 128 → 128 — the product, plus the bias vector broadcast to a row and the row down the
    50000 rows — is the layer of x, w and the bias vector reshaped to one row. -/
theorem linHost128x128 (x : FVec Ideal Cert.ReferenceIdeal.S50000x128 .f32) (w : FVec Ideal Cert.ReferenceIdeal.S128x128 .f32)
    (b : FVec Ideal Cert.ReferenceIdeal.S128 .f32) :
    addf (Host.dotGeneral Cert.ReferenceIdeal.dot_S50000x128_S128x128_S50000x128_1_0_0_1_n_n none x w)
        (broadcastInDim Cert.ReferenceIdeal.S50000x128 ![0, 1] Cert.ReferenceIdeal.Facts₀.bcast_S1x128_S50000x128_0_1
          (broadcastInDim Cert.ReferenceIdeal.S1x128 ![1] Cert.ReferenceIdeal.Facts₀.bcast_S128_S1x128_1 b))
      = Glin128x128 x w (shapeCast Cert.KernelIdeal.S1x128 b Cert.KernelIdeal.Facts₀.shapeCasts_S128_S1x128) := by
  funext i
  obtain ⟨r, j, rfl⟩ : ∃ (r : Fin 50000) (j : Fin 128), i = ix2 r j := ⟨i 0, i 1, eq_ix2 i⟩
  rw [Glin128x128_apply, addf_apply, hostDot128x128, broadcastInDim_oneRow_apply, rowOfVector]

/-- The host's dense layer 128 → 64 — the product, plus the bias vector broadcast to a row and the row down the
    50000 rows — is the layer of x, w and the bias vector reshaped to one row. -/
theorem linHost128x64 (x : FVec Ideal Cert.ReferenceIdeal.S50000x128 .f32) (w : FVec Ideal Cert.ReferenceIdeal.S128x64 .f32)
    (b : FVec Ideal Cert.ReferenceIdeal.S64 .f32) :
    addf (Host.dotGeneral Cert.ReferenceIdeal.dot_S50000x128_S128x64_S50000x64_1_0_0_1_n_n none x w)
        (broadcastInDim Cert.ReferenceIdeal.S50000x64 ![0, 1] Cert.ReferenceIdeal.Facts₀.bcast_S1x64_S50000x64_0_1
          (broadcastInDim Cert.ReferenceIdeal.S1x64 ![1] Cert.ReferenceIdeal.Facts₀.bcast_S64_S1x64_1 b))
      = Glin128x64 x w (shapeCast Cert.KernelIdeal.S1x64 b Cert.KernelIdeal.Facts₀.shapeCasts_S64_S1x64) := by
  funext i
  obtain ⟨r, j, rfl⟩ : ∃ (r : Fin 50000) (j : Fin 64), i = ix2 r j := ⟨i 0, i 1, eq_ix2 i⟩
  rw [Glin128x64_apply, addf_apply, hostDot128x64, broadcastInDim_oneRow_apply, rowOfVector]

end Cert.KernelIdeal.RegionValue

end
-- ==== Proof.EluLaw.lean ====
/-
  The exponential linear unit at one entry, on the extended reals. The kernel computes
  `if s > 0 then s else exp s - 1`; the reference computes `if z > 0 then z else 1 * expm1 (if z > 0 then 0 else z)`,
  where `expm1 x` is `exp x - 1`. In the branch `z > 0` both are `z`; in the other branch the inner choice is `z`
  itself and the factor `1` is the unit of the product, so both are `exp z - 1`. Nothing here needs `z` finite: the
  comparison's answer `c` is a variable, and the two sides agree for either answer.
-/
import Idealize.ShloMosaic.PureOps.Ideal

noncomputable section

namespace Cert.Net

open Idealize.ShloMosaic

/-- The word of `1.0` denotes the extended real `1`. -/
theorem ofBits_one : Ideal.ofBits .f32 0x3F800000#32 = 1 := by
  simp [Ideal.ofBits, Ideal.ieee, -EReal.coe_mul]; norm_num

/-- Whatever the comparison answered (`c`) and whatever stands in the unused branch (`u`), the reference's
    `1 * (exp (if c then u else z) - 1)` under the choice is the kernel's `exp z - 1` under the same choice. -/
theorem elu_entry (z u : EReal) (c : BitVec 1) :
    Scalar.select c z (Ideal.ofBits .f32 0x3F800000#32 * (Ideal.exp (Scalar.select c u z) - 1))
      = Scalar.select c z (Ideal.exp z - Ideal.ofBits .f32 0x3F800000#32) := by
  rcases BitVec.eq_zero_or_eq_one c with h | h <;> subst h
  · simp [Scalar.select, ofBits_one]
  · simp [Scalar.select]

end Cert.Net

end
-- ==== Proof.Bridge.lean ====
/-
  The reference's network and the kernel's network are one function of the argument arrays, on the extended reals.
  Piece by piece: the edge lists, the edges' normalisation and a propagation step are the same host terms in both
  programs; a diffusion update is the same three pointwise operations with the same two constants; a projection is
  the same sum of products plus the same bias entry, whether the bias comes as a vector broadcast along the rows
  or as a one-row matrix; and the exponential linear unit agrees entry by entry (`Cert.Net.elu_entry`). No law used
  here asks for a finite entry.
-/
import proofs.«149349_j76854144794846_1_alg».proof.Proof.KNet
import proofs.«149349_j76854144794846_1_alg».proof.Proof.Ref.Stages
import proofs.«149349_j76854144794846_1_alg».proof.Proof.Regions.LinHost
import proofs.«149349_j76854144794846_1_alg».proof.Proof.EluLaw

noncomputable section

namespace Cert.ReferenceIdeal.Bridge

open Idealize.ShloMosaic
open Cert.KernelIdeal.KStage Cert.KernelIdeal.KNet Cert.KernelIdeal.RegionValue

variable (ei : (⟨S2x800000, .i32⟩ : BufTy).Contents (Elt Ideal))

/-! ## The host stages: the same terms -/

theorem srcI_eq : Stage.srcI ei = srcI ei := rfl
theorem dstI_eq : Stage.dstI ei = dstI ei := rfl
theorem nrm_eq : Stage.nrm ei = nrm (srcI ei) (dstI ei) := rfl

theorem agg128_eq (n : FVec Ideal S850000 .f32) (h : FVec Ideal S50000x128 .f32) :
    Stage.agg128 ei n h = agg128 (srcI ei) (dstI ei) n h := rfl
theorem agg64_eq (n : FVec Ideal S850000 .f32) (h : FVec Ideal S50000x64 .f32) :
    Stage.agg64 ei n h = agg64 (srcI ei) (dstI ei) n h := rfl

/-! ## The pointwise stages -/

theorem comb128_eq (xl a : FVec Ideal S50000x128 .f32) : Stage.comb128 (F := Ideal) xl a = Gcomb128 xl a := rfl
theorem comb64_eq (xl a : FVec Ideal S50000x64 .f32) : Stage.comb64 (F := Ideal) xl a = Gcomb64 xl a := rfl

/-- The exponential linear unit of a sum, entry by entry. -/
theorem elu128_eq (a b : FVec Ideal S50000x128 .f32) : Stage.elu128 (F := Ideal) (addf a b) = Gelu128 a b := by
  funext i
  exact Cert.Net.elu_entry _ _ _

/-! ## The projections -/

theorem lin256x128_eq (x : FVec Ideal S50000x256 .f32) (w : FVec Ideal S256x128 .f32) (b : FVec Ideal S128 .f32) :
    Stage.lin256x128 (F := Ideal) x w b = Glin256x128 x w (row128 b) := linHost256x128 x w b
theorem lin128x128_eq (x : FVec Ideal S50000x128 .f32) (w : FVec Ideal S128x128 .f32) (b : FVec Ideal S128 .f32) :
    Stage.lin128x128 (F := Ideal) x w b = Glin128x128 x w (row128 b) := linHost128x128 x w b
theorem lin128x64_eq (x : FVec Ideal S50000x128 .f32) (w : FVec Ideal S128x64 .f32) (b : FVec Ideal S64 .f32) :
    Stage.lin128x64 (F := Ideal) x w b = Glin128x64 x w (row64 b) := linHost128x64 x w b

/-! ## The diffusion, the layers, the network -/

theorem hops128_eq (xl : FVec Ideal S50000x128 .f32) :
    Stage.hops128 ei xl = hops128 (srcI ei) (dstI ei) (nrm (srcI ei) (dstI ei)) xl := by
  unfold Stage.hops128 hops128
  simp only [comb128_eq, agg128_eq, nrm_eq]

theorem hops64_eq (xl : FVec Ideal S50000x64 .f32) :
    Stage.hops64 ei xl = hops64 (srcI ei) (dstI ei) (nrm (srcI ei) (dstI ei)) xl := by
  unfold Stage.hops64 hops64
  simp only [comb64_eq, agg64_eq, nrm_eq]

theorem layer1_eq (x : FVec Ideal S50000x256 .f32) (wc : FVec Ideal S256x128 .f32) (bc : FVec Ideal S128 .f32)
    (wl : FVec Ideal S256x128 .f32) (bl : FVec Ideal S128 .f32) :
    Stage.layer1 x ei wc bc wl bl = layer1 (srcI ei) (dstI ei) (nrm (srcI ei) (dstI ei)) x wc bc wl bl := by
  unfold Stage.layer1 layer1
  rw [lin256x128_eq, lin256x128_eq, hops128_eq, elu128_eq]

theorem layer2_eq (h : FVec Ideal S50000x128 .f32) (wc : FVec Ideal S128x128 .f32) (bc : FVec Ideal S128 .f32)
    (wl : FVec Ideal S128x128 .f32) (bl : FVec Ideal S128 .f32) :
    Stage.layer2 h ei wc bc wl bl = layer2 (srcI ei) (dstI ei) (nrm (srcI ei) (dstI ei)) h wc bc wl bl := by
  unfold Stage.layer2 layer2
  rw [lin128x128_eq, lin128x128_eq, hops128_eq, elu128_eq]

theorem layer3_eq (h : FVec Ideal S50000x128 .f32) (wc : FVec Ideal S128x64 .f32) (bc : FVec Ideal S64 .f32)
    (wl : FVec Ideal S128x64 .f32) (bl : FVec Ideal S64 .f32) :
    Stage.layer3 h ei wc bc wl bl = layer3 (srcI ei) (dstI ei) (nrm (srcI ei) (dstI ei)) h wc bc wl bl := by
  unfold Stage.layer3 layer3
  rw [lin128x64_eq, lin128x64_eq, hops64_eq]
  rfl

/-- The reference's network is the kernel's network. -/
theorem net_eq (x : FVec Ideal S50000x256 .f32)
    (wc1 : FVec Ideal S256x128 .f32) (bc1 : FVec Ideal S128 .f32) (wl1 : FVec Ideal S256x128 .f32) (bl1 : FVec Ideal S128 .f32)
    (wc2 : FVec Ideal S128x128 .f32) (bc2 : FVec Ideal S128 .f32) (wl2 : FVec Ideal S128x128 .f32) (bl2 : FVec Ideal S128 .f32)
    (wc3 : FVec Ideal S128x64 .f32) (bc3 : FVec Ideal S64 .f32) (wl3 : FVec Ideal S128x64 .f32) (bl3 : FVec Ideal S64 .f32) :
    Stage.net x ei wc1 bc1 wl1 bl1 wc2 bc2 wl2 bl2 wc3 bc3 wl3 bl3 = net x ei wc1 bc1 wl1 bl1 wc2 bc2 wl2 bl2 wc3 bc3 wl3 bl3 := by
  unfold Stage.net net
  rw [layer1_eq, layer2_eq, layer3_eq]

end Cert.ReferenceIdeal.Bridge

end
-- ==== Proof.Ref.Ops0.lean ====
import proofs.«149349_j76854144794846_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 0 to 3 (counted from 0) of window 0 of the reference's @main, in order (a call's operations at the call site, over the call's record). -/
abbrev ops0_0 : List (HloOp τ sig (Elt F)) :=
  [ StableHlo.binary main_arg0 main_arg2 main_v0 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg3 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S50000x128 ![0, 1] bcast_S1x128_S50000x128_0_1 : (⟨S1x128, .f32⟩ : BufTy).Contents (Elt F) → (⟨S50000x128, .f32⟩ : BufTy).Contents (Elt F)),
    StableHlo.binary main_v0 main_v2 main_v3 (addf : (⟨S50000x128, .f32⟩ : BufTy).Contents (Elt F) → (⟨S50000x128, .f32⟩ : BufTy).Contents (Elt F) → (⟨S50000x128, .f32⟩ : BufTy).Contents (Elt F)) ]

/-- Operations 4 to 10 (counted from 0) of window 0 of the reference's @main, in order (a call's operations at the call site, over the call's record). -/
abbrev ops0_1 : List (HloOp τ sig (Elt F)) :=
  [ StableHlo.nullary main_v4 (iotaInDim S50000 32 0),
    StableHlo.unary main_arg1 main_v5 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v5 main_v6 rfl shapeCasts_S1x800000_S800000,
    StableHlo.binary main_v6 main_v4 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v8 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v8 main_v9 rfl shapeCasts_S1x800000_S800000,
    StableHlo.binary main_v9 main_v4 main_v10 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- Operations 11 to 39 (counted from 0) of window 0 of the reference's @main, in order (a call's operations at the call site, over the call's record). -/
abbrev ops0_2 : List (HloOp τ sig (Elt F)) :=
  [ StableHlo.nullary main_cst (constant S_ .f32 0x3F800000#32),
    StableHlo.unary main_cst main_v11 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v12 (broadcastInDim S50000 ![] bcast_S_S50000 : (⟨S_, .f32⟩ : BufTy).Contents (Elt F) → (⟨S50000, .f32⟩ : BufTy).Contents (Elt F)),
    StableHlo.unary main_v10 main_v13 (broadcastInDim S850000x1 ![0] bcast_S850000_S850000x1_0 : (⟨S850000, .i32⟩ : BufTy).Contents (Elt F) → (⟨S850000x1, .i32⟩ : BufTy).Contents (Elt F)),
    StableHlo.ternary main_v12 main_v13 main_v11 main_v14 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x2B8CBCCC#32),
    StableHlo.unary main_cst_1 main_v15 (broadcastInDim S50000 ![] bcast_S_S50000 : (⟨S_, .f32⟩ : BufTy).Contents (Elt F) → (⟨S50000, .f32⟩ : BufTy).Contents (Elt F)),
    StableHlo.binary main_v14 main_v15 main_v16 (maximumf : (⟨S50000, .f32⟩ : BufTy).Contents (Elt F) → (⟨S50000, .f32⟩ : BufTy).Contents (Elt F) → (⟨S50000, .f32⟩ : BufTy).Contents (Elt F)),
    StableHlo.unary main_v16 main_v17 (Host.rsqrt : (⟨S50000, .f32⟩ : BufTy).Contents (Elt F) → (⟨S50000, .f32⟩ : BufTy).Contents (Elt F)),
    StableHlo.nullary main_c (constantI S_ 32 0#32),
    StableHlo.unary main_c main_v18 (broadcastInDim S850000 ![] bcast_S_S850000 : (⟨S_, .i32⟩ : BufTy).Contents (Elt F) → (⟨S850000, .i32⟩ : BufTy).Contents (Elt F)),
    StableHlo.binary main_v7 main_v18 main_v19 (cmpi .slt : (⟨S850000, .i32⟩ : BufTy).Contents (Elt F) → (⟨S850000, .i32⟩ : BufTy).Contents (Elt F) → (⟨S850000, .i1⟩ : BufTy).Contents (Elt F)),
    StableHlo.nullary main_c_2 (constantI S_ 32 50000#32),
    StableHlo.unary main_c_2 main_v20 (broadcastInDim S850000 ![] bcast_S_S850000 : (⟨S_, .i32⟩ : BufTy).Contents (Elt F) → (⟨S850000, .i32⟩ : BufTy).Contents (Elt F)),
    StableHlo.binary main_v7 main_v20 main_v21 (addi : (⟨S850000, .i32⟩ : BufTy).Contents (Elt F) → (⟨S850000, .i32⟩ : BufTy).Contents (Elt F) → (⟨S850000, .i32⟩ : BufTy).Contents (Elt F)),
    StableHlo.ternary main_v19 main_v21 main_v7 main_v22 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v22 main_v23 (broadcastInDim S850000x1 ![0] bcast_S850000_S850000x1_0 : (⟨S850000, .i32⟩ : BufTy).Contents (Elt F) → (⟨S850000x1, .i32⟩ : BufTy).Contents (Elt F)),
    StableHlo.binary main_v17 main_v23 main_v24 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_3 (constantI S_ 32 0#32),
    StableHlo.unary main_c_3 main_v25 (broadcastInDim S850000 ![] bcast_S_S850000 : (⟨S_, .i32⟩ : BufTy).Contents (Elt F) → (⟨S850000, .i32⟩ : BufTy).Contents (Elt F)),
    StableHlo.binary main_v10 main_v25 main_v26 (cmpi .slt : (⟨S850000, .i32⟩ : BufTy).Contents (Elt F) → (⟨S850000, .i32⟩ : BufTy).Contents (Elt F) → (⟨S850000, .i1⟩ : BufTy).Contents (Elt F)),
    StableHlo.nullary main_c_4 (constantI S_ 32 50000#32),
    StableHlo.unary main_c_4 main_v27 (broadcastInDim S850000 ![] bcast_S_S850000 : (⟨S_, .i32⟩ : BufTy).Contents (Elt F) → (⟨S850000, .i32⟩ : BufTy).Contents (Elt F)),
    StableHlo.binary main_v10 main_v27 main_v28 (addi : (⟨S850000, .i32⟩ : BufTy).Contents (Elt F) → (⟨S850000, .i32⟩ : BufTy).Contents (Elt F) → (⟨S850000, .i32⟩ : BufTy).Contents (Elt F)),
    StableHlo.ternary main_v26 main_v28 main_v10 main_v29 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v29 main_v30 (broadcastInDim S850000x1 ![0] bcast_S850000_S850000x1_0 : (⟨S850000, .i32⟩ : BufTy).Contents (Elt F) → (⟨S850000x1, .i32⟩ : BufTy).Contents (Elt F)),
    StableHlo.binary main_v17 main_v30 main_v31 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v24 main_v31 main_v32 (mulf : (⟨S850000, .f32⟩ : BufTy).Contents (Elt F) → (⟨S850000, .f32⟩ : BufTy).Contents (Elt F) → (⟨S850000, .f32⟩ : BufTy).Contents (Elt F)) ]

/-- Operations 40 to 59 (counted from 0) of window 0 of the reference's @main, in order (a call's operations at the call site, over the call's record). -/
abbrev ops0_3 : List (HloOp τ sig (Elt F)) :=
  [ StableHlo.nullary main_c_5 (constantI S_ 32 0#32),
    StableHlo.unary main_c_5 main_v33 (broadcastInDim S850000 ![] bcast_S_S850000 : (⟨S_, .i32⟩ : BufTy).Contents (Elt F) → (⟨S850000, .i32⟩ : BufTy).Contents (Elt F)),
    StableHlo.binary main_v7 main_v33 main_v34 (cmpi .slt : (⟨S850000, .i32⟩ : BufTy).Contents (Elt F) → (⟨S850000, .i32⟩ : BufTy).Contents (Elt F) → (⟨S850000, .i1⟩ : BufTy).Contents (Elt F)),
    StableHlo.nullary main_c_6 (constantI S_ 32 50000#32),
    StableHlo.unary main_c_6 main_v35 (broadcastInDim S850000 ![] bcast_S_S850000 : (⟨S_, .i32⟩ : BufTy).Contents (Elt F) → (⟨S850000, .i32⟩ : BufTy).Contents (Elt F)),
    StableHlo.binary main_v7 main_v35 main_v36 (addi : (⟨S850000, .i32⟩ : BufTy).Contents (Elt F) → (⟨S850000, .i32⟩ : BufTy).Contents (Elt F) → (⟨S850000, .i32⟩ : BufTy).Contents (Elt F)),
    StableHlo.ternary main_v34 main_v36 main_v7 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v37 main_v38 (broadcastInDim S850000x1 ![0] bcast_S850000_S850000x1_0 : (⟨S850000, .i32⟩ : BufTy).Contents (Elt F) → (⟨S850000x1, .i32⟩ : BufTy).Contents (Elt F)),
    StableHlo.binary main_v3 main_v38 main_v39 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v32 main_v40 (broadcastInDim S850000x1 ![0] bcast_S850000_S850000x1_0 : (⟨S850000, .f32⟩ : BufTy).Contents (Elt F) → (⟨S850000x1, .f32⟩ : BufTy).Contents (Elt F)),
    StableHlo.unary main_v40 main_v41 (broadcastInDim S850000x128 ![0, 1] bcast_S850000x1_S850000x128_0_1 : (⟨S850000x1, .f32⟩ : BufTy).Contents (Elt F) → (⟨S850000x128, .f32⟩ : BufTy).Contents (Elt F)),
    StableHlo.binary main_v39 main_v41 main_v42 (mulf : (⟨S850000x128, .f32⟩ : BufTy).Contents (Elt F) → (⟨S850000x128, .f32⟩ : BufTy).Contents (Elt F) → (⟨S850000x128, .f32⟩ : BufTy).Contents (Elt F)),
    StableHlo.nullary main_cst_7 (constant S_ .f32 0x00000000#32),
    StableHlo.unary main_cst_7 main_v43 (broadcastInDim S50000x128 ![] bcast_S_S50000x128 : (⟨S_, .f32⟩ : BufTy).Contents (Elt F) → (⟨S50000x128, .f32⟩ : BufTy).Contents (Elt F)),
    StableHlo.unary main_v10 main_v44 (broadcastInDim S850000x1 ![0] bcast_S850000_S850000x1_0 : (⟨S850000, .i32⟩ : BufTy).Contents (Elt F) → (⟨S850000x1, .i32⟩ : BufTy).Contents (Elt F)),
    StableHlo.ternary main_v43 main_v44 main_v42 main_v45 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.nullary main_cst_8 (constant S_ .f32 0x3F19999A#32),
    StableHlo.unary main_cst_8 main_v46 (broadcastInDim S50000x128 ![] bcast_S_S50000x128 : (⟨S_, .f32⟩ : BufTy).Contents (Elt F) → (⟨S50000x128, .f32⟩ : BufTy).Contents (Elt F)),
    StableHlo.binary main_v46 main_v45 main_v47 (mulf : (⟨S50000x128, .f32⟩ : BufTy).Contents (Elt F) → (⟨S50000x128, .f32⟩ : BufTy).Contents (Elt F) → (⟨S50000x128, .f32⟩ : BufTy).Contents (Elt F)),
    StableHlo.binary main_v3 main_v47 main_v48 (addf : (⟨S50000x128, .f32⟩ : BufTy).Contents (Elt F) → (⟨S50000x128, .f32⟩ : BufTy).Contents (Elt F) → (⟨S50000x128, .f32⟩ : BufTy).Contents (Elt F)) ]

/-- The 60 operations of window 0 of the reference's @main, in order: its pieces concatenated. -/
abbrev ops0 : List (HloOp τ sig (Elt F)) := ops0_0 ++ ops0_1 ++ ops0_2 ++ ops0_3

end Cert.ReferenceIdeal.RefRun

end
-- ==== Proof.Ref.Lib.lean ====
import Idealize.ShloMosaic.Lib.StableHlo.Run

/-! Two facts about a straight line of host operations, used to read the reference's run part by part.

* The contents after a concatenation of two lines are the contents after the second line, started from the
  contents after the first.
* If every operation of a line writes only buffers whose index is at least `n`, a buffer of index below `n`
  holds after the line what it held before: the program's arguments are its first buffers, every operation's
  result a later one. -/

namespace Cert.ReferenceIdeal.RefRun

open Idealize.ShloMosaic Idealize.ShloMosaic.StableHlo

variable {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => exact ih _

/-- No operation of the line writes a TensorCore buffer of index below `n`. -/
def WritesFrom (n : Nat) (ops : List (HloOp τ sig Val)) : Prop :=
  ∀ op ∈ ops, ∀ r : Ref sig .tc, r.idx.val < n → Proc.devRef (τ := τ) .tc r ∉ op.writes

theorem WritesFrom.mono {n n' : Nat} {l : List (HloOp τ sig Val)} (h : WritesFrom n' l) (hn : n ≤ n') : WritesFrom n l :=
  fun op hop r hr => h op hop r (Nat.lt_of_lt_of_le hr hn)

theorem WritesFrom.append {n : Nat} {l₁ l₂ : List (HloOp τ sig Val)} (h₁ : WritesFrom n l₁) (h₂ : WritesFrom n l₂) :
    WritesFrom n (l₁ ++ l₂) :=
  fun op hop => (List.mem_append.mp hop).elim (h₁ op) (h₂ op)

/-- A buffer of index below `n` is not the buffer of index at least `n`. -/
theorem not_devRef_eq {n : Nat} {y : Ref sig .tc} (hy : n ≤ y.idx.val) :
    ∀ r : Ref sig .tc, r.idx.val < n → ¬ Proc.devRef (τ := τ) .tc r = Proc.devRef .tc y := by
  intro r hr e
  have h := Proc.devRef_injective _ e
  subst h
  omega

theorem after_of_writesFrom {n : Nat} {ops : List (HloOp τ sig Val)} (h : WritesFrom n ops) (V : Valuation τ sig Val)
    (r : Ref sig .tc) (hr : r.idx.val < n) : after ops V (Proc.devRef .tc r) = V (Proc.devRef .tc r) :=
  after_of_forall_not_mem ops V fun op hop => h op hop r hr

theorem forall_mem_append {p : HloOp τ sig Val → Prop} {l₁ l₂ : List (HloOp τ sig Val)} (h₁ : ∀ op ∈ l₁, p op) (h₂ : ∀ op ∈ l₂, p op) :
    ∀ op ∈ l₁ ++ l₂, p op :=
  fun op hop => (List.mem_append.mp hop).elim (h₁ op) (h₂ op)

theorem forall_append {p : HloOp τ sig Val → Prop} {l₁ l₂ : List (HloOp τ sig Val)} (h₁ : l₁.Forall p) (h₂ : l₂.Forall p) :
    (l₁ ++ l₂).Forall p :=
  List.forall_iff_forall_mem.mpr fun op hop =>
    (List.mem_append.mp hop).elim (List.forall_iff_forall_mem.mp h₁ op) (List.forall_iff_forall_mem.mp h₂ op)

end Cert.ReferenceIdeal.RefRun
-- ==== Proof.Ref.Part0.lean ====
import proofs.«149349_j76854144794846_1_alg».proof.Proof.Ref.Ops0
import proofs.«149349_j76854144794846_1_alg».proof.Proof.Ref.Lib

/-! Statements 1 … 60 of the reference's @main as a straight line of operations: the window is the sequence of
its listed operations, every operation touches TensorCore buffers only and determines its result, and each piece of
the window writes only buffers from its own first result on (every operation's result is a fresh buffer, later in
the signature than every earlier one), so none writes one of the program's fourteen argument buffers. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem part0_eq (c : Dev nD) : main_part0 (F := F) c = StableHlo.seq ops0 := by
  simp only [main_part0, fn_elu.body, fn_where.body, fn_where_0.body, ops0, ops0_0, ops0_1, ops0_2, ops0_3,
    List.cons_append, List.nil_append, seq, bind_assoc, pure_bind] <;> rfl

theorem ops0_sub : (ops0 (F := F)).Forall fun op => op.bufs ⊆ StableHlo.tcRefs τ sig := by
  simp only [ops0, ops0_0, ops0_1, ops0_2, ops0_3, List.cons_append, List.nil_append, List.Forall,
    nullary_bufs_sub, unary_bufs_sub, binary_bufs_sub, ternary_bufs_sub, reshape_bufs_sub, and_self]

theorem ops0_fresh : ∀ op ∈ ops0 (F := F), op.fresh = ∅ := by
  intro _ h
  simp only [ops0, ops0_0, ops0_1, ops0_2, ops0_3, List.cons_append, List.nil_append] at h
  repeat (cases h with | head => rfl | tail _ h => ?_)
  exact nomatch h

theorem ops0_0_writes : WritesFrom 14 (ops0_0 (F := F)) := List.forall_iff_forall_mem.mp (by
  simp only [ops0_0, List.Forall, nullary_writes, unary_writes, binary_writes, ternary_writes, reshape_writes,
    Finset.mem_singleton]
  repeat' apply And.intro
  all_goals exact not_devRef_eq (by decide))

theorem ops0_1_writes : WritesFrom 18 (ops0_1 (F := F)) := List.forall_iff_forall_mem.mp (by
  simp only [ops0_1, List.Forall, nullary_writes, unary_writes, binary_writes, ternary_writes, reshape_writes,
    Finset.mem_singleton]
  repeat' apply And.intro
  all_goals exact not_devRef_eq (by decide))

theorem ops0_2_writes : WritesFrom 25 (ops0_2 (F := F)) := List.forall_iff_forall_mem.mp (by
  simp only [ops0_2, List.Forall, nullary_writes, unary_writes, binary_writes, ternary_writes, reshape_writes,
    Finset.mem_singleton]
  repeat' apply And.intro
  all_goals exact not_devRef_eq (by decide))

theorem ops0_3_writes : WritesFrom 54 (ops0_3 (F := F)) := List.forall_iff_forall_mem.mp (by
  simp only [ops0_3, List.Forall, nullary_writes, unary_writes, binary_writes, ternary_writes, reshape_writes,
    Finset.mem_singleton]
  repeat' apply And.intro
  all_goals exact not_devRef_eq (by decide))

theorem ops0_writes : WritesFrom 14 (ops0 (F := F)) :=
  ((((ops0_0_writes.mono (by decide)).append (ops0_1_writes.mono (by decide))).append (ops0_2_writes.mono (by decide))).append (ops0_3_writes.mono (by decide)))

end Cert.ReferenceIdeal.RefRun

end
-- ==== Proof.Ref.Ops1.lean ====
import proofs.«149349_j76854144794846_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 0 to 2 (counted from 0) of window 1 of the reference's @main, in order (a call's operations at the call site, over the call's record). -/
abbrev ops1_0 : List (HloOp τ sig (Elt F)) :=
  [ StableHlo.nullary main_cst_9 (constant S_ .f32 0x3F200000#32),
    StableHlo.unary main_cst_9 main_v49 (broadcastInDim S50000x128 ![] bcast_S_S50000x128 : (⟨S_, .f32⟩ : BufTy).Contents (Elt F) → (⟨S50000x128, .f32⟩ : BufTy).Contents (Elt F)),
    StableHlo.binary main_v48 main_v49 main_v50 (mulf : (⟨S50000x128, .f32⟩ : BufTy).Contents (Elt F) → (⟨S50000x128, .f32⟩ : BufTy).Contents (Elt F) → (⟨S50000x128, .f32⟩ : BufTy).Contents (Elt F)) ]

/-- Operations 3 to 25 (counted from 0) of window 1 of the reference's @main, in order (a call's operations at the call site, over the call's record). -/
abbrev ops1_1 : List (HloOp τ sig (Elt F)) :=
  [ StableHlo.nullary main_c_10 (constantI S_ 32 0#32),
    StableHlo.unary main_c_10 main_v51 (broadcastInDim S850000 ![] bcast_S_S850000 : (⟨S_, .i32⟩ : BufTy).Contents (Elt F) → (⟨S850000, .i32⟩ : BufTy).Contents (Elt F)),
    StableHlo.binary main_v7 main_v51 main_v52 (cmpi .slt : (⟨S850000, .i32⟩ : BufTy).Contents (Elt F) → (⟨S850000, .i32⟩ : BufTy).Contents (Elt F) → (⟨S850000, .i1⟩ : BufTy).Contents (Elt F)),
    StableHlo.nullary main_c_11 (constantI S_ 32 50000#32),
    StableHlo.unary main_c_11 main_v53 (broadcastInDim S850000 ![] bcast_S_S850000 : (⟨S_, .i32⟩ : BufTy).Contents (Elt F) → (⟨S850000, .i32⟩ : BufTy).Contents (Elt F)),
    StableHlo.binary main_v7 main_v53 main_v54 (addi : (⟨S850000, .i32⟩ : BufTy).Contents (Elt F) → (⟨S850000, .i32⟩ : BufTy).Contents (Elt F) → (⟨S850000, .i32⟩ : BufTy).Contents (Elt F)),
    StableHlo.ternary main_v52 main_v54 main_v7 main_v55 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v55 main_v56 (broadcastInDim S850000x1 ![0] bcast_S850000_S850000x1_0 : (⟨S850000, .i32⟩ : BufTy).Contents (Elt F) → (⟨S850000x1, .i32⟩ : BufTy).Contents (Elt F)),
    StableHlo.binary main_v50 main_v56 main_v57 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v32 main_v58 (broadcastInDim S850000x1 ![0] bcast_S850000_S850000x1_0 : (⟨S850000, .f32⟩ : BufTy).Contents (Elt F) → (⟨S850000x1, .f32⟩ : BufTy).Contents (Elt F)),
    StableHlo.unary main_v58 main_v59 (broadcastInDim S850000x128 ![0, 1] bcast_S850000x1_S850000x128_0_1 : (⟨S850000x1, .f32⟩ : BufTy).Contents (Elt F) → (⟨S850000x128, .f32⟩ : BufTy).Contents (Elt F)),
    StableHlo.binary main_v57 main_v59 main_v60 (mulf : (⟨S850000x128, .f32⟩ : BufTy).Contents (Elt F) → (⟨S850000x128, .f32⟩ : BufTy).Contents (Elt F) → (⟨S850000x128, .f32⟩ : BufTy).Contents (Elt F)),
    StableHlo.nullary main_cst_12 (constant S_ .f32 0x00000000#32),
    StableHlo.unary main_cst_12 main_v61 (broadcastInDim S50000x128 ![] bcast_S_S50000x128 : (⟨S_, .f32⟩ : BufTy).Contents (Elt F) → (⟨S50000x128, .f32⟩ : BufTy).Contents (Elt F)),
    StableHlo.unary main_v10 main_v62 (broadcastInDim S850000x1 ![0] bcast_S850000_S850000x1_0 : (⟨S850000, .i32⟩ : BufTy).Contents (Elt F) → (⟨S850000x1, .i32⟩ : BufTy).Contents (Elt F)),
    StableHlo.ternary main_v61 main_v62 main_v60 main_v63 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.nullary main_cst_13 (constant S_ .f32 0x3F19999A#32),
    StableHlo.unary main_cst_13 main_v64 (broadcastInDim S50000x128 ![] bcast_S_S50000x128 : (⟨S_, .f32⟩ : BufTy).Contents (Elt F) → (⟨S50000x128, .f32⟩ : BufTy).Contents (Elt F)),
    StableHlo.binary main_v64 main_v63 main_v65 (mulf : (⟨S50000x128, .f32⟩ : BufTy).Contents (Elt F) → (⟨S50000x128, .f32⟩ : BufTy).Contents (Elt F) → (⟨S50000x128, .f32⟩ : BufTy).Contents (Elt F)),
    StableHlo.binary main_v3 main_v65 main_v66 (addf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x3F200000#32),
    StableHlo.unary main_cst_14 main_v67 (broadcastInDim S50000x128 ![] bcast_S_S50000x128 : (⟨S_, .f32⟩ : BufTy).Contents (Elt F) → (⟨S50000x128, .f32⟩ : BufTy).Contents (Elt F)),
    StableHlo.binary main_v66 main_v67 main_v68 (mulf : (⟨S50000x128, .f32⟩ : BufTy).Contents (Elt F) → (⟨S50000x128, .f32⟩ : BufTy).Contents (Elt F) → (⟨S50000x128, .f32⟩ : BufTy).Contents (Elt F)) ]

/-- Operations 26 to 48 (counted from 0) of window 1 of the reference's @main, in order (a call's operations at the call site, over the call's record). -/
abbrev ops1_2 : List (HloOp τ sig (Elt F)) :=
  [ StableHlo.nullary main_c_15 (constantI S_ 32 0#32),
    StableHlo.unary main_c_15 main_v69 (broadcastInDim S850000 ![] bcast_S_S850000 : (⟨S_, .i32⟩ : BufTy).Contents (Elt F) → (⟨S850000, .i32⟩ : BufTy).Contents (Elt F)),
    StableHlo.binary main_v7 main_v69 main_v70 (cmpi .slt : (⟨S850000, .i32⟩ : BufTy).Contents (Elt F) → (⟨S850000, .i32⟩ : BufTy).Contents (Elt F) → (⟨S850000, .i1⟩ : BufTy).Contents (Elt F)),
    StableHlo.nullary main_c_16 (constantI S_ 32 50000#32),
    StableHlo.unary main_c_16 main_v71 (broadcastInDim S850000 ![] bcast_S_S850000 : (⟨S_, .i32⟩ : BufTy).Contents (Elt F) → (⟨S850000, .i32⟩ : BufTy).Contents (Elt F)),
    StableHlo.binary main_v7 main_v71 main_v72 (addi : (⟨S850000, .i32⟩ : BufTy).Contents (Elt F) → (⟨S850000, .i32⟩ : BufTy).Contents (Elt F) → (⟨S850000, .i32⟩ : BufTy).Contents (Elt F)),
    StableHlo.ternary main_v70 main_v72 main_v7 main_v73 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v73 main_v74 (broadcastInDim S850000x1 ![0] bcast_S850000_S850000x1_0 : (⟨S850000, .i32⟩ : BufTy).Contents (Elt F) → (⟨S850000x1, .i32⟩ : BufTy).Contents (Elt F)),
    StableHlo.binary main_v68 main_v74 main_v75 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v32 main_v76 (broadcastInDim S850000x1 ![0] bcast_S850000_S850000x1_0 : (⟨S850000, .f32⟩ : BufTy).Contents (Elt F) → (⟨S850000x1, .f32⟩ : BufTy).Contents (Elt F)),
    StableHlo.unary main_v76 main_v77 (broadcastInDim S850000x128 ![0, 1] bcast_S850000x1_S850000x128_0_1 : (⟨S850000x1, .f32⟩ : BufTy).Contents (Elt F) → (⟨S850000x128, .f32⟩ : BufTy).Contents (Elt F)),
    StableHlo.binary main_v75 main_v77 main_v78 (mulf : (⟨S850000x128, .f32⟩ : BufTy).Contents (Elt F) → (⟨S850000x128, .f32⟩ : BufTy).Contents (Elt F) → (⟨S850000x128, .f32⟩ : BufTy).Contents (Elt F)),
    StableHlo.nullary main_cst_17 (constant S_ .f32 0x00000000#32),
    StableHlo.unary main_cst_17 main_v79 (broadcastInDim S50000x128 ![] bcast_S_S50000x128 : (⟨S_, .f32⟩ : BufTy).Contents (Elt F) → (⟨S50000x128, .f32⟩ : BufTy).Contents (Elt F)),
    StableHlo.unary main_v10 main_v80 (broadcastInDim S850000x1 ![0] bcast_S850000_S850000x1_0 : (⟨S850000, .i32⟩ : BufTy).Contents (Elt F) → (⟨S850000x1, .i32⟩ : BufTy).Contents (Elt F)),
    StableHlo.ternary main_v79 main_v80 main_v78 main_v81 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.nullary main_cst_18 (constant S_ .f32 0x3F19999A#32),
    StableHlo.unary main_cst_18 main_v82 (broadcastInDim S50000x128 ![] bcast_S_S50000x128 : (⟨S_, .f32⟩ : BufTy).Contents (Elt F) → (⟨S50000x128, .f32⟩ : BufTy).Contents (Elt F)),
    StableHlo.binary main_v82 main_v81 main_v83 (mulf : (⟨S50000x128, .f32⟩ : BufTy).Contents (Elt F) → (⟨S50000x128, .f32⟩ : BufTy).Contents (Elt F) → (⟨S50000x128, .f32⟩ : BufTy).Contents (Elt F)),
    StableHlo.binary main_v3 main_v83 main_v84 (addf : (⟨S50000x128, .f32⟩ : BufTy).Contents (Elt F) → (⟨S50000x128, .f32⟩ : BufTy).Contents (Elt F) → (⟨S50000x128, .f32⟩ : BufTy).Contents (Elt F)),
    StableHlo.nullary main_cst_19 (constant S_ .f32 0x3F200000#32),
    StableHlo.unary main_cst_19 main_v85 (broadcastInDim S50000x128 ![] bcast_S_S50000x128 : (⟨S_, .f32⟩ : BufTy).Contents (Elt F) → (⟨S50000x128, .f32⟩ : BufTy).Contents (Elt F)),
    StableHlo.binary main_v84 main_v85 main_v86 (mulf : (⟨S50000x128, .f32⟩ : BufTy).Contents (Elt F) → (⟨S50000x128, .f32⟩ : BufTy).Contents (Elt F) → (⟨S50000x128, .f32⟩ : BufTy).Contents (Elt F)) ]

/-- Operations 49 to 59 (counted from 0) of window 1 of the reference's @main, in order (a call's operations at the call site, over the call's record). -/
abbrev ops1_3 : List (HloOp τ sig (Elt F)) :=
  [ StableHlo.nullary main_c_20 (constantI S_ 32 0#32),
    StableHlo.unary main_c_20 main_v87 (broadcastInDim S850000 ![] bcast_S_S850000 : (⟨S_, .i32⟩ : BufTy).Contents (Elt F) → (⟨S850000, .i32⟩ : BufTy).Contents (Elt F)),
    StableHlo.binary main_v7 main_v87 main_v88 (cmpi .slt : (⟨S850000, .i32⟩ : BufTy).Contents (Elt F) → (⟨S850000, .i32⟩ : BufTy).Contents (Elt F) → (⟨S850000, .i1⟩ : BufTy).Contents (Elt F)),
    StableHlo.nullary main_c_21 (constantI S_ 32 50000#32),
    StableHlo.unary main_c_21 main_v89 (broadcastInDim S850000 ![] bcast_S_S850000 : (⟨S_, .i32⟩ : BufTy).Contents (Elt F) → (⟨S850000, .i32⟩ : BufTy).Contents (Elt F)),
    StableHlo.binary main_v7 main_v89 main_v90 (addi : (⟨S850000, .i32⟩ : BufTy).Contents (Elt F) → (⟨S850000, .i32⟩ : BufTy).Contents (Elt F) → (⟨S850000, .i32⟩ : BufTy).Contents (Elt F)),
    StableHlo.ternary main_v88 main_v90 main_v7 main_v91 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v91 main_v92 (broadcastInDim S850000x1 ![0] bcast_S850000_S850000x1_0 : (⟨S850000, .i32⟩ : BufTy).Contents (Elt F) → (⟨S850000x1, .i32⟩ : BufTy).Contents (Elt F)),
    StableHlo.binary main_v86 main_v92 main_v93 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v32 main_v94 (broadcastInDim S850000x1 ![0] bcast_S850000_S850000x1_0 : (⟨S850000, .f32⟩ : BufTy).Contents (Elt F) → (⟨S850000x1, .f32⟩ : BufTy).Contents (Elt F)),
    StableHlo.unary main_v94 main_v95 (broadcastInDim S850000x128 ![0, 1] bcast_S850000x1_S850000x128_0_1 : (⟨S850000x1, .f32⟩ : BufTy).Contents (Elt F) → (⟨S850000x128, .f32⟩ : BufTy).Contents (Elt F)) ]

/-- The 60 operations of window 1 of the reference's @main, in order: its pieces concatenated. -/
abbrev ops1 : List (HloOp τ sig (Elt F)) := ops1_0 ++ ops1_1 ++ ops1_2 ++ ops1_3

end Cert.ReferenceIdeal.RefRun

end
-- ==== Proof.Ref.Part1.lean ====
import proofs.«149349_j76854144794846_1_alg».proof.Proof.Ref.Ops1
import proofs.«149349_j76854144794846_1_alg».proof.Proof.Ref.Lib

/-! Statements 61 … 120 of the reference's @main as a straight line of operations: the window is the sequence of
its listed operations, every operation touches TensorCore buffers only and determines its result, and each piece of
the window writes only buffers from its own first result on (every operation's result is a fresh buffer, later in
the signature than every earlier one), so none writes one of the program's fourteen argument buffers. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem part1_eq (c : Dev nD) : main_part1 (F := F) c = StableHlo.seq ops1 := by
  simp only [main_part1, fn_elu.body, fn_where.body, fn_where_0.body, ops1, ops1_0, ops1_1, ops1_2, ops1_3,
    List.cons_append, List.nil_append, seq, bind_assoc, pure_bind] <;> rfl

theorem ops1_sub : (ops1 (F := F)).Forall fun op => op.bufs ⊆ StableHlo.tcRefs τ sig := by
  simp only [ops1, ops1_0, ops1_1, ops1_2, ops1_3, List.cons_append, List.nil_append, List.Forall,
    nullary_bufs_sub, unary_bufs_sub, binary_bufs_sub, ternary_bufs_sub, reshape_bufs_sub, and_self]

theorem ops1_fresh : ∀ op ∈ ops1 (F := F), op.fresh = ∅ := by
  intro _ h
  simp only [ops1, ops1_0, ops1_1, ops1_2, ops1_3, List.cons_append, List.nil_append] at h
  repeat (cases h with | head => rfl | tail _ h => ?_)
  exact nomatch h

theorem ops1_0_writes : WritesFrom 74 (ops1_0 (F := F)) := List.forall_iff_forall_mem.mp (by
  simp only [ops1_0, List.Forall, nullary_writes, unary_writes, binary_writes, ternary_writes, reshape_writes,
    Finset.mem_singleton]
  repeat' apply And.intro
  all_goals exact not_devRef_eq (by decide))

theorem ops1_1_writes : WritesFrom 77 (ops1_1 (F := F)) := List.forall_iff_forall_mem.mp (by
  simp only [ops1_1, List.Forall, nullary_writes, unary_writes, binary_writes, ternary_writes, reshape_writes,
    Finset.mem_singleton]
  repeat' apply And.intro
  all_goals exact not_devRef_eq (by decide))

theorem ops1_2_writes : WritesFrom 100 (ops1_2 (F := F)) := List.forall_iff_forall_mem.mp (by
  simp only [ops1_2, List.Forall, nullary_writes, unary_writes, binary_writes, ternary_writes, reshape_writes,
    Finset.mem_singleton]
  repeat' apply And.intro
  all_goals exact not_devRef_eq (by decide))

theorem ops1_3_writes : WritesFrom 123 (ops1_3 (F := F)) := List.forall_iff_forall_mem.mp (by
  simp only [ops1_3, List.Forall, nullary_writes, unary_writes, binary_writes, ternary_writes, reshape_writes,
    Finset.mem_singleton]
  repeat' apply And.intro
  all_goals exact not_devRef_eq (by decide))

theorem ops1_writes : WritesFrom 14 (ops1 (F := F)) :=
  ((((ops1_0_writes.mono (by decide)).append (ops1_1_writes.mono (by decide))).append (ops1_2_writes.mono (by decide))).append (ops1_3_writes.mono (by decide)))

end Cert.ReferenceIdeal.RefRun

end
-- ==== Proof.Ref.Ops2.lean ====
import proofs.«149349_j76854144794846_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 0 to 11 (counted from 0) of window 2 of the reference's @main, in order (a call's operations at the call site, over the call's record). -/
abbrev ops2_0 : List (HloOp τ sig (Elt F)) :=
  [ StableHlo.binary main_v93 main_v95 main_v96 (mulf : (⟨S850000x128, .f32⟩ : BufTy).Contents (Elt F) → (⟨S850000x128, .f32⟩ : BufTy).Contents (Elt F) → (⟨S850000x128, .f32⟩ : BufTy).Contents (Elt F)),
    StableHlo.nullary main_cst_22 (constant S_ .f32 0x00000000#32),
    StableHlo.unary main_cst_22 main_v97 (broadcastInDim S50000x128 ![] bcast_S_S50000x128 : (⟨S_, .f32⟩ : BufTy).Contents (Elt F) → (⟨S50000x128, .f32⟩ : BufTy).Contents (Elt F)),
    StableHlo.unary main_v10 main_v98 (broadcastInDim S850000x1 ![0] bcast_S850000_S850000x1_0 : (⟨S850000, .i32⟩ : BufTy).Contents (Elt F) → (⟨S850000x1, .i32⟩ : BufTy).Contents (Elt F)),
    StableHlo.ternary main_v97 main_v98 main_v96 main_v99 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.nullary main_cst_23 (constant S_ .f32 0x3F19999A#32),
    StableHlo.unary main_cst_23 main_v100 (broadcastInDim S50000x128 ![] bcast_S_S50000x128 : (⟨S_, .f32⟩ : BufTy).Contents (Elt F) → (⟨S50000x128, .f32⟩ : BufTy).Contents (Elt F)),
    StableHlo.binary main_v100 main_v99 main_v101 (mulf : (⟨S50000x128, .f32⟩ : BufTy).Contents (Elt F) → (⟨S50000x128, .f32⟩ : BufTy).Contents (Elt F) → (⟨S50000x128, .f32⟩ : BufTy).Contents (Elt F)),
    StableHlo.binary main_v3 main_v101 main_v102 (addf : (⟨S50000x128, .f32⟩ : BufTy).Contents (Elt F) → (⟨S50000x128, .f32⟩ : BufTy).Contents (Elt F) → (⟨S50000x128, .f32⟩ : BufTy).Contents (Elt F)),
    StableHlo.nullary main_cst_24 (constant S_ .f32 0x3F200000#32),
    StableHlo.unary main_cst_24 main_v103 (broadcastInDim S50000x128 ![] bcast_S_S50000x128 : (⟨S_, .f32⟩ : BufTy).Contents (Elt F) → (⟨S50000x128, .f32⟩ : BufTy).Contents (Elt F)),
    StableHlo.binary main_v102 main_v103 main_v104 (mulf : (⟨S50000x128, .f32⟩ : BufTy).Contents (Elt F) → (⟨S50000x128, .f32⟩ : BufTy).Contents (Elt F) → (⟨S50000x128, .f32⟩ : BufTy).Contents (Elt F)) ]

/-- Operations 12 to 16 (counted from 0) of window 2 of the reference's @main, in order (a call's operations at the call site, over the call's record). -/
abbrev ops2_1 : List (HloOp τ sig (Elt F)) :=
  [ StableHlo.binary main_arg0 main_arg4 main_v105 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg5 main_v106 (broadcastInDim S1x128 ![1] bcast_S128_S1x128_1 : (⟨S128, .f32⟩ : BufTy).Contents (Elt F) → (⟨S1x128, .f32⟩ : BufTy).Contents (Elt F)),
    StableHlo.unary main_v106 main_v107 (broadcastInDim S50000x128 ![0, 1] bcast_S1x128_S50000x128_0_1 : (⟨S1x128, .f32⟩ : BufTy).Contents (Elt F) → (⟨S50000x128, .f32⟩ : BufTy).Contents (Elt F)),
    StableHlo.binary main_v105 main_v107 main_v108 (addf : (⟨S50000x128, .f32⟩ : BufTy).Contents (Elt F) → (⟨S50000x128, .f32⟩ : BufTy).Contents (Elt F) → (⟨S50000x128, .f32⟩ : BufTy).Contents (Elt F)),
    StableHlo.binary main_v104 main_v108 main_v109 (addf : (⟨S50000x128, .f32⟩ : BufTy).Contents (Elt F) → (⟨S50000x128, .f32⟩ : BufTy).Contents (Elt F) → (⟨S50000x128, .f32⟩ : BufTy).Contents (Elt F)) ]

/-- Operations 17 to 31 (counted from 0) of window 2 of the reference's @main, in order (a call's operations at the call site, over the call's record). -/
abbrev ops2_2 : List (HloOp τ sig (Elt F)) :=
  [ StableHlo.TRef.nullary main_call0.cst (constant S_ .f32 0x00000000#32),
    StableHlo.TRef.unary main_call0.cst main_call0.v0 (broadcastInDim S50000x128 ![] bcast_S_S50000x128),
    StableHlo.TRef.binary (StableHlo.TRef.of main_v109 : StableHlo.TRef sig ⟨S50000x128, .f32⟩) main_call0.v0 main_call0.v1 (cmpf .ogt),
    StableHlo.TRef.nullary main_call0.cst_0 (constant S_ .f32 0x00000000#32),
    StableHlo.TRef.unary main_call0.cst_0 main_call0.v2 (broadcastInDim S50000x128 ![] bcast_S_S50000x128),
    StableHlo.TRef.binary (StableHlo.TRef.of main_v109 : StableHlo.TRef sig ⟨S50000x128, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S50000x128 ![] bcast_S_S50000x128),
    StableHlo.TRef.ternary main_call0.v3 main_call0.call0.v1 (StableHlo.TRef.of main_v109 : StableHlo.TRef sig ⟨S50000x128, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S50000x128 ![] bcast_S_S50000x128),
    StableHlo.TRef.binary main_call0.v6 main_call0.v5 main_call0.v7 mulf,
    StableHlo.TRef.ternary main_call0.v1 (StableHlo.TRef.of main_v109 : StableHlo.TRef sig ⟨S50000x128, .f32⟩) main_call0.v7 main_call0.call1.v0 select ]

/-- Operations 32 to 35 (counted from 0) of window 2 of the reference's @main, in order (a call's operations at the call site, over the call's record). -/
abbrev ops2_3 : List (HloOp τ sig (Elt F)) :=
  [ StableHlo.binary main_v110 main_arg6 main_v111 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S50000x128 ![0, 1] bcast_S1x128_S50000x128_0_1 : (⟨S1x128, .f32⟩ : BufTy).Contents (Elt F) → (⟨S50000x128, .f32⟩ : BufTy).Contents (Elt F)),
    StableHlo.binary main_v111 main_v113 main_v114 (addf : (⟨S50000x128, .f32⟩ : BufTy).Contents (Elt F) → (⟨S50000x128, .f32⟩ : BufTy).Contents (Elt F) → (⟨S50000x128, .f32⟩ : BufTy).Contents (Elt F)) ]

/-- Operations 36 to 42 (counted from 0) of window 2 of the reference's @main, in order (a call's operations at the call site, over the call's record). -/
abbrev ops2_4 : List (HloOp τ sig (Elt F)) :=
  [ StableHlo.nullary main_v115 (iotaInDim S50000 32 0),
    StableHlo.unary main_arg1 main_v116 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v116 main_v117 rfl shapeCasts_S1x800000_S800000,
    StableHlo.binary main_v117 main_v115 main_v118 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v119 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v119 main_v120 rfl shapeCasts_S1x800000_S800000,
    StableHlo.binary main_v120 main_v115 main_v121 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- Operations 43 to 71 (counted from 0) of window 2 of the reference's @main, in order (a call's operations at the call site, over the call's record). -/
abbrev ops2_5 : List (HloOp τ sig (Elt F)) :=
  [ StableHlo.nullary main_cst_25 (constant S_ .f32 0x3F800000#32),
    StableHlo.unary main_cst_25 main_v122 (broadcastInDim S850000 ![] bcast_S_S850000 : (⟨S_, .f32⟩ : BufTy).Contents (Elt F) → (⟨S850000, .f32⟩ : BufTy).Contents (Elt F)),
    StableHlo.nullary main_cst_26 (constant S_ .f32 0x00000000#32),
    StableHlo.unary main_cst_26 main_v123 (broadcastInDim S50000 ![] bcast_S_S50000 : (⟨S_, .f32⟩ : BufTy).Contents (Elt F) → (⟨S50000, .f32⟩ : BufTy).Contents (Elt F)),
    StableHlo.unary main_v121 main_v124 (broadcastInDim S850000x1 ![0] bcast_S850000_S850000x1_0 : (⟨S850000, .i32⟩ : BufTy).Contents (Elt F) → (⟨S850000x1, .i32⟩ : BufTy).Contents (Elt F)),
    StableHlo.ternary main_v123 main_v124 main_v122 main_v125 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_27 (constant S_ .f32 0x2B8CBCCC#32),
    StableHlo.unary main_cst_27 main_v126 (broadcastInDim S50000 ![] bcast_S_S50000 : (⟨S_, .f32⟩ : BufTy).Contents (Elt F) → (⟨S50000, .f32⟩ : BufTy).Contents (Elt F)),
    StableHlo.binary main_v125 main_v126 main_v127 (maximumf : (⟨S50000, .f32⟩ : BufTy).Contents (Elt F) → (⟨S50000, .f32⟩ : BufTy).Contents (Elt F) → (⟨S50000, .f32⟩ : BufTy).Contents (Elt F)),
    StableHlo.unary main_v127 main_v128 (Host.rsqrt : (⟨S50000, .f32⟩ : BufTy).Contents (Elt F) → (⟨S50000, .f32⟩ : BufTy).Contents (Elt F)),
    StableHlo.nullary main_c_28 (constantI S_ 32 0#32),
    StableHlo.unary main_c_28 main_v129 (broadcastInDim S850000 ![] bcast_S_S850000 : (⟨S_, .i32⟩ : BufTy).Contents (Elt F) → (⟨S850000, .i32⟩ : BufTy).Contents (Elt F)),
    StableHlo.binary main_v118 main_v129 main_v130 (cmpi .slt : (⟨S850000, .i32⟩ : BufTy).Contents (Elt F) → (⟨S850000, .i32⟩ : BufTy).Contents (Elt F) → (⟨S850000, .i1⟩ : BufTy).Contents (Elt F)),
    StableHlo.nullary main_c_29 (constantI S_ 32 50000#32),
    StableHlo.unary main_c_29 main_v131 (broadcastInDim S850000 ![] bcast_S_S850000 : (⟨S_, .i32⟩ : BufTy).Contents (Elt F) → (⟨S850000, .i32⟩ : BufTy).Contents (Elt F)),
    StableHlo.binary main_v118 main_v131 main_v132 (addi : (⟨S850000, .i32⟩ : BufTy).Contents (Elt F) → (⟨S850000, .i32⟩ : BufTy).Contents (Elt F) → (⟨S850000, .i32⟩ : BufTy).Contents (Elt F)),
    StableHlo.ternary main_v130 main_v132 main_v118 main_v133 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v133 main_v134 (broadcastInDim S850000x1 ![0] bcast_S850000_S850000x1_0 : (⟨S850000, .i32⟩ : BufTy).Contents (Elt F) → (⟨S850000x1, .i32⟩ : BufTy).Contents (Elt F)),
    StableHlo.binary main_v128 main_v134 main_v135 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_30 (constantI S_ 32 0#32),
    StableHlo.unary main_c_30 main_v136 (broadcastInDim S850000 ![] bcast_S_S850000 : (⟨S_, .i32⟩ : BufTy).Contents (Elt F) → (⟨S850000, .i32⟩ : BufTy).Contents (Elt F)),
    StableHlo.binary main_v121 main_v136 main_v137 (cmpi .slt : (⟨S850000, .i32⟩ : BufTy).Contents (Elt F) → (⟨S850000, .i32⟩ : BufTy).Contents (Elt F) → (⟨S850000, .i1⟩ : BufTy).Contents (Elt F)),
    StableHlo.nullary main_c_31 (constantI S_ 32 50000#32),
    StableHlo.unary main_c_31 main_v138 (broadcastInDim S850000 ![] bcast_S_S850000 : (⟨S_, .i32⟩ : BufTy).Contents (Elt F) → (⟨S850000, .i32⟩ : BufTy).Contents (Elt F)),
    StableHlo.binary main_v121 main_v138 main_v139 (addi : (⟨S850000, .i32⟩ : BufTy).Contents (Elt F) → (⟨S850000, .i32⟩ : BufTy).Contents (Elt F) → (⟨S850000, .i32⟩ : BufTy).Contents (Elt F)),
    StableHlo.ternary main_v137 main_v139 main_v121 main_v140 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v140 main_v141 (broadcastInDim S850000x1 ![0] bcast_S850000_S850000x1_0 : (⟨S850000, .i32⟩ : BufTy).Contents (Elt F) → (⟨S850000x1, .i32⟩ : BufTy).Contents (Elt F)),
    StableHlo.binary main_v128 main_v141 main_v142 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v135 main_v142 main_v143 (mulf : (⟨S850000, .f32⟩ : BufTy).Contents (Elt F) → (⟨S850000, .f32⟩ : BufTy).Contents (Elt F) → (⟨S850000, .f32⟩ : BufTy).Contents (Elt F)) ]

/-- Operations 72 to 73 (counted from 0) of window 2 of the reference's @main, in order (a call's operations at the call site, over the call's record). -/
abbrev ops2_6 : List (HloOp τ sig (Elt F)) :=
  [ StableHlo.nullary main_c_32 (constantI S_ 32 0#32),
    StableHlo.unary main_c_32 main_v144 (broadcastInDim S850000 ![] bcast_S_S850000 : (⟨S_, .i32⟩ : BufTy).Contents (Elt F) → (⟨S850000, .i32⟩ : BufTy).Contents (Elt F)) ]

/-- The 74 operations of window 2 of the reference's @main, in order: its pieces concatenated. -/
abbrev ops2 : List (HloOp τ sig (Elt F)) := ops2_0 ++ ops2_1 ++ ops2_2 ++ ops2_3 ++ ops2_4 ++ ops2_5 ++ ops2_6

end Cert.ReferenceIdeal.RefRun

end
-- ==== Proof.Ref.Part2.lean ====
import proofs.«149349_j76854144794846_1_alg».proof.Proof.Ref.Ops2
import proofs.«149349_j76854144794846_1_alg».proof.Proof.Ref.Lib

/-! Statements 121 … 180 of the reference's @main as a straight line of operations: the window is the sequence of
its listed operations, every operation touches TensorCore buffers only and determines its result, and each piece of
the window writes only buffers from its own first result on (every operation's result is a fresh buffer, later in
the signature than every earlier one), so none writes one of the program's fourteen argument buffers. The call of the activation in this window runs the callee's fifteen operations at the call site. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem part2_eq (c : Dev nD) : main_part2 (F := F) c = StableHlo.seq ops2 := by
  simp only [main_part2, fn_elu.body, fn_where.body, fn_where_0.body, ops2, ops2_0, ops2_1, ops2_2, ops2_3, ops2_4, ops2_5, ops2_6,
    List.cons_append, List.nil_append, seq, bind_assoc, pure_bind] <;> rfl

theorem ops2_sub : (ops2 (F := F)).Forall fun op => op.bufs ⊆ StableHlo.tcRefs τ sig := by
  simp only [ops2, ops2_0, ops2_1, ops2_2, ops2_3, ops2_4, ops2_5, ops2_6, List.cons_append, List.nil_append, List.Forall,
    nullary_bufs_sub, unary_bufs_sub, binary_bufs_sub, ternary_bufs_sub, reshape_bufs_sub, and_self]

theorem ops2_fresh : ∀ op ∈ ops2 (F := F), op.fresh = ∅ := by
  intro _ h
  simp only [ops2, ops2_0, ops2_1, ops2_2, ops2_3, ops2_4, ops2_5, ops2_6, List.cons_append, List.nil_append] at h
  repeat (cases h with | head => rfl | tail _ h => ?_)
  exact nomatch h

theorem ops2_0_writes : WritesFrom 134 (ops2_0 (F := F)) := List.forall_iff_forall_mem.mp (by
  simp only [ops2_0, List.Forall, nullary_writes, unary_writes, binary_writes, ternary_writes, reshape_writes,
    Finset.mem_singleton]
  repeat' apply And.intro
  all_goals exact not_devRef_eq (by decide))

theorem ops2_1_writes : WritesFrom 146 (ops2_1 (F := F)) := List.forall_iff_forall_mem.mp (by
  simp only [ops2_1, List.Forall, nullary_writes, unary_writes, binary_writes, ternary_writes, reshape_writes,
    Finset.mem_singleton]
  repeat' apply And.intro
  all_goals exact not_devRef_eq (by decide))

theorem ops2_2_writes : WritesFrom 151 (ops2_2 (F := F)) := List.forall_iff_forall_mem.mp (by
  simp only [ops2_2, List.Forall, nullary_writes, unary_writes, binary_writes, ternary_writes, reshape_writes,
    Finset.mem_singleton]
  repeat' apply And.intro
  all_goals exact not_devRef_eq (by decide))

theorem ops2_3_writes : WritesFrom 166 (ops2_3 (F := F)) := List.forall_iff_forall_mem.mp (by
  simp only [ops2_3, List.Forall, nullary_writes, unary_writes, binary_writes, ternary_writes, reshape_writes,
    Finset.mem_singleton]
  repeat' apply And.intro
  all_goals exact not_devRef_eq (by decide))

theorem ops2_4_writes : WritesFrom 170 (ops2_4 (F := F)) := List.forall_iff_forall_mem.mp (by
  simp only [ops2_4, List.Forall, nullary_writes, unary_writes, binary_writes, ternary_writes, reshape_writes,
    Finset.mem_singleton]
  repeat' apply And.intro
  all_goals exact not_devRef_eq (by decide))

theorem ops2_5_writes : WritesFrom 177 (ops2_5 (F := F)) := List.forall_iff_forall_mem.mp (by
  simp only [ops2_5, List.Forall, nullary_writes, unary_writes, binary_writes, ternary_writes, reshape_writes,
    Finset.mem_singleton]
  repeat' apply And.intro
  all_goals exact not_devRef_eq (by decide))

theorem ops2_6_writes : WritesFrom 206 (ops2_6 (F := F)) := List.forall_iff_forall_mem.mp (by
  simp only [ops2_6, List.Forall, nullary_writes, unary_writes, binary_writes, ternary_writes, reshape_writes,
    Finset.mem_singleton]
  repeat' apply And.intro
  all_goals exact not_devRef_eq (by decide))

theorem ops2_writes : WritesFrom 14 (ops2 (F := F)) :=
  (((((((ops2_0_writes.mono (by decide)).append (ops2_1_writes.mono (by decide))).append (ops2_2_writes.mono (by decide))).append (ops2_3_writes.mono (by decide))).append (ops2_4_writes.mono (by decide))).append (ops2_5_writes.mono (by decide))).append (ops2_6_writes.mono (by decide)))

end Cert.ReferenceIdeal.RefRun

end
-- ==== Proof.Ref.Ops3.lean ====
import proofs.«149349_j76854144794846_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 0 to 20 (counted from 0) of window 3 of the reference's @main, in order (a call's operations at the call site, over the call's record). -/
abbrev ops3_0 : List (HloOp τ sig (Elt F)) :=
  [ StableHlo.binary main_v118 main_v144 main_v145 (cmpi .slt : (⟨S850000, .i32⟩ : BufTy).Contents (Elt F) → (⟨S850000, .i32⟩ : BufTy).Contents (Elt F) → (⟨S850000, .i1⟩ : BufTy).Contents (Elt F)),
    StableHlo.nullary main_c_33 (constantI S_ 32 50000#32),
    StableHlo.unary main_c_33 main_v146 (broadcastInDim S850000 ![] bcast_S_S850000 : (⟨S_, .i32⟩ : BufTy).Contents (Elt F) → (⟨S850000, .i32⟩ : BufTy).Contents (Elt F)),
    StableHlo.binary main_v118 main_v146 main_v147 (addi : (⟨S850000, .i32⟩ : BufTy).Contents (Elt F) → (⟨S850000, .i32⟩ : BufTy).Contents (Elt F) → (⟨S850000, .i32⟩ : BufTy).Contents (Elt F)),
    StableHlo.ternary main_v145 main_v147 main_v118 main_v148 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v148 main_v149 (broadcastInDim S850000x1 ![0] bcast_S850000_S850000x1_0 : (⟨S850000, .i32⟩ : BufTy).Contents (Elt F) → (⟨S850000x1, .i32⟩ : BufTy).Contents (Elt F)),
    StableHlo.binary main_v114 main_v149 main_v150 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v143 main_v151 (broadcastInDim S850000x1 ![0] bcast_S850000_S850000x1_0 : (⟨S850000, .f32⟩ : BufTy).Contents (Elt F) → (⟨S850000x1, .f32⟩ : BufTy).Contents (Elt F)),
    StableHlo.unary main_v151 main_v152 (broadcastInDim S850000x128 ![0, 1] bcast_S850000x1_S850000x128_0_1 : (⟨S850000x1, .f32⟩ : BufTy).Contents (Elt F) → (⟨S850000x128, .f32⟩ : BufTy).Contents (Elt F)),
    StableHlo.binary main_v150 main_v152 main_v153 (mulf : (⟨S850000x128, .f32⟩ : BufTy).Contents (Elt F) → (⟨S850000x128, .f32⟩ : BufTy).Contents (Elt F) → (⟨S850000x128, .f32⟩ : BufTy).Contents (Elt F)),
    StableHlo.nullary main_cst_34 (constant S_ .f32 0x00000000#32),
    StableHlo.unary main_cst_34 main_v154 (broadcastInDim S50000x128 ![] bcast_S_S50000x128 : (⟨S_, .f32⟩ : BufTy).Contents (Elt F) → (⟨S50000x128, .f32⟩ : BufTy).Contents (Elt F)),
    StableHlo.unary main_v121 main_v155 (broadcastInDim S850000x1 ![0] bcast_S850000_S850000x1_0 : (⟨S850000, .i32⟩ : BufTy).Contents (Elt F) → (⟨S850000x1, .i32⟩ : BufTy).Contents (Elt F)),
    StableHlo.ternary main_v154 main_v155 main_v153 main_v156 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.nullary main_cst_35 (constant S_ .f32 0x3F19999A#32),
    StableHlo.unary main_cst_35 main_v157 (broadcastInDim S50000x128 ![] bcast_S_S50000x128 : (⟨S_, .f32⟩ : BufTy).Contents (Elt F) → (⟨S50000x128, .f32⟩ : BufTy).Contents (Elt F)),
    StableHlo.binary main_v157 main_v156 main_v158 (mulf : (⟨S50000x128, .f32⟩ : BufTy).Contents (Elt F) → (⟨S50000x128, .f32⟩ : BufTy).Contents (Elt F) → (⟨S50000x128, .f32⟩ : BufTy).Contents (Elt F)),
    StableHlo.binary main_v114 main_v158 main_v159 (addf : (⟨S50000x128, .f32⟩ : BufTy).Contents (Elt F) → (⟨S50000x128, .f32⟩ : BufTy).Contents (Elt F) → (⟨S50000x128, .f32⟩ : BufTy).Contents (Elt F)),
    StableHlo.nullary main_cst_36 (constant S_ .f32 0x3F200000#32),
    StableHlo.unary main_cst_36 main_v160 (broadcastInDim S50000x128 ![] bcast_S_S50000x128 : (⟨S_, .f32⟩ : BufTy).Contents (Elt F) → (⟨S50000x128, .f32⟩ : BufTy).Contents (Elt F)),
    StableHlo.binary main_v159 main_v160 main_v161 (mulf : (⟨S50000x128, .f32⟩ : BufTy).Contents (Elt F) → (⟨S50000x128, .f32⟩ : BufTy).Contents (Elt F) → (⟨S50000x128, .f32⟩ : BufTy).Contents (Elt F)) ]

/-- Operations 21 to 43 (counted from 0) of window 3 of the reference's @main, in order (a call's operations at the call site, over the call's record). -/
abbrev ops3_1 : List (HloOp τ sig (Elt F)) :=
  [ StableHlo.nullary main_c_37 (constantI S_ 32 0#32),
    StableHlo.unary main_c_37 main_v162 (broadcastInDim S850000 ![] bcast_S_S850000 : (⟨S_, .i32⟩ : BufTy).Contents (Elt F) → (⟨S850000, .i32⟩ : BufTy).Contents (Elt F)),
    StableHlo.binary main_v118 main_v162 main_v163 (cmpi .slt : (⟨S850000, .i32⟩ : BufTy).Contents (Elt F) → (⟨S850000, .i32⟩ : BufTy).Contents (Elt F) → (⟨S850000, .i1⟩ : BufTy).Contents (Elt F)),
    StableHlo.nullary main_c_38 (constantI S_ 32 50000#32),
    StableHlo.unary main_c_38 main_v164 (broadcastInDim S850000 ![] bcast_S_S850000 : (⟨S_, .i32⟩ : BufTy).Contents (Elt F) → (⟨S850000, .i32⟩ : BufTy).Contents (Elt F)),
    StableHlo.binary main_v118 main_v164 main_v165 (addi : (⟨S850000, .i32⟩ : BufTy).Contents (Elt F) → (⟨S850000, .i32⟩ : BufTy).Contents (Elt F) → (⟨S850000, .i32⟩ : BufTy).Contents (Elt F)),
    StableHlo.ternary main_v163 main_v165 main_v118 main_v166 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v166 main_v167 (broadcastInDim S850000x1 ![0] bcast_S850000_S850000x1_0 : (⟨S850000, .i32⟩ : BufTy).Contents (Elt F) → (⟨S850000x1, .i32⟩ : BufTy).Contents (Elt F)),
    StableHlo.binary main_v161 main_v167 main_v168 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v143 main_v169 (broadcastInDim S850000x1 ![0] bcast_S850000_S850000x1_0 : (⟨S850000, .f32⟩ : BufTy).Contents (Elt F) → (⟨S850000x1, .f32⟩ : BufTy).Contents (Elt F)),
    StableHlo.unary main_v169 main_v170 (broadcastInDim S850000x128 ![0, 1] bcast_S850000x1_S850000x128_0_1 : (⟨S850000x1, .f32⟩ : BufTy).Contents (Elt F) → (⟨S850000x128, .f32⟩ : BufTy).Contents (Elt F)),
    StableHlo.binary main_v168 main_v170 main_v171 (mulf : (⟨S850000x128, .f32⟩ : BufTy).Contents (Elt F) → (⟨S850000x128, .f32⟩ : BufTy).Contents (Elt F) → (⟨S850000x128, .f32⟩ : BufTy).Contents (Elt F)),
    StableHlo.nullary main_cst_39 (constant S_ .f32 0x00000000#32),
    StableHlo.unary main_cst_39 main_v172 (broadcastInDim S50000x128 ![] bcast_S_S50000x128 : (⟨S_, .f32⟩ : BufTy).Contents (Elt F) → (⟨S50000x128, .f32⟩ : BufTy).Contents (Elt F)),
    StableHlo.unary main_v121 main_v173 (broadcastInDim S850000x1 ![0] bcast_S850000_S850000x1_0 : (⟨S850000, .i32⟩ : BufTy).Contents (Elt F) → (⟨S850000x1, .i32⟩ : BufTy).Contents (Elt F)),
    StableHlo.ternary main_v172 main_v173 main_v171 main_v174 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.nullary main_cst_40 (constant S_ .f32 0x3F19999A#32),
    StableHlo.unary main_cst_40 main_v175 (broadcastInDim S50000x128 ![] bcast_S_S50000x128 : (⟨S_, .f32⟩ : BufTy).Contents (Elt F) → (⟨S50000x128, .f32⟩ : BufTy).Contents (Elt F)),
    StableHlo.binary main_v175 main_v174 main_v176 (mulf : (⟨S50000x128, .f32⟩ : BufTy).Contents (Elt F) → (⟨S50000x128, .f32⟩ : BufTy).Contents (Elt F) → (⟨S50000x128, .f32⟩ : BufTy).Contents (Elt F)),
    StableHlo.binary main_v114 main_v176 main_v177 (addf : (⟨S50000x128, .f32⟩ : BufTy).Contents (Elt F) → (⟨S50000x128, .f32⟩ : BufTy).Contents (Elt F) → (⟨S50000x128, .f32⟩ : BufTy).Contents (Elt F)),
    StableHlo.nullary main_cst_41 (constant S_ .f32 0x3F200000#32),
    StableHlo.unary main_cst_41 main_v178 (broadcastInDim S50000x128 ![] bcast_S_S50000x128 : (⟨S_, .f32⟩ : BufTy).Contents (Elt F) → (⟨S50000x128, .f32⟩ : BufTy).Contents (Elt F)),
    StableHlo.binary main_v177 main_v178 main_v179 (mulf : (⟨S50000x128, .f32⟩ : BufTy).Contents (Elt F) → (⟨S50000x128, .f32⟩ : BufTy).Contents (Elt F) → (⟨S50000x128, .f32⟩ : BufTy).Contents (Elt F)) ]

/-- Operations 44 to 59 (counted from 0) of window 3 of the reference's @main, in order (a call's operations at the call site, over the call's record). -/
abbrev ops3_2 : List (HloOp τ sig (Elt F)) :=
  [ StableHlo.nullary main_c_42 (constantI S_ 32 0#32),
    StableHlo.unary main_c_42 main_v180 (broadcastInDim S850000 ![] bcast_S_S850000 : (⟨S_, .i32⟩ : BufTy).Contents (Elt F) → (⟨S850000, .i32⟩ : BufTy).Contents (Elt F)),
    StableHlo.binary main_v118 main_v180 main_v181 (cmpi .slt : (⟨S850000, .i32⟩ : BufTy).Contents (Elt F) → (⟨S850000, .i32⟩ : BufTy).Contents (Elt F) → (⟨S850000, .i1⟩ : BufTy).Contents (Elt F)),
    StableHlo.nullary main_c_43 (constantI S_ 32 50000#32),
    StableHlo.unary main_c_43 main_v182 (broadcastInDim S850000 ![] bcast_S_S850000 : (⟨S_, .i32⟩ : BufTy).Contents (Elt F) → (⟨S850000, .i32⟩ : BufTy).Contents (Elt F)),
    StableHlo.binary main_v118 main_v182 main_v183 (addi : (⟨S850000, .i32⟩ : BufTy).Contents (Elt F) → (⟨S850000, .i32⟩ : BufTy).Contents (Elt F) → (⟨S850000, .i32⟩ : BufTy).Contents (Elt F)),
    StableHlo.ternary main_v181 main_v183 main_v118 main_v184 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v184 main_v185 (broadcastInDim S850000x1 ![0] bcast_S850000_S850000x1_0 : (⟨S850000, .i32⟩ : BufTy).Contents (Elt F) → (⟨S850000x1, .i32⟩ : BufTy).Contents (Elt F)),
    StableHlo.binary main_v179 main_v185 main_v186 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v143 main_v187 (broadcastInDim S850000x1 ![0] bcast_S850000_S850000x1_0 : (⟨S850000, .f32⟩ : BufTy).Contents (Elt F) → (⟨S850000x1, .f32⟩ : BufTy).Contents (Elt F)),
    StableHlo.unary main_v187 main_v188 (broadcastInDim S850000x128 ![0, 1] bcast_S850000x1_S850000x128_0_1 : (⟨S850000x1, .f32⟩ : BufTy).Contents (Elt F) → (⟨S850000x128, .f32⟩ : BufTy).Contents (Elt F)),
    StableHlo.binary main_v186 main_v188 main_v189 (mulf : (⟨S850000x128, .f32⟩ : BufTy).Contents (Elt F) → (⟨S850000x128, .f32⟩ : BufTy).Contents (Elt F) → (⟨S850000x128, .f32⟩ : BufTy).Contents (Elt F)),
    StableHlo.nullary main_cst_44 (constant S_ .f32 0x00000000#32),
    StableHlo.unary main_cst_44 main_v190 (broadcastInDim S50000x128 ![] bcast_S_S50000x128 : (⟨S_, .f32⟩ : BufTy).Contents (Elt F) → (⟨S50000x128, .f32⟩ : BufTy).Contents (Elt F)),
    StableHlo.unary main_v121 main_v191 (broadcastInDim S850000x1 ![0] bcast_S850000_S850000x1_0 : (⟨S850000, .i32⟩ : BufTy).Contents (Elt F) → (⟨S850000x1, .i32⟩ : BufTy).Contents (Elt F)),
    StableHlo.ternary main_v190 main_v191 main_v189 main_v192 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

/-- The 60 operations of window 3 of the reference's @main, in order: its pieces concatenated. -/
abbrev ops3 : List (HloOp τ sig (Elt F)) := ops3_0 ++ ops3_1 ++ ops3_2

end Cert.ReferenceIdeal.RefRun

end
-- ==== Proof.Ref.Part3.lean ====
import proofs.«149349_j76854144794846_1_alg».proof.Proof.Ref.Ops3
import proofs.«149349_j76854144794846_1_alg».proof.Proof.Ref.Lib

/-! Statements 181 … 240 of the reference's @main as a straight line of operations: the window is the sequence of
its listed operations, every operation touches TensorCore buffers only and determines its result, and each piece of
the window writes only buffers from its own first result on (every operation's result is a fresh buffer, later in
the signature than every earlier one), so none writes one of the program's fourteen argument buffers. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem part3_eq (c : Dev nD) : main_part3 (F := F) c = StableHlo.seq ops3 := by
  simp only [main_part3, fn_elu.body, fn_where.body, fn_where_0.body, ops3, ops3_0, ops3_1, ops3_2,
    List.cons_append, List.nil_append, seq, bind_assoc, pure_bind] <;> rfl

theorem ops3_sub : (ops3 (F := F)).Forall fun op => op.bufs ⊆ StableHlo.tcRefs τ sig := by
  simp only [ops3, ops3_0, ops3_1, ops3_2, List.cons_append, List.nil_append, List.Forall,
    nullary_bufs_sub, unary_bufs_sub, binary_bufs_sub, ternary_bufs_sub, reshape_bufs_sub, and_self]

theorem ops3_fresh : ∀ op ∈ ops3 (F := F), op.fresh = ∅ := by
  intro _ h
  simp only [ops3, ops3_0, ops3_1, ops3_2, List.cons_append, List.nil_append] at h
  repeat (cases h with | head => rfl | tail _ h => ?_)
  exact nomatch h

theorem ops3_0_writes : WritesFrom 208 (ops3_0 (F := F)) := List.forall_iff_forall_mem.mp (by
  simp only [ops3_0, List.Forall, nullary_writes, unary_writes, binary_writes, ternary_writes, reshape_writes,
    Finset.mem_singleton]
  repeat' apply And.intro
  all_goals exact not_devRef_eq (by decide))

theorem ops3_1_writes : WritesFrom 229 (ops3_1 (F := F)) := List.forall_iff_forall_mem.mp (by
  simp only [ops3_1, List.Forall, nullary_writes, unary_writes, binary_writes, ternary_writes, reshape_writes,
    Finset.mem_singleton]
  repeat' apply And.intro
  all_goals exact not_devRef_eq (by decide))

theorem ops3_2_writes : WritesFrom 252 (ops3_2 (F := F)) := List.forall_iff_forall_mem.mp (by
  simp only [ops3_2, List.Forall, nullary_writes, unary_writes, binary_writes, ternary_writes, reshape_writes,
    Finset.mem_singleton]
  repeat' apply And.intro
  all_goals exact not_devRef_eq (by decide))

theorem ops3_writes : WritesFrom 14 (ops3 (F := F)) :=
  (((ops3_0_writes.mono (by decide)).append (ops3_1_writes.mono (by decide))).append (ops3_2_writes.mono (by decide)))

end Cert.ReferenceIdeal.RefRun

end
-- ==== Proof.Ref.Ops4.lean ====
import proofs.«149349_j76854144794846_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 0 to 6 (counted from 0) of window 4 of the reference's @main, in order (a call's operations at the call site, over the call's record). -/
abbrev ops4_0 : List (HloOp τ sig (Elt F)) :=
  [ StableHlo.nullary main_cst_45 (constant S_ .f32 0x3F19999A#32),
    StableHlo.unary main_cst_45 main_v193 (broadcastInDim S50000x128 ![] bcast_S_S50000x128 : (⟨S_, .f32⟩ : BufTy).Contents (Elt F) → (⟨S50000x128, .f32⟩ : BufTy).Contents (Elt F)),
    StableHlo.binary main_v193 main_v192 main_v194 (mulf : (⟨S50000x128, .f32⟩ : BufTy).Contents (Elt F) → (⟨S50000x128, .f32⟩ : BufTy).Contents (Elt F) → (⟨S50000x128, .f32⟩ : BufTy).Contents (Elt F)),
    StableHlo.binary main_v114 main_v194 main_v195 (addf : (⟨S50000x128, .f32⟩ : BufTy).Contents (Elt F) → (⟨S50000x128, .f32⟩ : BufTy).Contents (Elt F) → (⟨S50000x128, .f32⟩ : BufTy).Contents (Elt F)),
    StableHlo.nullary main_cst_46 (constant S_ .f32 0x3F200000#32),
    StableHlo.unary main_cst_46 main_v196 (broadcastInDim S50000x128 ![] bcast_S_S50000x128 : (⟨S_, .f32⟩ : BufTy).Contents (Elt F) → (⟨S50000x128, .f32⟩ : BufTy).Contents (Elt F)),
    StableHlo.binary main_v195 main_v196 main_v197 (mulf : (⟨S50000x128, .f32⟩ : BufTy).Contents (Elt F) → (⟨S50000x128, .f32⟩ : BufTy).Contents (Elt F) → (⟨S50000x128, .f32⟩ : BufTy).Contents (Elt F)) ]

/-- Operations 7 to 29 (counted from 0) of window 4 of the reference's @main, in order (a call's operations at the call site, over the call's record). -/
abbrev ops4_1 : List (HloOp τ sig (Elt F)) :=
  [ StableHlo.nullary main_c_47 (constantI S_ 32 0#32),
    StableHlo.unary main_c_47 main_v198 (broadcastInDim S850000 ![] bcast_S_S850000 : (⟨S_, .i32⟩ : BufTy).Contents (Elt F) → (⟨S850000, .i32⟩ : BufTy).Contents (Elt F)),
    StableHlo.binary main_v118 main_v198 main_v199 (cmpi .slt : (⟨S850000, .i32⟩ : BufTy).Contents (Elt F) → (⟨S850000, .i32⟩ : BufTy).Contents (Elt F) → (⟨S850000, .i1⟩ : BufTy).Contents (Elt F)),
    StableHlo.nullary main_c_48 (constantI S_ 32 50000#32),
    StableHlo.unary main_c_48 main_v200 (broadcastInDim S850000 ![] bcast_S_S850000 : (⟨S_, .i32⟩ : BufTy).Contents (Elt F) → (⟨S850000, .i32⟩ : BufTy).Contents (Elt F)),
    StableHlo.binary main_v118 main_v200 main_v201 (addi : (⟨S850000, .i32⟩ : BufTy).Contents (Elt F) → (⟨S850000, .i32⟩ : BufTy).Contents (Elt F) → (⟨S850000, .i32⟩ : BufTy).Contents (Elt F)),
    StableHlo.ternary main_v199 main_v201 main_v118 main_v202 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v202 main_v203 (broadcastInDim S850000x1 ![0] bcast_S850000_S850000x1_0 : (⟨S850000, .i32⟩ : BufTy).Contents (Elt F) → (⟨S850000x1, .i32⟩ : BufTy).Contents (Elt F)),
    StableHlo.binary main_v197 main_v203 main_v204 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v143 main_v205 (broadcastInDim S850000x1 ![0] bcast_S850000_S850000x1_0 : (⟨S850000, .f32⟩ : BufTy).Contents (Elt F) → (⟨S850000x1, .f32⟩ : BufTy).Contents (Elt F)),
    StableHlo.unary main_v205 main_v206 (broadcastInDim S850000x128 ![0, 1] bcast_S850000x1_S850000x128_0_1 : (⟨S850000x1, .f32⟩ : BufTy).Contents (Elt F) → (⟨S850000x128, .f32⟩ : BufTy).Contents (Elt F)),
    StableHlo.binary main_v204 main_v206 main_v207 (mulf : (⟨S850000x128, .f32⟩ : BufTy).Contents (Elt F) → (⟨S850000x128, .f32⟩ : BufTy).Contents (Elt F) → (⟨S850000x128, .f32⟩ : BufTy).Contents (Elt F)),
    StableHlo.nullary main_cst_49 (constant S_ .f32 0x00000000#32),
    StableHlo.unary main_cst_49 main_v208 (broadcastInDim S50000x128 ![] bcast_S_S50000x128 : (⟨S_, .f32⟩ : BufTy).Contents (Elt F) → (⟨S50000x128, .f32⟩ : BufTy).Contents (Elt F)),
    StableHlo.unary main_v121 main_v209 (broadcastInDim S850000x1 ![0] bcast_S850000_S850000x1_0 : (⟨S850000, .i32⟩ : BufTy).Contents (Elt F) → (⟨S850000x1, .i32⟩ : BufTy).Contents (Elt F)),
    StableHlo.ternary main_v208 main_v209 main_v207 main_v210 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.nullary main_cst_50 (constant S_ .f32 0x3F19999A#32),
    StableHlo.unary main_cst_50 main_v211 (broadcastInDim S50000x128 ![] bcast_S_S50000x128 : (⟨S_, .f32⟩ : BufTy).Contents (Elt F) → (⟨S50000x128, .f32⟩ : BufTy).Contents (Elt F)),
    StableHlo.binary main_v211 main_v210 main_v212 (mulf : (⟨S50000x128, .f32⟩ : BufTy).Contents (Elt F) → (⟨S50000x128, .f32⟩ : BufTy).Contents (Elt F) → (⟨S50000x128, .f32⟩ : BufTy).Contents (Elt F)),
    StableHlo.binary main_v114 main_v212 main_v213 (addf : (⟨S50000x128, .f32⟩ : BufTy).Contents (Elt F) → (⟨S50000x128, .f32⟩ : BufTy).Contents (Elt F) → (⟨S50000x128, .f32⟩ : BufTy).Contents (Elt F)),
    StableHlo.nullary main_cst_51 (constant S_ .f32 0x3F200000#32),
    StableHlo.unary main_cst_51 main_v214 (broadcastInDim S50000x128 ![] bcast_S_S50000x128 : (⟨S_, .f32⟩ : BufTy).Contents (Elt F) → (⟨S50000x128, .f32⟩ : BufTy).Contents (Elt F)),
    StableHlo.binary main_v213 main_v214 main_v215 (mulf : (⟨S50000x128, .f32⟩ : BufTy).Contents (Elt F) → (⟨S50000x128, .f32⟩ : BufTy).Contents (Elt F) → (⟨S50000x128, .f32⟩ : BufTy).Contents (Elt F)) ]

/-- Operations 30 to 34 (counted from 0) of window 4 of the reference's @main, in order (a call's operations at the call site, over the call's record). -/
abbrev ops4_2 : List (HloOp τ sig (Elt F)) :=
  [ StableHlo.binary main_v110 main_arg8 main_v216 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg9 main_v217 (broadcastInDim S1x128 ![1] bcast_S128_S1x128_1 : (⟨S128, .f32⟩ : BufTy).Contents (Elt F) → (⟨S1x128, .f32⟩ : BufTy).Contents (Elt F)),
    StableHlo.unary main_v217 main_v218 (broadcastInDim S50000x128 ![0, 1] bcast_S1x128_S50000x128_0_1 : (⟨S1x128, .f32⟩ : BufTy).Contents (Elt F) → (⟨S50000x128, .f32⟩ : BufTy).Contents (Elt F)),
    StableHlo.binary main_v216 main_v218 main_v219 (addf : (⟨S50000x128, .f32⟩ : BufTy).Contents (Elt F) → (⟨S50000x128, .f32⟩ : BufTy).Contents (Elt F) → (⟨S50000x128, .f32⟩ : BufTy).Contents (Elt F)),
    StableHlo.binary main_v215 main_v219 main_v220 (addf : (⟨S50000x128, .f32⟩ : BufTy).Contents (Elt F) → (⟨S50000x128, .f32⟩ : BufTy).Contents (Elt F) → (⟨S50000x128, .f32⟩ : BufTy).Contents (Elt F)) ]

/-- Operations 35 to 49 (counted from 0) of window 4 of the reference's @main, in order (a call's operations at the call site, over the call's record). -/
abbrev ops4_3 : List (HloOp τ sig (Elt F)) :=
  [ StableHlo.TRef.nullary main_call1.cst (constant S_ .f32 0x00000000#32),
    StableHlo.TRef.unary main_call1.cst main_call1.v0 (broadcastInDim S50000x128 ![] bcast_S_S50000x128),
    StableHlo.TRef.binary (StableHlo.TRef.of main_v220 : StableHlo.TRef sig ⟨S50000x128, .f32⟩) main_call1.v0 main_call1.v1 (cmpf .ogt),
    StableHlo.TRef.nullary main_call1.cst_0 (constant S_ .f32 0x00000000#32),
    StableHlo.TRef.unary main_call1.cst_0 main_call1.v2 (broadcastInDim S50000x128 ![] bcast_S_S50000x128),
    StableHlo.TRef.binary (StableHlo.TRef.of main_v220 : StableHlo.TRef sig ⟨S50000x128, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S50000x128 ![] bcast_S_S50000x128),
    StableHlo.TRef.ternary main_call1.v3 main_call1.call0.v1 (StableHlo.TRef.of main_v220 : StableHlo.TRef sig ⟨S50000x128, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S50000x128 ![] bcast_S_S50000x128),
    StableHlo.TRef.binary main_call1.v6 main_call1.v5 main_call1.v7 mulf,
    StableHlo.TRef.ternary main_call1.v1 (StableHlo.TRef.of main_v220 : StableHlo.TRef sig ⟨S50000x128, .f32⟩) main_call1.v7 main_call1.call1.v0 select ]

/-- Operations 50 to 53 (counted from 0) of window 4 of the reference's @main, in order (a call's operations at the call site, over the call's record). -/
abbrev ops4_4 : List (HloOp τ sig (Elt F)) :=
  [ StableHlo.binary main_v221 main_arg10 main_v222 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg11 main_v223 (broadcastInDim S1x64 ![1] bcast_S64_S1x64_1 : (⟨S64, .f32⟩ : BufTy).Contents (Elt F) → (⟨S1x64, .f32⟩ : BufTy).Contents (Elt F)),
    StableHlo.unary main_v223 main_v224 (broadcastInDim S50000x64 ![0, 1] bcast_S1x64_S50000x64_0_1 : (⟨S1x64, .f32⟩ : BufTy).Contents (Elt F) → (⟨S50000x64, .f32⟩ : BufTy).Contents (Elt F)),
    StableHlo.binary main_v222 main_v224 main_v225 (addf : (⟨S50000x64, .f32⟩ : BufTy).Contents (Elt F) → (⟨S50000x64, .f32⟩ : BufTy).Contents (Elt F) → (⟨S50000x64, .f32⟩ : BufTy).Contents (Elt F)) ]

/-- Operations 54 to 60 (counted from 0) of window 4 of the reference's @main, in order (a call's operations at the call site, over the call's record). -/
abbrev ops4_5 : List (HloOp τ sig (Elt F)) :=
  [ StableHlo.nullary main_v226 (iotaInDim S50000 32 0),
    StableHlo.unary main_arg1 main_v227 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v227 main_v228 rfl shapeCasts_S1x800000_S800000,
    StableHlo.binary main_v228 main_v226 main_v229 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v230 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v230 main_v231 rfl shapeCasts_S1x800000_S800000,
    StableHlo.binary main_v231 main_v226 main_v232 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- Operations 61 to 73 (counted from 0) of window 4 of the reference's @main, in order (a call's operations at the call site, over the call's record). -/
abbrev ops4_6 : List (HloOp τ sig (Elt F)) :=
  [ StableHlo.nullary main_cst_52 (constant S_ .f32 0x3F800000#32),
    StableHlo.unary main_cst_52 main_v233 (broadcastInDim S850000 ![] bcast_S_S850000 : (⟨S_, .f32⟩ : BufTy).Contents (Elt F) → (⟨S850000, .f32⟩ : BufTy).Contents (Elt F)),
    StableHlo.nullary main_cst_53 (constant S_ .f32 0x00000000#32),
    StableHlo.unary main_cst_53 main_v234 (broadcastInDim S50000 ![] bcast_S_S50000 : (⟨S_, .f32⟩ : BufTy).Contents (Elt F) → (⟨S50000, .f32⟩ : BufTy).Contents (Elt F)),
    StableHlo.unary main_v232 main_v235 (broadcastInDim S850000x1 ![0] bcast_S850000_S850000x1_0 : (⟨S850000, .i32⟩ : BufTy).Contents (Elt F) → (⟨S850000x1, .i32⟩ : BufTy).Contents (Elt F)),
    StableHlo.ternary main_v234 main_v235 main_v233 main_v236 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_54 (constant S_ .f32 0x2B8CBCCC#32),
    StableHlo.unary main_cst_54 main_v237 (broadcastInDim S50000 ![] bcast_S_S50000 : (⟨S_, .f32⟩ : BufTy).Contents (Elt F) → (⟨S50000, .f32⟩ : BufTy).Contents (Elt F)),
    StableHlo.binary main_v236 main_v237 main_v238 (maximumf : (⟨S50000, .f32⟩ : BufTy).Contents (Elt F) → (⟨S50000, .f32⟩ : BufTy).Contents (Elt F) → (⟨S50000, .f32⟩ : BufTy).Contents (Elt F)),
    StableHlo.unary main_v238 main_v239 (Host.rsqrt : (⟨S50000, .f32⟩ : BufTy).Contents (Elt F) → (⟨S50000, .f32⟩ : BufTy).Contents (Elt F)),
    StableHlo.nullary main_c_55 (constantI S_ 32 0#32),
    StableHlo.unary main_c_55 main_v240 (broadcastInDim S850000 ![] bcast_S_S850000 : (⟨S_, .i32⟩ : BufTy).Contents (Elt F) → (⟨S850000, .i32⟩ : BufTy).Contents (Elt F)),
    StableHlo.binary main_v229 main_v240 main_v241 (cmpi .slt : (⟨S850000, .i32⟩ : BufTy).Contents (Elt F) → (⟨S850000, .i32⟩ : BufTy).Contents (Elt F) → (⟨S850000, .i1⟩ : BufTy).Contents (Elt F)) ]

/-- The 74 operations of window 4 of the reference's @main, in order: its pieces concatenated. -/
abbrev ops4 : List (HloOp τ sig (Elt F)) := ops4_0 ++ ops4_1 ++ ops4_2 ++ ops4_3 ++ ops4_4 ++ ops4_5 ++ ops4_6

end Cert.ReferenceIdeal.RefRun

end
-- ==== Proof.Ref.Part4.lean ====
import proofs.«149349_j76854144794846_1_alg».proof.Proof.Ref.Ops4
import proofs.«149349_j76854144794846_1_alg».proof.Proof.Ref.Lib

/-! Statements 241 … 300 of the reference's @main as a straight line of operations: the window is the sequence of
its listed operations, every operation touches TensorCore buffers only and determines its result, and each piece of
the window writes only buffers from its own first result on (every operation's result is a fresh buffer, later in
the signature than every earlier one), so none writes one of the program's fourteen argument buffers. The call of the activation in this window runs the callee's fifteen operations at the call site. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem part4_eq (c : Dev nD) : main_part4 (F := F) c = StableHlo.seq ops4 := by
  simp only [main_part4, fn_elu.body, fn_where.body, fn_where_0.body, ops4, ops4_0, ops4_1, ops4_2, ops4_3, ops4_4, ops4_5, ops4_6,
    List.cons_append, List.nil_append, seq, bind_assoc, pure_bind] <;> rfl

theorem ops4_sub : (ops4 (F := F)).Forall fun op => op.bufs ⊆ StableHlo.tcRefs τ sig := by
  simp only [ops4, ops4_0, ops4_1, ops4_2, ops4_3, ops4_4, ops4_5, ops4_6, List.cons_append, List.nil_append, List.Forall,
    nullary_bufs_sub, unary_bufs_sub, binary_bufs_sub, ternary_bufs_sub, reshape_bufs_sub, and_self]

theorem ops4_fresh : ∀ op ∈ ops4 (F := F), op.fresh = ∅ := by
  intro _ h
  simp only [ops4, ops4_0, ops4_1, ops4_2, ops4_3, ops4_4, ops4_5, ops4_6, List.cons_append, List.nil_append] at h
  repeat (cases h with | head => rfl | tail _ h => ?_)
  exact nomatch h

theorem ops4_0_writes : WritesFrom 268 (ops4_0 (F := F)) := List.forall_iff_forall_mem.mp (by
  simp only [ops4_0, List.Forall, nullary_writes, unary_writes, binary_writes, ternary_writes, reshape_writes,
    Finset.mem_singleton]
  repeat' apply And.intro
  all_goals exact not_devRef_eq (by decide))

theorem ops4_1_writes : WritesFrom 275 (ops4_1 (F := F)) := List.forall_iff_forall_mem.mp (by
  simp only [ops4_1, List.Forall, nullary_writes, unary_writes, binary_writes, ternary_writes, reshape_writes,
    Finset.mem_singleton]
  repeat' apply And.intro
  all_goals exact not_devRef_eq (by decide))

theorem ops4_2_writes : WritesFrom 298 (ops4_2 (F := F)) := List.forall_iff_forall_mem.mp (by
  simp only [ops4_2, List.Forall, nullary_writes, unary_writes, binary_writes, ternary_writes, reshape_writes,
    Finset.mem_singleton]
  repeat' apply And.intro
  all_goals exact not_devRef_eq (by decide))

theorem ops4_3_writes : WritesFrom 303 (ops4_3 (F := F)) := List.forall_iff_forall_mem.mp (by
  simp only [ops4_3, List.Forall, nullary_writes, unary_writes, binary_writes, ternary_writes, reshape_writes,
    Finset.mem_singleton]
  repeat' apply And.intro
  all_goals exact not_devRef_eq (by decide))

theorem ops4_4_writes : WritesFrom 318 (ops4_4 (F := F)) := List.forall_iff_forall_mem.mp (by
  simp only [ops4_4, List.Forall, nullary_writes, unary_writes, binary_writes, ternary_writes, reshape_writes,
    Finset.mem_singleton]
  repeat' apply And.intro
  all_goals exact not_devRef_eq (by decide))

theorem ops4_5_writes : WritesFrom 322 (ops4_5 (F := F)) := List.forall_iff_forall_mem.mp (by
  simp only [ops4_5, List.Forall, nullary_writes, unary_writes, binary_writes, ternary_writes, reshape_writes,
    Finset.mem_singleton]
  repeat' apply And.intro
  all_goals exact not_devRef_eq (by decide))

theorem ops4_6_writes : WritesFrom 329 (ops4_6 (F := F)) := List.forall_iff_forall_mem.mp (by
  simp only [ops4_6, List.Forall, nullary_writes, unary_writes, binary_writes, ternary_writes, reshape_writes,
    Finset.mem_singleton]
  repeat' apply And.intro
  all_goals exact not_devRef_eq (by decide))

theorem ops4_writes : WritesFrom 14 (ops4 (F := F)) :=
  (((((((ops4_0_writes.mono (by decide)).append (ops4_1_writes.mono (by decide))).append (ops4_2_writes.mono (by decide))).append (ops4_3_writes.mono (by decide))).append (ops4_4_writes.mono (by decide))).append (ops4_5_writes.mono (by decide))).append (ops4_6_writes.mono (by decide)))

end Cert.ReferenceIdeal.RefRun

end
-- ==== Proof.Ref.Ops5.lean ====
import proofs.«149349_j76854144794846_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 0 to 15 (counted from 0) of window 5 of the reference's @main, in order (a call's operations at the call site, over the call's record). -/
abbrev ops5_0 : List (HloOp τ sig (Elt F)) :=
  [ StableHlo.nullary main_c_56 (constantI S_ 32 50000#32),
    StableHlo.unary main_c_56 main_v242 (broadcastInDim S850000 ![] bcast_S_S850000 : (⟨S_, .i32⟩ : BufTy).Contents (Elt F) → (⟨S850000, .i32⟩ : BufTy).Contents (Elt F)),
    StableHlo.binary main_v229 main_v242 main_v243 (addi : (⟨S850000, .i32⟩ : BufTy).Contents (Elt F) → (⟨S850000, .i32⟩ : BufTy).Contents (Elt F) → (⟨S850000, .i32⟩ : BufTy).Contents (Elt F)),
    StableHlo.ternary main_v241 main_v243 main_v229 main_v244 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v244 main_v245 (broadcastInDim S850000x1 ![0] bcast_S850000_S850000x1_0 : (⟨S850000, .i32⟩ : BufTy).Contents (Elt F) → (⟨S850000x1, .i32⟩ : BufTy).Contents (Elt F)),
    StableHlo.binary main_v239 main_v245 main_v246 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_57 (constantI S_ 32 0#32),
    StableHlo.unary main_c_57 main_v247 (broadcastInDim S850000 ![] bcast_S_S850000 : (⟨S_, .i32⟩ : BufTy).Contents (Elt F) → (⟨S850000, .i32⟩ : BufTy).Contents (Elt F)),
    StableHlo.binary main_v232 main_v247 main_v248 (cmpi .slt : (⟨S850000, .i32⟩ : BufTy).Contents (Elt F) → (⟨S850000, .i32⟩ : BufTy).Contents (Elt F) → (⟨S850000, .i1⟩ : BufTy).Contents (Elt F)),
    StableHlo.nullary main_c_58 (constantI S_ 32 50000#32),
    StableHlo.unary main_c_58 main_v249 (broadcastInDim S850000 ![] bcast_S_S850000 : (⟨S_, .i32⟩ : BufTy).Contents (Elt F) → (⟨S850000, .i32⟩ : BufTy).Contents (Elt F)),
    StableHlo.binary main_v232 main_v249 main_v250 (addi : (⟨S850000, .i32⟩ : BufTy).Contents (Elt F) → (⟨S850000, .i32⟩ : BufTy).Contents (Elt F) → (⟨S850000, .i32⟩ : BufTy).Contents (Elt F)),
    StableHlo.ternary main_v248 main_v250 main_v232 main_v251 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v251 main_v252 (broadcastInDim S850000x1 ![0] bcast_S850000_S850000x1_0 : (⟨S850000, .i32⟩ : BufTy).Contents (Elt F) → (⟨S850000x1, .i32⟩ : BufTy).Contents (Elt F)),
    StableHlo.binary main_v239 main_v252 main_v253 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v246 main_v253 main_v254 (mulf : (⟨S850000, .f32⟩ : BufTy).Contents (Elt F) → (⟨S850000, .f32⟩ : BufTy).Contents (Elt F) → (⟨S850000, .f32⟩ : BufTy).Contents (Elt F)) ]

/-- Operations 16 to 38 (counted from 0) of window 5 of the reference's @main, in order (a call's operations at the call site, over the call's record). -/
abbrev ops5_1 : List (HloOp τ sig (Elt F)) :=
  [ StableHlo.nullary main_c_59 (constantI S_ 32 0#32),
    StableHlo.unary main_c_59 main_v255 (broadcastInDim S850000 ![] bcast_S_S850000 : (⟨S_, .i32⟩ : BufTy).Contents (Elt F) → (⟨S850000, .i32⟩ : BufTy).Contents (Elt F)),
    StableHlo.binary main_v229 main_v255 main_v256 (cmpi .slt : (⟨S850000, .i32⟩ : BufTy).Contents (Elt F) → (⟨S850000, .i32⟩ : BufTy).Contents (Elt F) → (⟨S850000, .i1⟩ : BufTy).Contents (Elt F)),
    StableHlo.nullary main_c_60 (constantI S_ 32 50000#32),
    StableHlo.unary main_c_60 main_v257 (broadcastInDim S850000 ![] bcast_S_S850000 : (⟨S_, .i32⟩ : BufTy).Contents (Elt F) → (⟨S850000, .i32⟩ : BufTy).Contents (Elt F)),
    StableHlo.binary main_v229 main_v257 main_v258 (addi : (⟨S850000, .i32⟩ : BufTy).Contents (Elt F) → (⟨S850000, .i32⟩ : BufTy).Contents (Elt F) → (⟨S850000, .i32⟩ : BufTy).Contents (Elt F)),
    StableHlo.ternary main_v256 main_v258 main_v229 main_v259 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v259 main_v260 (broadcastInDim S850000x1 ![0] bcast_S850000_S850000x1_0 : (⟨S850000, .i32⟩ : BufTy).Contents (Elt F) → (⟨S850000x1, .i32⟩ : BufTy).Contents (Elt F)),
    StableHlo.binary main_v225 main_v260 main_v261 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v254 main_v262 (broadcastInDim S850000x1 ![0] bcast_S850000_S850000x1_0 : (⟨S850000, .f32⟩ : BufTy).Contents (Elt F) → (⟨S850000x1, .f32⟩ : BufTy).Contents (Elt F)),
    StableHlo.unary main_v262 main_v263 (broadcastInDim S850000x64 ![0, 1] bcast_S850000x1_S850000x64_0_1 : (⟨S850000x1, .f32⟩ : BufTy).Contents (Elt F) → (⟨S850000x64, .f32⟩ : BufTy).Contents (Elt F)),
    StableHlo.binary main_v261 main_v263 main_v264 (mulf : (⟨S850000x64, .f32⟩ : BufTy).Contents (Elt F) → (⟨S850000x64, .f32⟩ : BufTy).Contents (Elt F) → (⟨S850000x64, .f32⟩ : BufTy).Contents (Elt F)),
    StableHlo.nullary main_cst_61 (constant S_ .f32 0x00000000#32),
    StableHlo.unary main_cst_61 main_v265 (broadcastInDim S50000x64 ![] bcast_S_S50000x64 : (⟨S_, .f32⟩ : BufTy).Contents (Elt F) → (⟨S50000x64, .f32⟩ : BufTy).Contents (Elt F)),
    StableHlo.unary main_v232 main_v266 (broadcastInDim S850000x1 ![0] bcast_S850000_S850000x1_0 : (⟨S850000, .i32⟩ : BufTy).Contents (Elt F) → (⟨S850000x1, .i32⟩ : BufTy).Contents (Elt F)),
    StableHlo.ternary main_v265 main_v266 main_v264 main_v267 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.nullary main_cst_62 (constant S_ .f32 0x3F19999A#32),
    StableHlo.unary main_cst_62 main_v268 (broadcastInDim S50000x64 ![] bcast_S_S50000x64 : (⟨S_, .f32⟩ : BufTy).Contents (Elt F) → (⟨S50000x64, .f32⟩ : BufTy).Contents (Elt F)),
    StableHlo.binary main_v268 main_v267 main_v269 (mulf : (⟨S50000x64, .f32⟩ : BufTy).Contents (Elt F) → (⟨S50000x64, .f32⟩ : BufTy).Contents (Elt F) → (⟨S50000x64, .f32⟩ : BufTy).Contents (Elt F)),
    StableHlo.binary main_v225 main_v269 main_v270 (addf : (⟨S50000x64, .f32⟩ : BufTy).Contents (Elt F) → (⟨S50000x64, .f32⟩ : BufTy).Contents (Elt F) → (⟨S50000x64, .f32⟩ : BufTy).Contents (Elt F)),
    StableHlo.nullary main_cst_63 (constant S_ .f32 0x3F200000#32),
    StableHlo.unary main_cst_63 main_v271 (broadcastInDim S50000x64 ![] bcast_S_S50000x64 : (⟨S_, .f32⟩ : BufTy).Contents (Elt F) → (⟨S50000x64, .f32⟩ : BufTy).Contents (Elt F)),
    StableHlo.binary main_v270 main_v271 main_v272 (mulf : (⟨S50000x64, .f32⟩ : BufTy).Contents (Elt F) → (⟨S50000x64, .f32⟩ : BufTy).Contents (Elt F) → (⟨S50000x64, .f32⟩ : BufTy).Contents (Elt F)) ]

/-- Operations 39 to 59 (counted from 0) of window 5 of the reference's @main, in order (a call's operations at the call site, over the call's record). -/
abbrev ops5_2 : List (HloOp τ sig (Elt F)) :=
  [ StableHlo.nullary main_c_64 (constantI S_ 32 0#32),
    StableHlo.unary main_c_64 main_v273 (broadcastInDim S850000 ![] bcast_S_S850000 : (⟨S_, .i32⟩ : BufTy).Contents (Elt F) → (⟨S850000, .i32⟩ : BufTy).Contents (Elt F)),
    StableHlo.binary main_v229 main_v273 main_v274 (cmpi .slt : (⟨S850000, .i32⟩ : BufTy).Contents (Elt F) → (⟨S850000, .i32⟩ : BufTy).Contents (Elt F) → (⟨S850000, .i1⟩ : BufTy).Contents (Elt F)),
    StableHlo.nullary main_c_65 (constantI S_ 32 50000#32),
    StableHlo.unary main_c_65 main_v275 (broadcastInDim S850000 ![] bcast_S_S850000 : (⟨S_, .i32⟩ : BufTy).Contents (Elt F) → (⟨S850000, .i32⟩ : BufTy).Contents (Elt F)),
    StableHlo.binary main_v229 main_v275 main_v276 (addi : (⟨S850000, .i32⟩ : BufTy).Contents (Elt F) → (⟨S850000, .i32⟩ : BufTy).Contents (Elt F) → (⟨S850000, .i32⟩ : BufTy).Contents (Elt F)),
    StableHlo.ternary main_v274 main_v276 main_v229 main_v277 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v277 main_v278 (broadcastInDim S850000x1 ![0] bcast_S850000_S850000x1_0 : (⟨S850000, .i32⟩ : BufTy).Contents (Elt F) → (⟨S850000x1, .i32⟩ : BufTy).Contents (Elt F)),
    StableHlo.binary main_v272 main_v278 main_v279 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v254 main_v280 (broadcastInDim S850000x1 ![0] bcast_S850000_S850000x1_0 : (⟨S850000, .f32⟩ : BufTy).Contents (Elt F) → (⟨S850000x1, .f32⟩ : BufTy).Contents (Elt F)),
    StableHlo.unary main_v280 main_v281 (broadcastInDim S850000x64 ![0, 1] bcast_S850000x1_S850000x64_0_1 : (⟨S850000x1, .f32⟩ : BufTy).Contents (Elt F) → (⟨S850000x64, .f32⟩ : BufTy).Contents (Elt F)),
    StableHlo.binary main_v279 main_v281 main_v282 (mulf : (⟨S850000x64, .f32⟩ : BufTy).Contents (Elt F) → (⟨S850000x64, .f32⟩ : BufTy).Contents (Elt F) → (⟨S850000x64, .f32⟩ : BufTy).Contents (Elt F)),
    StableHlo.nullary main_cst_66 (constant S_ .f32 0x00000000#32),
    StableHlo.unary main_cst_66 main_v283 (broadcastInDim S50000x64 ![] bcast_S_S50000x64 : (⟨S_, .f32⟩ : BufTy).Contents (Elt F) → (⟨S50000x64, .f32⟩ : BufTy).Contents (Elt F)),
    StableHlo.unary main_v232 main_v284 (broadcastInDim S850000x1 ![0] bcast_S850000_S850000x1_0 : (⟨S850000, .i32⟩ : BufTy).Contents (Elt F) → (⟨S850000x1, .i32⟩ : BufTy).Contents (Elt F)),
    StableHlo.ternary main_v283 main_v284 main_v282 main_v285 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.nullary main_cst_67 (constant S_ .f32 0x3F19999A#32),
    StableHlo.unary main_cst_67 main_v286 (broadcastInDim S50000x64 ![] bcast_S_S50000x64 : (⟨S_, .f32⟩ : BufTy).Contents (Elt F) → (⟨S50000x64, .f32⟩ : BufTy).Contents (Elt F)),
    StableHlo.binary main_v286 main_v285 main_v287 (mulf : (⟨S50000x64, .f32⟩ : BufTy).Contents (Elt F) → (⟨S50000x64, .f32⟩ : BufTy).Contents (Elt F) → (⟨S50000x64, .f32⟩ : BufTy).Contents (Elt F)),
    StableHlo.binary main_v225 main_v287 main_v288 (addf : (⟨S50000x64, .f32⟩ : BufTy).Contents (Elt F) → (⟨S50000x64, .f32⟩ : BufTy).Contents (Elt F) → (⟨S50000x64, .f32⟩ : BufTy).Contents (Elt F)),
    StableHlo.nullary main_cst_68 (constant S_ .f32 0x3F200000#32) ]

/-- The 60 operations of window 5 of the reference's @main, in order: its pieces concatenated. -/
abbrev ops5 : List (HloOp τ sig (Elt F)) := ops5_0 ++ ops5_1 ++ ops5_2

end Cert.ReferenceIdeal.RefRun

end
-- ==== Proof.Ref.Part5.lean ====
import proofs.«149349_j76854144794846_1_alg».proof.Proof.Ref.Ops5
import proofs.«149349_j76854144794846_1_alg».proof.Proof.Ref.Lib

/-! Statements 301 … 360 of the reference's @main as a straight line of operations: the window is the sequence of
its listed operations, every operation touches TensorCore buffers only and determines its result, and each piece of
the window writes only buffers from its own first result on (every operation's result is a fresh buffer, later in
the signature than every earlier one), so none writes one of the program's fourteen argument buffers. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem part5_eq (c : Dev nD) : main_part5 (F := F) c = StableHlo.seq ops5 := by
  simp only [main_part5, fn_elu.body, fn_where.body, fn_where_0.body, ops5, ops5_0, ops5_1, ops5_2,
    List.cons_append, List.nil_append, seq, bind_assoc, pure_bind] <;> rfl

theorem ops5_sub : (ops5 (F := F)).Forall fun op => op.bufs ⊆ StableHlo.tcRefs τ sig := by
  simp only [ops5, ops5_0, ops5_1, ops5_2, List.cons_append, List.nil_append, List.Forall,
    nullary_bufs_sub, unary_bufs_sub, binary_bufs_sub, ternary_bufs_sub, reshape_bufs_sub, and_self]

theorem ops5_fresh : ∀ op ∈ ops5 (F := F), op.fresh = ∅ := by
  intro _ h
  simp only [ops5, ops5_0, ops5_1, ops5_2, List.cons_append, List.nil_append] at h
  repeat (cases h with | head => rfl | tail _ h => ?_)
  exact nomatch h

theorem ops5_0_writes : WritesFrom 342 (ops5_0 (F := F)) := List.forall_iff_forall_mem.mp (by
  simp only [ops5_0, List.Forall, nullary_writes, unary_writes, binary_writes, ternary_writes, reshape_writes,
    Finset.mem_singleton]
  repeat' apply And.intro
  all_goals exact not_devRef_eq (by decide))

theorem ops5_1_writes : WritesFrom 358 (ops5_1 (F := F)) := List.forall_iff_forall_mem.mp (by
  simp only [ops5_1, List.Forall, nullary_writes, unary_writes, binary_writes, ternary_writes, reshape_writes,
    Finset.mem_singleton]
  repeat' apply And.intro
  all_goals exact not_devRef_eq (by decide))

theorem ops5_2_writes : WritesFrom 381 (ops5_2 (F := F)) := List.forall_iff_forall_mem.mp (by
  simp only [ops5_2, List.Forall, nullary_writes, unary_writes, binary_writes, ternary_writes, reshape_writes,
    Finset.mem_singleton]
  repeat' apply And.intro
  all_goals exact not_devRef_eq (by decide))

theorem ops5_writes : WritesFrom 14 (ops5 (F := F)) :=
  (((ops5_0_writes.mono (by decide)).append (ops5_1_writes.mono (by decide))).append (ops5_2_writes.mono (by decide)))

end Cert.ReferenceIdeal.RefRun

end
-- ==== Proof.Ref.Ops6.lean ====
import proofs.«149349_j76854144794846_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 0 to 1 (counted from 0) of window 6 of the reference's @main, in order (a call's operations at the call site, over the call's record). -/
abbrev ops6_0 : List (HloOp τ sig (Elt F)) :=
  [ StableHlo.unary main_cst_68 main_v289 (broadcastInDim S50000x64 ![] bcast_S_S50000x64 : (⟨S_, .f32⟩ : BufTy).Contents (Elt F) → (⟨S50000x64, .f32⟩ : BufTy).Contents (Elt F)),
    StableHlo.binary main_v288 main_v289 main_v290 (mulf : (⟨S50000x64, .f32⟩ : BufTy).Contents (Elt F) → (⟨S50000x64, .f32⟩ : BufTy).Contents (Elt F) → (⟨S50000x64, .f32⟩ : BufTy).Contents (Elt F)) ]

/-- Operations 2 to 24 (counted from 0) of window 6 of the reference's @main, in order (a call's operations at the call site, over the call's record). -/
abbrev ops6_1 : List (HloOp τ sig (Elt F)) :=
  [ StableHlo.nullary main_c_69 (constantI S_ 32 0#32),
    StableHlo.unary main_c_69 main_v291 (broadcastInDim S850000 ![] bcast_S_S850000 : (⟨S_, .i32⟩ : BufTy).Contents (Elt F) → (⟨S850000, .i32⟩ : BufTy).Contents (Elt F)),
    StableHlo.binary main_v229 main_v291 main_v292 (cmpi .slt : (⟨S850000, .i32⟩ : BufTy).Contents (Elt F) → (⟨S850000, .i32⟩ : BufTy).Contents (Elt F) → (⟨S850000, .i1⟩ : BufTy).Contents (Elt F)),
    StableHlo.nullary main_c_70 (constantI S_ 32 50000#32),
    StableHlo.unary main_c_70 main_v293 (broadcastInDim S850000 ![] bcast_S_S850000 : (⟨S_, .i32⟩ : BufTy).Contents (Elt F) → (⟨S850000, .i32⟩ : BufTy).Contents (Elt F)),
    StableHlo.binary main_v229 main_v293 main_v294 (addi : (⟨S850000, .i32⟩ : BufTy).Contents (Elt F) → (⟨S850000, .i32⟩ : BufTy).Contents (Elt F) → (⟨S850000, .i32⟩ : BufTy).Contents (Elt F)),
    StableHlo.ternary main_v292 main_v294 main_v229 main_v295 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v295 main_v296 (broadcastInDim S850000x1 ![0] bcast_S850000_S850000x1_0 : (⟨S850000, .i32⟩ : BufTy).Contents (Elt F) → (⟨S850000x1, .i32⟩ : BufTy).Contents (Elt F)),
    StableHlo.binary main_v290 main_v296 main_v297 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v254 main_v298 (broadcastInDim S850000x1 ![0] bcast_S850000_S850000x1_0 : (⟨S850000, .f32⟩ : BufTy).Contents (Elt F) → (⟨S850000x1, .f32⟩ : BufTy).Contents (Elt F)),
    StableHlo.unary main_v298 main_v299 (broadcastInDim S850000x64 ![0, 1] bcast_S850000x1_S850000x64_0_1 : (⟨S850000x1, .f32⟩ : BufTy).Contents (Elt F) → (⟨S850000x64, .f32⟩ : BufTy).Contents (Elt F)),
    StableHlo.binary main_v297 main_v299 main_v300 (mulf : (⟨S850000x64, .f32⟩ : BufTy).Contents (Elt F) → (⟨S850000x64, .f32⟩ : BufTy).Contents (Elt F) → (⟨S850000x64, .f32⟩ : BufTy).Contents (Elt F)),
    StableHlo.nullary main_cst_71 (constant S_ .f32 0x00000000#32),
    StableHlo.unary main_cst_71 main_v301 (broadcastInDim S50000x64 ![] bcast_S_S50000x64 : (⟨S_, .f32⟩ : BufTy).Contents (Elt F) → (⟨S50000x64, .f32⟩ : BufTy).Contents (Elt F)),
    StableHlo.unary main_v232 main_v302 (broadcastInDim S850000x1 ![0] bcast_S850000_S850000x1_0 : (⟨S850000, .i32⟩ : BufTy).Contents (Elt F) → (⟨S850000x1, .i32⟩ : BufTy).Contents (Elt F)),
    StableHlo.ternary main_v301 main_v302 main_v300 main_v303 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.nullary main_cst_72 (constant S_ .f32 0x3F19999A#32),
    StableHlo.unary main_cst_72 main_v304 (broadcastInDim S50000x64 ![] bcast_S_S50000x64 : (⟨S_, .f32⟩ : BufTy).Contents (Elt F) → (⟨S50000x64, .f32⟩ : BufTy).Contents (Elt F)),
    StableHlo.binary main_v304 main_v303 main_v305 (mulf : (⟨S50000x64, .f32⟩ : BufTy).Contents (Elt F) → (⟨S50000x64, .f32⟩ : BufTy).Contents (Elt F) → (⟨S50000x64, .f32⟩ : BufTy).Contents (Elt F)),
    StableHlo.binary main_v225 main_v305 main_v306 (addf : (⟨S50000x64, .f32⟩ : BufTy).Contents (Elt F) → (⟨S50000x64, .f32⟩ : BufTy).Contents (Elt F) → (⟨S50000x64, .f32⟩ : BufTy).Contents (Elt F)),
    StableHlo.nullary main_cst_73 (constant S_ .f32 0x3F200000#32),
    StableHlo.unary main_cst_73 main_v307 (broadcastInDim S50000x64 ![] bcast_S_S50000x64 : (⟨S_, .f32⟩ : BufTy).Contents (Elt F) → (⟨S50000x64, .f32⟩ : BufTy).Contents (Elt F)),
    StableHlo.binary main_v306 main_v307 main_v308 (mulf : (⟨S50000x64, .f32⟩ : BufTy).Contents (Elt F) → (⟨S50000x64, .f32⟩ : BufTy).Contents (Elt F) → (⟨S50000x64, .f32⟩ : BufTy).Contents (Elt F)) ]

/-- Operations 25 to 47 (counted from 0) of window 6 of the reference's @main, in order (a call's operations at the call site, over the call's record). -/
abbrev ops6_2 : List (HloOp τ sig (Elt F)) :=
  [ StableHlo.nullary main_c_74 (constantI S_ 32 0#32),
    StableHlo.unary main_c_74 main_v309 (broadcastInDim S850000 ![] bcast_S_S850000 : (⟨S_, .i32⟩ : BufTy).Contents (Elt F) → (⟨S850000, .i32⟩ : BufTy).Contents (Elt F)),
    StableHlo.binary main_v229 main_v309 main_v310 (cmpi .slt : (⟨S850000, .i32⟩ : BufTy).Contents (Elt F) → (⟨S850000, .i32⟩ : BufTy).Contents (Elt F) → (⟨S850000, .i1⟩ : BufTy).Contents (Elt F)),
    StableHlo.nullary main_c_75 (constantI S_ 32 50000#32),
    StableHlo.unary main_c_75 main_v311 (broadcastInDim S850000 ![] bcast_S_S850000 : (⟨S_, .i32⟩ : BufTy).Contents (Elt F) → (⟨S850000, .i32⟩ : BufTy).Contents (Elt F)),
    StableHlo.binary main_v229 main_v311 main_v312 (addi : (⟨S850000, .i32⟩ : BufTy).Contents (Elt F) → (⟨S850000, .i32⟩ : BufTy).Contents (Elt F) → (⟨S850000, .i32⟩ : BufTy).Contents (Elt F)),
    StableHlo.ternary main_v310 main_v312 main_v229 main_v313 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v313 main_v314 (broadcastInDim S850000x1 ![0] bcast_S850000_S850000x1_0 : (⟨S850000, .i32⟩ : BufTy).Contents (Elt F) → (⟨S850000x1, .i32⟩ : BufTy).Contents (Elt F)),
    StableHlo.binary main_v308 main_v314 main_v315 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v254 main_v316 (broadcastInDim S850000x1 ![0] bcast_S850000_S850000x1_0 : (⟨S850000, .f32⟩ : BufTy).Contents (Elt F) → (⟨S850000x1, .f32⟩ : BufTy).Contents (Elt F)),
    StableHlo.unary main_v316 main_v317 (broadcastInDim S850000x64 ![0, 1] bcast_S850000x1_S850000x64_0_1 : (⟨S850000x1, .f32⟩ : BufTy).Contents (Elt F) → (⟨S850000x64, .f32⟩ : BufTy).Contents (Elt F)),
    StableHlo.binary main_v315 main_v317 main_v318 (mulf : (⟨S850000x64, .f32⟩ : BufTy).Contents (Elt F) → (⟨S850000x64, .f32⟩ : BufTy).Contents (Elt F) → (⟨S850000x64, .f32⟩ : BufTy).Contents (Elt F)),
    StableHlo.nullary main_cst_76 (constant S_ .f32 0x00000000#32),
    StableHlo.unary main_cst_76 main_v319 (broadcastInDim S50000x64 ![] bcast_S_S50000x64 : (⟨S_, .f32⟩ : BufTy).Contents (Elt F) → (⟨S50000x64, .f32⟩ : BufTy).Contents (Elt F)),
    StableHlo.unary main_v232 main_v320 (broadcastInDim S850000x1 ![0] bcast_S850000_S850000x1_0 : (⟨S850000, .i32⟩ : BufTy).Contents (Elt F) → (⟨S850000x1, .i32⟩ : BufTy).Contents (Elt F)),
    StableHlo.ternary main_v319 main_v320 main_v318 main_v321 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.nullary main_cst_77 (constant S_ .f32 0x3F19999A#32),
    StableHlo.unary main_cst_77 main_v322 (broadcastInDim S50000x64 ![] bcast_S_S50000x64 : (⟨S_, .f32⟩ : BufTy).Contents (Elt F) → (⟨S50000x64, .f32⟩ : BufTy).Contents (Elt F)),
    StableHlo.binary main_v322 main_v321 main_v323 (mulf : (⟨S50000x64, .f32⟩ : BufTy).Contents (Elt F) → (⟨S50000x64, .f32⟩ : BufTy).Contents (Elt F) → (⟨S50000x64, .f32⟩ : BufTy).Contents (Elt F)),
    StableHlo.binary main_v225 main_v323 main_v324 (addf : (⟨S50000x64, .f32⟩ : BufTy).Contents (Elt F) → (⟨S50000x64, .f32⟩ : BufTy).Contents (Elt F) → (⟨S50000x64, .f32⟩ : BufTy).Contents (Elt F)),
    StableHlo.nullary main_cst_78 (constant S_ .f32 0x3F200000#32),
    StableHlo.unary main_cst_78 main_v325 (broadcastInDim S50000x64 ![] bcast_S_S50000x64 : (⟨S_, .f32⟩ : BufTy).Contents (Elt F) → (⟨S50000x64, .f32⟩ : BufTy).Contents (Elt F)),
    StableHlo.binary main_v324 main_v325 main_v326 (mulf : (⟨S50000x64, .f32⟩ : BufTy).Contents (Elt F) → (⟨S50000x64, .f32⟩ : BufTy).Contents (Elt F) → (⟨S50000x64, .f32⟩ : BufTy).Contents (Elt F)) ]

/-- Operations 48 to 52 (counted from 0) of window 6 of the reference's @main, in order (a call's operations at the call site, over the call's record). -/
abbrev ops6_3 : List (HloOp τ sig (Elt F)) :=
  [ StableHlo.binary main_v221 main_arg12 main_v327 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg13 main_v328 (broadcastInDim S1x64 ![1] bcast_S64_S1x64_1 : (⟨S64, .f32⟩ : BufTy).Contents (Elt F) → (⟨S1x64, .f32⟩ : BufTy).Contents (Elt F)),
    StableHlo.unary main_v328 main_v329 (broadcastInDim S50000x64 ![0, 1] bcast_S1x64_S50000x64_0_1 : (⟨S1x64, .f32⟩ : BufTy).Contents (Elt F) → (⟨S50000x64, .f32⟩ : BufTy).Contents (Elt F)),
    StableHlo.binary main_v327 main_v329 main_v330 (addf : (⟨S50000x64, .f32⟩ : BufTy).Contents (Elt F) → (⟨S50000x64, .f32⟩ : BufTy).Contents (Elt F) → (⟨S50000x64, .f32⟩ : BufTy).Contents (Elt F)),
    StableHlo.binary main_v326 main_v330 main_v331 (addf : (⟨S50000x64, .f32⟩ : BufTy).Contents (Elt F) → (⟨S50000x64, .f32⟩ : BufTy).Contents (Elt F) → (⟨S50000x64, .f32⟩ : BufTy).Contents (Elt F)) ]

/-- The 53 operations of window 6 of the reference's @main, in order: its pieces concatenated. -/
abbrev ops6 : List (HloOp τ sig (Elt F)) := ops6_0 ++ ops6_1 ++ ops6_2 ++ ops6_3

end Cert.ReferenceIdeal.RefRun

end
-- ==== Proof.Ref.Part6.lean ====
import proofs.«149349_j76854144794846_1_alg».proof.Proof.Ref.Ops6
import proofs.«149349_j76854144794846_1_alg».proof.Proof.Ref.Lib

/-! Statements 361 … 414 of the reference's @main as a straight line of operations: the window is the sequence of
its listed operations, every operation touches TensorCore buffers only and determines its result, and each piece of
the window writes only buffers from its own first result on (every operation's result is a fresh buffer, later in
the signature than every earlier one), so none writes one of the program's fourteen argument buffers. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem part6_eq (c : Dev nD) : main_part6 (F := F) c = StableHlo.seq ops6 := by
  simp only [main_part6, fn_elu.body, fn_where.body, fn_where_0.body, ops6, ops6_0, ops6_1, ops6_2, ops6_3,
    List.cons_append, List.nil_append, seq, bind_assoc, pure_bind] <;> rfl

theorem ops6_sub : (ops6 (F := F)).Forall fun op => op.bufs ⊆ StableHlo.tcRefs τ sig := by
  simp only [ops6, ops6_0, ops6_1, ops6_2, ops6_3, List.cons_append, List.nil_append, List.Forall,
    nullary_bufs_sub, unary_bufs_sub, binary_bufs_sub, ternary_bufs_sub, reshape_bufs_sub, and_self]

theorem ops6_fresh : ∀ op ∈ ops6 (F := F), op.fresh = ∅ := by
  intro _ h
  simp only [ops6, ops6_0, ops6_1, ops6_2, ops6_3, List.cons_append, List.nil_append] at h
  repeat (cases h with | head => rfl | tail _ h => ?_)
  exact nomatch h

theorem ops6_0_writes : WritesFrom 402 (ops6_0 (F := F)) := List.forall_iff_forall_mem.mp (by
  simp only [ops6_0, List.Forall, nullary_writes, unary_writes, binary_writes, ternary_writes, reshape_writes,
    Finset.mem_singleton]
  repeat' apply And.intro
  all_goals exact not_devRef_eq (by decide))

theorem ops6_1_writes : WritesFrom 404 (ops6_1 (F := F)) := List.forall_iff_forall_mem.mp (by
  simp only [ops6_1, List.Forall, nullary_writes, unary_writes, binary_writes, ternary_writes, reshape_writes,
    Finset.mem_singleton]
  repeat' apply And.intro
  all_goals exact not_devRef_eq (by decide))

theorem ops6_2_writes : WritesFrom 427 (ops6_2 (F := F)) := List.forall_iff_forall_mem.mp (by
  simp only [ops6_2, List.Forall, nullary_writes, unary_writes, binary_writes, ternary_writes, reshape_writes,
    Finset.mem_singleton]
  repeat' apply And.intro
  all_goals exact not_devRef_eq (by decide))

theorem ops6_3_writes : WritesFrom 450 (ops6_3 (F := F)) := List.forall_iff_forall_mem.mp (by
  simp only [ops6_3, List.Forall, nullary_writes, unary_writes, binary_writes, ternary_writes, reshape_writes,
    Finset.mem_singleton]
  repeat' apply And.intro
  all_goals exact not_devRef_eq (by decide))

theorem ops6_writes : WritesFrom 14 (ops6 (F := F)) :=
  ((((ops6_0_writes.mono (by decide)).append (ops6_1_writes.mono (by decide))).append (ops6_2_writes.mono (by decide))).append (ops6_3_writes.mono (by decide)))

end Cert.ReferenceIdeal.RefRun

end
-- ==== Proof.Ref.Run.lean ====
import proofs.«149349_j76854144794846_1_alg».proof.Proof.Ref.Part0
import proofs.«149349_j76854144794846_1_alg».proof.Proof.Ref.Part1
import proofs.«149349_j76854144794846_1_alg».proof.Proof.Ref.Part2
import proofs.«149349_j76854144794846_1_alg».proof.Proof.Ref.Part3
import proofs.«149349_j76854144794846_1_alg».proof.Proof.Ref.Part4
import proofs.«149349_j76854144794846_1_alg».proof.Proof.Ref.Part5
import proofs.«149349_j76854144794846_1_alg».proof.Proof.Ref.Part6

/-! The reference's run. @main is its seven windows in order, so it is the straight line of all their operations;
every weakly fair execution of it terminates with each TensorCore buffer at the operations' fold over the launch
contents. No operation writes an argument's buffer, so each argument ends as launched. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order: the seven windows' lists, concatenated. -/
abbrev ops : List (HloOp τ sig (Elt F)) := ops0 ++ ops1 ++ ops2 ++ ops3 ++ ops4 ++ ops5 ++ ops6

theorem main_eq (c : Dev nD) : main (F := F) c = StableHlo.seq ops := by
  simp only [main, ops, seq_append, bind_assoc, part0_eq, part1_eq, part2_eq, part3_eq, part4_eq, part5_eq, part6_eq]

theorem scopedRefs_eq : (Finset.univ.filter fun b : Ref sig .tc => b.isScoped) = ∅ := by decide
theorem scopedSems_eq : (Finset.univ.filter fun sm : SemLoc sig => sm.isScoped .tc) = ∅ := by decide

theorem ops_sub : (ops (F := F)).Forall fun op => op.bufs ⊆ StableHlo.tcRefs τ sig :=
  forall_append (forall_append (forall_append (forall_append (forall_append (forall_append ops0_sub ops1_sub) ops2_sub)
    ops3_sub) ops4_sub) ops5_sub) ops6_sub

theorem ops_fresh : ∀ op ∈ ops (F := F), op.fresh = ∅ :=
  forall_mem_append (forall_mem_append (forall_mem_append (forall_mem_append (forall_mem_append (forall_mem_append
    ops0_fresh ops1_fresh) ops2_fresh) ops3_fresh) ops4_fresh) ops5_fresh) ops6_fresh

theorem ops_writes : WritesFrom 14 (ops (F := F)) :=
  (((((ops0_writes.append ops1_writes).append ops2_writes).append ops3_writes).append ops4_writes).append
    ops5_writes).append ops6_writes

/-- On every device, for any float values, from any memory with zero counters: every weakly fair execution of @main
    terminates, and every TensorCore buffer ends at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (Proc.devRef .tc b) :=
  run_seq scopedRefs_eq scopedSems_eq defs main (fun _ => ops) main_eq (fun _ => ops_sub) m ρ (fun _ => ops_fresh)

theorem keep_arg0 (V : Valuation τ sig (Elt F)) :
    StableHlo.after ops V (Proc.devRef .tc main_arg0) = V (Proc.devRef .tc main_arg0) :=
  after_of_writesFrom ops_writes V main_arg0 (by decide)
theorem keep_arg1 (V : Valuation τ sig (Elt F)) :
    StableHlo.after ops V (Proc.devRef .tc main_arg1) = V (Proc.devRef .tc main_arg1) :=
  after_of_writesFrom ops_writes V main_arg1 (by decide)
theorem keep_arg2 (V : Valuation τ sig (Elt F)) :
    StableHlo.after ops V (Proc.devRef .tc main_arg2) = V (Proc.devRef .tc main_arg2) :=
  after_of_writesFrom ops_writes V main_arg2 (by decide)
theorem keep_arg3 (V : Valuation τ sig (Elt F)) :
    StableHlo.after ops V (Proc.devRef .tc main_arg3) = V (Proc.devRef .tc main_arg3) :=
  after_of_writesFrom ops_writes V main_arg3 (by decide)
theorem keep_arg4 (V : Valuation τ sig (Elt F)) :
    StableHlo.after ops V (Proc.devRef .tc main_arg4) = V (Proc.devRef .tc main_arg4) :=
  after_of_writesFrom ops_writes V main_arg4 (by decide)
theorem keep_arg5 (V : Valuation τ sig (Elt F)) :
    StableHlo.after ops V (Proc.devRef .tc main_arg5) = V (Proc.devRef .tc main_arg5) :=
  after_of_writesFrom ops_writes V main_arg5 (by decide)
theorem keep_arg6 (V : Valuation τ sig (Elt F)) :
    StableHlo.after ops V (Proc.devRef .tc main_arg6) = V (Proc.devRef .tc main_arg6) :=
  after_of_writesFrom ops_writes V main_arg6 (by decide)
theorem keep_arg7 (V : Valuation τ sig (Elt F)) :
    StableHlo.after ops V (Proc.devRef .tc main_arg7) = V (Proc.devRef .tc main_arg7) :=
  after_of_writesFrom ops_writes V main_arg7 (by decide)
theorem keep_arg8 (V : Valuation τ sig (Elt F)) :
    StableHlo.after ops V (Proc.devRef .tc main_arg8) = V (Proc.devRef .tc main_arg8) :=
  after_of_writesFrom ops_writes V main_arg8 (by decide)
theorem keep_arg9 (V : Valuation τ sig (Elt F)) :
    StableHlo.after ops V (Proc.devRef .tc main_arg9) = V (Proc.devRef .tc main_arg9) :=
  after_of_writesFrom ops_writes V main_arg9 (by decide)
theorem keep_arg10 (V : Valuation τ sig (Elt F)) :
    StableHlo.after ops V (Proc.devRef .tc main_arg10) = V (Proc.devRef .tc main_arg10) :=
  after_of_writesFrom ops_writes V main_arg10 (by decide)
theorem keep_arg11 (V : Valuation τ sig (Elt F)) :
    StableHlo.after ops V (Proc.devRef .tc main_arg11) = V (Proc.devRef .tc main_arg11) :=
  after_of_writesFrom ops_writes V main_arg11 (by decide)
theorem keep_arg12 (V : Valuation τ sig (Elt F)) :
    StableHlo.after ops V (Proc.devRef .tc main_arg12) = V (Proc.devRef .tc main_arg12) :=
  after_of_writesFrom ops_writes V main_arg12 (by decide)
theorem keep_arg13 (V : Valuation τ sig (Elt F)) :
    StableHlo.after ops V (Proc.devRef .tc main_arg13) = V (Proc.devRef .tc main_arg13) :=
  after_of_writesFrom ops_writes V main_arg13 (by decide)

/-- The arguments end as launched. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨(h c main_arg0).trans (keep_arg0 _),
     (h c main_arg1).trans (keep_arg1 _),
     (h c main_arg2).trans (keep_arg2 _),
     (h c main_arg3).trans (keep_arg3 _),
     (h c main_arg4).trans (keep_arg4 _),
     (h c main_arg5).trans (keep_arg5 _),
     (h c main_arg6).trans (keep_arg6 _),
     (h c main_arg7).trans (keep_arg7 _),
     (h c main_arg8).trans (keep_arg8 _),
     (h c main_arg9).trans (keep_arg9 _),
     (h c main_arg10).trans (keep_arg10 _),
     (h c main_arg11).trans (keep_arg11 _),
     (h c main_arg12).trans (keep_arg12 _),
     (h c main_arg13).trans (keep_arg13 _)⟩)
    (run_all m ρ)

end Cert.ReferenceIdeal.RefRun

end
-- ==== Proof.Ref.StagesOn.lean ====
import proofs.«149349_j76854144794846_1_alg».proof.Proof.Ref.Stages

/-! The stages that read the edge list, stated over the source and target index arrays themselves: the run holds
those two arrays in buffers of their own, and each stage reads the buffers. At the arrays the edge list gives
(`srcI ei`, `dstI ei`) they are the stages of the edge list, by unfolding. -/

noncomputable section

namespace Cert.ReferenceIdeal.Stage

open Cert.ReferenceIdeal Cert.ReferenceIdeal.Gen Idealize.ShloMosaic Idealize.SL.Sem

variable {F : FTy → Type} [FloatOps F]

/-- `deg^{-1/2}` per node from the target array. -/
def disOn (d : (⟨S850000, .i32⟩ : BufTy).Contents (Elt F)) : (⟨S50000, .f32⟩ : BufTy).Contents (Elt F) :=
  Host.rsqrt (maximumf (Host.scatterAdd scatter_S50000_S850000x1_S850000_n_0_0_1 (broadcastInDim S50000 ![] bcast_S_S50000 (constant (F := F) S_ .f32 0x00000000#32)) (broadcastInDim S850000x1 ![0] bcast_S850000_S850000x1_0 d) (broadcastInDim S850000 ![] bcast_S_S850000 (constant (F := F) S_ .f32 0x3F800000#32))) (broadcastInDim S50000 ![] bcast_S_S50000 (constant (F := F) S_ .f32 0x2B8CBCCC#32)))

/-- The edge weights from the source and target arrays. -/
def nrmOn (s d : (⟨S850000, .i32⟩ : BufTy).Contents (Elt F)) : (⟨S850000, .f32⟩ : BufTy).Contents (Elt F) :=
  mulf (Host.gather gather_S50000_S850000x1_S850000_n_0_n_n_0_1_1 (disOn d) (wrapI s)) (Host.gather gather_S50000_S850000x1_S850000_n_0_n_n_0_1_1 (disOn d) (wrapI d))

/-- One normalised neighbourhood sum at 128 features, from the source and target arrays. -/
def agg128On (s d : (⟨S850000, .i32⟩ : BufTy).Contents (Elt F)) (n : (⟨S850000, .f32⟩ : BufTy).Contents (Elt F)) (h : (⟨S50000x128, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant (F := F) S_ .f32 0x00000000#32)) (broadcastInDim S850000x1 ![0] bcast_S850000_S850000x1_0 d) (mulf (Host.gather gather_S50000x128_S850000x1_S850000x128_1_0_n_n_0_1_1128 h (wrapI s)) (broadcastInDim S850000x128 ![0, 1] bcast_S850000x1_S850000x128_0_1 (broadcastInDim S850000x1 ![0] bcast_S850000_S850000x1_0 n)))

/-- The same at 64 features. -/
def agg64On (s d : (⟨S850000, .i32⟩ : BufTy).Contents (Elt F)) (n : (⟨S850000, .f32⟩ : BufTy).Contents (Elt F)) (h : (⟨S50000x64, .f32⟩ : BufTy).Contents (Elt F)) : (⟨S50000x64, .f32⟩ : BufTy).Contents (Elt F) :=
  Host.scatterAdd scatter_S50000x64_S850000x1_S850000x64_1_0_0_1 (broadcastInDim S50000x64 ![] bcast_S_S50000x64 (constant (F := F) S_ .f32 0x00000000#32)) (broadcastInDim S850000x1 ![0] bcast_S850000_S850000x1_0 d) (mulf (Host.gather gather_S50000x64_S850000x1_S850000x64_1_0_n_n_0_1_164 h (wrapI s)) (broadcastInDim S850000x64 ![0, 1] bcast_S850000x1_S850000x64_0_1 (broadcastInDim S850000x1 ![0] bcast_S850000_S850000x1_0 n)))

theorem dis_eq (ei : (⟨S2x800000, .i32⟩ : BufTy).Contents (Elt F)) : dis (F := F) ei = disOn (dstI ei) := rfl
theorem nrm_eq (ei : (⟨S2x800000, .i32⟩ : BufTy).Contents (Elt F)) : nrm (F := F) ei = nrmOn (srcI ei) (dstI ei) := rfl
theorem agg128_eq (ei : (⟨S2x800000, .i32⟩ : BufTy).Contents (Elt F)) (n : (⟨S850000, .f32⟩ : BufTy).Contents (Elt F)) (h : (⟨S50000x128, .f32⟩ : BufTy).Contents (Elt F)) :
    agg128 ei n h = agg128On (srcI ei) (dstI ei) n h := rfl
theorem agg64_eq (ei : (⟨S2x800000, .i32⟩ : BufTy).Contents (Elt F)) (n : (⟨S850000, .f32⟩ : BufTy).Contents (Elt F)) (h : (⟨S50000x64, .f32⟩ : BufTy).Contents (Elt F)) :
    agg64 ei n h = agg64On (srcI ei) (dstI ei) n h := rfl

end Cert.ReferenceIdeal.Stage

end
-- ==== Proof.Ref.Read0.lean ====
import proofs.«149349_j76854144794846_1_alg».proof.Proof.Ref.Part0
import proofs.«149349_j76854144794846_1_alg».proof.Proof.Ref.StagesOn

/-! Window 0 of the reference's @main read piece by piece, from any contents `U`: the first layer's dense input, the two index arrays, the edge weights, and the first hop up to its sum.
Each statement gives what one buffer holds after one piece as a stage of what the piece's input buffers held before it;
a buffer earlier in the signature than the piece's first result passes through the piece unchanged. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem ops0_0_v3 (U : Valuation τ sig (Elt F)) :
    after ops0_0 U (no_index (Proc.devRef .tc main_v3)) = Stage.lin256x128 (U (Proc.devRef .tc main_arg0)) (U (Proc.devRef .tc main_arg2)) (U (Proc.devRef .tc main_arg3)) := by
  after_results <;> rfl

theorem ops0_1_v7 (U : Valuation τ sig (Elt F)) :
    after ops0_1 U (no_index (Proc.devRef .tc main_v7)) = Stage.srcI (U (Proc.devRef .tc main_arg1)) := by
  after_results <;> rfl

theorem ops0_1_v10 (U : Valuation τ sig (Elt F)) :
    after ops0_1 U (no_index (Proc.devRef .tc main_v10)) = Stage.dstI (U (Proc.devRef .tc main_arg1)) := by
  after_results <;> rfl

set_option maxHeartbeats 1000000 in
theorem ops0_2_v32 (U : Valuation τ sig (Elt F)) :
    after ops0_2 U (no_index (Proc.devRef .tc main_v32)) = Stage.nrmOn (U (Proc.devRef .tc main_v7)) (U (Proc.devRef .tc main_v10)) := by
  after_results_simp <;> rfl

set_option maxHeartbeats 1000000 in
theorem ops0_3_v48 (U : Valuation τ sig (Elt F)) :
    after ops0_3 U (no_index (Proc.devRef .tc main_v48)) = addf (U (Proc.devRef .tc main_v3)) (mulf (broadcastInDim S50000x128 ![] bcast_S_S50000x128 (constant (F := F) S_ .f32 0x3F19999A#32)) (Stage.agg128On (U (Proc.devRef .tc main_v7)) (U (Proc.devRef .tc main_v10)) (U (Proc.devRef .tc main_v32)) (U (Proc.devRef .tc main_v3)))) := by
  after_results_simp <;> rfl

theorem ops0_0_skip (U : Valuation τ sig (Elt F)) (r : Ref sig .tc) (hr : r.idx.val < 14) :
    after ops0_0 U (no_index (Proc.devRef .tc r)) = U (Proc.devRef .tc r) :=
  after_of_writesFrom ops0_0_writes U r hr

theorem ops0_1_skip (U : Valuation τ sig (Elt F)) (r : Ref sig .tc) (hr : r.idx.val < 18) :
    after ops0_1 U (no_index (Proc.devRef .tc r)) = U (Proc.devRef .tc r) :=
  after_of_writesFrom ops0_1_writes U r hr

theorem ops0_2_skip (U : Valuation τ sig (Elt F)) (r : Ref sig .tc) (hr : r.idx.val < 25) :
    after ops0_2 U (no_index (Proc.devRef .tc r)) = U (Proc.devRef .tc r) :=
  after_of_writesFrom ops0_2_writes U r hr

theorem ops0_3_skip (U : Valuation τ sig (Elt F)) (r : Ref sig .tc) (hr : r.idx.val < 54) :
    after ops0_3 U (no_index (Proc.devRef .tc r)) = U (Proc.devRef .tc r) :=
  after_of_writesFrom ops0_3_writes U r hr

end Cert.ReferenceIdeal.RefRun

end
-- ==== Proof.Ref.Read1.lean ====
import proofs.«149349_j76854144794846_1_alg».proof.Proof.Ref.Part1
import proofs.«149349_j76854144794846_1_alg».proof.Proof.Ref.StagesOn

/-! Window 1 of the reference's @main read piece by piece, from any contents `U`: the first layer's first hop completed, its second and third hops, and the fourth hop's gathered rows and widened weights.
Each statement gives what one buffer holds after one piece as a stage of what the piece's input buffers held before it;
a buffer earlier in the signature than the piece's first result passes through the piece unchanged. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem ops1_0_v50 (U : Valuation τ sig (Elt F)) :
    after ops1_0 U (no_index (Proc.devRef .tc main_v50)) = mulf (U (Proc.devRef .tc main_v48)) (broadcastInDim S50000x128 ![] bcast_S_S50000x128 (constant (F := F) S_ .f32 0x3F200000#32)) := by
  after_results <;> rfl

set_option maxHeartbeats 1000000 in
theorem ops1_1_v68 (U : Valuation τ sig (Elt F)) :
    after ops1_1 U (no_index (Proc.devRef .tc main_v68)) = Stage.comb128 (U (Proc.devRef .tc main_v3)) (Stage.agg128On (U (Proc.devRef .tc main_v7)) (U (Proc.devRef .tc main_v10)) (U (Proc.devRef .tc main_v32)) (U (Proc.devRef .tc main_v50))) := by
  after_results_simp <;> rfl

set_option maxHeartbeats 1000000 in
theorem ops1_2_v86 (U : Valuation τ sig (Elt F)) :
    after ops1_2 U (no_index (Proc.devRef .tc main_v86)) = Stage.comb128 (U (Proc.devRef .tc main_v3)) (Stage.agg128On (U (Proc.devRef .tc main_v7)) (U (Proc.devRef .tc main_v10)) (U (Proc.devRef .tc main_v32)) (U (Proc.devRef .tc main_v68))) := by
  after_results_simp <;> rfl

theorem ops1_3_v93 (U : Valuation τ sig (Elt F)) :
    after ops1_3 U (no_index (Proc.devRef .tc main_v93)) = Host.gather gather_S50000x128_S850000x1_S850000x128_1_0_n_n_0_1_1128 (U (Proc.devRef .tc main_v86)) (Stage.wrapI (U (Proc.devRef .tc main_v7))) := by
  after_results <;> rfl

theorem ops1_3_v95 (U : Valuation τ sig (Elt F)) :
    after ops1_3 U (no_index (Proc.devRef .tc main_v95)) = (broadcastInDim S850000x128 ![0, 1] bcast_S850000x1_S850000x128_0_1 (broadcastInDim S850000x1 ![0] bcast_S850000_S850000x1_0 (U (Proc.devRef .tc main_v32)))) := by
  after_results <;> rfl

theorem ops1_0_skip (U : Valuation τ sig (Elt F)) (r : Ref sig .tc) (hr : r.idx.val < 74) :
    after ops1_0 U (no_index (Proc.devRef .tc r)) = U (Proc.devRef .tc r) :=
  after_of_writesFrom ops1_0_writes U r hr

theorem ops1_1_skip (U : Valuation τ sig (Elt F)) (r : Ref sig .tc) (hr : r.idx.val < 77) :
    after ops1_1 U (no_index (Proc.devRef .tc r)) = U (Proc.devRef .tc r) :=
  after_of_writesFrom ops1_1_writes U r hr

theorem ops1_2_skip (U : Valuation τ sig (Elt F)) (r : Ref sig .tc) (hr : r.idx.val < 100) :
    after ops1_2 U (no_index (Proc.devRef .tc r)) = U (Proc.devRef .tc r) :=
  after_of_writesFrom ops1_2_writes U r hr

theorem ops1_3_skip (U : Valuation τ sig (Elt F)) (r : Ref sig .tc) (hr : r.idx.val < 123) :
    after ops1_3 U (no_index (Proc.devRef .tc r)) = U (Proc.devRef .tc r) :=
  after_of_writesFrom ops1_3_writes U r hr

end Cert.ReferenceIdeal.RefRun

end
-- ==== Proof.Ref.Read2.lean ====
import proofs.«149349_j76854144794846_1_alg».proof.Proof.Ref.Part2
import proofs.«149349_j76854144794846_1_alg».proof.Proof.Ref.StagesOn

/-! Window 2 of the reference's @main read piece by piece, from any contents `U`: the first layer's fourth hop completed, its skip connection and activation, then the second layer's dense input, index arrays and edge weights.
Each statement gives what one buffer holds after one piece as a stage of what the piece's input buffers held before it;
a buffer earlier in the signature than the piece's first result passes through the piece unchanged. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem ops2_0_v104 (U : Valuation τ sig (Elt F)) :
    after ops2_0 U (no_index (Proc.devRef .tc main_v104)) = Stage.comb128 (U (Proc.devRef .tc main_v3)) (Host.scatterAdd scatter_S50000x128_S850000x1_S850000x128_1_0_0_1 (broadcastInDim S50000x128 ![] bcast_S_S50000x128 (constant (F := F) S_ .f32 0x00000000#32)) (broadcastInDim S850000x1 ![0] bcast_S850000_S850000x1_0 (U (Proc.devRef .tc main_v10))) (mulf (U (Proc.devRef .tc main_v93)) (U (Proc.devRef .tc main_v95)))) := by
  after_results <;> rfl

theorem ops2_1_v109 (U : Valuation τ sig (Elt F)) :
    after ops2_1 U (no_index (Proc.devRef .tc main_v109)) = addf (U (Proc.devRef .tc main_v104)) (Stage.lin256x128 (U (Proc.devRef .tc main_arg0)) (U (Proc.devRef .tc main_arg4)) (U (Proc.devRef .tc main_arg5))) := by
  after_results <;> rfl

theorem ops2_2_v110 (U : Valuation τ sig (Elt F)) :
    after ops2_2 U (no_index (Proc.devRef .tc main_v110)) = Stage.elu128 (U (Proc.devRef .tc main_v109)) := by
  after_results <;> rfl

theorem ops2_3_v114 (U : Valuation τ sig (Elt F)) :
    after ops2_3 U (no_index (Proc.devRef .tc main_v114)) = Stage.lin128x128 (U (Proc.devRef .tc main_v110)) (U (Proc.devRef .tc main_arg6)) (U (Proc.devRef .tc main_arg7)) := by
  after_results <;> rfl

theorem ops2_4_v118 (U : Valuation τ sig (Elt F)) :
    after ops2_4 U (no_index (Proc.devRef .tc main_v118)) = Stage.srcI (U (Proc.devRef .tc main_arg1)) := by
  after_results <;> rfl

theorem ops2_4_v121 (U : Valuation τ sig (Elt F)) :
    after ops2_4 U (no_index (Proc.devRef .tc main_v121)) = Stage.dstI (U (Proc.devRef .tc main_arg1)) := by
  after_results <;> rfl

set_option maxHeartbeats 1000000 in
theorem ops2_5_v143 (U : Valuation τ sig (Elt F)) :
    after ops2_5 U (no_index (Proc.devRef .tc main_v143)) = Stage.nrmOn (U (Proc.devRef .tc main_v118)) (U (Proc.devRef .tc main_v121)) := by
  after_results_simp <;> rfl

theorem ops2_6_v144 (U : Valuation τ sig (Elt F)) :
    after ops2_6 U (no_index (Proc.devRef .tc main_v144)) = (broadcastInDim S850000 ![] bcast_S_S850000 (constantI S_ 32 0#32)) := by
  after_results <;> rfl

theorem ops2_0_skip (U : Valuation τ sig (Elt F)) (r : Ref sig .tc) (hr : r.idx.val < 134) :
    after ops2_0 U (no_index (Proc.devRef .tc r)) = U (Proc.devRef .tc r) :=
  after_of_writesFrom ops2_0_writes U r hr

theorem ops2_1_skip (U : Valuation τ sig (Elt F)) (r : Ref sig .tc) (hr : r.idx.val < 146) :
    after ops2_1 U (no_index (Proc.devRef .tc r)) = U (Proc.devRef .tc r) :=
  after_of_writesFrom ops2_1_writes U r hr

theorem ops2_2_skip (U : Valuation τ sig (Elt F)) (r : Ref sig .tc) (hr : r.idx.val < 151) :
    after ops2_2 U (no_index (Proc.devRef .tc r)) = U (Proc.devRef .tc r) :=
  after_of_writesFrom ops2_2_writes U r hr

theorem ops2_3_skip (U : Valuation τ sig (Elt F)) (r : Ref sig .tc) (hr : r.idx.val < 166) :
    after ops2_3 U (no_index (Proc.devRef .tc r)) = U (Proc.devRef .tc r) :=
  after_of_writesFrom ops2_3_writes U r hr

theorem ops2_4_skip (U : Valuation τ sig (Elt F)) (r : Ref sig .tc) (hr : r.idx.val < 170) :
    after ops2_4 U (no_index (Proc.devRef .tc r)) = U (Proc.devRef .tc r) :=
  after_of_writesFrom ops2_4_writes U r hr

theorem ops2_5_skip (U : Valuation τ sig (Elt F)) (r : Ref sig .tc) (hr : r.idx.val < 177) :
    after ops2_5 U (no_index (Proc.devRef .tc r)) = U (Proc.devRef .tc r) :=
  after_of_writesFrom ops2_5_writes U r hr

theorem ops2_6_skip (U : Valuation τ sig (Elt F)) (r : Ref sig .tc) (hr : r.idx.val < 206) :
    after ops2_6 U (no_index (Proc.devRef .tc r)) = U (Proc.devRef .tc r) :=
  after_of_writesFrom ops2_6_writes U r hr

end Cert.ReferenceIdeal.RefRun

end
-- ==== Proof.Ref.Read3.lean ====
import proofs.«149349_j76854144794846_1_alg».proof.Proof.Ref.Part3
import proofs.«149349_j76854144794846_1_alg».proof.Proof.Ref.StagesOn

/-! Window 3 of the reference's @main read piece by piece, from any contents `U`: the second layer's first and second hops and the third hop's neighbourhood sum.
Each statement gives what one buffer holds after one piece as a stage of what the piece's input buffers held before it;
a buffer earlier in the signature than the piece's first result passes through the piece unchanged. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 1000000 in
theorem ops3_0_v161 (U : Valuation τ sig (Elt F)) :
    after ops3_0 U (no_index (Proc.devRef .tc main_v161)) = Stage.comb128 (U (Proc.devRef .tc main_v114)) (Host.scatterAdd scatter_S50000x128_S850000x1_S850000x128_1_0_0_1 (broadcastInDim S50000x128 ![] bcast_S_S50000x128 (constant (F := F) S_ .f32 0x00000000#32)) (broadcastInDim S850000x1 ![0] bcast_S850000_S850000x1_0 (U (Proc.devRef .tc main_v121))) (mulf (Host.gather gather_S50000x128_S850000x1_S850000x128_1_0_n_n_0_1_1128 (U (Proc.devRef .tc main_v114)) (broadcastInDim S850000x1 ![0] bcast_S850000_S850000x1_0 (select (cmpi .slt (U (Proc.devRef .tc main_v118)) (U (Proc.devRef .tc main_v144))) (addi (U (Proc.devRef .tc main_v118)) (broadcastInDim S850000 ![] bcast_S_S850000 (constantI S_ 32 50000#32))) (U (Proc.devRef .tc main_v118))))) (broadcastInDim S850000x128 ![0, 1] bcast_S850000x1_S850000x128_0_1 (broadcastInDim S850000x1 ![0] bcast_S850000_S850000x1_0 (U (Proc.devRef .tc main_v143)))))) := by
  after_results_simp <;> rfl

set_option maxHeartbeats 1000000 in
theorem ops3_1_v179 (U : Valuation τ sig (Elt F)) :
    after ops3_1 U (no_index (Proc.devRef .tc main_v179)) = Stage.comb128 (U (Proc.devRef .tc main_v114)) (Stage.agg128On (U (Proc.devRef .tc main_v118)) (U (Proc.devRef .tc main_v121)) (U (Proc.devRef .tc main_v143)) (U (Proc.devRef .tc main_v161))) := by
  after_results_simp <;> rfl

set_option maxHeartbeats 1000000 in
theorem ops3_2_v192 (U : Valuation τ sig (Elt F)) :
    after ops3_2 U (no_index (Proc.devRef .tc main_v192)) = (Stage.agg128On (U (Proc.devRef .tc main_v118)) (U (Proc.devRef .tc main_v121)) (U (Proc.devRef .tc main_v143)) (U (Proc.devRef .tc main_v179))) := by
  after_results_simp <;> rfl

theorem ops3_0_skip (U : Valuation τ sig (Elt F)) (r : Ref sig .tc) (hr : r.idx.val < 208) :
    after ops3_0 U (no_index (Proc.devRef .tc r)) = U (Proc.devRef .tc r) :=
  after_of_writesFrom ops3_0_writes U r hr

theorem ops3_1_skip (U : Valuation τ sig (Elt F)) (r : Ref sig .tc) (hr : r.idx.val < 229) :
    after ops3_1 U (no_index (Proc.devRef .tc r)) = U (Proc.devRef .tc r) :=
  after_of_writesFrom ops3_1_writes U r hr

theorem ops3_2_skip (U : Valuation τ sig (Elt F)) (r : Ref sig .tc) (hr : r.idx.val < 252) :
    after ops3_2 U (no_index (Proc.devRef .tc r)) = U (Proc.devRef .tc r) :=
  after_of_writesFrom ops3_2_writes U r hr

end Cert.ReferenceIdeal.RefRun

end
-- ==== Proof.Ref.Read4.lean ====
import proofs.«149349_j76854144794846_1_alg».proof.Proof.Ref.Part4
import proofs.«149349_j76854144794846_1_alg».proof.Proof.Ref.StagesOn

/-! Window 4 of the reference's @main read piece by piece, from any contents `U`: the second layer's third hop completed and its fourth, its skip connection and activation, then the third layer's dense input, index arrays and node scalings.
Each statement gives what one buffer holds after one piece as a stage of what the piece's input buffers held before it;
a buffer earlier in the signature than the piece's first result passes through the piece unchanged. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem ops4_0_v197 (U : Valuation τ sig (Elt F)) :
    after ops4_0 U (no_index (Proc.devRef .tc main_v197)) = Stage.comb128 (U (Proc.devRef .tc main_v114)) (U (Proc.devRef .tc main_v192)) := by
  after_results <;> rfl

set_option maxHeartbeats 1000000 in
theorem ops4_1_v215 (U : Valuation τ sig (Elt F)) :
    after ops4_1 U (no_index (Proc.devRef .tc main_v215)) = Stage.comb128 (U (Proc.devRef .tc main_v114)) (Stage.agg128On (U (Proc.devRef .tc main_v118)) (U (Proc.devRef .tc main_v121)) (U (Proc.devRef .tc main_v143)) (U (Proc.devRef .tc main_v197))) := by
  after_results_simp <;> rfl

theorem ops4_2_v220 (U : Valuation τ sig (Elt F)) :
    after ops4_2 U (no_index (Proc.devRef .tc main_v220)) = addf (U (Proc.devRef .tc main_v215)) (Stage.lin128x128 (U (Proc.devRef .tc main_v110)) (U (Proc.devRef .tc main_arg8)) (U (Proc.devRef .tc main_arg9))) := by
  after_results <;> rfl

theorem ops4_3_v221 (U : Valuation τ sig (Elt F)) :
    after ops4_3 U (no_index (Proc.devRef .tc main_v221)) = Stage.elu128 (U (Proc.devRef .tc main_v220)) := by
  after_results <;> rfl

theorem ops4_4_v225 (U : Valuation τ sig (Elt F)) :
    after ops4_4 U (no_index (Proc.devRef .tc main_v225)) = Stage.lin128x64 (U (Proc.devRef .tc main_v221)) (U (Proc.devRef .tc main_arg10)) (U (Proc.devRef .tc main_arg11)) := by
  after_results <;> rfl

theorem ops4_5_v229 (U : Valuation τ sig (Elt F)) :
    after ops4_5 U (no_index (Proc.devRef .tc main_v229)) = Stage.srcI (U (Proc.devRef .tc main_arg1)) := by
  after_results <;> rfl

theorem ops4_5_v232 (U : Valuation τ sig (Elt F)) :
    after ops4_5 U (no_index (Proc.devRef .tc main_v232)) = Stage.dstI (U (Proc.devRef .tc main_arg1)) := by
  after_results <;> rfl

theorem ops4_6_v239 (U : Valuation τ sig (Elt F)) :
    after ops4_6 U (no_index (Proc.devRef .tc main_v239)) = Stage.disOn (U (Proc.devRef .tc main_v232)) := by
  after_results <;> rfl

theorem ops4_6_v241 (U : Valuation τ sig (Elt F)) :
    after ops4_6 U (no_index (Proc.devRef .tc main_v241)) = cmpi .slt (U (Proc.devRef .tc main_v229)) (broadcastInDim S850000 ![] bcast_S_S850000 (constantI S_ 32 0#32)) := by
  after_results <;> rfl

theorem ops4_0_skip (U : Valuation τ sig (Elt F)) (r : Ref sig .tc) (hr : r.idx.val < 268) :
    after ops4_0 U (no_index (Proc.devRef .tc r)) = U (Proc.devRef .tc r) :=
  after_of_writesFrom ops4_0_writes U r hr

theorem ops4_1_skip (U : Valuation τ sig (Elt F)) (r : Ref sig .tc) (hr : r.idx.val < 275) :
    after ops4_1 U (no_index (Proc.devRef .tc r)) = U (Proc.devRef .tc r) :=
  after_of_writesFrom ops4_1_writes U r hr

theorem ops4_2_skip (U : Valuation τ sig (Elt F)) (r : Ref sig .tc) (hr : r.idx.val < 298) :
    after ops4_2 U (no_index (Proc.devRef .tc r)) = U (Proc.devRef .tc r) :=
  after_of_writesFrom ops4_2_writes U r hr

theorem ops4_3_skip (U : Valuation τ sig (Elt F)) (r : Ref sig .tc) (hr : r.idx.val < 303) :
    after ops4_3 U (no_index (Proc.devRef .tc r)) = U (Proc.devRef .tc r) :=
  after_of_writesFrom ops4_3_writes U r hr

theorem ops4_4_skip (U : Valuation τ sig (Elt F)) (r : Ref sig .tc) (hr : r.idx.val < 318) :
    after ops4_4 U (no_index (Proc.devRef .tc r)) = U (Proc.devRef .tc r) :=
  after_of_writesFrom ops4_4_writes U r hr

theorem ops4_5_skip (U : Valuation τ sig (Elt F)) (r : Ref sig .tc) (hr : r.idx.val < 322) :
    after ops4_5 U (no_index (Proc.devRef .tc r)) = U (Proc.devRef .tc r) :=
  after_of_writesFrom ops4_5_writes U r hr

theorem ops4_6_skip (U : Valuation τ sig (Elt F)) (r : Ref sig .tc) (hr : r.idx.val < 329) :
    after ops4_6 U (no_index (Proc.devRef .tc r)) = U (Proc.devRef .tc r) :=
  after_of_writesFrom ops4_6_writes U r hr

end Cert.ReferenceIdeal.RefRun

end
-- ==== Proof.Ref.Read5.lean ====
import proofs.«149349_j76854144794846_1_alg».proof.Proof.Ref.Part5
import proofs.«149349_j76854144794846_1_alg».proof.Proof.Ref.StagesOn

/-! Window 5 of the reference's @main read piece by piece, from any contents `U`: the third layer's edge weights, its first hop and the second hop up to its sum.
Each statement gives what one buffer holds after one piece as a stage of what the piece's input buffers held before it;
a buffer earlier in the signature than the piece's first result passes through the piece unchanged. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 1000000 in
theorem ops5_0_v254 (U : Valuation τ sig (Elt F)) :
    after ops5_0 U (no_index (Proc.devRef .tc main_v254)) = mulf (Host.gather gather_S50000_S850000x1_S850000_n_0_n_n_0_1_1 (U (Proc.devRef .tc main_v239)) (broadcastInDim S850000x1 ![0] bcast_S850000_S850000x1_0 (select (U (Proc.devRef .tc main_v241)) (addi (U (Proc.devRef .tc main_v229)) (broadcastInDim S850000 ![] bcast_S_S850000 (constantI S_ 32 50000#32))) (U (Proc.devRef .tc main_v229))))) (Host.gather gather_S50000_S850000x1_S850000_n_0_n_n_0_1_1 (U (Proc.devRef .tc main_v239)) (Stage.wrapI (U (Proc.devRef .tc main_v232)))) := by
  after_results_simp <;> rfl

set_option maxHeartbeats 1000000 in
theorem ops5_1_v272 (U : Valuation τ sig (Elt F)) :
    after ops5_1 U (no_index (Proc.devRef .tc main_v272)) = Stage.comb64 (U (Proc.devRef .tc main_v225)) (Stage.agg64On (U (Proc.devRef .tc main_v229)) (U (Proc.devRef .tc main_v232)) (U (Proc.devRef .tc main_v254)) (U (Proc.devRef .tc main_v225))) := by
  after_results_simp <;> rfl

set_option maxHeartbeats 1000000 in
theorem ops5_2_v288 (U : Valuation τ sig (Elt F)) :
    after ops5_2 U (no_index (Proc.devRef .tc main_v288)) = addf (U (Proc.devRef .tc main_v225)) (mulf (broadcastInDim S50000x64 ![] bcast_S_S50000x64 (constant (F := F) S_ .f32 0x3F19999A#32)) (Stage.agg64On (U (Proc.devRef .tc main_v229)) (U (Proc.devRef .tc main_v232)) (U (Proc.devRef .tc main_v254)) (U (Proc.devRef .tc main_v272)))) := by
  after_results_simp <;> rfl

set_option maxHeartbeats 1000000 in
theorem ops5_2_cst_68 (U : Valuation τ sig (Elt F)) :
    after ops5_2 U (no_index (Proc.devRef .tc main_cst_68)) = (constant (F := F) S_ .f32 0x3F200000#32) := by
  after_results_simp <;> rfl

theorem ops5_0_skip (U : Valuation τ sig (Elt F)) (r : Ref sig .tc) (hr : r.idx.val < 342) :
    after ops5_0 U (no_index (Proc.devRef .tc r)) = U (Proc.devRef .tc r) :=
  after_of_writesFrom ops5_0_writes U r hr

theorem ops5_1_skip (U : Valuation τ sig (Elt F)) (r : Ref sig .tc) (hr : r.idx.val < 358) :
    after ops5_1 U (no_index (Proc.devRef .tc r)) = U (Proc.devRef .tc r) :=
  after_of_writesFrom ops5_1_writes U r hr

theorem ops5_2_skip (U : Valuation τ sig (Elt F)) (r : Ref sig .tc) (hr : r.idx.val < 381) :
    after ops5_2 U (no_index (Proc.devRef .tc r)) = U (Proc.devRef .tc r) :=
  after_of_writesFrom ops5_2_writes U r hr

end Cert.ReferenceIdeal.RefRun

end
-- ==== Proof.Ref.Read6.lean ====
import proofs.«149349_j76854144794846_1_alg».proof.Proof.Ref.Part6
import proofs.«149349_j76854144794846_1_alg».proof.Proof.Ref.StagesOn

/-! Window 6 of the reference's @main read piece by piece, from any contents `U`: the third layer's second hop completed, its third and fourth hops, and the skip connection that gives the result.
Each statement gives what one buffer holds after one piece as a stage of what the piece's input buffers held before it;
a buffer earlier in the signature than the piece's first result passes through the piece unchanged. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem ops6_0_v290 (U : Valuation τ sig (Elt F)) :
    after ops6_0 U (no_index (Proc.devRef .tc main_v290)) = mulf (U (Proc.devRef .tc main_v288)) (broadcastInDim S50000x64 ![] bcast_S_S50000x64 (U (Proc.devRef .tc main_cst_68))) := by
  after_results <;> rfl

set_option maxHeartbeats 1000000 in
theorem ops6_1_v308 (U : Valuation τ sig (Elt F)) :
    after ops6_1 U (no_index (Proc.devRef .tc main_v308)) = Stage.comb64 (U (Proc.devRef .tc main_v225)) (Stage.agg64On (U (Proc.devRef .tc main_v229)) (U (Proc.devRef .tc main_v232)) (U (Proc.devRef .tc main_v254)) (U (Proc.devRef .tc main_v290))) := by
  after_results_simp <;> rfl

set_option maxHeartbeats 1000000 in
theorem ops6_2_v326 (U : Valuation τ sig (Elt F)) :
    after ops6_2 U (no_index (Proc.devRef .tc main_v326)) = Stage.comb64 (U (Proc.devRef .tc main_v225)) (Stage.agg64On (U (Proc.devRef .tc main_v229)) (U (Proc.devRef .tc main_v232)) (U (Proc.devRef .tc main_v254)) (U (Proc.devRef .tc main_v308))) := by
  after_results_simp <;> rfl

theorem ops6_3_v331 (U : Valuation τ sig (Elt F)) :
    after ops6_3 U (no_index (Proc.devRef .tc main_v331)) = addf (U (Proc.devRef .tc main_v326)) (Stage.lin128x64 (U (Proc.devRef .tc main_v221)) (U (Proc.devRef .tc main_arg12)) (U (Proc.devRef .tc main_arg13))) := by
  after_results <;> rfl

theorem ops6_0_skip (U : Valuation τ sig (Elt F)) (r : Ref sig .tc) (hr : r.idx.val < 402) :
    after ops6_0 U (no_index (Proc.devRef .tc r)) = U (Proc.devRef .tc r) :=
  after_of_writesFrom ops6_0_writes U r hr

theorem ops6_1_skip (U : Valuation τ sig (Elt F)) (r : Ref sig .tc) (hr : r.idx.val < 404) :
    after ops6_1 U (no_index (Proc.devRef .tc r)) = U (Proc.devRef .tc r) :=
  after_of_writesFrom ops6_1_writes U r hr

theorem ops6_2_skip (U : Valuation τ sig (Elt F)) (r : Ref sig .tc) (hr : r.idx.val < 427) :
    after ops6_2 U (no_index (Proc.devRef .tc r)) = U (Proc.devRef .tc r) :=
  after_of_writesFrom ops6_2_writes U r hr

theorem ops6_3_skip (U : Valuation τ sig (Elt F)) (r : Ref sig .tc) (hr : r.idx.val < 450) :
    after ops6_3 U (no_index (Proc.devRef .tc r)) = U (Proc.devRef .tc r) :=
  after_of_writesFrom ops6_3_writes U r hr

end Cert.ReferenceIdeal.RefRun

end
-- ==== Proof.Ref.Result.lean ====
import proofs.«149349_j76854144794846_1_alg».proof.Proof.Ref.Run
import proofs.«149349_j76854144794846_1_alg».proof.Proof.Ref.Read0
import proofs.«149349_j76854144794846_1_alg».proof.Proof.Ref.Read1
import proofs.«149349_j76854144794846_1_alg».proof.Proof.Ref.Read2
import proofs.«149349_j76854144794846_1_alg».proof.Proof.Ref.Read3
import proofs.«149349_j76854144794846_1_alg».proof.Proof.Ref.Read4
import proofs.«149349_j76854144794846_1_alg».proof.Proof.Ref.Read5
import proofs.«149349_j76854144794846_1_alg».proof.Proof.Ref.Read6

/-! The reference's result. The run leaves every buffer at the fold of @main's operations over the launch contents;
read piece by piece, the fold at the result buffer is the network `Stage.net` of the fourteen arguments. Every
operation's result is a fresh buffer, so the contents of a buffer after the whole line are what the piece that writes
it leaves there, computed from buffers that earlier pieces wrote and later pieces leave alone. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
theorem result_eq (V : Valuation τ sig (Elt F)) :
    StableHlo.after ops V (Proc.devRef .tc main_v331)
      = Stage.net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  simp (disch := decide) only [ops, ops0, ops1, ops2, ops3, ops4, ops5, ops6, after_append,
    ops0_0_v3, ops0_1_v7, ops0_1_v10, ops0_2_v32, ops0_3_v48, ops1_0_v50, ops1_1_v68, ops1_2_v86, ops1_3_v93,
    ops1_3_v95, ops2_0_v104, ops2_1_v109, ops2_2_v110, ops2_3_v114, ops2_4_v118, ops2_4_v121, ops2_5_v143,
    ops2_6_v144, ops3_0_v161, ops3_1_v179, ops3_2_v192, ops4_0_v197, ops4_1_v215, ops4_2_v220, ops4_3_v221,
    ops4_4_v225, ops4_5_v229, ops4_5_v232, ops4_6_v239, ops4_6_v241, ops5_0_v254, ops5_1_v272, ops5_2_v288,
    ops5_2_cst_68, ops6_0_v290, ops6_1_v308, ops6_2_v326, ops6_3_v331,
    ops0_0_skip, ops0_1_skip, ops0_2_skip, ops0_3_skip, ops1_0_skip, ops1_1_skip, ops1_2_skip, ops1_3_skip,
    ops2_0_skip, ops2_1_skip, ops2_2_skip, ops2_3_skip, ops2_4_skip, ops2_5_skip, ops2_6_skip, ops3_0_skip,
    ops3_1_skip, ops3_2_skip, ops4_0_skip, ops4_1_skip, ops4_2_skip, ops4_3_skip, ops4_4_skip, ops4_5_skip,
    ops4_6_skip, ops5_0_skip, ops5_1_skip, ops5_2_skip, ops6_0_skip, ops6_1_skip, ops6_2_skip, ops6_3_skip]
  rfl

/-- On every device, for any float values, from any memory with zero counters: every weakly fair execution of @main
    terminates with the result buffer at the network of the launched arguments, and the arguments as launched. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v331)
        = Stage.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨(h c main_v331).trans (result_eq _),
     (h c main_arg0).trans (keep_arg0 _),
     (h c main_arg1).trans (keep_arg1 _),
     (h c main_arg2).trans (keep_arg2 _),
     (h c main_arg3).trans (keep_arg3 _),
     (h c main_arg4).trans (keep_arg4 _),
     (h c main_arg5).trans (keep_arg5 _),
     (h c main_arg6).trans (keep_arg6 _),
     (h c main_arg7).trans (keep_arg7 _),
     (h c main_arg8).trans (keep_arg8 _),
     (h c main_arg9).trans (keep_arg9 _),
     (h c main_arg10).trans (keep_arg10 _),
     (h c main_arg11).trans (keep_arg11 _),
     (h c main_arg12).trans (keep_arg12 _),
     (h c main_arg13).trans (keep_arg13 _)⟩)
    (run_all m ρ)

end Cert.ReferenceIdeal.RefRun

end
-- ==== Proof.lean ====
/-
  The certificate of the graph-diffusion network: a Pallas kernel of twenty-one launches among host stretches of
  gather and scatter-add, against its plain jnp reference, equal as extended reals.

  The three frames: the two kernel programs' are the generated frame theorems (each launch's body run once per grid
  point, the launches and host stretches chained through @main); the reference is a straight line of host operations,
  run as one sequence, and no operation writes an argument.

  `preserves`: the idealization rewrote nothing, so there is nothing to state.

  `algebraic`: the kernel's result array, read through @main's segments (Proof/KRun, KKeep, KHost, KThread over the
  launches' closed forms Proof/Regions), and the reference's result, read stage by stage (Proof/Ref), are the same
  network of the argument arrays (Proof/Bridge): projections as sums of products plus a bias, diffusion updates
  pointwise, propagation as the same gather, scaling and scatter-add, the exponential linear unit equal entry by entry
  (Proof/EluLaw). The arguments agree by hypothesis; finiteness of the inputs is never used.
-/
import proofs.«149349_j76854144794846_1_alg».proof.Defs
import proofs.«149349_j76854144794846_1_alg».proof.Proof.Gen.Kernel
import proofs.«149349_j76854144794846_1_alg».proof.Proof.Gen.Kernel.Frame
import proofs.«149349_j76854144794846_1_alg».proof.Proof.Gen.KernelIdeal
import proofs.«149349_j76854144794846_1_alg».proof.Proof.Gen.KernelIdeal.Frame
import proofs.«149349_j76854144794846_1_alg».proof.Proof.Gen.ReferenceIdeal
import proofs.«149349_j76854144794846_1_alg».proof.Proof.Gen.Pre_finite_inputs
import proofs.«149349_j76854144794846_1_alg».proof.Proof.KRun
import proofs.«149349_j76854144794846_1_alg».proof.Proof.KThread
import proofs.«149349_j76854144794846_1_alg».proof.Proof.Bridge
import proofs.«149349_j76854144794846_1_alg».proof.Proof.Ref.Run
import proofs.«149349_j76854144794846_1_alg».proof.Proof.Ref.Result
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.RefRun.frame (F := Ideal) m ρ

theorem preserves : Cert.preserves_Kernel_KernelIdeal := trivial

/-- Both programs end with the network of the argument arrays in their result arrays, and the arguments agree. -/
theorem algebraic : Cert.algebraic_KernelIdeal_ReferenceIdeal := by
  intro m ρ m' ρ' _ hagree
  refine ⟨fun c => Cert.KernelIdeal.KNet.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.KRun.result_at39 m ρ c), (h c).2⟩)
      (Cert.KernelIdeal.KRun.run_result m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7, e8, e9, e10, e11, e12, e13⟩ := hagree c
    rw [e0, e1, e2, e3, e4, e5, e6, e7, e8, e9, e10, e11, e12, e13]
    exact Cert.ReferenceIdeal.Bridge.net_eq _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
